-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S64 .f32) (main_arg13 : FVec F S64 .f32) (main_arg14 : FVec F S64x64 .f32) (main_arg15 : FVec F S64 .f32) (main_arg16 : FVec F S64 .f32) (main_arg17 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x64 .f32) (main_arg1 : IVec S2x1250000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩
abbrev S5000x64 : Shape := ⟨2, ![5000, 64]⟩

abbrev nBuf : Space → Nat
  | .hbm => 106
  | .vmem => 60
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x1250000, .i32⟩
  | .hbm, ⟨19, _⟩ => ⟨S1250000, .i32⟩
  | .hbm, ⟨20, _⟩ => ⟨S1x1250000, .i32⟩
  | .hbm, ⟨21, _⟩ => ⟨S1250000, .i32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000x64, .f32⟩
  | .hbm, ⟨43, _⟩ => ⟨S_, .f32⟩
  | .hbm, ⟨44, _⟩ => ⟨S100000x64, .f32⟩
  | .hbm, ⟨45, _⟩ => ⟨S1250000x1, .i32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S100000x64, .f32⟩
  | .hbm, ⟨59, _⟩ => ⟨S1x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S_, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1250000, .i32⟩
  | .hbm, ⟨72, _⟩ => ⟨S1250000, .i1⟩
  | .hbm, ⟨73, _⟩ => ⟨S_, .i32⟩
  | .hbm, ⟨74, _⟩ => ⟨S1250000, .i32⟩
  | .hbm, ⟨75, _⟩ => ⟨S1250000, .i32⟩
  | .hbm, ⟨76, _⟩ => ⟨S1250000, .i32⟩
  | .hbm, ⟨77, _⟩ => ⟨S1250000x1, .i32⟩
  | .hbm, ⟨78, _⟩ => ⟨S1250000x64, .f32⟩
  | .hbm, ⟨79, _⟩ => ⟨S_, .f32⟩
  | .hbm, ⟨80, _⟩ => ⟨S100000x64, .f32⟩
  | .hbm, ⟨81, _⟩ => ⟨S1250000x1, .i32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S_, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S100000x64, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_cst_4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_5 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58_0 : Ref sig .tc := ⟨.hbm, 94, rfl⟩
abbrev main_v58_1 : Ref sig .tc := ⟨.hbm, 95, rfl⟩
abbrev main_v58_2 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_cst_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc4_stg8_0 : Ref sig .tc := ⟨.vmem, 50, rfl⟩
abbrev cc4_stg9_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc4_sem8_0 : DmaSem sig := 50
abbrev cc4_sem9_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S64_S1x64 : S64.ShapeCasts S1x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v33_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v33_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51_1) S1x64.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51_2) S1x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v51_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58_0) S5000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v58_1) S1x64.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v58_2) S1x64.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v58_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v14) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v15) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 195
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64, .f32⟩
  | 17 => ⟨S64, .f32⟩
  | 18 => ⟨S1x1250000, .i32⟩
  | 19 => ⟨S1250000, .i32⟩
  | 20 => ⟨S1x1250000, .i32⟩
  | 21 => ⟨S1250000, .i32⟩
  | 22 => ⟨S_, .i32⟩
  | 23 => ⟨S1250000, .i32⟩
  | 24 => ⟨S1250000, .i1⟩
  | 25 => ⟨S_, .i32⟩
  | 26 => ⟨S1250000, .i32⟩
  | 27 => ⟨S1250000, .i32⟩
  | 28 => ⟨S1250000, .i32⟩
  | 29 => ⟨S1250000x1, .i32⟩
  | 30 => ⟨S1250000x64, .f32⟩
  | 31 => ⟨S_, .f32⟩
  | 32 => ⟨S100000x64, .f32⟩
  | 33 => ⟨S1250000x1, .i32⟩
  | 34 => ⟨S100000x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S_, .i32⟩
  | 111 => ⟨S1250000, .i32⟩
  | 112 => ⟨S1250000, .i1⟩
  | 113 => ⟨S_, .i32⟩
  | 114 => ⟨S1250000, .i32⟩
  | 115 => ⟨S1250000, .i32⟩
  | 116 => ⟨S1250000, .i32⟩
  | 117 => ⟨S1250000x1, .i32⟩
  | 118 => ⟨S1250000x64, .f32⟩
  | 119 => ⟨S_, .f32⟩
  | 120 => ⟨S100000x64, .f32⟩
  | 121 => ⟨S1250000x1, .i32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S_, .f32⟩
  | 18 => ⟨S64, .f32⟩
  | 19 => ⟨S64, .f32⟩
  | 20 => ⟨S64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S_, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S100000x64, .f32⟩
  | 46 => ⟨S_, .f32⟩
  | 47 => ⟨S64, .f32⟩
  | 48 => ⟨S_, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S64, .f32⟩
  | 56 => ⟨S64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call1_cst : Ref sig .tc := ⟨.hbm, 107, rfl⟩
abbrev main_call1_v0 : Ref sig .tc := ⟨.hbm, 108, rfl⟩
abbrev main_v74 : Ref sig .tc := ⟨.hbm, 109, rfl⟩
abbrev main_c_11 : Ref sig .tc := ⟨.hbm, 110, rfl⟩
abbrev main_v75 : Ref sig .tc := ⟨.hbm, 111, rfl⟩
abbrev main_v76 : Ref sig .tc := ⟨.hbm, 112, rfl⟩
abbrev main_c_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_cst_17 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_18 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call2_cst : Ref sig .tc := ⟨.hbm, 158, rfl⟩
abbrev main_call2_v0 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_19 : Ref sig .tc := ⟨.hbm, 165, rfl⟩
abbrev main_v120 : Ref sig .tc := ⟨.hbm, 166, rfl⟩
abbrev main_cst_20 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_21 : Ref sig .tc := ⟨.hbm, 174, rfl⟩
abbrev main_v127 : Ref sig .tc := ⟨.hbm, 175, rfl⟩
abbrev main_cst_22 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_23 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run, with its result named.

  The frame theorem of the kernel program says that every weakly fair execution of the entry function on the TensorCores
  terminates without a fault and leaves the eighteen argument arrays as they were launched. Its proof establishes more on
  the way: in every final state EVERY unscoped buffer holds the contents the last segment boundary assigns to it (the
  valuation W12, a fold of the twelve segments from the launch memory). The statement below keeps one more buffer of that
  conclusion than the frame does: the result array main_v65 holds W12's value for it. What that value is, as a function of
  the launch memory, is then a matter of reading the fold, with no further reference to executions.
-/
import proofs.«129487_j15015205667099_1_alg».proof.Proof.Gen.KernelIdeal.Frame

set_option maxRecDepth 16384

noncomputable section

namespace Cert.KernelIdeal.RunNamed

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of the entry function on the
    TensorCores terminates, nothing faulting, and in every final state, on every device, the result array main_v65 holds
    the last boundary's contents W12 for it, and each of the eighteen argument arrays is as launched. The run is the
    launch over the twelve segments; the final thread state — every unscoped buffer at W12 — is read against the final
    memory, the result buffer directly and each argument through the fold back to the launch memory. -/
theorem run : θ_run defs (onTc (τ := τ) (main (F := F))) ⟨m, fun _ => 0, ρ⟩ (fun r => ∀ c : Dev nD,
      r.2.mem ((c.tc : Thread nD τ).loc main_v65) = W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v65 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.RunNamed

end
-- ==== Proof.GinSpec.lean ====
/-
  The two-layer graph network, index by index, on the extended reals.

  One layer takes node features X : 100000 × 64, adds to each node the sum of its in-neighbours' features (ag X), applies an
  affine map (X · W + b), normalises every column over all 100000 nodes (subtract the column mean, multiply by the reciprocal
  square root of the column variance plus ε, scale by g, shift by β), clamps at zero, applies a second affine map and
  normalises again. The column variance is a parameter: the one-pass form  (Σ z²)/N − ((Σ z)/N)²  and the two-pass form
  (Σ (z − (Σ z)/N)²)/N  agree on finite values, and the network built on either is the same function of finite inputs.
  N is the float word of 100000, ε the float word 0x3727C5AC, 0 the float word 0x00000000, all read as extended reals.
-/
import Idealize.ShloMosaic.PureOps.Ideal
import Idealize.ShloMosaic.Lib.ValueIdx

noncomputable section

namespace Cert.GinSpec

open Idealize.ShloMosaic Idealize.ShloMosaic.ValueIdx
open scoped BigOperators

/-- Node features: 100000 rows of 64 columns. -/
abbrev SN : Shape := ⟨2, ![100000, 64]⟩
/-- A weight matrix. -/
abbrev SW : Shape := ⟨2, ![64, 64]⟩
/-- A row of 64 columns. -/
abbrev SR : Shape := ⟨2, ![1, 64]⟩
/-- A vector of 64 entries. -/
abbrev SV : Shape := ⟨1, ![64]⟩

/-- The node count as a float word, read at the ideal instance. -/
def NW : EReal := Ideal.ofBits .f32 0x47C35000#32
/-- The variance offset ε as a float word, read at the ideal instance. -/
def EPS : EReal := Ideal.ofBits .f32 0x3727C5AC#32
/-- The float zero word, read at the ideal instance. -/
def ZW : EReal := Ideal.ofBits .f32 0x00000000#32

/-- The column of an index of a 100000 × 64 array. -/
abbrev colOf (i : SN.Idx) : Fin 64 := ⟨(i 1).val, idx2_lt1 i⟩
/-- The row of an index of a 100000 × 64 array. -/
abbrev rowOf (i : SN.Idx) : Fin 100000 := ⟨(i 0).val, idx2_lt0 i⟩

/-- A 1 × 64 row as a function of the column. -/
def ofRow (b : SR.Idx → EReal) : Fin 64 → EReal := fun j => b (ix2 (0 : Fin 1) j)
/-- A 64-vector as a function of the column. -/
def ofVec (b : SV.Idx → EReal) : Fin 64 → EReal := fun j => b (ix1 j)

/-- The affine map: (X · W)(r, j) + b(j). -/
def lin (X : SN.Idx → EReal) (W : SW.Idx → EReal) (b : Fin 64 → EReal) : SN.Idx → EReal :=
  fun i => (∑ k : Fin 64, X (ix2 (rowOf i) k) * W (ix2 k (colOf i))) + b (colOf i)

theorem lin_apply (X : SN.Idx → EReal) (W : SW.Idx → EReal) (b : Fin 64 → EReal) (r : Fin 100000) (j : Fin 64) :
    lin X W b (ix2 r j) = (∑ k : Fin 64, X (ix2 r k) * W (ix2 k j)) + b j := rfl

/-- Column sums. -/
def colSum (Z : SN.Idx → EReal) : Fin 64 → EReal := fun j => ∑ r : Fin 100000, Z (ix2 r j)
/-- Column sums of squares. -/
def colSumSq (Z : SN.Idx → EReal) : Fin 64 → EReal := fun j => ∑ r : Fin 100000, Z (ix2 r j) * Z (ix2 r j)
/-- Column means. -/
def mean (Z : SN.Idx → EReal) : Fin 64 → EReal := fun j => Ideal.div (colSum Z j) NW
/-- Column variances, one pass: the mean of the squares less the square of the mean. -/
def var1 (Z : SN.Idx → EReal) : Fin 64 → EReal := fun j => Ideal.div (colSumSq Z j) NW - mean Z j * mean Z j
/-- Column variances, two passes: the mean of the squared deviations from the mean. -/
def var2 (Z : SN.Idx → EReal) : Fin 64 → EReal :=
  fun j => Ideal.div (∑ r : Fin 100000, (Z (ix2 r j) - mean Z j) * (Z (ix2 r j) - mean Z j)) NW

/-- Normalisation with given column statistics: (z − μ) · rsqrt(v + ε) · g + β. -/
def bn (Z : SN.Idx → EReal) (μ v g be : Fin 64 → EReal) : SN.Idx → EReal :=
  fun i => (Z i - μ (colOf i)) * Ideal.rsqrt (v (colOf i) + EPS) * g (colOf i) + be (colOf i)

theorem bn_apply (Z : SN.Idx → EReal) (μ v g be : Fin 64 → EReal) (r : Fin 100000) (j : Fin 64) :
    bn Z μ v g be (ix2 r j) = (Z (ix2 r j) - μ j) * Ideal.rsqrt (v j + EPS) * g j + be j := rfl

/-- Clamping at zero. -/
def relu (Z : SN.Idx → EReal) : SN.Idx → EReal := fun i => max (Z i) ZW

/-- Adding the aggregated neighbours. -/
def addAgg (ag : (SN.Idx → EReal) → SN.Idx → EReal) (X : SN.Idx → EReal) : SN.Idx → EReal := fun i => X i + ag X i

/-- Normalisation of Z by its own column statistics, the variance computed by vf. -/
def bnSelf (vf : (SN.Idx → EReal) → Fin 64 → EReal) (Z : SN.Idx → EReal) (g be : Fin 64 → EReal) : SN.Idx → EReal :=
  bn Z (mean Z) (vf Z) g be

/-- One layer before its last clamp: aggregate, affine, normalise, clamp, affine, normalise. -/
def layer (vf : (SN.Idx → EReal) → Fin 64 → EReal) (ag : (SN.Idx → EReal) → SN.Idx → EReal) (X : SN.Idx → EReal)
    (Wa : SW.Idx → EReal) (ba ga bea : Fin 64 → EReal) (Wb : SW.Idx → EReal) (bb gb beb : Fin 64 → EReal) : SN.Idx → EReal :=
  bnSelf vf (lin (relu (bnSelf vf (lin (addAgg ag X) Wa ba) ga bea)) Wb bb) gb beb

/-- The network: a layer, a clamp, a layer. -/
def net (vf : (SN.Idx → EReal) → Fin 64 → EReal) (ag : (SN.Idx → EReal) → SN.Idx → EReal) (X : SN.Idx → EReal)
    (W1a : SW.Idx → EReal) (b1a g1a be1a : Fin 64 → EReal) (W1b : SW.Idx → EReal) (b1b g1b be1b : Fin 64 → EReal)
    (W2a : SW.Idx → EReal) (b2a g2a be2a : Fin 64 → EReal) (W2b : SW.Idx → EReal) (b2b g2b be2b : Fin 64 → EReal) : SN.Idx → EReal :=
  layer vf ag (relu (layer vf ag X W1a b1a g1a be1a W1b b1b g1b be1b)) W2a b2a g2a be2a W2b b2b g2b be2b

end Cert.GinSpec

end
-- ==== Proof.Agg.lean ====
/-
  The neighbour aggregation: for node features X : 100000 × 64 and an edge list e : 2 × 1250000 of 32-bit words, the array whose
  row i is the sum, over the edges whose second word read signed is i, of the row of X named by the edge's first word (a negative
  word raised by 100000, then clamped into the rows). It is the reference program's own composite of slices, comparisons, a row
  lookup and an accumulating row scatter into zeros, taken as one function of X and e.
-/
import proofs.«129487_j15015205667099_1_alg».proof.Proof.RefReadP
import proofs.«129487_j15015205667099_1_alg».proof.Proof.GinSpec

noncomputable section

namespace Cert.Proof.Agg

open Idealize.ShloMosaic Cert.GinSpec

/-- The aggregated neighbours of X along the edges e. -/
def aggR (e : (⟨Cert.ReferenceIdeal.S2x1250000, .i32⟩ : BufTy).Contents (Elt Ideal)) (X : SN.Idx → EReal) : SN.Idx → EReal :=
  Cert.ReferenceIdeal.Read.val_main_v13 (F := Ideal) X e

end Cert.Proof.Agg

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.RefValue.lean ====
/-
  The reference program computes the two-layer graph network of the specification.

  The reference is a line of host operations. Each one writes a stage, a function of the program's arguments. Here every stage
  that matters is identified, index by index, with a term of the specification over the EARLIER stages: the affine stages
  (a contraction over the 64 input columns plus a bias row), the normalisation stages (the column mean is the zero-initialised
  sum over the 100000 rows divided by the node count; the column variance is the mean of the squared deviations from that mean;
  the result is (z − mean) · rsqrt(variance + ε) · g + β), the clamps at zero, and the two additions of the aggregated
  neighbours. The aggregation itself stays one opaque function of the features and the edge list: the second layer's composite
  of slices, comparisons, row lookup and accumulating row scatter is the first layer's composite applied to other features.
  Chaining the stage equations gives the whole result as the specification's network with the two-pass variance.
-/
import proofs.«129487_j15015205667099_1_alg».proof.Proof.RefReadP
import proofs.«129487_j15015205667099_1_alg».proof.Proof.GinSpec
import proofs.«129487_j15015205667099_1_alg».proof.Proof.Agg
import proofs.«129487_j15015205667099_1_alg».proof.Proof.LibBatchNorm

noncomputable section

namespace Cert.Proof.RefSide

open Idealize.ShloMosaic Idealize.ShloMosaic.ValueIdx Cert.ReferenceIdeal.Read Cert.GinSpec Cert.Proof.Agg
open scoped BigOperators

/-! ## Layer 1 -/

/-- Stage 14 adds to the input features their aggregated neighbours. -/
theorem agg_v14 (x0 : SN.Idx → EReal) (e : (⟨Cert.ReferenceIdeal.S2x1250000, .i32⟩ : BufTy).Contents (Elt Ideal)) :
    val_main_v14 (F := Ideal) x0 e = addAgg (aggR e) x0 := rfl

/-- Stage 18 is the first affine map of layer 1, applied to stage 14. -/
theorem lin_v18 (x0 : SN.Idx → EReal) (e : (⟨Cert.ReferenceIdeal.S2x1250000, .i32⟩ : BufTy).Contents (Elt Ideal)) (x2 : SW.Idx → EReal) (x3 : SV.Idx → EReal) :
    val_main_v18 (F := Ideal) x0 e x2 x3 = lin (val_main_v14 (F := Ideal) x0 e) x2 (ofVec x3) := by
  funext i
  obtain ⟨r, j, rfl⟩ : ∃ (r : Fin 100000) (j : Fin 64), i = ix2 r j := ⟨i 0, i 1, eq_ix2 i⟩
  rw [val_main_v18_apply, val_main_v15_apply, val_main_v17_apply, val_main_v16_apply, lin_apply]
  have hl : ∀ k : Fin 64, lidx_main_v15 (ix2 r j) k = ix2 r k := fun k => funext fun a => Fin.ext (by match a with | ⟨0, _⟩ => rfl | ⟨1, _⟩ => rfl)
  have hr : ∀ k : Fin 64, ridx_main_v15 (ix2 r j) k = ix2 k j := fun k => funext fun a => Fin.ext (by match a with | ⟨0, _⟩ => rfl | ⟨1, _⟩ => rfl)
  have hb : idx_main_v16 (idx_main_v17 (ix2 r j)) = ix1 j := funext fun a => Fin.ext (by match a with | ⟨0, _⟩ => rfl)
  simp only [hl, hr, hb, Ideal.addf_def]
  rfl

/-- The column mean of stage 18: the zero-initialised sum of a column over the 100000 rows, divided by the node-count word. -/
theorem mean_v21 (x0 : SN.Idx → EReal) (e : (⟨Cert.ReferenceIdeal.S2x1250000, .i32⟩ : BufTy).Contents (Elt Ideal)) (x2 : SW.Idx → EReal) (x3 : SV.Idx → EReal) (j : Fin 64) :
    val_main_v21 (F := Ideal) x0 e x2 x3 (ix1 j) = mean (val_main_v18 (F := Ideal) x0 e x2 x3) j := by
  rw [val_main_v21_apply, val_main_v19_apply, val_main_v20_apply, val_main_cst_2_apply, val_main_cst_1_apply]
  have hk : ∀ k : Fin 100000, idx_main_v19 (ix1 j) k = ix2 k j := fun k => funext fun a => Fin.ext (by match a with | ⟨0, _⟩ => rfl | ⟨1, _⟩ => rfl)
  simp only [hk, Ideal.hostDivf_def, Ideal.ofBits_def, Cert.LibBatchNorm.ofBits_f32_zero, zero_add]
  rfl

/-- The column variance of stage 18, two passes: the mean of the squared deviations from the column mean. -/
theorem var_v28 (x0 : SN.Idx → EReal) (e : (⟨Cert.ReferenceIdeal.S2x1250000, .i32⟩ : BufTy).Contents (Elt Ideal)) (x2 : SW.Idx → EReal) (x3 : SV.Idx → EReal) (j : Fin 64) :
    val_main_v28 (F := Ideal) x0 e x2 x3 (ix1 j) = var2 (val_main_v18 (F := Ideal) x0 e x2 x3) j := by
  rw [val_main_v28_apply, val_main_v26_apply, val_main_v27_apply, val_main_cst_4_apply, val_main_cst_3_apply]
  have hk : ∀ k : Fin 100000, idx_main_v26 (ix1 j) k = ix2 k j := fun k => funext fun a => Fin.ext (by match a with | ⟨0, _⟩ => rfl | ⟨1, _⟩ => rfl)
  have hj : ∀ k : Fin 100000, idx_main_v22 (idx_main_v23 (ix2 k j)) = ix1 j := fun k => funext fun a => Fin.ext (by match a with | ⟨0, _⟩ => rfl)
  simp only [hk, val_main_v25_apply, val_main_v24_apply, val_main_v23_apply, val_main_v22_apply, hj, mean_v21,
    Ideal.hostDivf_def, Ideal.ofBits_def, Cert.LibBatchNorm.ofBits_f32_zero, zero_add]
  rfl

/-- Stage 43 is stage 18 normalised by its own column mean and two-pass variance, scaled and shifted. -/
theorem bn_v43 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) :
    val_main_v43 (F := Ideal) x0 e x2 x3 x4 x5 = bnSelf var2 (val_main_v18 (F := Ideal) x0 e x2 x3) (ofVec x4) (ofVec x5) := by
  funext i
  obtain ⟨r, j, rfl⟩ : ∃ (r : Fin 100000) (j : Fin 64), i = ix2 r j := ⟨i 0, i 1, eq_ix2 i⟩
  rw [val_main_v43_apply, val_main_v40_apply, val_main_v37_apply, val_main_v31_apply, val_main_v30_apply, val_main_v29_apply, val_main_v36_apply, val_main_v35_apply,
    val_main_v34_apply, val_main_v33_apply, val_main_v32_apply, val_main_cst_5_apply, val_main_v39_apply, val_main_v38_apply, val_main_v42_apply, val_main_v41_apply]
  have h1 : idx_main_v29 (idx_main_v30 (ix2 r j)) = ix1 j := funext fun a => Fin.ext (by match a with | ⟨0, _⟩ => rfl)
  have h2 : idx_main_v35 (idx_main_v36 (ix2 r j)) = ix1 j := funext fun a => Fin.ext (by match a with | ⟨0, _⟩ => rfl)
  have h3 : idx_main_v38 (idx_main_v39 (ix2 r j)) = ix1 j := funext fun a => Fin.ext (by match a with | ⟨0, _⟩ => rfl)
  have h4 : idx_main_v41 (idx_main_v42 (ix2 r j)) = ix1 j := funext fun a => Fin.ext (by match a with | ⟨0, _⟩ => rfl)
  rw [h1, h2, h3, h4, mean_v21, var_v28]
  rfl

/-- Stage 44 clamps stage 43 at zero. -/
theorem relu_v44 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) :
    val_main_v44 (F := Ideal) x0 e x2 x3 x4 x5 = relu (val_main_v43 (F := Ideal) x0 e x2 x3 x4 x5) := by
  funext i
  rw [val_main_v44_apply, val_main_call0_v0_apply, val_main_call0_cst_apply]
  rfl

/-- Stage 48 is the second affine map of layer 1, applied to stage 44. -/
theorem lin_v48 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) :
    val_main_v48 (F := Ideal) x0 e x2 x3 x4 x5 x6 x7 = lin (val_main_v44 (F := Ideal) x0 e x2 x3 x4 x5) x6 (ofVec x7) := by
  funext i
  obtain ⟨r, j, rfl⟩ : ∃ (r : Fin 100000) (j : Fin 64), i = ix2 r j := ⟨i 0, i 1, eq_ix2 i⟩
  rw [val_main_v48_apply, val_main_v45_apply, val_main_v47_apply, val_main_v46_apply, lin_apply]
  have hl : ∀ k : Fin 64, lidx_main_v45 (ix2 r j) k = ix2 r k := fun k => funext fun a => Fin.ext (by match a with | ⟨0, _⟩ => rfl | ⟨1, _⟩ => rfl)
  have hr : ∀ k : Fin 64, ridx_main_v45 (ix2 r j) k = ix2 k j := fun k => funext fun a => Fin.ext (by match a with | ⟨0, _⟩ => rfl | ⟨1, _⟩ => rfl)
  have hb : idx_main_v46 (idx_main_v47 (ix2 r j)) = ix1 j := funext fun a => Fin.ext (by match a with | ⟨0, _⟩ => rfl)
  simp only [hl, hr, hb, Ideal.addf_def]
  rfl

/-- The column mean of stage 48: the zero-initialised sum of a column over the 100000 rows, divided by the node-count word. -/
theorem mean_v51 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (j : Fin 64) :
    val_main_v51 (F := Ideal) x0 e x2 x3 x4 x5 x6 x7 (ix1 j) = mean (val_main_v48 (F := Ideal) x0 e x2 x3 x4 x5 x6 x7) j := by
  rw [val_main_v51_apply, val_main_v49_apply, val_main_v50_apply, val_main_cst_7_apply, val_main_cst_6_apply]
  have hk : ∀ k : Fin 100000, idx_main_v49 (ix1 j) k = ix2 k j := fun k => funext fun a => Fin.ext (by match a with | ⟨0, _⟩ => rfl | ⟨1, _⟩ => rfl)
  simp only [hk, Ideal.hostDivf_def, Ideal.ofBits_def, Cert.LibBatchNorm.ofBits_f32_zero, zero_add]
  rfl

/-- The column variance of stage 48, two passes: the mean of the squared deviations from the column mean. -/
theorem var_v58 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (j : Fin 64) :
    val_main_v58 (F := Ideal) x0 e x2 x3 x4 x5 x6 x7 (ix1 j) = var2 (val_main_v48 (F := Ideal) x0 e x2 x3 x4 x5 x6 x7) j := by
  rw [val_main_v58_apply, val_main_v56_apply, val_main_v57_apply, val_main_cst_9_apply, val_main_cst_8_apply]
  have hk : ∀ k : Fin 100000, idx_main_v56 (ix1 j) k = ix2 k j := fun k => funext fun a => Fin.ext (by match a with | ⟨0, _⟩ => rfl | ⟨1, _⟩ => rfl)
  have hj : ∀ k : Fin 100000, idx_main_v52 (idx_main_v53 (ix2 k j)) = ix1 j := fun k => funext fun a => Fin.ext (by match a with | ⟨0, _⟩ => rfl)
  simp only [hk, val_main_v55_apply, val_main_v54_apply, val_main_v53_apply, val_main_v52_apply, hj, mean_v51,
    Ideal.hostDivf_def, Ideal.ofBits_def, Cert.LibBatchNorm.ofBits_f32_zero, zero_add]
  rfl

/-- Stage 73 is stage 48 normalised by its own column mean and two-pass variance, scaled and shifted. -/
theorem bn_v73 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) :
    val_main_v73 (F := Ideal) x0 e x2 x3 x4 x5 x6 x7 x8 x9 = bnSelf var2 (val_main_v48 (F := Ideal) x0 e x2 x3 x4 x5 x6 x7) (ofVec x8) (ofVec x9) := by
  funext i
  obtain ⟨r, j, rfl⟩ : ∃ (r : Fin 100000) (j : Fin 64), i = ix2 r j := ⟨i 0, i 1, eq_ix2 i⟩
  rw [val_main_v73_apply, val_main_v70_apply, val_main_v67_apply, val_main_v61_apply, val_main_v60_apply, val_main_v59_apply, val_main_v66_apply, val_main_v65_apply,
    val_main_v64_apply, val_main_v63_apply, val_main_v62_apply, val_main_cst_10_apply, val_main_v69_apply, val_main_v68_apply, val_main_v72_apply, val_main_v71_apply]
  have h1 : idx_main_v59 (idx_main_v60 (ix2 r j)) = ix1 j := funext fun a => Fin.ext (by match a with | ⟨0, _⟩ => rfl)
  have h2 : idx_main_v65 (idx_main_v66 (ix2 r j)) = ix1 j := funext fun a => Fin.ext (by match a with | ⟨0, _⟩ => rfl)
  have h3 : idx_main_v68 (idx_main_v69 (ix2 r j)) = ix1 j := funext fun a => Fin.ext (by match a with | ⟨0, _⟩ => rfl)
  have h4 : idx_main_v71 (idx_main_v72 (ix2 r j)) = ix1 j := funext fun a => Fin.ext (by match a with | ⟨0, _⟩ => rfl)
  rw [h1, h2, h3, h4, mean_v51, var_v58]
  rfl

/-- Stage 74, the clamp between the layers, clamps stage 73 at zero. -/
theorem relu_v74 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) :
    val_main_v74 (F := Ideal) x0 e x2 x3 x4 x5 x6 x7 x8 x9 = relu (val_main_v73 (F := Ideal) x0 e x2 x3 x4 x5 x6 x7 x8 x9) := by
  funext i
  rw [val_main_v74_apply, val_main_call1_v0_apply, val_main_call1_cst_apply]
  rfl

/-! ## Layer 2 -/

/-- The second layer's aggregation is the first layer's, applied to stage 74: the same slices of the edge list, the same
    comparisons and selections on the edge words, the same row lookup and the same accumulating row scatter into zeros. -/
theorem agg_v84 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) :
    val_main_v84 (F := Ideal) x0 e x2 x3 x4 x5 x6 x7 x8 x9 = aggR e (val_main_v74 (F := Ideal) x0 e x2 x3 x4 x5 x6 x7 x8 x9) := rfl

/-- Stage 85 adds to stage 74 its aggregated neighbours. -/
theorem agg_v85 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) :
    val_main_v85 (F := Ideal) x0 e x2 x3 x4 x5 x6 x7 x8 x9 = addAgg (aggR e) (val_main_v74 (F := Ideal) x0 e x2 x3 x4 x5 x6 x7 x8 x9) := by
  funext i
  rw [val_main_v85_apply, agg_v84]
  rfl

/-- Stage 89 is the first affine map of layer 2, applied to stage 85. -/
theorem lin_v89 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) :
    val_main_v89 (F := Ideal) x0 e x2 x3 x4 x5 x6 x7 x8 x9 x10 x11 = lin (val_main_v85 (F := Ideal) x0 e x2 x3 x4 x5 x6 x7 x8 x9) x10 (ofVec x11) := by
  funext i
  obtain ⟨r, j, rfl⟩ : ∃ (r : Fin 100000) (j : Fin 64), i = ix2 r j := ⟨i 0, i 1, eq_ix2 i⟩
  rw [val_main_v89_apply, val_main_v86_apply, val_main_v88_apply, val_main_v87_apply, lin_apply]
  have hl : ∀ k : Fin 64, lidx_main_v86 (ix2 r j) k = ix2 r k := fun k => funext fun a => Fin.ext (by match a with | ⟨0, _⟩ => rfl | ⟨1, _⟩ => rfl)
  have hr : ∀ k : Fin 64, ridx_main_v86 (ix2 r j) k = ix2 k j := fun k => funext fun a => Fin.ext (by match a with | ⟨0, _⟩ => rfl | ⟨1, _⟩ => rfl)
  have hb : idx_main_v87 (idx_main_v88 (ix2 r j)) = ix1 j := funext fun a => Fin.ext (by match a with | ⟨0, _⟩ => rfl)
  simp only [hl, hr, hb, Ideal.addf_def]
  rfl

/-- The column mean of stage 89: the zero-initialised sum of a column over the 100000 rows, divided by the node-count word. -/
theorem mean_v92 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (j : Fin 64) :
    val_main_v92 (F := Ideal) x0 e x2 x3 x4 x5 x6 x7 x8 x9 x10 x11 (ix1 j) = mean (val_main_v89 (F := Ideal) x0 e x2 x3 x4 x5 x6 x7 x8 x9 x10 x11) j := by
  rw [val_main_v92_apply, val_main_v90_apply, val_main_v91_apply, val_main_cst_15_apply, val_main_cst_14_apply]
  have hk : ∀ k : Fin 100000, idx_main_v90 (ix1 j) k = ix2 k j := fun k => funext fun a => Fin.ext (by match a with | ⟨0, _⟩ => rfl | ⟨1, _⟩ => rfl)
  simp only [hk, Ideal.hostDivf_def, Ideal.ofBits_def, Cert.LibBatchNorm.ofBits_f32_zero, zero_add]
  rfl

/-- The column variance of stage 89, two passes: the mean of the squared deviations from the column mean. -/
theorem var_v99 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (j : Fin 64) :
    val_main_v99 (F := Ideal) x0 e x2 x3 x4 x5 x6 x7 x8 x9 x10 x11 (ix1 j) = var2 (val_main_v89 (F := Ideal) x0 e x2 x3 x4 x5 x6 x7 x8 x9 x10 x11) j := by
  rw [val_main_v99_apply, val_main_v97_apply, val_main_v98_apply, val_main_cst_17_apply, val_main_cst_16_apply]
  have hk : ∀ k : Fin 100000, idx_main_v97 (ix1 j) k = ix2 k j := fun k => funext fun a => Fin.ext (by match a with | ⟨0, _⟩ => rfl | ⟨1, _⟩ => rfl)
  have hj : ∀ k : Fin 100000, idx_main_v93 (idx_main_v94 (ix2 k j)) = ix1 j := fun k => funext fun a => Fin.ext (by match a with | ⟨0, _⟩ => rfl)
  simp only [hk, val_main_v96_apply, val_main_v95_apply, val_main_v94_apply, val_main_v93_apply, hj, mean_v92,
    Ideal.hostDivf_def, Ideal.ofBits_def, Cert.LibBatchNorm.ofBits_f32_zero, zero_add]
  rfl

/-- Stage 114 is stage 89 normalised by its own column mean and two-pass variance, scaled and shifted. -/
theorem bn_v114 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) :
    val_main_v114 (F := Ideal) x0 e x2 x3 x4 x5 x6 x7 x8 x9 x10 x11 x12 x13 = bnSelf var2 (val_main_v89 (F := Ideal) x0 e x2 x3 x4 x5 x6 x7 x8 x9 x10 x11) (ofVec x12) (ofVec x13) := by
  funext i
  obtain ⟨r, j, rfl⟩ : ∃ (r : Fin 100000) (j : Fin 64), i = ix2 r j := ⟨i 0, i 1, eq_ix2 i⟩
  rw [val_main_v114_apply, val_main_v111_apply, val_main_v108_apply, val_main_v102_apply, val_main_v101_apply, val_main_v100_apply, val_main_v107_apply, val_main_v106_apply,
    val_main_v105_apply, val_main_v104_apply, val_main_v103_apply, val_main_cst_18_apply, val_main_v110_apply, val_main_v109_apply, val_main_v113_apply, val_main_v112_apply]
  have h1 : idx_main_v100 (idx_main_v101 (ix2 r j)) = ix1 j := funext fun a => Fin.ext (by match a with | ⟨0, _⟩ => rfl)
  have h2 : idx_main_v106 (idx_main_v107 (ix2 r j)) = ix1 j := funext fun a => Fin.ext (by match a with | ⟨0, _⟩ => rfl)
  have h3 : idx_main_v109 (idx_main_v110 (ix2 r j)) = ix1 j := funext fun a => Fin.ext (by match a with | ⟨0, _⟩ => rfl)
  have h4 : idx_main_v112 (idx_main_v113 (ix2 r j)) = ix1 j := funext fun a => Fin.ext (by match a with | ⟨0, _⟩ => rfl)
  rw [h1, h2, h3, h4, mean_v92, var_v99]
  rfl

/-- Stage 115 clamps stage 114 at zero. -/
theorem relu_v115 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) :
    val_main_v115 (F := Ideal) x0 e x2 x3 x4 x5 x6 x7 x8 x9 x10 x11 x12 x13 = relu (val_main_v114 (F := Ideal) x0 e x2 x3 x4 x5 x6 x7 x8 x9 x10 x11 x12 x13) := by
  funext i
  rw [val_main_v115_apply, val_main_call2_v0_apply, val_main_call2_cst_apply]
  rfl

/-- Stage 119 is the second affine map of layer 2, applied to stage 115. -/
theorem lin_v119 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) (x14 : SW.Idx → EReal) (x15 : SV.Idx → EReal) :
    val_main_v119 (F := Ideal) x0 e x2 x3 x4 x5 x6 x7 x8 x9 x10 x11 x12 x13 x14 x15 = lin (val_main_v115 (F := Ideal) x0 e x2 x3 x4 x5 x6 x7 x8 x9 x10 x11 x12 x13) x14 (ofVec x15) := by
  funext i
  obtain ⟨r, j, rfl⟩ : ∃ (r : Fin 100000) (j : Fin 64), i = ix2 r j := ⟨i 0, i 1, eq_ix2 i⟩
  rw [val_main_v119_apply, val_main_v116_apply, val_main_v118_apply, val_main_v117_apply, lin_apply]
  have hl : ∀ k : Fin 64, lidx_main_v116 (ix2 r j) k = ix2 r k := fun k => funext fun a => Fin.ext (by match a with | ⟨0, _⟩ => rfl | ⟨1, _⟩ => rfl)
  have hr : ∀ k : Fin 64, ridx_main_v116 (ix2 r j) k = ix2 k j := fun k => funext fun a => Fin.ext (by match a with | ⟨0, _⟩ => rfl | ⟨1, _⟩ => rfl)
  have hb : idx_main_v117 (idx_main_v118 (ix2 r j)) = ix1 j := funext fun a => Fin.ext (by match a with | ⟨0, _⟩ => rfl)
  simp only [hl, hr, hb, Ideal.addf_def]
  rfl

/-- The column mean of stage 119: the zero-initialised sum of a column over the 100000 rows, divided by the node-count word. -/
theorem mean_v122 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) (x14 : SW.Idx → EReal) (x15 : SV.Idx → EReal) (j : Fin 64) :
    val_main_v122 (F := Ideal) x0 e x2 x3 x4 x5 x6 x7 x8 x9 x10 x11 x12 x13 x14 x15 (ix1 j) = mean (val_main_v119 (F := Ideal) x0 e x2 x3 x4 x5 x6 x7 x8 x9 x10 x11 x12 x13 x14 x15) j := by
  rw [val_main_v122_apply, val_main_v120_apply, val_main_v121_apply, val_main_cst_20_apply, val_main_cst_19_apply]
  have hk : ∀ k : Fin 100000, idx_main_v120 (ix1 j) k = ix2 k j := fun k => funext fun a => Fin.ext (by match a with | ⟨0, _⟩ => rfl | ⟨1, _⟩ => rfl)
  simp only [hk, Ideal.hostDivf_def, Ideal.ofBits_def, Cert.LibBatchNorm.ofBits_f32_zero, zero_add]
  rfl

/-- The column variance of stage 119, two passes: the mean of the squared deviations from the column mean. -/
theorem var_v129 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) (x14 : SW.Idx → EReal) (x15 : SV.Idx → EReal) (j : Fin 64) :
    val_main_v129 (F := Ideal) x0 e x2 x3 x4 x5 x6 x7 x8 x9 x10 x11 x12 x13 x14 x15 (ix1 j) = var2 (val_main_v119 (F := Ideal) x0 e x2 x3 x4 x5 x6 x7 x8 x9 x10 x11 x12 x13 x14 x15) j := by
  rw [val_main_v129_apply, val_main_v127_apply, val_main_v128_apply, val_main_cst_22_apply, val_main_cst_21_apply]
  have hk : ∀ k : Fin 100000, idx_main_v127 (ix1 j) k = ix2 k j := fun k => funext fun a => Fin.ext (by match a with | ⟨0, _⟩ => rfl | ⟨1, _⟩ => rfl)
  have hj : ∀ k : Fin 100000, idx_main_v123 (idx_main_v124 (ix2 k j)) = ix1 j := fun k => funext fun a => Fin.ext (by match a with | ⟨0, _⟩ => rfl)
  simp only [hk, val_main_v126_apply, val_main_v125_apply, val_main_v124_apply, val_main_v123_apply, hj, mean_v122,
    Ideal.hostDivf_def, Ideal.ofBits_def, Cert.LibBatchNorm.ofBits_f32_zero, zero_add]
  rfl

/-- Stage 144 is stage 119 normalised by its own column mean and two-pass variance, scaled and shifted. -/
theorem bn_v144 (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) (x14 : SW.Idx → EReal) (x15 : SV.Idx → EReal) (x16 : SV.Idx → EReal) (x17 : SV.Idx → EReal) :
    val_main_v144 (F := Ideal) x0 e x2 x3 x4 x5 x6 x7 x8 x9 x10 x11 x12 x13 x14 x15 x16 x17 = bnSelf var2 (val_main_v119 (F := Ideal) x0 e x2 x3 x4 x5 x6 x7 x8 x9 x10 x11 x12 x13 x14 x15) (ofVec x16) (ofVec x17) := by
  funext i
  obtain ⟨r, j, rfl⟩ : ∃ (r : Fin 100000) (j : Fin 64), i = ix2 r j := ⟨i 0, i 1, eq_ix2 i⟩
  rw [val_main_v144_apply, val_main_v141_apply, val_main_v138_apply, val_main_v132_apply, val_main_v131_apply, val_main_v130_apply, val_main_v137_apply, val_main_v136_apply,
    val_main_v135_apply, val_main_v134_apply, val_main_v133_apply, val_main_cst_23_apply, val_main_v140_apply, val_main_v139_apply, val_main_v143_apply, val_main_v142_apply]
  have h1 : idx_main_v130 (idx_main_v131 (ix2 r j)) = ix1 j := funext fun a => Fin.ext (by match a with | ⟨0, _⟩ => rfl)
  have h2 : idx_main_v136 (idx_main_v137 (ix2 r j)) = ix1 j := funext fun a => Fin.ext (by match a with | ⟨0, _⟩ => rfl)
  have h3 : idx_main_v139 (idx_main_v140 (ix2 r j)) = ix1 j := funext fun a => Fin.ext (by match a with | ⟨0, _⟩ => rfl)
  have h4 : idx_main_v142 (idx_main_v143 (ix2 r j)) = ix1 j := funext fun a => Fin.ext (by match a with | ⟨0, _⟩ => rfl)
  rw [h1, h2, h3, h4, mean_v122, var_v129]
  rfl

/-! ## The whole network -/

/-- The reference's result is the specification's network, with the two-pass variance and the reference's own aggregation. -/
theorem result_eq (x0 : SN.Idx → EReal) (e : (⟨Cert.ReferenceIdeal.S2x1250000, .i32⟩ : BufTy).Contents (Elt Ideal)) (x2 : SW.Idx → EReal) (x3 : SV.Idx → EReal) (x4 : SV.Idx → EReal) (x5 : SV.Idx → EReal) (x6 : SW.Idx → EReal) (x7 : SV.Idx → EReal) (x8 : SV.Idx → EReal) (x9 : SV.Idx → EReal) (x10 : SW.Idx → EReal) (x11 : SV.Idx → EReal) (x12 : SV.Idx → EReal) (x13 : SV.Idx → EReal) (x14 : SW.Idx → EReal) (x15 : SV.Idx → EReal) (x16 : SV.Idx → EReal) (x17 : SV.Idx → EReal) :
    val_main_v144 (F := Ideal) x0 e x2 x3 x4 x5 x6 x7 x8 x9 x10 x11 x12 x13 x14 x15 x16 x17 =
      net var2 (aggR e) x0 x2 (ofVec x3) (ofVec x4) (ofVec x5) x6 (ofVec x7) (ofVec x8) (ofVec x9)
        x10 (ofVec x11) (ofVec x12) (ofVec x13) x14 (ofVec x15) (ofVec x16) (ofVec x17) := by
  rw [bn_v144, lin_v119, relu_v115, bn_v114, lin_v89, agg_v85, relu_v74, bn_v73, lin_v48, relu_v44, bn_v43, lin_v18, agg_v14]
  rfl

end Cert.Proof.RefSide

end
-- ==== Proof.LibBatchNormVar.lean ====
/-
  The one-pass and two-pass variance on the extended reals.

  For finite values x r over a finite index type of N elements, with S1 = Σ x r and
  S2 = Σ (x r)², the one-pass variance  S2/N − (S1/N)²  equals the two-pass variance
  (Σ (x r − S1/N)²)/N, and both are a nonnegative real. On the extended reals this needs every
  x r finite (⊤ − ⊤ = ⊥ is not 0): the real witnesses are chosen, the coercions pushed outward
  through sums, products and differences, and the identity is then the classical one in ℝ:
  Σ (a − m)² = Σ a² − 2m Σ a + N m², with m = (Σ a)/N.
  The quotient by N is stated in two spellings: as the product with the real 1/N, which is what
  the quotient of an extended real by a nonzero real reduces to, and as that quotient itself.
-/
import proofs.«129487_j15015205667099_1_alg».proof.Proof.LibBatchNorm

noncomputable section

namespace Cert.LibBatchNorm

open Idealize.ShloMosaic
open scoped BigOperators

/-! ## In ℝ -/

/-- Σ (a r − m)² = Σ (a r)² − 2 m Σ a r + N m² over an index type of N elements. -/
theorem real_sum_centered_sq {ι : Type*} [Fintype ι] (a : ι → ℝ) (N : ℝ) (hN : N = (Fintype.card ι : ℝ)) (m : ℝ) :
    ∑ r, (a r - m) * (a r - m) = (∑ r, a r * a r) - 2 * m * (∑ r, a r) + N * (m * m) := by
  have e : ∀ r, (a r - m) * (a r - m) = a r * a r - 2 * m * a r + m * m := fun r => by ring
  simp only [e, Finset.sum_add_distrib, Finset.sum_sub_distrib, ← Finset.mul_sum, Finset.sum_const, Finset.card_univ,
    nsmul_eq_mul, ← hN]
  ring

/-- The variance identity in ℝ: (Σ a²)/N − ((Σ a)/N)² = (Σ (a − (Σ a)/N)²)/N, quotients written as products with 1/N,
    over an index type of N ≠ 0 elements. -/
theorem real_var_identity {ι : Type*} [Fintype ι] (a : ι → ℝ) (N : ℝ) (hN : N = (Fintype.card ι : ℝ)) (hN0 : N ≠ 0) :
    (∑ r, a r * a r) * (1 / N) - ((∑ r, a r) * (1 / N)) * ((∑ r, a r) * (1 / N))
      = (∑ r, (a r - (∑ s, a s) * (1 / N)) * (a r - (∑ s, a s) * (1 / N))) * (1 / N) := by
  rw [real_sum_centered_sq a N hN]; field_simp; ring

/-! ## On the extended reals -/

/-- The variance identity for finite extended reals x r over an index type of N ≠ 0 elements, quotients by N written
    as products with the real 1/N:
    (Σ x²)·(1/N) − ((Σ x)·(1/N))² = (Σ (x − (Σ x)·(1/N))²)·(1/N). -/
theorem var_identity {ι : Type*} [Fintype ι] (x : ι → EReal) (hx : ∀ r, IsReal (x r)) (N : ℝ)
    (hN : N = (Fintype.card ι : ℝ)) (hN0 : N ≠ 0) :
    (∑ r, x r * x r) * ((1 / N : ℝ) : EReal) - ((∑ r, x r) * ((1 / N : ℝ) : EReal)) * ((∑ r, x r) * ((1 / N : ℝ) : EReal))
      = (∑ r, (x r - (∑ s, x s) * ((1 / N : ℝ) : EReal)) * (x r - (∑ s, x s) * ((1 / N : ℝ) : EReal))) * ((1 / N : ℝ) : EReal) := by
  choose a ha using hx
  obtain rfl : x = fun r => (a r : EReal) := funext ha
  simp only [← EReal.coe_mul, ← coe_finset_sum, ← EReal.coe_sub]
  exact congrArg _ (real_var_identity a N hN hN0)

/-- The variance identity with the quotients by the real N ≠ 0 written as quotients:
    (Σ x²)/N − ((Σ x)/N)·((Σ x)/N) = (Σ (x − (Σ x)/N)·(x − (Σ x)/N))/N. -/
theorem var_identity_div {ι : Type*} [Fintype ι] (x : ι → EReal) (hx : ∀ r, IsReal (x r)) (N : ℝ)
    (hN : N = (Fintype.card ι : ℝ)) (hN0 : N ≠ 0) :
    Ideal.div (∑ r, x r * x r) (N : EReal) - Ideal.div (∑ r, x r) (N : EReal) * Ideal.div (∑ r, x r) (N : EReal)
      = Ideal.div (∑ r, (x r - Ideal.div (∑ s, x s) (N : EReal)) * (x r - Ideal.div (∑ s, x s) (N : EReal))) (N : EReal) := by
  simp only [Ideal.div_coe hN0]
  exact var_identity x hx N hN hN0

/-- The mean (Σ x)·(1/N) of finite values is finite. -/
theorem isReal_mean {ι : Type*} [Fintype ι] (x : ι → EReal) (hx : ∀ r, IsReal (x r)) (N : ℝ) :
    IsReal ((∑ r, x r) * ((1 / N : ℝ) : EReal)) :=
  (isReal_sum x hx).mul_coe _

/-- The mean (Σ x)/N of finite values, N a nonzero real, is finite. -/
theorem isReal_mean_div {ι : Type*} [Fintype ι] (x : ι → EReal) (hx : ∀ r, IsReal (x r)) {N : ℝ} (hN0 : N ≠ 0) :
    IsReal (Ideal.div (∑ r, x r) (N : EReal)) :=
  (isReal_sum x hx).div_coe hN0

/-- A mean of squared deviations of finite values from ANY finite centre μ, with a nonnegative real weight c, is a
    nonnegative real: (Σ (x − μ)²)·c = v for a real v ≥ 0. -/
theorem centered_sq_mean_nonneg {ι : Type*} [Fintype ι] (x : ι → EReal) (hx : ∀ r, IsReal (x r)) {μ : EReal}
    (hμ : IsReal μ) {c : ℝ} (hc : 0 ≤ c) :
    ∃ v : ℝ, 0 ≤ v ∧ (∑ r, (x r - μ) * (x r - μ)) * (c : EReal) = (v : EReal) := by
  choose a ha using hx
  obtain rfl : x = fun r => (a r : EReal) := funext ha
  obtain ⟨m, rfl⟩ := hμ
  refine ⟨(∑ r, (a r - m) * (a r - m)) * c, mul_nonneg (Finset.sum_nonneg fun r _ => mul_self_nonneg _) hc, ?_⟩
  simp only [← EReal.coe_mul, ← coe_finset_sum, ← EReal.coe_sub]

/-- The two-pass variance (Σ (x − (Σ x)·(1/N))²)·(1/N) of finite values, N a positive real, is a nonnegative real. -/
theorem var_two_pass_nonneg {ι : Type*} [Fintype ι] (x : ι → EReal) (hx : ∀ r, IsReal (x r)) {N : ℝ} (hN : 0 < N) :
    ∃ v : ℝ, 0 ≤ v ∧
      (∑ r, (x r - (∑ s, x s) * ((1 / N : ℝ) : EReal)) * (x r - (∑ s, x s) * ((1 / N : ℝ) : EReal))) * ((1 / N : ℝ) : EReal)
        = (v : EReal) :=
  centered_sq_mean_nonneg x hx (isReal_mean x hx N) (by positivity)

/-- The two-pass variance (Σ (x − (Σ x)/N)·(x − (Σ x)/N))/N of finite values, N a positive real, is a nonnegative real. -/
theorem var_two_pass_div_nonneg {ι : Type*} [Fintype ι] (x : ι → EReal) (hx : ∀ r, IsReal (x r)) {N : ℝ} (hN : 0 < N) :
    ∃ v : ℝ, 0 ≤ v ∧
      Ideal.div (∑ r, (x r - Ideal.div (∑ s, x s) (N : EReal)) * (x r - Ideal.div (∑ s, x s) (N : EReal))) (N : EReal)
        = (v : EReal) := by
  simp only [Ideal.div_coe hN.ne']
  exact var_two_pass_nonneg x hx hN

/-- The one-pass variance (Σ x²)·(1/N) − ((Σ x)·(1/N))² of finite values over an index type of N > 0 elements is a
    nonnegative real. -/
theorem var_one_pass_nonneg {ι : Type*} [Fintype ι] (x : ι → EReal) (hx : ∀ r, IsReal (x r)) (N : ℝ)
    (hN : N = (Fintype.card ι : ℝ)) (hN0 : 0 < N) :
    ∃ v : ℝ, 0 ≤ v ∧
      (∑ r, x r * x r) * ((1 / N : ℝ) : EReal) - ((∑ r, x r) * ((1 / N : ℝ) : EReal)) * ((∑ r, x r) * ((1 / N : ℝ) : EReal))
        = (v : EReal) := by
  rw [var_identity x hx N hN hN0.ne']
  exact var_two_pass_nonneg x hx hN0

/-- The one-pass variance (Σ x²)/N − ((Σ x)/N)·((Σ x)/N) of finite values over an index type of N > 0 elements is a
    nonnegative real. -/
theorem var_one_pass_div_nonneg {ι : Type*} [Fintype ι] (x : ι → EReal) (hx : ∀ r, IsReal (x r)) (N : ℝ)
    (hN : N = (Fintype.card ι : ℝ)) (hN0 : 0 < N) :
    ∃ v : ℝ, 0 ≤ v ∧
      Ideal.div (∑ r, x r * x r) (N : EReal) - Ideal.div (∑ r, x r) (N : EReal) * Ideal.div (∑ r, x r) (N : EReal)
        = (v : EReal) := by
  simp only [Ideal.div_coe hN0.ne']
  exact var_one_pass_nonneg x hx N hN hN0

/-- With a positive real e added, the reciprocal square root of the two-pass variance of finite values is finite. -/
theorem isReal_rsqrt_var_two_pass_div_add {ι : Type*} [Fintype ι] (x : ι → EReal) (hx : ∀ r, IsReal (x r)) {N : ℝ}
    (hN : 0 < N) {y : EReal} (hy : ∃ e : ℝ, 0 < e ∧ y = (e : EReal)) :
    IsReal (Ideal.rsqrt
      (Ideal.div (∑ r, (x r - Ideal.div (∑ s, x s) (N : EReal)) * (x r - Ideal.div (∑ s, x s) (N : EReal))) (N : EReal) + y)) :=
  isReal_rsqrt_add_of (var_two_pass_div_nonneg x hx hN) hy

/-- With a positive real e added, the reciprocal square root of the one-pass variance of finite values is finite. -/
theorem isReal_rsqrt_var_one_pass_div_add {ι : Type*} [Fintype ι] (x : ι → EReal) (hx : ∀ r, IsReal (x r)) (N : ℝ)
    (hN : N = (Fintype.card ι : ℝ)) (hN0 : 0 < N) {y : EReal} (hy : ∃ e : ℝ, 0 < e ∧ y = (e : EReal)) :
    IsReal (Ideal.rsqrt
      (Ideal.div (∑ r, x r * x r) (N : EReal) - Ideal.div (∑ r, x r) (N : EReal) * Ideal.div (∑ r, x r) (N : EReal) + y)) :=
  isReal_rsqrt_add_of (var_one_pass_div_nonneg x hx N hN hN0) hy

end Cert.LibBatchNorm

end
-- ==== Proof.GinFinite.lean ====
/-
  Finiteness through the two-layer network, and the equality of its one-pass and two-pass forms.

  On the extended reals the one-pass column variance  (Σ z²)/N − ((Σ z)/N)²  and the two-pass column variance
  (Σ (z − (Σ z)/N)²)/N  agree only where every entry z is finite (⊤ − ⊤ = ⊥ is not 0). This module shows that every
  intermediate array of the network is finite when the inputs are (an affine map of finite arrays is a finite sum of
  finite products; a column mean is a finite sum divided by the nonzero real N = 100000; the variance is a nonnegative
  real and ε a positive real, so the reciprocal square root of their sum is finite; a clamp at zero is a maximum of two
  finite values), and then rewrites the one-pass variance to the two-pass one from the inside of the network outwards,
  each rewrite licensed by the finiteness of the array being normalised.
-/
import proofs.«129487_j15015205667099_1_alg».proof.Proof.GinSpec
import proofs.«129487_j15015205667099_1_alg».proof.Proof.LibBatchNorm
import proofs.«129487_j15015205667099_1_alg».proof.Proof.LibBatchNormVar

noncomputable section

namespace Cert.GinSpec

open Idealize.ShloMosaic Idealize.ShloMosaic.ValueIdx Cert.LibBatchNorm
open scoped BigOperators

/-! ## The node count -/

/-- The 32-bit word 0x47C35000 denotes the real 100000: sign 0, exponent 143, mantissa 0x435000, that is
    (1 + 4411392 / 2²³) · 2¹⁶ = 100000. -/
theorem NW_eq : NW = ((100000 : ℝ) : EReal) := by
  unfold NW
  simp [Ideal.ofBits, Ideal.ieee, -EReal.coe_mul]; norm_num

/-- 100000 is the number of rows. -/
theorem rows_card : (100000 : ℝ) = (Fintype.card (Fin 100000) : ℝ) := by simp

theorem rows_pos : (0 : ℝ) < 100000 := by norm_num

theorem rows_ne_zero : (100000 : ℝ) ≠ 0 := by norm_num

/-! ## The two variances agree on finite arrays -/

/-- On a finite array the one-pass and the two-pass column variances are the same. -/
theorem var1_eq_var2 (Z : SN.Idx → EReal) (hZ : ∀ i, IsReal (Z i)) : var1 Z = var2 Z := by
  funext j
  unfold var1 var2 mean colSumSq colSum
  rw [NW_eq]
  exact var_identity_div (fun r : Fin 100000 => Z (ix2 r j)) (fun r => hZ _) 100000 rows_card rows_ne_zero

/-- The two-pass column variance of a finite array is a nonnegative real. -/
theorem var2_nonneg (Z : SN.Idx → EReal) (hZ : ∀ i, IsReal (Z i)) (j : Fin 64) :
    ∃ v : ℝ, 0 ≤ v ∧ var2 Z j = (v : EReal) := by
  unfold var2 mean colSum
  rw [NW_eq]
  exact var_two_pass_div_nonneg (fun r : Fin 100000 => Z (ix2 r j)) (fun r => hZ _) rows_pos

/-- Normalising a finite array by its own statistics gives the same array with either variance. -/
theorem bnSelf_var1_eq_var2 (Z : SN.Idx → EReal) (hZ : ∀ i, IsReal (Z i)) (g be : Fin 64 → EReal) :
    bnSelf var1 Z g be = bnSelf var2 Z g be := by
  unfold bnSelf
  rw [var1_eq_var2 Z hZ]

/-! ## Finiteness of every stage -/

/-- An affine map of finite arrays is finite: each entry is a finite sum of finite products plus a finite offset. -/
theorem isReal_lin (X : SN.Idx → EReal) (W : SW.Idx → EReal) (b : Fin 64 → EReal) (hX : ∀ i, IsReal (X i))
    (hW : ∀ i, IsReal (W i)) (hb : ∀ j, IsReal (b j)) : ∀ i, IsReal (lin X W b i) :=
  fun i => (isReal_sum_mul _ _ (fun _ => hX _) (fun _ => hW _)).add (hb _)

/-- The column means of a finite array are finite: a finite sum divided by the nonzero real 100000. -/
theorem isReal_mean (Z : SN.Idx → EReal) (hZ : ∀ i, IsReal (Z i)) : ∀ j, IsReal (mean Z j) := by
  intro j
  unfold mean colSum
  rw [NW_eq]
  exact (isReal_sum _ fun r => hZ _).div_coe rows_ne_zero

/-- A finite array normalised by its own mean and two-pass variance is finite: the variance is a nonnegative real and
    ε a positive real, so the reciprocal square root of their sum is finite. -/
theorem isReal_bnSelf_var2 (Z : SN.Idx → EReal) (g be : Fin 64 → EReal) (hZ : ∀ i, IsReal (Z i))
    (hg : ∀ j, IsReal (g j)) (hbe : ∀ j, IsReal (be j)) : ∀ i, IsReal (bnSelf var2 Z g be i) := by
  intro i
  have hr : IsReal (Ideal.rsqrt (var2 Z (colOf i) + EPS)) :=
    isReal_rsqrt_add_of (var2_nonneg Z hZ (colOf i)) ofBits_f32_eps_pos
  exact ((((hZ i).sub (isReal_mean Z hZ (colOf i))).mul hr).mul (hg _)).add (hbe _)

/-- Clamping a finite array at zero gives a finite array. -/
theorem isReal_relu (Z : SN.Idx → EReal) (hZ : ∀ i, IsReal (Z i)) : ∀ i, IsReal (relu Z i) :=
  fun i => (hZ i).max isReal_ofBits_f32_zero

/-- Adding the aggregated neighbours to a finite array gives a finite array, when aggregation keeps arrays finite. -/
theorem isReal_addAgg (ag : (SN.Idx → EReal) → SN.Idx → EReal)
    (hag : ∀ X : SN.Idx → EReal, (∀ i, IsReal (X i)) → ∀ i, IsReal (ag X i)) (X : SN.Idx → EReal)
    (hX : ∀ i, IsReal (X i)) : ∀ i, IsReal (addAgg ag X i) :=
  fun i => (hX i).add (hag X hX i)

/-- One layer, built on the two-pass variance, maps finite inputs to a finite array. -/
theorem isReal_layer_var2 (ag : (SN.Idx → EReal) → SN.Idx → EReal)
    (hag : ∀ X : SN.Idx → EReal, (∀ i, IsReal (X i)) → ∀ i, IsReal (ag X i)) (X : SN.Idx → EReal)
    (Wa : SW.Idx → EReal) (ba ga bea : Fin 64 → EReal) (Wb : SW.Idx → EReal) (bb gb beb : Fin 64 → EReal)
    (hX : ∀ i, IsReal (X i)) (hWa : ∀ i, IsReal (Wa i)) (hba : ∀ j, IsReal (ba j)) (hga : ∀ j, IsReal (ga j))
    (hbea : ∀ j, IsReal (bea j)) (hWb : ∀ i, IsReal (Wb i)) (hbb : ∀ j, IsReal (bb j)) (hgb : ∀ j, IsReal (gb j))
    (hbeb : ∀ j, IsReal (beb j)) : ∀ i, IsReal (layer var2 ag X Wa ba ga bea Wb bb gb beb i) := by
  unfold layer
  exact isReal_bnSelf_var2 _ gb beb
    (isReal_lin _ Wb bb
      (isReal_relu _ (isReal_bnSelf_var2 _ ga bea (isReal_lin _ Wa ba (isReal_addAgg ag hag X hX) hWa hba) hga hbea))
      hWb hbb)
    hgb hbeb

/-! ## The network on either variance -/

/-- One layer on finite inputs is the same with the one-pass and with the two-pass variance: the inner normalisation
    acts on a finite array, so its variances agree; the array it produces is finite, and so is the array the outer
    normalisation acts on. -/
theorem layer_var1_eq_var2 (ag : (SN.Idx → EReal) → SN.Idx → EReal)
    (hag : ∀ X : SN.Idx → EReal, (∀ i, IsReal (X i)) → ∀ i, IsReal (ag X i)) (X : SN.Idx → EReal)
    (Wa : SW.Idx → EReal) (ba ga bea : Fin 64 → EReal) (Wb : SW.Idx → EReal) (bb gb beb : Fin 64 → EReal)
    (hX : ∀ i, IsReal (X i)) (hWa : ∀ i, IsReal (Wa i)) (hba : ∀ j, IsReal (ba j)) (hga : ∀ j, IsReal (ga j))
    (hbea : ∀ j, IsReal (bea j)) (hWb : ∀ i, IsReal (Wb i)) (hbb : ∀ j, IsReal (bb j)) (hgb : ∀ j, IsReal (gb j))
    (hbeb : ∀ j, IsReal (beb j)) :
    layer var1 ag X Wa ba ga bea Wb bb gb beb = layer var2 ag X Wa ba ga bea Wb bb gb beb := by
  have h1 : ∀ i, IsReal (lin (addAgg ag X) Wa ba i) := isReal_lin _ Wa ba (isReal_addAgg ag hag X hX) hWa hba
  have h2 : ∀ i, IsReal (lin (relu (bnSelf var2 (lin (addAgg ag X) Wa ba) ga bea)) Wb bb i) :=
    isReal_lin _ Wb bb (isReal_relu _ (isReal_bnSelf_var2 _ ga bea h1 hga hbea)) hWb hbb
  unfold layer
  rw [bnSelf_var1_eq_var2 _ h1 ga bea, bnSelf_var1_eq_var2 _ h2 gb beb]

/-- The network on finite inputs is the same with the one-pass and with the two-pass variance. -/
theorem net_var1_eq_var2 (ag : (SN.Idx → EReal) → SN.Idx → EReal)
    (hag : ∀ X : SN.Idx → EReal, (∀ i, IsReal (X i)) → ∀ i, IsReal (ag X i)) (X : SN.Idx → EReal)
    (W1a : SW.Idx → EReal) (b1a g1a be1a : Fin 64 → EReal) (W1b : SW.Idx → EReal) (b1b g1b be1b : Fin 64 → EReal)
    (W2a : SW.Idx → EReal) (b2a g2a be2a : Fin 64 → EReal) (W2b : SW.Idx → EReal) (b2b g2b be2b : Fin 64 → EReal)
    (hX : ∀ i, IsReal (X i))
    (hW1a : ∀ i, IsReal (W1a i)) (hb1a : ∀ j, IsReal (b1a j)) (hg1a : ∀ j, IsReal (g1a j)) (hbe1a : ∀ j, IsReal (be1a j))
    (hW1b : ∀ i, IsReal (W1b i)) (hb1b : ∀ j, IsReal (b1b j)) (hg1b : ∀ j, IsReal (g1b j)) (hbe1b : ∀ j, IsReal (be1b j))
    (hW2a : ∀ i, IsReal (W2a i)) (hb2a : ∀ j, IsReal (b2a j)) (hg2a : ∀ j, IsReal (g2a j)) (hbe2a : ∀ j, IsReal (be2a j))
    (hW2b : ∀ i, IsReal (W2b i)) (hb2b : ∀ j, IsReal (b2b j)) (hg2b : ∀ j, IsReal (g2b j)) (hbe2b : ∀ j, IsReal (be2b j)) :
    net var1 ag X W1a b1a g1a be1a W1b b1b g1b be1b W2a b2a g2a be2a W2b b2b g2b be2b
      = net var2 ag X W1a b1a g1a be1a W1b b1b g1b be1b W2a b2a g2a be2a W2b b2b g2b be2b := by
  have hL1 : ∀ i, IsReal (relu (layer var2 ag X W1a b1a g1a be1a W1b b1b g1b be1b) i) :=
    isReal_relu _ (isReal_layer_var2 ag hag X W1a b1a g1a be1a W1b b1b g1b be1b hX hW1a hb1a hg1a hbe1a hW1b hb1b hg1b hbe1b)
  unfold net
  rw [layer_var1_eq_var2 ag hag X W1a b1a g1a be1a W1b b1b g1b be1b hX hW1a hb1a hg1a hbe1a hW1b hb1b hg1b hbe1b,
    layer_var1_eq_var2 ag hag _ W2a b2a g2a be2a W2b b2b g2b be2b hL1 hW2a hb2a hg2a hbe2a hW2b hb2b hg2b hbe2b]

/-- The network built on the two-pass variance maps finite inputs to a finite array. -/
theorem isReal_net_var2 (ag : (SN.Idx → EReal) → SN.Idx → EReal)
    (hag : ∀ X : SN.Idx → EReal, (∀ i, IsReal (X i)) → ∀ i, IsReal (ag X i)) (X : SN.Idx → EReal)
    (W1a : SW.Idx → EReal) (b1a g1a be1a : Fin 64 → EReal) (W1b : SW.Idx → EReal) (b1b g1b be1b : Fin 64 → EReal)
    (W2a : SW.Idx → EReal) (b2a g2a be2a : Fin 64 → EReal) (W2b : SW.Idx → EReal) (b2b g2b be2b : Fin 64 → EReal)
    (hX : ∀ i, IsReal (X i))
    (hW1a : ∀ i, IsReal (W1a i)) (hb1a : ∀ j, IsReal (b1a j)) (hg1a : ∀ j, IsReal (g1a j)) (hbe1a : ∀ j, IsReal (be1a j))
    (hW1b : ∀ i, IsReal (W1b i)) (hb1b : ∀ j, IsReal (b1b j)) (hg1b : ∀ j, IsReal (g1b j)) (hbe1b : ∀ j, IsReal (be1b j))
    (hW2a : ∀ i, IsReal (W2a i)) (hb2a : ∀ j, IsReal (b2a j)) (hg2a : ∀ j, IsReal (g2a j)) (hbe2a : ∀ j, IsReal (be2a j))
    (hW2b : ∀ i, IsReal (W2b i)) (hb2b : ∀ j, IsReal (b2b j)) (hg2b : ∀ j, IsReal (g2b j)) (hbe2b : ∀ j, IsReal (be2b j)) :
    ∀ i, IsReal (net var2 ag X W1a b1a g1a be1a W1b b1b g1b be1b W2a b2a g2a be2a W2b b2b g2b be2b i) := by
  unfold net
  exact isReal_layer_var2 ag hag _ W2a b2a g2a be2a W2b b2b g2b be2b
    (isReal_relu _ (isReal_layer_var2 ag hag X W1a b1a g1a be1a W1b b1b g1b be1b hX hW1a hb1a hg1a hbe1a hW1b hb1b hg1b hbe1b))
    hW2a hb2a hg2a hbe2a hW2b hb2b hg2b hbe2b

end Cert.GinSpec

end
-- ==== Proof.PreFinite.lean ====
/-
  The precondition says that every float argument is finite.

  The precondition is a printed function of the eighteen arguments: for each of the seventeen float arrays x it forms
  |x| < +∞ entry by entry (|x| = max x (−x) on the extended reals, +∞ the float word 0x7F800000), folds the answers of
  one array with "and" into a single bit, and folds the seventeen bits with "and" again. If the result is 1 then each of
  the seventeen bits is 1 (an "and" of two bits is 1 only when both are), so every entry of every array answered 1 (a
  fold by "and" that ends at 1 met only 1s), and an extended real whose absolute value is below +∞ is a real number.
-/
import proofs.«129487_j15015205667099_1_alg».proof.Defs
import proofs.«129487_j15015205667099_1_alg».proof.Proof.Gen.Pre_finite_inputs
import proofs.«129487_j15015205667099_1_alg».proof.Proof.LibBatchNorm
import Idealize.ShloMosaic.Lib.ReduceAll
import Idealize.ShloMosaic.Lib.ValueIdx

namespace Cert.Proof.PreFinite

open Idealize.ShloMosaic Idealize.SL.Sem Cert.LibBatchNorm Cert.Pre_finite_inputs

/-- A rank-0 array has one index. -/
instance : Subsingleton S_.Idx := ⟨fun a b => funext fun d => d.elim0⟩

/-- If the entrywise "and" of two one-bit arrays is 1 at an index, both are 1 there. -/
theorem andi_apply_eq_one {s : Shape} (a b : IVec s 1) (i : s.Idx) (h : andi a b i = 1#1) : a i = 1#1 ∧ b i = 1#1 :=
  IntOp.andi_eq_one.1 h

/-- If the fold by "and" of the entrywise test |x| < +∞ over a whole array is 1, every entry of the array is a real
    number. -/
theorem all_finite {s : Shape} {axes : List (Fin s.rank)} (X : FVec Ideal s .f32)
    (bc : S_.BroadcastsInDim s (![] : Fin 0 → Fin s.rank)) (red : s.ReducesTo axes S_) (hu : 0 < S_.numel)
    (e : Host.reduce IntOp.andi (cmpf .olt (Host.absf X) (broadcastInDim s ![] bc (constant S_ .f32 0x7F800000#32)))
        (constantI S_ 1 1#1) red hu ValueIdx.ix0 = 1#1) (i : s.Idx) : IsReal (X i) :=
  isReal_of_cmp_abs_lt_inf (Host.reduce_andi_all _ _ red hu ValueIdx.ix0 e i)

/-- Under the precondition every float argument array (arguments 0 and 2 to 17; argument 1 is the integer edge list) is
    finite at every index. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i)) := by
  have e := congrFun (h c) ValueIdx.ix0
  dsimp only [Cert.Pre_finite_inputs.fn, fn_part1, fn_part2, fn_part3, fn_part4] at e
  obtain ⟨e, e17⟩ := andi_apply_eq_one _ _ _ e
  obtain ⟨e, e16⟩ := andi_apply_eq_one _ _ _ e
  obtain ⟨e, e15⟩ := andi_apply_eq_one _ _ _ e
  obtain ⟨e, e14⟩ := andi_apply_eq_one _ _ _ e
  obtain ⟨e, e13⟩ := andi_apply_eq_one _ _ _ e
  obtain ⟨e, e12⟩ := andi_apply_eq_one _ _ _ e
  obtain ⟨e, e11⟩ := andi_apply_eq_one _ _ _ e
  obtain ⟨e, e10⟩ := andi_apply_eq_one _ _ _ e
  obtain ⟨e, e9⟩ := andi_apply_eq_one _ _ _ e
  obtain ⟨e, e8⟩ := andi_apply_eq_one _ _ _ e
  obtain ⟨e, e7⟩ := andi_apply_eq_one _ _ _ e
  obtain ⟨e, e6⟩ := andi_apply_eq_one _ _ _ e
  obtain ⟨e, e5⟩ := andi_apply_eq_one _ _ _ e
  obtain ⟨e, e4⟩ := andi_apply_eq_one _ _ _ e
  obtain ⟨e, e3⟩ := andi_apply_eq_one _ _ _ e
  obtain ⟨e0, e2⟩ := andi_apply_eq_one _ _ _ e
  exact ⟨all_finite _ _ _ _ e0, all_finite _ _ _ _ e2, all_finite _ _ _ _ e3, all_finite _ _ _ _ e4, all_finite _ _ _ _ e5, all_finite _ _ _ _ e6, all_finite _ _ _ _ e7, all_finite _ _ _ _ e8, all_finite _ _ _ _ e9, all_finite _ _ _ _ e10, all_finite _ _ _ _ e11, all_finite _ _ _ _ e12, all_finite _ _ _ _ e13, all_finite _ _ _ _ e14, all_finite _ _ _ _ e15, all_finite _ _ _ _ e16, all_finite _ _ _ _ e17⟩

end Cert.Proof.PreFinite
-- ==== Proof.Algebraic.lean ====
/-
  The kernel program and the reference compute the same network.

  Both programs take node features X, an edge list e and sixteen weight, bias, scale and shift arrays, and return a
  100000 × 64 array. Read at exact arithmetic on the extended reals:
    * the reference's result is the specification's two-layer network built on the TWO-PASS column variance
      (the mean of the squared deviations from the column mean);
    * the kernel program's result is the same network built on the ONE-PASS column variance
      (the mean of the squares less the square of the mean), because its regions accumulate column sums and column
      sums of squares in a single sweep.
  On finite values the two variances agree, and every intermediate array of the network is finite when the inputs are:
  the neighbour aggregation is a finite sum of entries of X, an affine map is a finite sum of products, the normalisation
  divides by the square root of a positive finite number. The precondition says that every float input is finite. So
  under the precondition the two networks are one function of the arguments, and from memories that agree on the
  arguments both programs end with that function's value, their arguments unchanged.

  Three facts enter as hypotheses, each proved in a module of its own and supplied where the claim is assembled: what the
  kernel program's last segment boundary holds for the result array (`KernelValue`), the reference program's run with
  its result named (`ReferenceRun`), and that the neighbour aggregation of finite features is finite (`AggKeepsFinite`).
-/
import proofs.«129487_j15015205667099_1_alg».proof.Defs
import proofs.«129487_j15015205667099_1_alg».proof.Proof.KernelRun
import proofs.«129487_j15015205667099_1_alg».proof.Proof.RefValue
import proofs.«129487_j15015205667099_1_alg».proof.Proof.GinFinite
import proofs.«129487_j15015205667099_1_alg».proof.Proof.PreFinite
import proofs.«129487_j15015205667099_1_alg».proof.Proof.Gen.ReferenceIdeal
import proofs.«129487_j15015205667099_1_alg».proof.Proof.Gen.Pre_finite_inputs

set_option maxRecDepth 16384

noncomputable section

namespace Cert.Proof.Claims

open Idealize.ShloMosaic Idealize.SL.Sem Cert.GinSpec Cert.LibBatchNorm Cert.Proof.Agg

/-- The kernel program's value: at the last segment boundary the result array holds the network on the one-pass
    variance, of the launch memory's arguments. -/
def KernelValue : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
    Cert.KernelIdeal.Gen.W12 (F := Ideal) m ρ c (Proc.devRef .tc Cert.KernelIdeal.main_v65)
      = net var1 (aggR (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (ofVec (m ((c.tc : Thread Cert.KernelIdeal.nD Cert.KernelIdeal.τ).loc Cert.KernelIdeal.main_arg3)))
        (ofVec (m ((c.tc : Thread Cert.KernelIdeal.nD Cert.KernelIdeal.τ).loc Cert.KernelIdeal.main_arg4)))
        (ofVec (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (ofVec (m ((c.tc : Thread Cert.KernelIdeal.nD Cert.KernelIdeal.τ).loc Cert.KernelIdeal.main_arg7)))
        (ofVec (m ((c.tc : Thread Cert.KernelIdeal.nD Cert.KernelIdeal.τ).loc Cert.KernelIdeal.main_arg8)))
        (ofVec (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (ofVec (m ((c.tc : Thread Cert.KernelIdeal.nD Cert.KernelIdeal.τ).loc Cert.KernelIdeal.main_arg11)))
        (ofVec (m ((c.tc : Thread Cert.KernelIdeal.nD Cert.KernelIdeal.τ).loc Cert.KernelIdeal.main_arg12)))
        (ofVec (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (ofVec (m ((c.tc : Thread Cert.KernelIdeal.nD Cert.KernelIdeal.τ).loc Cert.KernelIdeal.main_arg15)))
        (ofVec (m ((c.tc : Thread Cert.KernelIdeal.nD Cert.KernelIdeal.τ).loc Cert.KernelIdeal.main_arg16)))
        (ofVec (m ((c.tc : Thread Cert.KernelIdeal.nD Cert.KernelIdeal.τ).loc Cert.KernelIdeal.main_arg17)))

/-- The reference program's run: it terminates without a fault, its result array holds the composite of its operations
    applied to the launch memory's arguments, and its arguments are unchanged. -/
def ReferenceRun : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v144)
        = Cert.ReferenceIdeal.Read.val_main_v144 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

/-- The neighbour aggregation of finite features is finite, whatever the edge list. -/
def AggKeepsFinite : Prop :=
  ∀ (e : (⟨Cert.ReferenceIdeal.S2x1250000, .i32⟩ : BufTy).Contents (Elt Ideal)) (X : SN.Idx → EReal),
    (∀ i, IsReal (X i)) → ∀ i, IsReal (aggR e X i)

/-- The reference's frame is its run with the result forgotten. -/
theorem frame_ref (hR : ReferenceRun) : Cert.frame_ReferenceIdeal := fun m ρ _ =>
  (θ_run Cert.ReferenceIdeal.defs _ _).mono (fun _ h c => (h c).2) (hR m ρ)

/-- Under the precondition the network on the one-pass variance is the network on the two-pass variance, at the launch
    memory's arguments: every float argument is finite, the aggregation keeps finiteness, and on finite columns the two
    variances agree. -/
theorem net_var1_eq_var2_of_pre (hA : AggKeepsFinite)
    (m : (ℓ : Loc Cert.KernelIdeal.nD Cert.KernelIdeal.τ Cert.KernelIdeal.sig) → Buf (Elt Ideal) ℓ)
    (hpre : Cert.Pre_KernelIdeal m) (c : Dev Cert.KernelIdeal.nD) :
    net var1 (aggR (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (ofVec (m ((c.tc : Thread Cert.KernelIdeal.nD Cert.KernelIdeal.τ).loc Cert.KernelIdeal.main_arg3)))
        (ofVec (m ((c.tc : Thread Cert.KernelIdeal.nD Cert.KernelIdeal.τ).loc Cert.KernelIdeal.main_arg4)))
        (ofVec (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (ofVec (m ((c.tc : Thread Cert.KernelIdeal.nD Cert.KernelIdeal.τ).loc Cert.KernelIdeal.main_arg7)))
        (ofVec (m ((c.tc : Thread Cert.KernelIdeal.nD Cert.KernelIdeal.τ).loc Cert.KernelIdeal.main_arg8)))
        (ofVec (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (ofVec (m ((c.tc : Thread Cert.KernelIdeal.nD Cert.KernelIdeal.τ).loc Cert.KernelIdeal.main_arg11)))
        (ofVec (m ((c.tc : Thread Cert.KernelIdeal.nD Cert.KernelIdeal.τ).loc Cert.KernelIdeal.main_arg12)))
        (ofVec (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (ofVec (m ((c.tc : Thread Cert.KernelIdeal.nD Cert.KernelIdeal.τ).loc Cert.KernelIdeal.main_arg15)))
        (ofVec (m ((c.tc : Thread Cert.KernelIdeal.nD Cert.KernelIdeal.τ).loc Cert.KernelIdeal.main_arg16)))
        (ofVec (m ((c.tc : Thread Cert.KernelIdeal.nD Cert.KernelIdeal.τ).loc Cert.KernelIdeal.main_arg17)))
      = net var2 (aggR (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (ofVec (m ((c.tc : Thread Cert.KernelIdeal.nD Cert.KernelIdeal.τ).loc Cert.KernelIdeal.main_arg3)))
        (ofVec (m ((c.tc : Thread Cert.KernelIdeal.nD Cert.KernelIdeal.τ).loc Cert.KernelIdeal.main_arg4)))
        (ofVec (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (ofVec (m ((c.tc : Thread Cert.KernelIdeal.nD Cert.KernelIdeal.τ).loc Cert.KernelIdeal.main_arg7)))
        (ofVec (m ((c.tc : Thread Cert.KernelIdeal.nD Cert.KernelIdeal.τ).loc Cert.KernelIdeal.main_arg8)))
        (ofVec (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (ofVec (m ((c.tc : Thread Cert.KernelIdeal.nD Cert.KernelIdeal.τ).loc Cert.KernelIdeal.main_arg11)))
        (ofVec (m ((c.tc : Thread Cert.KernelIdeal.nD Cert.KernelIdeal.τ).loc Cert.KernelIdeal.main_arg12)))
        (ofVec (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (ofVec (m ((c.tc : Thread Cert.KernelIdeal.nD Cert.KernelIdeal.τ).loc Cert.KernelIdeal.main_arg15)))
        (ofVec (m ((c.tc : Thread Cert.KernelIdeal.nD Cert.KernelIdeal.τ).loc Cert.KernelIdeal.main_arg16)))
        (ofVec (m ((c.tc : Thread Cert.KernelIdeal.nD Cert.KernelIdeal.τ).loc Cert.KernelIdeal.main_arg17))) := by
  obtain ⟨f0, f2, f3, f4, f5, f6, f7, f8, f9, f10, f11, f12, f13, f14, f15, f16, f17⟩ := Cert.Proof.PreFinite.finite_of_pre m hpre c
  exact net_var1_eq_var2 (aggR (m ((c.tc : Thread Cert.KernelIdeal.nD Cert.KernelIdeal.τ).loc Cert.KernelIdeal.main_arg1))) (fun X hX => hA _ X hX) _ _ _ _ _ _ _ _ _ _ _ _ _ _ _ _ _
    f0 f2 (fun _ => f3 _) (fun _ => f4 _) (fun _ => f5 _) f6 (fun _ => f7 _) (fun _ => f8 _) (fun _ => f9 _) f10 (fun _ => f11 _) (fun _ => f12 _) (fun _ => f13 _) f14 (fun _ => f15 _) (fun _ => f16 _) (fun _ => f17 _)

/-- From memories that agree on the arguments, under the precondition, both programs end with the network on the
    two-pass variance of the arguments: the kernel program by its value and the agreement of the two variances, the
    reference by reading its composite as the network. -/
theorem algebraic (hK : KernelValue) (hR : ReferenceRun) (hA : AggKeepsFinite) : Cert.algebraic_KernelIdeal_ReferenceIdeal := by
  intro m ρ m' ρ' hpre hagree
  refine ⟨fun c => net var2 (aggR (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (ofVec (m ((c.tc : Thread Cert.KernelIdeal.nD Cert.KernelIdeal.τ).loc Cert.KernelIdeal.main_arg3)))
        (ofVec (m ((c.tc : Thread Cert.KernelIdeal.nD Cert.KernelIdeal.τ).loc Cert.KernelIdeal.main_arg4)))
        (ofVec (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (ofVec (m ((c.tc : Thread Cert.KernelIdeal.nD Cert.KernelIdeal.τ).loc Cert.KernelIdeal.main_arg7)))
        (ofVec (m ((c.tc : Thread Cert.KernelIdeal.nD Cert.KernelIdeal.τ).loc Cert.KernelIdeal.main_arg8)))
        (ofVec (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (ofVec (m ((c.tc : Thread Cert.KernelIdeal.nD Cert.KernelIdeal.τ).loc Cert.KernelIdeal.main_arg11)))
        (ofVec (m ((c.tc : Thread Cert.KernelIdeal.nD Cert.KernelIdeal.τ).loc Cert.KernelIdeal.main_arg12)))
        (ofVec (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (ofVec (m ((c.tc : Thread Cert.KernelIdeal.nD Cert.KernelIdeal.τ).loc Cert.KernelIdeal.main_arg15)))
        (ofVec (m ((c.tc : Thread Cert.KernelIdeal.nD Cert.KernelIdeal.τ).loc Cert.KernelIdeal.main_arg16)))
        (ofVec (m ((c.tc : Thread Cert.KernelIdeal.nD Cert.KernelIdeal.τ).loc Cert.KernelIdeal.main_arg17))), ?_, ?_⟩
  · refine (θ_run Cert.KernelIdeal.defs _ _).mono (fun _ h c => ⟨(h c).1.trans ?_, (h c).2⟩)
      (Cert.KernelIdeal.RunNamed.run (F := Ideal) m ρ)
    exact (hK m ρ c).trans (net_var1_eq_var2_of_pre hA m hpre c)
  · refine (θ_run Cert.ReferenceIdeal.defs _ _).mono (fun _ h c => ⟨(h c).1.trans ?_, (h c).2⟩) (hR m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]
    exact Cert.Proof.RefSide.result_eq _ _ _ _ _ _ _ _ _ _ _ _ _ _ _ _ _ _

end Cert.Proof.Claims

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.LibAfterRead.lean ====
/-
  One operation of a single-assignment line read from the line's final contents: when operation k of the line is a
  given builder's operation, its result buffer holds, after the whole line, the operation's function of what its
  operand buffers hold after the whole line (the operands are written before k and never again, the result never after).
-/
import proofs.«129487_j15015205667099_1_alg».proof.Proof.LibAfter

noncomputable section

namespace Cert.LibAfter

open Idealize.ShloMosaic Idealize.ShloMosaic.StableHlo

variable {τ : Topo} {sig : RefSig} {Val : EltTy → Type}

theorem read_nullary (ops : List (HloOp τ sig Val)) (Ws : List (Ref sig .tc)) (h : WritesList ops Ws) (k : ℕ)
    (hk : k < ops.length) (V : Valuation τ sig Val) (y : Ref sig .tc) (v : y.ty.Contents Val) (hy)
    (hop : ops[k] = nullary y v hy) (hy' : y ∉ Ws.drop (k + 1)) :
    after ops V (Proc.devRef .tc y) = v := by
  rw [after_local ops Ws h k hk V y hy', hop]
  exact nullary_result y v hy _

theorem read_unary (ops : List (HloOp τ sig Val)) (Ws : List (Ref sig .tc)) (h : WritesList ops Ws) (k : ℕ)
    (hk : k < ops.length) (V : Valuation τ sig Val) (x y : Ref sig .tc) (f : x.ty.Contents Val → y.ty.Contents Val) (hx hy)
    (hop : ops[k] = unary x y f hx hy) (hy' : y ∉ Ws.drop (k + 1)) (hx' : x ∉ Ws.drop k) :
    after ops V (Proc.devRef .tc y) = f (after ops V (Proc.devRef .tc x)) := by
  rw [after_local ops Ws h k hk V y hy', hop]
  refine (unary_result x y f hx hy _).trans ?_
  exact congrArg f (after_take ops Ws h k V x hx')

theorem read_binary (ops : List (HloOp τ sig Val)) (Ws : List (Ref sig .tc)) (h : WritesList ops Ws) (k : ℕ)
    (hk : k < ops.length) (V : Valuation τ sig Val) (a b y : Ref sig .tc)
    (f : a.ty.Contents Val → b.ty.Contents Val → y.ty.Contents Val) (ha hb hy)
    (hop : ops[k] = binary a b y f ha hb hy) (hy' : y ∉ Ws.drop (k + 1)) (ha' : a ∉ Ws.drop k) (hb' : b ∉ Ws.drop k) :
    after ops V (Proc.devRef .tc y) = f (after ops V (Proc.devRef .tc a)) (after ops V (Proc.devRef .tc b)) := by
  rw [after_local ops Ws h k hk V y hy', hop]
  refine (binary_result a b y f ha hb hy _).trans ?_
  rw [show after (ops.take k) V (Proc.devRef .tc a) = _ from after_take ops Ws h k V a ha',
    show after (ops.take k) V (Proc.devRef .tc b) = _ from after_take ops Ws h k V b hb']

theorem read_ternary (ops : List (HloOp τ sig Val)) (Ws : List (Ref sig .tc)) (h : WritesList ops Ws) (k : ℕ)
    (hk : k < ops.length) (V : Valuation τ sig Val) (c a b y : Ref sig .tc)
    (f : c.ty.Contents Val → a.ty.Contents Val → b.ty.Contents Val → y.ty.Contents Val) (hc ha hb hy)
    (hop : ops[k] = ternary c a b y f hc ha hb hy) (hy' : y ∉ Ws.drop (k + 1)) (hc' : c ∉ Ws.drop k)
    (ha' : a ∉ Ws.drop k) (hb' : b ∉ Ws.drop k) :
    after ops V (Proc.devRef .tc y)
      = f (after ops V (Proc.devRef .tc c)) (after ops V (Proc.devRef .tc a)) (after ops V (Proc.devRef .tc b)) := by
  rw [after_local ops Ws h k hk V y hy', hop]
  refine (ternary_result c a b y f hc ha hb hy _).trans ?_
  rw [show after (ops.take k) V (Proc.devRef .tc c) = _ from after_take ops Ws h k V c hc',
    show after (ops.take k) V (Proc.devRef .tc a) = _ from after_take ops Ws h k V a ha',
    show after (ops.take k) V (Proc.devRef .tc b) = _ from after_take ops Ws h k V b hb']

theorem read_reshape (ops : List (HloOp τ sig Val)) (Ws : List (Ref sig .tc)) (h : WritesList ops Ws) (k : ℕ)
    (hk : k < ops.length) (V : Valuation τ sig Val) (x y : Ref sig .tc) (he : x.ty.elt = y.ty.elt)
    (hn : x.ty.shape.ShapeCasts y.ty.shape) (hx hy)
    (hop : ops[k] = reshape x y he hn hx hy) (hy' : y ∉ Ws.drop (k + 1)) (hx' : x ∉ Ws.drop k) :
    after ops V (Proc.devRef .tc y) = fun i => he ▸ shapeCast y.ty.shape (after ops V (Proc.devRef .tc x)) hn i := by
  rw [after_local ops Ws h k hk V y hy', hop]
  refine (reshape_result x y he hn hx hy _).trans ?_
  rw [show after (ops.take k) V (Proc.devRef .tc x) = _ from after_take ops Ws h k V x hx']

end Cert.LibAfter

end
-- ==== Proof.HostAgg.lean ====
/-
  The host lines of the kernel program that build the neighbour aggregation, read back. The first line cuts the edge list
  into its source and destination words (two slices, each flattened), lays each 64-vector of parameters out as a 1 × 64 row,
  and builds the aggregation of the node features: a source word below zero is raised by 100000, the rows of the features
  named by the source words are looked up, and each looked-up row is added into the row of a zero array named by its
  destination word. The line before the fourth launch builds the same aggregation of the first layer's output from the same
  words. The composite is the reference program's own, operation for operation, so it is stated as that one function.
-/
import proofs.«129487_j15015205667099_1_alg».proof.Proof.Gen.KernelIdeal.Launch
import proofs.«129487_j15015205667099_1_alg».proof.Proof.LibAfterRead
import proofs.«129487_j15015205667099_1_alg».proof.Proof.GinSpec
import proofs.«129487_j15015205667099_1_alg».proof.Proof.Agg
import Idealize.ShloMosaic.Lib.StableHlo.Run
import Idealize.ShloMosaic.Lib.Pipeline.Value

noncomputable section

namespace Cert.KernelIdeal.HostAgg

open Cert.KernelIdeal Cert.KernelIdeal.Gen Idealize.ShloMosaic Idealize.ShloMosaic.StableHlo Cert.LibAfter Cert.GinSpec
open Cert.Proof.Agg

/-- Every operation of a line writes its own buffer: the single-assignment reading of the line. -/
macro "writes_list" : tactic =>
  `(tactic| repeat (first
      | exact writesList_nil
      | refine writesList_cons (by first
          | exact nullary_writes ..
          | exact unary_writes ..
          | exact binary_writes ..
          | exact ternary_writes ..
          | exact reshape_writes ..) ?_))

/-! ## The pure composite -/

/-- The source words of an edge list: its first row, flattened. -/
def srcWords (e : (⟨S2x1250000, .i32⟩ : BufTy).Contents (Elt Ideal)) : (⟨S1250000, .i32⟩ : BufTy).Contents (Elt Ideal) :=
  shapeCast S1250000 (extractStridedSlice S1x1250000 ![0, 0] e slices_S2x1250000_S1x1250000_0_0) shapeCasts_S1x1250000_S1250000

/-- The destination words of an edge list: its second row, flattened. -/
def dstWords (e : (⟨S2x1250000, .i32⟩ : BufTy).Contents (Elt Ideal)) : (⟨S1250000, .i32⟩ : BufTy).Contents (Elt Ideal) :=
  shapeCast S1250000 (extractStridedSlice S1x1250000 ![1, 0] e slices_S2x1250000_S1x1250000_1_0) shapeCasts_S1x1250000_S1250000

/-- The aggregation from the two word vectors: raise negative source words, look the rows up, add each into its destination row
    of a zero array. -/
def aggK (s d : (⟨S1250000, .i32⟩ : BufTy).Contents (Elt Ideal)) (X : (⟨S100000x64, .f32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 X
      (broadcastInDim S1250000x1 ![0] bcast_S1250000_S1250000x1_0
        (select (cmpi .slt s (broadcastInDim S1250000 ![] bcast_S_S1250000 (constantI S_ 32 0#32 : (⟨S_, .i32⟩ : BufTy).Contents (Elt Ideal))))
          (addi s (broadcastInDim S1250000 ![] bcast_S_S1250000 (constantI S_ 32 100000#32 : (⟨S_, .i32⟩ : BufTy).Contents (Elt Ideal)))) s)))

/-- The composite is the reference program's aggregation: the same operations on the same operands. -/
theorem aggK_eq (e : (⟨S2x1250000, .i32⟩ : BufTy).Contents (Elt Ideal)) (X : (⟨S100000x64, .f32⟩ : BufTy).Contents (Elt Ideal)) :
    aggK (srcWords e) (dstWords e) X = aggR e X := rfl

/-! ## The first line -/

/-- The buffers the first line writes, in order. -/
abbrev Ws0 : List (Ref sig .tc) :=
  [main_v0, main_v1, main_v2, main_v3, main_v4, main_v5, main_v6, main_v7, main_v8, main_v9, main_v10, main_v11, main_v12,
   main_v13, main_v14, main_v15, main_c, main_v16, main_v17, main_c_0, main_v18, main_v19, main_v20, main_v21, main_v22,
   main_cst, main_v23, main_v24, main_v25]

theorem writes0 : WritesList (hostOps0 (F := Ideal)) Ws0 := by writes_list

variable (W : Valuation τ sig (Elt Ideal))

local notation "A0" => after (hostOps0 (F := Ideal)) W

theorem keep0 (a : Ref sig .tc) (ha : a ∉ Ws0) : A0 (Proc.devRef .tc a) = W (Proc.devRef .tc a) :=
  after_keep hostOps0 Ws0 writes0 W a ha

theorem v0_eq : A0 (Proc.devRef .tc main_v0) = extractStridedSlice S1x1250000 ![0, 0] (W (Proc.devRef .tc main_arg1)) slices_S2x1250000_S1x1250000_0_0 := by
  rw [read_unary hostOps0 Ws0 writes0 0 (by decide) W main_arg1 main_v0 (extractStridedSlice S1x1250000 ![0, 0] · slices_S2x1250000_S1x1250000_0_0) (by decide) (by decide) (by rfl) (by decide) (by decide), keep0 W main_arg1 (by decide)]

theorem v1_eq : A0 (Proc.devRef .tc main_v1) = srcWords (W (Proc.devRef .tc main_arg1)) := by
  rw [read_reshape hostOps0 Ws0 writes0 1 (by decide) W main_v0 main_v1 rfl _ (by decide) (by decide) (by rfl) (by decide) (by decide), v0_eq]
  rfl

theorem v2_eq : A0 (Proc.devRef .tc main_v2) = extractStridedSlice S1x1250000 ![1, 0] (W (Proc.devRef .tc main_arg1)) slices_S2x1250000_S1x1250000_1_0 := by
  rw [read_unary hostOps0 Ws0 writes0 2 (by decide) W main_arg1 main_v2 (extractStridedSlice S1x1250000 ![1, 0] · slices_S2x1250000_S1x1250000_1_0) (by decide) (by decide) (by rfl) (by decide) (by decide), keep0 W main_arg1 (by decide)]

theorem v3_eq : A0 (Proc.devRef .tc main_v3) = dstWords (W (Proc.devRef .tc main_arg1)) := by
  rw [read_reshape hostOps0 Ws0 writes0 3 (by decide) W main_v2 main_v3 rfl _ (by decide) (by decide) (by rfl) (by decide) (by decide), v2_eq]
  rfl

/-- After the first line the aggregation buffer holds the aggregation, by the source and destination words the line leaves, of
    the features. -/
theorem v25_eq : A0 (Proc.devRef .tc main_v25)
    = aggK (A0 (Proc.devRef .tc main_v1)) (A0 (Proc.devRef .tc main_v3)) (W (Proc.devRef .tc main_arg0)) := by
  rw [read_ternary hostOps0 Ws0 writes0 28 (by decide) W main_v23 main_v24 main_v22 main_v25 ((fun x i u => Host.scatterAdd (F := Ideal) scatter_S100000x64_S1250000x1_S1250000x64_1_0_0_1 x i u) : (⟨S100000x64, .f32⟩ : BufTy).Contents (Elt Ideal) → (⟨S1250000x1, .i32⟩ : BufTy).Contents (Elt Ideal) → (⟨S1250000x64, .f32⟩ : BufTy).Contents (Elt Ideal) → (⟨S100000x64, .f32⟩ : BufTy).Contents (Elt Ideal)) (by decide) (by decide) (by decide) (by decide) (by rfl) (by decide) (by decide) (by decide) (by decide),
    read_unary hostOps0 Ws0 writes0 26 (by decide) W main_cst main_v23 (broadcastInDim S100000x64 ![] bcast_S_S100000x64) (by decide) (by decide) (by rfl) (by decide) (by decide),
    read_nullary hostOps0 Ws0 writes0 25 (by decide) W main_cst (constant (F := Ideal) S_ .f32 0x00000000#32) (by decide) (by rfl) (by decide),
    read_unary hostOps0 Ws0 writes0 27 (by decide) W main_v3 main_v24 (broadcastInDim S1250000x1 ![0] bcast_S1250000_S1250000x1_0) (by decide) (by decide) (by rfl) (by decide) (by decide),
    read_binary hostOps0 Ws0 writes0 24 (by decide) W main_arg0 main_v21 main_v22 ((fun x i => Host.gather gather_S100000x64_S1250000x1_S1250000x64_1_0_n_n_0_1_164 x i) : (⟨S100000x64, .f32⟩ : BufTy).Contents (Elt Ideal) → (⟨S1250000x1, .i32⟩ : BufTy).Contents (Elt Ideal) → (⟨S1250000x64, .f32⟩ : BufTy).Contents (Elt Ideal)) (by decide) (by decide) (by decide) (by rfl) (by decide) (by decide) (by decide),
    keep0 W main_arg0 (by decide),
    read_unary hostOps0 Ws0 writes0 23 (by decide) W main_v20 main_v21 (broadcastInDim S1250000x1 ![0] bcast_S1250000_S1250000x1_0) (by decide) (by decide) (by rfl) (by decide) (by decide),
    read_ternary hostOps0 Ws0 writes0 22 (by decide) W main_v17 main_v19 main_v1 main_v20 select (by decide) (by decide) (by decide) (by decide) (by rfl) (by decide) (by decide) (by decide) (by decide),
    read_binary hostOps0 Ws0 writes0 18 (by decide) W main_v1 main_v16 main_v17 (cmpi .slt) (by decide) (by decide) (by decide) (by rfl) (by decide) (by decide) (by decide),
    read_unary hostOps0 Ws0 writes0 17 (by decide) W main_c main_v16 (broadcastInDim S1250000 ![] bcast_S_S1250000) (by decide) (by decide) (by rfl) (by decide) (by decide),
    read_nullary hostOps0 Ws0 writes0 16 (by decide) W main_c (constantI S_ 32 0#32) (by decide) (by rfl) (by decide),
    read_binary hostOps0 Ws0 writes0 21 (by decide) W main_v1 main_v18 main_v19 addi (by decide) (by decide) (by decide) (by rfl) (by decide) (by decide) (by decide),
    read_unary hostOps0 Ws0 writes0 20 (by decide) W main_c_0 main_v18 (broadcastInDim S1250000 ![] bcast_S_S1250000) (by decide) (by decide) (by rfl) (by decide) (by decide),
    read_nullary hostOps0 Ws0 writes0 19 (by decide) W main_c_0 (constantI S_ 32 100000#32) (by decide) (by rfl) (by decide)]
  rfl

/-- A 64-vector laid out as a 1 × 64 row reads, at column j, the vector's entry j. -/
theorem ofRow_reshape (b : (⟨S64, .f32⟩ : BufTy).Contents (Elt Ideal)) (h : S64.ShapeCasts S1x64) :
    ofRow (shapeCast S1x64 b h) = ofVec b := by
  funext j
  show shapeCast S1x64 b h (ValueIdx.ix2 (0 : Fin 1) j) = b (ValueIdx.ix1 j)
  rw [shapeCast_addUnit_apply (d := ![64])]
  congr 1
  funext a
  match a with
  | ⟨0, _⟩ => rfl

theorem main_v4_row : ofRow (A0 (Proc.devRef .tc main_v4)) = ofVec (W (Proc.devRef .tc main_arg3)) := by
  rw [read_reshape hostOps0 Ws0 writes0 4 (by decide) W main_arg3 main_v4 rfl shapeCasts_S64_S1x64 (by decide) (by decide) (by rfl) (by decide) (by decide), keep0 W main_arg3 (by decide)]
  exact ofRow_reshape _ _

theorem main_v5_row : ofRow (A0 (Proc.devRef .tc main_v5)) = ofVec (W (Proc.devRef .tc main_arg4)) := by
  rw [read_reshape hostOps0 Ws0 writes0 5 (by decide) W main_arg4 main_v5 rfl shapeCasts_S64_S1x64 (by decide) (by decide) (by rfl) (by decide) (by decide), keep0 W main_arg4 (by decide)]
  exact ofRow_reshape _ _

theorem main_v6_row : ofRow (A0 (Proc.devRef .tc main_v6)) = ofVec (W (Proc.devRef .tc main_arg5)) := by
  rw [read_reshape hostOps0 Ws0 writes0 6 (by decide) W main_arg5 main_v6 rfl shapeCasts_S64_S1x64 (by decide) (by decide) (by rfl) (by decide) (by decide), keep0 W main_arg5 (by decide)]
  exact ofRow_reshape _ _

theorem main_v7_row : ofRow (A0 (Proc.devRef .tc main_v7)) = ofVec (W (Proc.devRef .tc main_arg7)) := by
  rw [read_reshape hostOps0 Ws0 writes0 7 (by decide) W main_arg7 main_v7 rfl shapeCasts_S64_S1x64 (by decide) (by decide) (by rfl) (by decide) (by decide), keep0 W main_arg7 (by decide)]
  exact ofRow_reshape _ _

theorem main_v8_row : ofRow (A0 (Proc.devRef .tc main_v8)) = ofVec (W (Proc.devRef .tc main_arg8)) := by
  rw [read_reshape hostOps0 Ws0 writes0 8 (by decide) W main_arg8 main_v8 rfl shapeCasts_S64_S1x64 (by decide) (by decide) (by rfl) (by decide) (by decide), keep0 W main_arg8 (by decide)]
  exact ofRow_reshape _ _

theorem main_v9_row : ofRow (A0 (Proc.devRef .tc main_v9)) = ofVec (W (Proc.devRef .tc main_arg9)) := by
  rw [read_reshape hostOps0 Ws0 writes0 9 (by decide) W main_arg9 main_v9 rfl shapeCasts_S64_S1x64 (by decide) (by decide) (by rfl) (by decide) (by decide), keep0 W main_arg9 (by decide)]
  exact ofRow_reshape _ _

theorem main_v10_row : ofRow (A0 (Proc.devRef .tc main_v10)) = ofVec (W (Proc.devRef .tc main_arg11)) := by
  rw [read_reshape hostOps0 Ws0 writes0 10 (by decide) W main_arg11 main_v10 rfl shapeCasts_S64_S1x64 (by decide) (by decide) (by rfl) (by decide) (by decide), keep0 W main_arg11 (by decide)]
  exact ofRow_reshape _ _

theorem main_v11_row : ofRow (A0 (Proc.devRef .tc main_v11)) = ofVec (W (Proc.devRef .tc main_arg12)) := by
  rw [read_reshape hostOps0 Ws0 writes0 11 (by decide) W main_arg12 main_v11 rfl shapeCasts_S64_S1x64 (by decide) (by decide) (by rfl) (by decide) (by decide), keep0 W main_arg12 (by decide)]
  exact ofRow_reshape _ _

theorem main_v12_row : ofRow (A0 (Proc.devRef .tc main_v12)) = ofVec (W (Proc.devRef .tc main_arg13)) := by
  rw [read_reshape hostOps0 Ws0 writes0 12 (by decide) W main_arg13 main_v12 rfl shapeCasts_S64_S1x64 (by decide) (by decide) (by rfl) (by decide) (by decide), keep0 W main_arg13 (by decide)]
  exact ofRow_reshape _ _

theorem main_v13_row : ofRow (A0 (Proc.devRef .tc main_v13)) = ofVec (W (Proc.devRef .tc main_arg15)) := by
  rw [read_reshape hostOps0 Ws0 writes0 13 (by decide) W main_arg15 main_v13 rfl shapeCasts_S64_S1x64 (by decide) (by decide) (by rfl) (by decide) (by decide), keep0 W main_arg15 (by decide)]
  exact ofRow_reshape _ _

theorem main_v14_row : ofRow (A0 (Proc.devRef .tc main_v14)) = ofVec (W (Proc.devRef .tc main_arg16)) := by
  rw [read_reshape hostOps0 Ws0 writes0 14 (by decide) W main_arg16 main_v14 rfl shapeCasts_S64_S1x64 (by decide) (by decide) (by rfl) (by decide) (by decide), keep0 W main_arg16 (by decide)]
  exact ofRow_reshape _ _

theorem main_v15_row : ofRow (A0 (Proc.devRef .tc main_v15)) = ofVec (W (Proc.devRef .tc main_arg17)) := by
  rw [read_reshape hostOps0 Ws0 writes0 15 (by decide) W main_arg17 main_v15 rfl shapeCasts_S64_S1x64 (by decide) (by decide) (by rfl) (by decide) (by decide), keep0 W main_arg17 (by decide)]
  exact ofRow_reshape _ _

/-! ## The line before the fourth launch -/

/-- The buffers that line writes, in order. -/
abbrev Ws3 : List (Ref sig .tc) :=
  [main_c_5, main_v41, main_v42, main_c_6, main_v43, main_v44, main_v45, main_v46, main_v47, main_cst_7, main_v48, main_v49, main_v50]

theorem writes3 : WritesList (hostOps3 (F := Ideal)) Ws3 := by writes_list

local notation "A3" => after (hostOps3 (F := Ideal)) W

theorem keep3 (a : Ref sig .tc) (ha : a ∉ Ws3) : A3 (Proc.devRef .tc a) = W (Proc.devRef .tc a) :=
  after_keep hostOps3 Ws3 writes3 W a ha

/-- After that line the second aggregation buffer holds the aggregation, by the words the first line left, of the first layer's
    output. -/
theorem v50_eq : A3 (Proc.devRef .tc main_v50)
    = aggK (W (Proc.devRef .tc main_v1)) (W (Proc.devRef .tc main_v3)) (W (Proc.devRef .tc main_v40)) := by
  rw [read_ternary hostOps3 Ws3 writes3 12 (by decide) W main_v48 main_v49 main_v47 main_v50 ((fun x i u => Host.scatterAdd (F := Ideal) scatter_S100000x64_S1250000x1_S1250000x64_1_0_0_1 x i u) : (⟨S100000x64, .f32⟩ : BufTy).Contents (Elt Ideal) → (⟨S1250000x1, .i32⟩ : BufTy).Contents (Elt Ideal) → (⟨S1250000x64, .f32⟩ : BufTy).Contents (Elt Ideal) → (⟨S100000x64, .f32⟩ : BufTy).Contents (Elt Ideal)) (by decide) (by decide) (by decide) (by decide) (by rfl) (by decide) (by decide) (by decide) (by decide),
    read_unary hostOps3 Ws3 writes3 10 (by decide) W main_cst_7 main_v48 (broadcastInDim S100000x64 ![] bcast_S_S100000x64) (by decide) (by decide) (by rfl) (by decide) (by decide),
    read_nullary hostOps3 Ws3 writes3 9 (by decide) W main_cst_7 (constant (F := Ideal) S_ .f32 0x00000000#32) (by decide) (by rfl) (by decide),
    read_unary hostOps3 Ws3 writes3 11 (by decide) W main_v3 main_v49 (broadcastInDim S1250000x1 ![0] bcast_S1250000_S1250000x1_0) (by decide) (by decide) (by rfl) (by decide) (by decide),
    keep3 W main_v3 (by decide),
    read_binary hostOps3 Ws3 writes3 8 (by decide) W main_v40 main_v46 main_v47 ((fun x i => Host.gather gather_S100000x64_S1250000x1_S1250000x64_1_0_n_n_0_1_164 x i) : (⟨S100000x64, .f32⟩ : BufTy).Contents (Elt Ideal) → (⟨S1250000x1, .i32⟩ : BufTy).Contents (Elt Ideal) → (⟨S1250000x64, .f32⟩ : BufTy).Contents (Elt Ideal)) (by decide) (by decide) (by decide) (by rfl) (by decide) (by decide) (by decide),
    keep3 W main_v40 (by decide),
    read_unary hostOps3 Ws3 writes3 7 (by decide) W main_v45 main_v46 (broadcastInDim S1250000x1 ![0] bcast_S1250000_S1250000x1_0) (by decide) (by decide) (by rfl) (by decide) (by decide),
    read_ternary hostOps3 Ws3 writes3 6 (by decide) W main_v42 main_v44 main_v1 main_v45 select (by decide) (by decide) (by decide) (by decide) (by rfl) (by decide) (by decide) (by decide) (by decide),
    read_binary hostOps3 Ws3 writes3 2 (by decide) W main_v1 main_v41 main_v42 (cmpi .slt) (by decide) (by decide) (by decide) (by rfl) (by decide) (by decide) (by decide),
    read_unary hostOps3 Ws3 writes3 1 (by decide) W main_c_5 main_v41 (broadcastInDim S1250000 ![] bcast_S_S1250000) (by decide) (by decide) (by rfl) (by decide) (by decide),
    read_nullary hostOps3 Ws3 writes3 0 (by decide) W main_c_5 (constantI S_ 32 0#32) (by decide) (by rfl) (by decide),
    read_binary hostOps3 Ws3 writes3 5 (by decide) W main_v1 main_v43 main_v44 addi (by decide) (by decide) (by decide) (by rfl) (by decide) (by decide) (by decide),
    read_unary hostOps3 Ws3 writes3 4 (by decide) W main_c_6 main_v43 (broadcastInDim S1250000 ![] bcast_S_S1250000) (by decide) (by decide) (by rfl) (by decide) (by decide),
    read_nullary hostOps3 Ws3 writes3 3 (by decide) W main_c_6 (constantI S_ 32 100000#32) (by decide) (by rfl) (by decide),
    keep3 W main_v1 (by decide)]
  rfl

end Cert.KernelIdeal.HostAgg

end
-- ==== Proof.HostStats.lean ====
/-
  The host lines of the kernel program that turn column sums into column statistics, read back. After each launch that
  accumulates, for every column, the sum and the sum of squares over all rows, a line of eight operations divides both rows by
  the node count (a broadcast float word) and subtracts the square of the first quotient from the second: the mean row and
  the one-pass variance row the next launch reads.
-/
import proofs.«129487_j15015205667099_1_alg».proof.Proof.Gen.KernelIdeal.Launch
import proofs.«129487_j15015205667099_1_alg».proof.Proof.LibAfterRead
import proofs.«129487_j15015205667099_1_alg».proof.Proof.GinSpec
import Idealize.ShloMosaic.Lib.StableHlo.Run
import Idealize.ShloMosaic.Lib.ValueIdx

noncomputable section

namespace Cert.KernelIdeal.HostStats

open Cert.KernelIdeal Cert.KernelIdeal.Gen Idealize.ShloMosaic Idealize.ShloMosaic.StableHlo Cert.LibAfter Cert.GinSpec

/-- Every operation of a line writes its own buffer: the single-assignment reading of the line. -/
macro "writes_list" : tactic =>
  `(tactic| repeat (first
      | exact writesList_nil
      | refine writesList_cons (by first
          | exact nullary_writes ..
          | exact unary_writes ..
          | exact binary_writes ..
          | exact ternary_writes ..
          | exact reshape_writes ..) ?_))

/-! ## The pure rows -/

/-- The row of node counts: the count's float word at every column. -/
abbrev countRow : (⟨S1x64, .f32⟩ : BufTy).Contents (Elt Ideal) :=
  broadcastInDim S1x64 ![] bcast_S_S1x64 (constant (F := Ideal) S_ .f32 0x47C35000#32)

/-- A row divided by the row of node counts is, column by column, the quotient by the count. -/
theorem mean_row (s : (⟨S1x64, .f32⟩ : BufTy).Contents (Elt Ideal)) :
    ofRow (Host.divf (F := Ideal) (s := S1x64) (φ := .f32) s countRow) = fun j => Ideal.div (ofRow s j) NW := rfl

/-- The quotient of the second row less the square of the quotient of the first, column by column. -/
theorem var_row (s ss : (⟨S1x64, .f32⟩ : BufTy).Contents (Elt Ideal)) :
    ofRow (subf (F := Ideal) (s := S1x64) (φ := .f32) (Host.divf (F := Ideal) ss countRow) (mulf (F := Ideal) (Host.divf (F := Ideal) s countRow) (Host.divf (F := Ideal) s countRow)))
      = fun j => Ideal.div (ofRow ss j) NW - Ideal.div (ofRow s j) NW * Ideal.div (ofRow s j) NW := rfl

variable (W : Valuation τ sig (Elt Ideal))

/-! ## The line after launch 0 -/

/-- The buffers that line writes, in order. -/
abbrev Ws1 : List (Ref sig .tc) := [main_cst_1, main_v27, main_v28, main_cst_2, main_v29, main_v30, main_v31, main_v32]

theorem writes1 : WritesList (hostOps1 (F := Ideal)) Ws1 := by writes_list

theorem keep1 (a : Ref sig .tc) (ha : a ∉ Ws1) : after (hostOps1 (F := Ideal)) W (Proc.devRef .tc a) = W (Proc.devRef .tc a) :=
  after_keep hostOps1 Ws1 writes1 W a ha

/-- The mean row: the column sums divided by the node count. -/
theorem main_v28_row : ofRow (after (hostOps1 (F := Ideal)) W (Proc.devRef .tc main_v28))
    = fun j => Ideal.div (ofRow (W (Proc.devRef .tc main_v26_1)) j) NW := by
  rw [read_binary hostOps1 Ws1 writes1 2 (by decide) W main_v26_1 main_v27 main_v28 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep1 W main_v26_1 (by decide),
    read_unary hostOps1 Ws1 writes1 1 (by decide) W main_cst_1 main_v27 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps1 Ws1 writes1 0 (by decide) W main_cst_1 (constant (F := Ideal) S_ .f32 0x47C35000#32) (by decide) (by rfl) (by decide)]
  exact mean_row _

/-- The variance row: the column sums of squares divided by the node count, less the square of the mean. -/
theorem main_v32_row : ofRow (after (hostOps1 (F := Ideal)) W (Proc.devRef .tc main_v32))
    = fun j => Ideal.div (ofRow (W (Proc.devRef .tc main_v26_2)) j) NW
        - Ideal.div (ofRow (W (Proc.devRef .tc main_v26_1)) j) NW * Ideal.div (ofRow (W (Proc.devRef .tc main_v26_1)) j) NW := by
  rw [read_binary hostOps1 Ws1 writes1 7 (by decide) W main_v30 main_v31 main_v32 (subf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps1 Ws1 writes1 6 (by decide) W main_v28 main_v28 main_v31 (mulf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps1 Ws1 writes1 5 (by decide) W main_v26_2 main_v29 main_v30 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep1 W main_v26_2 (by decide),
    read_unary hostOps1 Ws1 writes1 4 (by decide) W main_cst_2 main_v29 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps1 Ws1 writes1 3 (by decide) W main_cst_2 (constant (F := Ideal) S_ .f32 0x47C35000#32) (by decide) (by rfl) (by decide),
    read_binary hostOps1 Ws1 writes1 2 (by decide) W main_v26_1 main_v27 main_v28 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep1 W main_v26_1 (by decide),
    read_unary hostOps1 Ws1 writes1 1 (by decide) W main_cst_1 main_v27 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps1 Ws1 writes1 0 (by decide) W main_cst_1 (constant (F := Ideal) S_ .f32 0x47C35000#32) (by decide) (by rfl) (by decide)]
  exact var_row _ _

/-! ## The line after launch 1 -/

/-- The buffers that line writes, in order. -/
abbrev Ws2 : List (Ref sig .tc) := [main_cst_3, main_v34, main_v35, main_cst_4, main_v36, main_v37, main_v38, main_v39]

theorem writes2 : WritesList (hostOps2 (F := Ideal)) Ws2 := by writes_list

theorem keep2 (a : Ref sig .tc) (ha : a ∉ Ws2) : after (hostOps2 (F := Ideal)) W (Proc.devRef .tc a) = W (Proc.devRef .tc a) :=
  after_keep hostOps2 Ws2 writes2 W a ha

/-- The mean row: the column sums divided by the node count. -/
theorem main_v35_row : ofRow (after (hostOps2 (F := Ideal)) W (Proc.devRef .tc main_v35))
    = fun j => Ideal.div (ofRow (W (Proc.devRef .tc main_v33_1)) j) NW := by
  rw [read_binary hostOps2 Ws2 writes2 2 (by decide) W main_v33_1 main_v34 main_v35 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep2 W main_v33_1 (by decide),
    read_unary hostOps2 Ws2 writes2 1 (by decide) W main_cst_3 main_v34 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps2 Ws2 writes2 0 (by decide) W main_cst_3 (constant (F := Ideal) S_ .f32 0x47C35000#32) (by decide) (by rfl) (by decide)]
  exact mean_row _

/-- The variance row: the column sums of squares divided by the node count, less the square of the mean. -/
theorem main_v39_row : ofRow (after (hostOps2 (F := Ideal)) W (Proc.devRef .tc main_v39))
    = fun j => Ideal.div (ofRow (W (Proc.devRef .tc main_v33_2)) j) NW
        - Ideal.div (ofRow (W (Proc.devRef .tc main_v33_1)) j) NW * Ideal.div (ofRow (W (Proc.devRef .tc main_v33_1)) j) NW := by
  rw [read_binary hostOps2 Ws2 writes2 7 (by decide) W main_v37 main_v38 main_v39 (subf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps2 Ws2 writes2 6 (by decide) W main_v35 main_v35 main_v38 (mulf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps2 Ws2 writes2 5 (by decide) W main_v33_2 main_v36 main_v37 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep2 W main_v33_2 (by decide),
    read_unary hostOps2 Ws2 writes2 4 (by decide) W main_cst_4 main_v36 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps2 Ws2 writes2 3 (by decide) W main_cst_4 (constant (F := Ideal) S_ .f32 0x47C35000#32) (by decide) (by rfl) (by decide),
    read_binary hostOps2 Ws2 writes2 2 (by decide) W main_v33_1 main_v34 main_v35 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep2 W main_v33_1 (by decide),
    read_unary hostOps2 Ws2 writes2 1 (by decide) W main_cst_3 main_v34 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps2 Ws2 writes2 0 (by decide) W main_cst_3 (constant (F := Ideal) S_ .f32 0x47C35000#32) (by decide) (by rfl) (by decide)]
  exact var_row _ _

/-! ## The line after launch 3 -/

/-- The buffers that line writes, in order. -/
abbrev Ws4 : List (Ref sig .tc) := [main_cst_8, main_v52, main_v53, main_cst_9, main_v54, main_v55, main_v56, main_v57]

theorem writes4 : WritesList (hostOps4 (F := Ideal)) Ws4 := by writes_list

theorem keep4 (a : Ref sig .tc) (ha : a ∉ Ws4) : after (hostOps4 (F := Ideal)) W (Proc.devRef .tc a) = W (Proc.devRef .tc a) :=
  after_keep hostOps4 Ws4 writes4 W a ha

/-- The mean row: the column sums divided by the node count. -/
theorem main_v53_row : ofRow (after (hostOps4 (F := Ideal)) W (Proc.devRef .tc main_v53))
    = fun j => Ideal.div (ofRow (W (Proc.devRef .tc main_v51_1)) j) NW := by
  rw [read_binary hostOps4 Ws4 writes4 2 (by decide) W main_v51_1 main_v52 main_v53 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep4 W main_v51_1 (by decide),
    read_unary hostOps4 Ws4 writes4 1 (by decide) W main_cst_8 main_v52 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps4 Ws4 writes4 0 (by decide) W main_cst_8 (constant (F := Ideal) S_ .f32 0x47C35000#32) (by decide) (by rfl) (by decide)]
  exact mean_row _

/-- The variance row: the column sums of squares divided by the node count, less the square of the mean. -/
theorem main_v57_row : ofRow (after (hostOps4 (F := Ideal)) W (Proc.devRef .tc main_v57))
    = fun j => Ideal.div (ofRow (W (Proc.devRef .tc main_v51_2)) j) NW
        - Ideal.div (ofRow (W (Proc.devRef .tc main_v51_1)) j) NW * Ideal.div (ofRow (W (Proc.devRef .tc main_v51_1)) j) NW := by
  rw [read_binary hostOps4 Ws4 writes4 7 (by decide) W main_v55 main_v56 main_v57 (subf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps4 Ws4 writes4 6 (by decide) W main_v53 main_v53 main_v56 (mulf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps4 Ws4 writes4 5 (by decide) W main_v51_2 main_v54 main_v55 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep4 W main_v51_2 (by decide),
    read_unary hostOps4 Ws4 writes4 4 (by decide) W main_cst_9 main_v54 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps4 Ws4 writes4 3 (by decide) W main_cst_9 (constant (F := Ideal) S_ .f32 0x47C35000#32) (by decide) (by rfl) (by decide),
    read_binary hostOps4 Ws4 writes4 2 (by decide) W main_v51_1 main_v52 main_v53 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep4 W main_v51_1 (by decide),
    read_unary hostOps4 Ws4 writes4 1 (by decide) W main_cst_8 main_v52 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps4 Ws4 writes4 0 (by decide) W main_cst_8 (constant (F := Ideal) S_ .f32 0x47C35000#32) (by decide) (by rfl) (by decide)]
  exact var_row _ _

/-! ## The line after launch 4 -/

/-- The buffers that line writes, in order. -/
abbrev Ws5 : List (Ref sig .tc) := [main_cst_10, main_v59, main_v60, main_cst_11, main_v61, main_v62, main_v63, main_v64]

theorem writes5 : WritesList (hostOps5 (F := Ideal)) Ws5 := by writes_list

theorem keep5 (a : Ref sig .tc) (ha : a ∉ Ws5) : after (hostOps5 (F := Ideal)) W (Proc.devRef .tc a) = W (Proc.devRef .tc a) :=
  after_keep hostOps5 Ws5 writes5 W a ha

/-- The mean row: the column sums divided by the node count. -/
theorem main_v60_row : ofRow (after (hostOps5 (F := Ideal)) W (Proc.devRef .tc main_v60))
    = fun j => Ideal.div (ofRow (W (Proc.devRef .tc main_v58_1)) j) NW := by
  rw [read_binary hostOps5 Ws5 writes5 2 (by decide) W main_v58_1 main_v59 main_v60 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep5 W main_v58_1 (by decide),
    read_unary hostOps5 Ws5 writes5 1 (by decide) W main_cst_10 main_v59 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps5 Ws5 writes5 0 (by decide) W main_cst_10 (constant (F := Ideal) S_ .f32 0x47C35000#32) (by decide) (by rfl) (by decide)]
  exact mean_row _

/-- The variance row: the column sums of squares divided by the node count, less the square of the mean. -/
theorem main_v64_row : ofRow (after (hostOps5 (F := Ideal)) W (Proc.devRef .tc main_v64))
    = fun j => Ideal.div (ofRow (W (Proc.devRef .tc main_v58_2)) j) NW
        - Ideal.div (ofRow (W (Proc.devRef .tc main_v58_1)) j) NW * Ideal.div (ofRow (W (Proc.devRef .tc main_v58_1)) j) NW := by
  rw [read_binary hostOps5 Ws5 writes5 7 (by decide) W main_v62 main_v63 main_v64 (subf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps5 Ws5 writes5 6 (by decide) W main_v60 main_v60 main_v63 (mulf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide),
    read_binary hostOps5 Ws5 writes5 5 (by decide) W main_v58_2 main_v61 main_v62 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep5 W main_v58_2 (by decide),
    read_unary hostOps5 Ws5 writes5 4 (by decide) W main_cst_11 main_v61 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps5 Ws5 writes5 3 (by decide) W main_cst_11 (constant (F := Ideal) S_ .f32 0x47C35000#32) (by decide) (by rfl) (by decide),
    read_binary hostOps5 Ws5 writes5 2 (by decide) W main_v58_1 main_v59 main_v60 (Host.divf (F := Ideal) : (⟨S1x64, .f32⟩ : BufTy).Contents (Elt Ideal) → (⟨S1x64, .f32⟩ : BufTy).Contents (Elt Ideal) → (⟨S1x64, .f32⟩ : BufTy).Contents (Elt Ideal)) (by decide) (by decide) (by decide) (by rfl) (by decide) (by decide) (by decide), keep5 W main_v58_1 (by decide),
    read_unary hostOps5 Ws5 writes5 1 (by decide) W main_cst_10 main_v59 (broadcastInDim S1x64 ![] bcast_S_S1x64 : (⟨S_, .f32⟩ : BufTy).Contents (Elt Ideal) → (⟨S1x64, .f32⟩ : BufTy).Contents (Elt Ideal)) (by decide) (by decide) (by rfl) (by decide) (by decide),
    read_nullary hostOps5 Ws5 writes5 0 (by decide) W main_cst_10 (constant (F := Ideal) S_ .f32 0x47C35000#32) (by decide) (by rfl) (by decide)]
  exact var_row _ _

end Cert.KernelIdeal.HostStats

end
-- ==== Proof.LibRowSum.lean ====
/-
  Sums over the 100000 rows of a 100000 × 64 array, cut into 20 consecutive blocks of 5000 rows.

  A column of the array is read as a function of a natural row number (zero past the last row), so that the sum over the
  first 5000·(n+1) rows is a sum over an initial segment of the naturals.  Adding block n+1's 5000 rows to the sum over the
  first 5000·(n+1) rows gives the sum over the first 5000·(n+2) rows, and the sum over all 100000 rows is the column sum.
-/
import proofs.«129487_j15015205667099_1_alg».proof.Proof.GinSpec

noncomputable section

namespace Cert.RowSum

open Cert.GinSpec Idealize.ShloMosaic Idealize.ShloMosaic.ValueIdx
open scoped BigOperators

/-- Column q of Z at the natural row number r: the entry when r is a row, zero beyond the last row. -/
def rowFn (Z : SN.Idx → EReal) (q : Fin 64) (r : ℕ) : EReal :=
  if h : r < 100000 then Z (ix2 ⟨r, h⟩ q) else 0

theorem rowFn_of_lt (Z : SN.Idx → EReal) (q : Fin 64) (r : ℕ) (h : r < 100000) :
    rowFn Z q r = Z (ix2 ⟨r, h⟩ q) := dif_pos h

/-- The column of the entrywise squares is the square of the column. -/
theorem rowFn_sq (Z : SN.Idx → EReal) (q : Fin 64) (r : ℕ) :
    rowFn (fun i => Z i * Z i) q r = rowFn Z q r * rowFn Z q r := by
  unfold rowFn
  by_cases h : r < 100000
  · rw [dif_pos h, dif_pos h]
  · rw [dif_neg h, dif_neg h, mul_zero]

/-- The sum over all 100000 natural row numbers is the column sum. -/
theorem sum_all (Z : SN.Idx → EReal) (q : Fin 64) :
    ∑ r ∈ Finset.range 100000, rowFn Z q r = colSum Z q := by
  rw [Finset.sum_range]
  unfold colSum
  exact Finset.sum_congr rfl fun r _ => rowFn_of_lt Z q r.val r.isLt

/-- The same for the squares. -/
theorem sum_all_sq (Z : SN.Idx → EReal) (q : Fin 64) :
    ∑ r ∈ Finset.range 100000, rowFn (fun i => Z i * Z i) q r = colSumSq Z q :=
  sum_all (fun i => Z i * Z i) q

/-- Block 0: a value a that is zero plus the 5000 entries of the first block is the sum over the first 5000 rows. -/
theorem first_block (f : ℕ → EReal) (a : EReal) (b : Fin 5000 → EReal) (ha : a = 0)
    (hb : ∀ p : Fin 5000, b p = f (5000 * 0 + p.val)) :
    a + ∑ p, b p = ∑ r ∈ Finset.range (5000 * (0 + 1)), f r := by
  rw [ha, zero_add, Finset.sum_range]
  exact Finset.sum_congr rfl fun p _ => (hb p).trans (by rw [Nat.mul_zero, Nat.zero_add])

/-- Block n+1: the sum over the first 5000·(n+1) rows plus the 5000 entries of block n+1 is the sum over the first
    5000·(n+2) rows. -/
theorem next_block (f : ℕ → EReal) (n : ℕ) (a : EReal) (b : Fin 5000 → EReal)
    (ha : a = ∑ r ∈ Finset.range (5000 * (n + 1)), f r)
    (hb : ∀ p : Fin 5000, b p = f (5000 * (n + 1) + p.val)) :
    a + ∑ p, b p = ∑ r ∈ Finset.range (5000 * (n + 1 + 1)), f r := by
  rw [show 5000 * (n + 1 + 1) = 5000 * (n + 1) + 5000 by ring, Finset.sum_range_add, ha, Finset.sum_range (fun x => f (5000 * (n + 1) + x))]
  exact congrArg _ (Finset.sum_congr rfl fun p _ => hb p)

end Cert.RowSum
-- ==== Proof.R0Pay.lean ====
/-
  The arithmetic of one grid point of the first affine layer, read entry by entry on the extended reals.

  A point holds a block of 5000 rows of x and of the aggregated neighbours, the 64 × 64 weight matrix and the bias row.
  The affine payload at (p, q) is  Σ_k (x(p,k) + agg(p,k)) · w(k,q) + b(q):  the narrowing of the product's operands is
  the identity on the extended reals, and the product is accumulated onto the zero block.  The two statistics payloads
  add to a running row of 64 entries the block's column sums of the affine payload and of its squares.
-/
import proofs.«129487_j15015205667099_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Cert.KernelIdeal Cert.KernelIdeal.Gen Idealize.ShloMosaic Idealize.ShloMosaic.ValueIdx
open scoped BigOperators

/-- The matrix product of a 5000 × 64 block with a 64 × 64 matrix, accumulated onto zero, at row p and column q:
    the sum over the 64 contraction positions of the products. -/
theorem mm_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide),
          dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide),
          dif_pos (show (1 : Fin S64x64.rank) ∈ dot_S5000x64_S64x64_S5000x64_1_0_0_1_n_n.rhsNonContracting by decide)]
        rfl)
  rw [el, er]

/-- The sum of a 5000 × 64 block over its rows, at column q. -/
theorem colred_apply (src : FVec Ideal S5000x64 .f32) (hacc : (0x00000000#32 : BitVec 32) = 0x00000000#32) (q : Fin 64) :
    multiReduction .add [0] S64 src 0x00000000#32 reduces_S5000x64_S64 (.inl rfl) hacc (ix1 q) = ∑ p : Fin 5000, src (ix2 p q) := by
  refine (Ideal.multiReduction_add_single src 0x00000000#32 reduces_S5000x64_S64 (.inl rfl) hacc (ix1 q)).trans ?_
  refine Finset.sum_congr rfl fun k _ => congrArg src ?_
  funext a
  apply Fin.ext
  match a with
  | ⟨0, _⟩ => rfl
  | ⟨1, _⟩ => rfl

/-- The affine payload at row p and column q: the block sum x0 + x1, times the matrix, plus the bias row. -/
theorem pay3_apply (x0 x1 : Vec Ideal S5000x64 .f32) (x2 : Vec Ideal S64x64 .f32) (x3 : Vec Ideal S1x64 .f32)
    (p : Fin 5000) (q : Fin 64) :
    k0_pay3 (F := Ideal) x0 x1 x2 x3 (ix2 p q)
      = (∑ k : Fin 64, (x0 (ix2 p k) + x1 (ix2 p k)) * x2 (ix2 k q)) + x3 (ix2 (0 : Fin 1) q) := by
  unfold k0_pay3
  show (matmul (F := Ideal) dot_S5000x64_S64x64_S5000x64_1_0_0_1_n_n none _ _ (constant S5000x64 .f32 0x00000000#32) (ix2 p q) : EReal)
      + (broadcastTo S5000x64 (shapeCast S1x64 x3 shapeCasts_S1x64_S1x64) broadcasts_S1x64_S5000x64 (ix2 p q) : EReal) = _
  rw [mm_apply, broadcastTo_1b_ab_apply, shapeCast_self, shapeCast_self]
  rfl

/-- The column-sum payload at column q: the running row plus the block's column sum of the affine payload. -/
theorem pay4_apply (x0 x1 : Vec Ideal S5000x64 .f32) (x2 : Vec Ideal S64x64 .f32) (x3 : Vec Ideal S1x64 .f32)
    (acc : Vec Ideal S1x64 .f32) (u : Fin 1) (q : Fin 64) :
    k0_pay4 (F := Ideal) x0 x1 x2 x3 acc (ix2 u q)
      = acc (ix2 u q) + ∑ p : Fin 5000, k0_pay3 (F := Ideal) x0 x1 x2 x3 (ix2 p q) := by
  unfold k0_pay4
  show (shapeCast S1x64 acc shapeCasts_S1x64_S1x64 (ix2 u q) : EReal)
      + (shapeCast S1x64 (multiReduction .add [0] S64 (k0_pay3 (F := Ideal) x0 x1 x2 x3) 0x00000000#32 reduces_S5000x64_S64 (.inl rfl) rfl)
          shapeCasts_S64_S1x64 (ix2 u q) : EReal) = _
  rw [shapeCast_self, shapeCast_a_1a_apply, colred_apply]

/-- The column-sum-of-squares payload at column q: the running row plus the block's column sum of the squared affine payload. -/
theorem pay5_apply (x0 x1 : Vec Ideal S5000x64 .f32) (x2 : Vec Ideal S64x64 .f32) (x3 : Vec Ideal S1x64 .f32)
    (acc : Vec Ideal S1x64 .f32) (u : Fin 1) (q : Fin 64) :
    k0_pay5 (F := Ideal) x0 x1 x2 x3 acc (ix2 u q)
      = acc (ix2 u q) + ∑ p : Fin 5000, k0_pay3 (F := Ideal) x0 x1 x2 x3 (ix2 p q) * k0_pay3 (F := Ideal) x0 x1 x2 x3 (ix2 p q) := by
  unfold k0_pay5
  show (shapeCast S1x64 acc shapeCasts_S1x64_S1x64 (ix2 u q) : EReal)
      + (shapeCast S1x64 (multiReduction .add [0] S64 (mulf (k0_pay3 (F := Ideal) x0 x1 x2 x3) (k0_pay3 (F := Ideal) x0 x1 x2 x3)) 0x00000000#32 reduces_S5000x64_S64 (.inl rfl) rfl)
          shapeCasts_S64_S1x64 (ix2 u q) : EReal) = _
  rw [shapeCast_self, shapeCast_a_1a_apply, colred_apply]
  rfl

/-- The reset payloads are the zero row. -/
theorem pay1_apply (i : S1x64.Idx) : k0_pay1 (F := Ideal) i = 0 := by
  unfold k0_pay1
  show Ideal.ofBits .f32 0x00000000#32 = 0
  exact Ideal.ofBits_zero_f32
theorem pay2_apply (i : S1x64.Idx) : k0_pay2 (F := Ideal) i = 0 := by
  unfold k0_pay2
  show Ideal.ofBits .f32 0x00000000#32 = 0
  exact Ideal.ofBits_zero_f32

end Cert.KernelIdeal.R0
-- ==== Proof.R0Piece.lean ====
/-
  What one grid point of the first affine layer leaves in its three output buffers, as payloads of the blocks it read.

  Every store of the body covers its whole buffer, so a buffer ends at the payload of its last store.  At the first point the
  two statistics rows are first reset to the zero row, and the running rows the later stores read are that zero row; at every
  other point they are what the point before left.
-/
import proofs.«129487_j15015205667099_1_alg».proof.Proof.Gen.KernelIdeal.Frame
import Idealize.ShloMosaic.Lib.Pipeline.Value
import Idealize.ShloMosaic.Lib.Tactic

noncomputable section

namespace Cert.KernelIdeal.R0

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The first point: output 4 ends at its one store's payload. -/
theorem out_A_4 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x64 .f32) (x2 : Vec F S64x64 .f32) (x3 : Vec F S1x64 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- The first point: output 5 is reset to the zero row, read back, and ends at the payload over that zero row. -/
theorem out_A_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x64 .f32) (x2 : Vec F S64x64 .f32) (x3 : Vec F S1x64 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- The first point: output 6 is reset to the zero row, read back, and ends at the payload over that zero row. -/
theorem out_A_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x64 .f32) (x2 : Vec F S64x64 .f32) (x3 : Vec F S1x64 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 4 ends at its one store's payload. -/
theorem out_B_4 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x64 .f32) (x2 : Vec F S64x64 .f32) (x3 : Vec F S1x64 .f32) (xo5 xo6 : Vec F S1x64 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 5 ends at its one store's payload. -/
theorem out_B_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x64 .f32) (x2 : Vec F S64x64 .f32) (x3 : Vec F S1x64 .f32) (xo5 xo6 : Vec F S1x64 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 6 ends at its one store's payload. -/
theorem out_B_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x64 .f32) (x2 : Vec F S64x64 .f32) (x3 : Vec F S1x64 .f32) (xo5 xo6 : Vec F S1x64 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

end Cert.KernelIdeal.R0
-- ==== Proof.R0Inv.lean ====
/-
  The first add-the-neighbours-then-affine step, point by point.

  The grid has 20 points; point t reads rows 5000·t … 5000·t + 4999 of x and of the aggregated neighbours, the whole weight
  matrix and the whole bias row.  By induction on the point: after point n the block output holds rows 5000·n … of
  Z = (x + agg) · w + b, and the two statistics rows hold the column sums of Z, and of its squares, over the first
  5000·(n + 1) rows (the first point adds its block's sums to the zero row, every later point to what the point before left).
-/
import proofs.«129487_j15015205667099_1_alg».proof.Proof.Gen.KernelIdeal.Frame
import proofs.«129487_j15015205667099_1_alg».proof.Proof.GinSpec
import proofs.«129487_j15015205667099_1_alg».proof.Proof.LibRowSum
import proofs.«129487_j15015205667099_1_alg».proof.Proof.R0Pay
import proofs.«129487_j15015205667099_1_alg».proof.Proof.R0Piece
import Idealize.ShloMosaic.Lib.Pipeline.Value
import Idealize.ShloMosaic.Lib.ValueIdx

noncomputable section

namespace Cert.KernelIdeal.R0

open Cert.KernelIdeal Cert.KernelIdeal.Gen Cert.GinSpec Cert.RowSum Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The first affine layer's result: (x + agg) · w + b. -/
abbrev Z0 : SN.Idx → EReal :=
  lin (fun i => HAdd.hAdd (α := EReal) (β := EReal) (γ := EReal) ((V c main_arg0 : SN.Idx → EReal) i) ((V c main_v25 : SN.Idx → EReal) i))
    (V c main_arg2) (ofRow (V c main_v4))

/-- The windows' block indices at a point: the two row-blocked inputs and the row-blocked output sit at block (t, 0), the
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem lt_of_point (t : Fin cfg0.N) (p : Fin 5000) : 5000 * t.val + p.val < 100000 := by
  have hN : t.val < 20 := lt_of_lt_of_eq t.isLt (show cfg0.N = 20 from N_0)
  have := p.isLt
  omega

/-- Row p of x's block at point t is row 5000·t + p of x. -/
theorem blk_0 (t : Fin cfg0.N) (p : Fin 5000) (k : Fin 64) :
    (iblk0 V c 0 t : Vec Ideal S5000x64 .f32) (ix2 p k)
      = (V c main_arg0 : SN.Idx → EReal) (ix2 ⟨5000 * t.val + p.val, lt_of_point t p⟩ k) := by
  unfold iblk0
  rw [View.read_apply]
  show (V c main_arg0 : SN.Idx → EReal) _ = (V c main_arg0 : SN.Idx → EReal) _
  refine congrArg (V c main_arg0 : SN.Idx → EReal) ?_
  obtain ⟨e0, e1, -⟩ := idx_facts t
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- Row p of the aggregated neighbours' block at point t is row 5000·t + p of that array. -/
theorem blk_1 (t : Fin cfg0.N) (p : Fin 5000) (k : Fin 64) :
    (iblk0 V c 1 t : Vec Ideal S5000x64 .f32) (ix2 p k)
      = (V c main_v25 : SN.Idx → EReal) (ix2 ⟨5000 * t.val + p.val, lt_of_point t p⟩ k) := by
  unfold iblk0
  rw [View.read_apply]
  show (V c main_v25 : SN.Idx → EReal) _ = (V c main_v25 : SN.Idx → EReal) _
  refine congrArg (V c main_v25 : SN.Idx → EReal) ?_
  obtain ⟨-, -, e0, e1, -⟩ := idx_facts t
  funext a
  apply Fin.ext
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The weight window's block is the whole matrix at every point. -/
theorem blk_2 (t : Fin cfg0.N) (k q : Fin 64) :
    (iblk0 V c 2 t : Vec Ideal S64x64 .f32) (ix2 k q) = (V c main_arg2 : SW.Idx → EReal) (ix2 k q) := by
  unfold iblk0
  rw [View.read_apply]
  show (V c main_arg2 : SW.Idx → EReal) _ = (V c main_arg2 : SW.Idx → EReal) _
  refine congrArg (V c main_arg2 : SW.Idx → EReal) ?_
  obtain ⟨-, -, -, -, e0, e1, -⟩ := idx_facts t
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias window's block is the whole row at every point. -/
theorem blk_3 (t : Fin cfg0.N) (u : Fin 1) (q : Fin 64) :
    (iblk0 V c 3 t : Vec Ideal S1x64 .f32) (ix2 u q) = (V c main_v4 : SR.Idx → EReal) (ix2 u q) := by
  unfold iblk0
  rw [View.read_apply]
  show (V c main_v4 : SR.Idx → EReal) _ = (V c main_v4 : SR.Idx → EReal) _
  refine congrArg (V c main_v4 : SR.Idx → EReal) ?_
  obtain ⟨-, -, -, -, -, -, e0, e1, -⟩ := idx_facts t
  funext a
  apply Fin.ext
  match a with
  | ⟨0, _⟩ => show win0_3.index t (0 : Fin 2) * 1 + 1 * u.val = u.val; rw [e0]; omega
  | ⟨1, _⟩ => show win0_3.index t (1 : Fin 2) * 64 + 1 * q.val = q.val; rw [e1]; omega

/-- The affine map of a sum of two arrays, at row r and column q. -/
theorem lin_row (X A : SN.Idx → EReal) (W : SW.Idx → EReal) (B : SR.Idx → EReal) (r : Fin 100000) (q : Fin 64) :
    lin (fun i => X i + A i) W (ofRow B) (ix2 r q)
      = (∑ k : Fin 64, (X (ix2 r k) + A (ix2 r k)) * W (ix2 k q)) + B (ix2 (0 : Fin 1) q) := rfl

/-- The affine payload of point t's blocks at (p, q) is the layer's result at row 5000·t + p. -/
theorem pay3_row (t : Fin cfg0.N) (p : Fin 5000) (q : Fin 64) :
    k0_pay3 (F := Ideal) (iblk0 V c 0 t) (iblk0 V c 1 t) (iblk0 V c 2 t) (iblk0 V c 3 t) (ix2 p q) = rowFn (Z0 V c) q (5000 * t.val + p.val) := by
  rw [rowFn_of_lt _ _ _ (lt_of_point t p)]
  refine (pay3_apply (iblk0 V c 0 t) (iblk0 V c 1 t) (iblk0 V c 2 t) (iblk0 V c 3 t) p q).trans ?_
  refine Eq.trans ?_ (lin_row (V c main_arg0) (V c main_v25) (V c main_arg2) (V c main_v4) ⟨5000 * t.val + p.val, lt_of_point t p⟩ q).symm
  rw [blk_3 V c t 0 q]
  refine congrArg (· + _) (Finset.sum_congr rfl fun k _ => ?_)
  rw [blk_0 V c t p k, blk_1 V c t p k, blk_2 V c t k q]

/-- The first point leaves the affine payload and the two statistics payloads over the zero row. -/
theorem at_A (t : Fin cfg0.N) (h0 : t.val % 20 = 0) :
    outsAt0 V c t.val t.isLt
      = (k0_pay3 (iblk0 V c 0 t) (iblk0 V c 1 t) (iblk0 V c 2 t) (iblk0 V c 3 t), k0_pay4 (iblk0 V c 0 t) (iblk0 V c 1 t) (iblk0 V c 2 t) (iblk0 V c 3 t) (k0_pay1 (F := Ideal)), k0_pay5 (iblk0 V c 0 t) (iblk0 V c 1 t) (iblk0 V c 2 t) (iblk0 V c 3 t) (k0_pay2 (F := Ideal))) :=
  (outsAt0_A V c t h0).trans
    (congrArg₂ Prod.mk (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
      (congrArg₂ Prod.mk (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
        (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))))

/-- Every later point leaves the affine payload and the two statistics payloads over what the point before left. -/
theorem at_B (t : Fin cfg0.N) (h0 : ¬t.val % 20 = 0) :
    outsAt0 V c t.val t.isLt
      = (k0_pay3 (iblk0 V c 0 t) (iblk0 V c 1 t) (iblk0 V c 2 t) (iblk0 V c 3 t), k0_pay4 (iblk0 V c 0 t) (iblk0 V c 1 t) (iblk0 V c 2 t) (iblk0 V c 3 t) (outsAt0 V c (t.val - 1) (Nat.lt_of_le_of_lt (Nat.sub_le _ _) t.isLt)).2.1, k0_pay5 (iblk0 V c 0 t) (iblk0 V c 1 t) (iblk0 V c 2 t) (iblk0 V c 3 t) (outsAt0 V c (t.val - 1) (Nat.lt_of_le_of_lt (Nat.sub_le _ _) t.isLt)).2.2) :=
  (outsAt0_B V c t h0).trans
    (congrArg₂ Prod.mk (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
      (congrArg₂ Prod.mk (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
        (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)))

/-- After point n: output 4 holds block n of the layer's result, and outputs 5 and 6 hold the column sums, and the column
    sums of squares, of the result over the first 5000·(n+1) rows. -/
theorem inv : ∀ (n : ℕ) (hn : n < cfg0.N),
    (∀ (p : Fin 5000) (q : Fin 64), (outsAt0 V c n hn).1 (ix2 p q) = rowFn (Z0 V c) q (5000 * n + p.val))
    ∧ (∀ (u : Fin 1) (q : Fin 64), (outsAt0 V c n hn).2.1 (ix2 u q) = ∑ r ∈ Finset.range (5000 * (n + 1)), rowFn (Z0 V c) q r)
    ∧ (∀ (u : Fin 1) (q : Fin 64), (outsAt0 V c n hn).2.2 (ix2 u q)
        = ∑ r ∈ Finset.range (5000 * (n + 1)), rowFn (fun i => Z0 V c i * Z0 V c i) q r)
  | 0, hn => by
    have e : outsAt0 V c 0 hn = _ := at_A V c ⟨0, hn⟩ (Nat.zero_mod _)
    rw [e]
    refine ⟨fun p q => pay3_row V c ⟨0, hn⟩ p q, fun u q => ?_, fun u q => ?_⟩
    · refine (pay4_apply (iblk0 V c 0 ⟨0, hn⟩) (iblk0 V c 1 ⟨0, hn⟩) (iblk0 V c 2 ⟨0, hn⟩) (iblk0 V c 3 ⟨0, hn⟩) (k0_pay1 (F := Ideal)) u q).trans ?_
      exact first_block (rowFn (Z0 V c) q) _ (fun p => k0_pay3 (F := Ideal) (iblk0 V c 0 ⟨0, hn⟩) (iblk0 V c 1 ⟨0, hn⟩) (iblk0 V c 2 ⟨0, hn⟩) (iblk0 V c 3 ⟨0, hn⟩) (ix2 p q)) (pay1_apply _)
        (fun p => pay3_row V c ⟨0, hn⟩ p q)
    · refine (pay5_apply (iblk0 V c 0 ⟨0, hn⟩) (iblk0 V c 1 ⟨0, hn⟩) (iblk0 V c 2 ⟨0, hn⟩) (iblk0 V c 3 ⟨0, hn⟩) (k0_pay2 (F := Ideal)) u q).trans ?_
      exact first_block (rowFn (fun i => Z0 V c i * Z0 V c i) q) _
        (fun p => k0_pay3 (F := Ideal) (iblk0 V c 0 ⟨0, hn⟩) (iblk0 V c 1 ⟨0, hn⟩) (iblk0 V c 2 ⟨0, hn⟩) (iblk0 V c 3 ⟨0, hn⟩) (ix2 p q) * k0_pay3 (F := Ideal) (iblk0 V c 0 ⟨0, hn⟩) (iblk0 V c 1 ⟨0, hn⟩) (iblk0 V c 2 ⟨0, hn⟩) (iblk0 V c 3 ⟨0, hn⟩) (ix2 p q)) (pay2_apply _)
        (fun p => by rw [rowFn_sq, pay3_row V c ⟨0, hn⟩ p q])
  | n + 1, hn => by
    have hN : cfg0.N = 20 := N_0
    have hB : ¬(⟨n + 1, hn⟩ : Fin cfg0.N).val % 20 = 0 := by dsimp only; omega
    have e : outsAt0 V c (n + 1) hn = _ := at_B V c ⟨n + 1, hn⟩ hB
    rw [e]
    obtain ⟨-, ih5, ih6⟩ := inv n (Nat.lt_of_succ_lt hn)
    refine ⟨fun p q => pay3_row V c ⟨n + 1, hn⟩ p q, fun u q => ?_, fun u q => ?_⟩
    · refine (pay4_apply (iblk0 V c 0 ⟨n + 1, hn⟩) (iblk0 V c 1 ⟨n + 1, hn⟩) (iblk0 V c 2 ⟨n + 1, hn⟩) (iblk0 V c 3 ⟨n + 1, hn⟩) _ u q).trans ?_
      exact next_block (rowFn (Z0 V c) q) n _ (fun p => k0_pay3 (F := Ideal) (iblk0 V c 0 ⟨n + 1, hn⟩) (iblk0 V c 1 ⟨n + 1, hn⟩) (iblk0 V c 2 ⟨n + 1, hn⟩) (iblk0 V c 3 ⟨n + 1, hn⟩) (ix2 p q)) (ih5 u q)
        (fun p => pay3_row V c ⟨n + 1, hn⟩ p q)
    · refine (pay5_apply (iblk0 V c 0 ⟨n + 1, hn⟩) (iblk0 V c 1 ⟨n + 1, hn⟩) (iblk0 V c 2 ⟨n + 1, hn⟩) (iblk0 V c 3 ⟨n + 1, hn⟩) _ u q).trans ?_
      exact next_block (rowFn (fun i => Z0 V c i * Z0 V c i) q) n _
        (fun p => k0_pay3 (F := Ideal) (iblk0 V c 0 ⟨n + 1, hn⟩) (iblk0 V c 1 ⟨n + 1, hn⟩) (iblk0 V c 2 ⟨n + 1, hn⟩) (iblk0 V c 3 ⟨n + 1, hn⟩) (ix2 p q) * k0_pay3 (F := Ideal) (iblk0 V c 0 ⟨n + 1, hn⟩) (iblk0 V c 1 ⟨n + 1, hn⟩) (iblk0 V c 2 ⟨n + 1, hn⟩) (iblk0 V c 3 ⟨n + 1, hn⟩) (ix2 p q)) (ih6 u q)
        (fun p => by rw [rowFn_sq, pay3_row V c ⟨n + 1, hn⟩ p q])

end Cert.KernelIdeal.R0
-- ==== Proof.R0.lean ====
/-
  The first add-the-neighbours-then-affine step: what its three result arrays end holding.

  Every point writes its 5000-row block of Z = (x + agg) · w + b back to the result array, and row r lies in the block of
  point r / 5000, so the array ends at Z.  The two statistics rows are written back once, after the last point, when they
  hold the column sums of Z and of its squares over 5000 · 20 = 100000 rows: all of them.
-/
import proofs.«129487_j15015205667099_1_alg».proof.Proof.R0Inv

noncomputable section

namespace Cert.KernelIdeal.R0

open Cert.KernelIdeal Cert.KernelIdeal.Gen Cert.GinSpec Cert.RowSum Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! ## From the blocks to the arrays -/

/-- A staging index of a 5000 × 64 block, by its coordinates. -/
theorem xinj_4 (t : Fin cfg0.N) (j : ((cfg0.win 4).xblock (grid0.coords t)).Idx) (hj0 : (j 0).val < 5000) (hj1 : (j 1).val < 64) :
    (cfg0.win 4).xinj (grid0.coords t) j = ix2 ⟨(j 0).val, hj0⟩ ⟨(j 1).val, hj1⟩ :=
  funext fun a => by match a with | ⟨0, _⟩ => rfl | ⟨1, _⟩ => rfl

/-- What point t writes back to the result array is block t of the layer's result. -/
theorem flushed_4 (t : Fin cfg0.N) :
    (dat0 (F := Ideal) V c).flushed 4 t = ((cfg0.win 4).blk t).view.read (Elt Ideal) (Z0 V c) := by
  show (cfg0.win 4).cut (grid0.coords t) ((dat0 (F := Ideal) V c).after 4 t) = _
  rw [after0_4]
  funext j
  rw [View.read_apply]
  obtain ⟨-, -, -, -, -, -, -, -, e0, e1, -⟩ := idx_facts t
  have hj0 : (j 0).val < 5000 := (j 0).isLt
  have hj1 : (j 1).val < 64 := (j 1).isLt
  show (outsAt0 V c t.val t.isLt).1 ((cfg0.win 4).xinj (grid0.coords t) j) = Z0 V c (((cfg0.win 4).blk t).view.emb j)
  rw [xinj_4 t j hj0 hj1, (inv V c t.val t.isLt).1 ⟨(j 0).val, hj0⟩ ⟨(j 1).val, hj1⟩,
    rowFn_of_lt _ _ _ (lt_of_point t ⟨(j 0).val, hj0⟩)]
  refine congrArg (Z0 V c) ?_
  funext a
  apply Fin.ext
  match a with
  | ⟨0, _⟩ => show 5000 * t.val + (j 0).val = win0_4.index t (0 : Fin 2) * 5000 + 1 * (j 0).val; rw [e0]; omega
  | ⟨1, _⟩ => show (j 1).val = win0_4.index t (1 : Fin 2) * 64 + 1 * (j 1).val; rw [e1]; omega

/-- Row r of the result array lies in the block of point r / 5000. -/
theorem mem_blk_4 (t : Fin cfg0.N) (i : SN.Idx) (h : 5000 * t.val ≤ (i 0).val ∧ (i 0).val < 5000 * t.val + 5000) :
    i ∈ ((cfg0.win 4).blk t).view.set := by
  obtain ⟨-, -, -, -, -, -, -, -, e0, e1, -⟩ := idx_facts t
  have hi1 : (i 1).val < 64 := (i 1).isLt
  show i ∈ ((View.whole main_v26_0).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0]; omega
  | ⟨1, _⟩ =>
    show win0_4.index t (1 : Fin 2) * 64 ≤ (i 1).val ∧ (i 1).val < win0_4.index t (1 : Fin 2) * 64 + 64
    rw [e1]; omega

/-- The result array ends holding the first affine layer's result. -/
theorem z_final : ((dat0 (F := Ideal) V c).arrAt 4 cfg0.N : SN.Idx → EReal) = Z0 V c :=
  (dat0 (F := Ideal) V c).arrAt_eq_of_cover 4 (Z0 V c) (fun t _ => flushed_4 V c t) fun i => by
    have hN : cfg0.N = 20 := N_0
    have hi0 : (i 0).val < 100000 := (i 0).isLt
    exact ⟨⟨(i 0).val / 5000, by rw [hN]; omega⟩, flush0_4 _, mem_blk_4 _ i (by dsimp only; omega)⟩

/-- Column sums depend on the column's number only. -/
theorem colSum_congr (Z : SN.Idx → EReal) (a b : Fin 64) (h : a.val = b.val) : colSum Z a = colSum Z b :=
  congrArg (colSum Z) (Fin.ext h)
theorem colSumSq_congr (Z : SN.Idx → EReal) (a b : Fin 64) (h : a.val = b.val) : colSumSq Z a = colSumSq Z b :=
  congrArg (colSumSq Z) (Fin.ext h)

/-- A staging index of a 1 × 64 row, by its coordinates. -/
theorem xinj_5 (t : Fin cfg0.N) (j : ((cfg0.win 5).xblock (grid0.coords t)).Idx) (hj0 : (j 0).val < 1) (hj1 : (j 1).val < 64) :
    (cfg0.win 5).xinj (grid0.coords t) j = ix2 ⟨(j 0).val, hj0⟩ ⟨(j 1).val, hj1⟩ :=
  funext fun a => by match a with | ⟨0, _⟩ => rfl | ⟨1, _⟩ => rfl
theorem xinj_6 (t : Fin cfg0.N) (j : ((cfg0.win 6).xblock (grid0.coords t)).Idx) (hj0 : (j 0).val < 1) (hj1 : (j 1).val < 64) :
    (cfg0.win 6).xinj (grid0.coords t) j = ix2 ⟨(j 0).val, hj0⟩ ⟨(j 1).val, hj1⟩ :=
  funext fun a => by match a with | ⟨0, _⟩ => rfl | ⟨1, _⟩ => rfl

/-- The one write-back of the column-sum row, after the last point, writes the column sums over all rows. -/
theorem flushed_5 (t : Fin cfg0.N) (hf : (cfg0.win 5).flush t = true) :
    (dat0 (F := Ideal) V c).flushed 5 t
      = ((cfg0.win 5).blk t).view.read (Elt Ideal) (fun i : SR.Idx => colSum (Z0 V c) ⟨(i 1).val, idx2_lt1 i⟩) := by
  have hN : cfg0.N = 20 := N_0
  have h19 : t.val = 19 := by have := (flush0_5 t).mp hf; have := t.isLt; omega
  show (cfg0.win 5).cut (grid0.coords t) ((dat0 (F := Ideal) V c).after 5 t) = _
  rw [after0_5]
  funext j
  rw [View.read_apply]
  beta_reduce
  obtain ⟨-, -, -, -, -, -, -, -, -, -, e0, e1, -⟩ := idx_facts t
  have hj0 : (j 0).val < 1 := (j 0).isLt
  have hj1 : (j 1).val < 64 := (j 1).isLt
  have hl : (outsAt0 V c t.val t.isLt).2.1 ((cfg0.win 5).xinj (grid0.coords t) j) = colSum (Z0 V c) ⟨(j 1).val, hj1⟩ := by
    rw [xinj_5 t j hj0 hj1, (inv V c t.val t.isLt).2.1 ⟨(j 0).val, hj0⟩ ⟨(j 1).val, hj1⟩, h19,
      show 5000 * (19 + 1) = 100000 from rfl, sum_all]
  refine hl.trans ?_
  rw [cast_eq]
  refine colSum_congr (Z0 V c) _ _ ?_
  show (j 1).val = win0_5.index t (1 : Fin 2) * 64 + 1 * (j 1).val
  rw [e1]; omega

/-- The same for the row of column sums of squares. -/
theorem flushed_6 (t : Fin cfg0.N) (hf : (cfg0.win 6).flush t = true) :
    (dat0 (F := Ideal) V c).flushed 6 t
      = ((cfg0.win 6).blk t).view.read (Elt Ideal) (fun i : SR.Idx => colSumSq (Z0 V c) ⟨(i 1).val, idx2_lt1 i⟩) := by
  have hN : cfg0.N = 20 := N_0
  have h19 : t.val = 19 := by have := (flush0_6 t).mp hf; have := t.isLt; omega
  show (cfg0.win 6).cut (grid0.coords t) ((dat0 (F := Ideal) V c).after 6 t) = _
  rw [after0_6]
  funext j
  rw [View.read_apply]
  beta_reduce
  obtain ⟨-, -, -, -, -, -, -, -, -, -, -, -, e0, e1⟩ := idx_facts t
  have hj0 : (j 0).val < 1 := (j 0).isLt
  have hj1 : (j 1).val < 64 := (j 1).isLt
  have hl : (outsAt0 V c t.val t.isLt).2.2 ((cfg0.win 6).xinj (grid0.coords t) j) = colSumSq (Z0 V c) ⟨(j 1).val, hj1⟩ := by
    rw [xinj_6 t j hj0 hj1, (inv V c t.val t.isLt).2.2 ⟨(j 0).val, hj0⟩ ⟨(j 1).val, hj1⟩, h19,
      show 5000 * (19 + 1) = 100000 from rfl, sum_all_sq]
  refine hl.trans ?_
  rw [cast_eq]
  refine colSumSq_congr (Z0 V c) _ _ ?_
  show (j 1).val = win0_6.index t (1 : Fin 2) * 64 + 1 * (j 1).val
  rw [e1]; omega

/-- The last point's block of a statistics row is the whole row. -/
theorem mem_blk_5 (t : Fin cfg0.N) (i : SR.Idx) : i ∈ ((cfg0.win 5).blk t).view.set := by
  obtain ⟨-, -, -, -, -, -, -, -, -, -, e0, e1, -⟩ := idx_facts t
  have hi0 : (i 0).val < 1 := (i 0).isLt
  have hi1 : (i 1).val < 64 := (i 1).isLt
  show i ∈ ((View.whole main_v26_1).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 64 ≤ (i 1).val ∧ (i 1).val < win0_5.index t (1 : Fin 2) * 64 + 64
    rw [e1]; omega
theorem mem_blk_6 (t : Fin cfg0.N) (i : SR.Idx) : i ∈ ((cfg0.win 6).blk t).view.set := by
  obtain ⟨-, -, -, -, -, -, -, -, -, -, -, -, e0, e1⟩ := idx_facts t
  have hi0 : (i 0).val < 1 := (i 0).isLt
  have hi1 : (i 1).val < 64 := (i 1).isLt
  show i ∈ ((View.whole main_v26_2).slice (win0_6.rect t)).set
  rw [View.set_slice_whole, Rect.mem_set_unit]
  intro a
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 64 ≤ (i 1).val ∧ (i 1).val < win0_6.index t (1 : Fin 2) * 64 + 64
    rw [e1]; omega

/-- The last grid point. -/
theorem last_lt : 19 < cfg0.N := by rw [show cfg0.N = 20 from N_0]; decide

/-- The column-sum row ends holding the column sums of the layer's result over all 100000 rows. -/
theorem s_final : ((dat0 (F := Ideal) V c).arrAt 5 cfg0.N : SR.Idx → EReal)
    = fun i => colSum (Z0 V c) ⟨(i 1).val, idx2_lt1 i⟩ :=
  (dat0 (F := Ideal) V c).arrAt_eq_of_cover 5 (fun i : SR.Idx => colSum (Z0 V c) ⟨(i 1).val, idx2_lt1 i⟩)
    (flushed_5 V c) fun i => ⟨⟨19, last_lt⟩, (flush0_5 _).mpr rfl, mem_blk_5 _ i⟩

/-- The row of column sums of squares ends holding those of the layer's result over all 100000 rows. -/
theorem ss_final : ((dat0 (F := Ideal) V c).arrAt 6 cfg0.N : SR.Idx → EReal)
    = fun i => colSumSq (Z0 V c) ⟨(i 1).val, idx2_lt1 i⟩ :=
  (dat0 (F := Ideal) V c).arrAt_eq_of_cover 6 (fun i : SR.Idx => colSumSq (Z0 V c) ⟨(i 1).val, idx2_lt1 i⟩)
    (flushed_6 V c) fun i => ⟨⟨19, last_lt⟩, (flush0_6 _).mpr rfl, mem_blk_6 _ i⟩

end Cert.KernelIdeal.R0
-- ==== Proof.R1.lean ====
/-
  Region 1 of the two-layer graph network: the kernel that normalises a block of 5000 rows with given column
  statistics, clamps at zero, applies the affine map, and accumulates the column sums and column sums of squares of
  its result over the twenty blocks of the 100000 rows.

  The mathematics, in order: (1) what each control case of the body leaves in each output's buffer is the body's
  arithmetic applied to the blocks it loaded (at the first grid point the two accumulators start from the zero row,
  at the later points from what the point before left); (2) that arithmetic read entry by entry: the stored block's
  entry (p, q) is  Σ_k max((x(p,k) − μ(k)) · rsqrt(v(k) + ε) · g(k) + β(k), 0) · w(k, q) + b(q),  and an accumulator's
  entry q grows by the block's column sum (of squares) at q; (3) the block of an input array at grid point t holds
  rows 5000 t … 5000 t + 4999, the row arrays and the weights are read whole; so the stored block at point t is rows
  5000 t … of the whole-array function Z, and by induction on the point the accumulators hold the partial sums of
  Z's columns over the first 5000 (t + 1) rows; (4) every point writes its block of the first output back and row r
  lies in block r / 5000, so the first output array ends as Z; only the last point writes the accumulators back, their
  block is the whole 1 × 64 array, and twenty blocks of 5000 rows are all 100000 rows.
-/
import proofs.«129487_j15015205667099_1_alg».proof.Proof.Gen.KernelIdeal.Frame
import proofs.«129487_j15015205667099_1_alg».proof.Proof.GinSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen Cert.GinSpec Idealize.ShloMosaic.ValueIdx
open scoped BigOperators

namespace Cert.KernelIdeal.R1

theorem mm_lhs0 (i : S5000x64.Idx) (e : dot_S5000x64_S64x64_S5000x64_1_0_0_1_n_n.contr.Idx) :
    (dot_S5000x64_S64x64_S5000x64_1_0_0_1_n_n.lhsIdx i e 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm_rhs1 (i : S5000x64.Idx) (e : dot_S5000x64_S64x64_S5000x64_1_0_0_1_n_n.contr.Idx) :
    (dot_S5000x64_S64x64_S5000x64_1_0_0_1_n_n.rhsIdx i e 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row p of the left factor against column q of the right one: the product block's entry is the sum over the
    64 shared coordinates (the accumulator is the zero block). -/
theorem mm_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact mm_lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl _ _).trans hk
      | ⟨1, _⟩ => exact mm_rhs1 _ _)
  rw [el, er]

/-- A 1 × 64 row, cast to its own shape and broadcast down 5000 rows, reads at (p, q) the row's entry q. -/
theorem rowb_apply {α : Type} (x : S1x64.Idx → α) (p : Fin 5000) (q : Fin 64) :
    broadcastTo S5000x64 (shapeCast S1x64 x shapeCasts_S1x64_S1x64) broadcasts_S1x64_S5000x64 (ix2 p q) = x (ix2 (0 : Fin 1) q) := by
  rw [shapeCast_self]
  exact broadcastTo_1b_ab_apply x broadcasts_S1x64_S5000x64 p q

/-- One entry of the block the body stores: row p of the input block is normalised column by column, clamped at
    zero, multiplied into column q of the weights, and the bias entry q is added. -/
def zEntry (x0 : S5000x64.Idx → EReal) (x1 x2 x3 x4 : S1x64.Idx → EReal) (x5 : S64x64.Idx → EReal)
    (x6 : S1x64.Idx → EReal) (p : Fin 5000) (q : Fin 64) : EReal :=
  (∑ k : Fin 64, max ((x0 (ix2 p k) - x1 (ix2 (0 : Fin 1) k)) * Ideal.rsqrt (x2 (ix2 (0 : Fin 1) k) + EPS) * x3 (ix2 (0 : Fin 1) k)
      + x4 (ix2 (0 : Fin 1) k)) ZW * x5 (ix2 k q)) + x6 (ix2 (0 : Fin 1) q)

theorem pay5_apply (x0 : Vec Ideal S5000x64 .f32) (x1 x2 x3 x4 : Vec Ideal S1x64 .f32) (x5 : Vec Ideal S64x64 .f32)
    (x6 : Vec Ideal S1x64 .f32) (p : Fin 5000) (q : Fin 64) :
    k1_pay5 (F := Ideal) x0 x1 x2 x3 x4 x5 x6 (ix2 p q) = zEntry x0 x1 x2 x3 x4 x5 x6 p q := by
  unfold k1_pay5 zEntry
  refine (congrArg₂ (· + ·) (mm_apply _ _ p q) (rowb_apply x6 p q)).trans ?_
  refine congrArg (· + x6 (ix2 (0 : Fin 1) q)) (Finset.sum_congr rfl fun k _ => ?_)
  simp only [truncf_apply, maximumf_apply, addf_apply, mulf_apply, subf_apply, broadcast_apply, rowb_apply, shapeCast_self, broadcastTo_1b_ab_apply]
  rfl

/-- Putting row k back over column q of the reduced vector is the index (k, q). -/
theorem lift_col (q : Fin 64) (k : Fin (S5000x64.size 0)) :
    reduces_S5000x64_S64.lift (ix1 q) k = ix2 (⟨k.val, k.isLt⟩ : Fin 5000) q := by
  funext c; apply Fin.ext
  match c with
  | ⟨0, _⟩ => rfl
  | ⟨1, _⟩ => rfl

/-- The sum over the block's 5000 rows, as a 1 × 64 row, reads at column q the sum of the block's column q. -/
theorem colred_apply (v : FVec Ideal S5000x64 .f32) (q : Fin 64) :
    shapeCast S1x64 (multiReduction (F := Ideal) .add [0] S64 v 0x00000000#32 reduces_S5000x64_S64 (.inl rfl) rfl) shapeCasts_S64_S1x64
      (ix2 (0 : Fin 1) q) = ∑ p : Fin 5000, v (ix2 p q) := by
  refine (shapeCast_a_1a_apply _ shapeCasts_S64_S1x64 (0 : Fin 1) q).trans ?_
  refine (Ideal.multiReduction_add_single v 0x00000000#32 reduces_S5000x64_S64 (.inl rfl) rfl (ix1 q)).trans ?_
  exact Finset.sum_congr rfl fun k _ => congrArg v (lift_col q k)

/-- The sum accumulator's update: the old row plus the block's column sums. -/
theorem pay1_apply (v : FVec Ideal S5000x64 .f32) (acc : Vec Ideal S1x64 .f32) (q : Fin 64) :
    k1_pay1 (F := Ideal) v acc (ix2 (0 : Fin 1) q) = acc (ix2 (0 : Fin 1) q) + ∑ p : Fin 5000, v (ix2 p q) := by
  unfold k1_pay1
  refine (congrArg₂ (· + ·) (congrFun (shapeCast_self acc shapeCasts_S1x64_S1x64) _) (colred_apply v q)).trans ?_
  rfl

/-- The sum-of-squares accumulator's update: the old row plus the column sums of the block's squares. -/
theorem pay2_apply (v : FVec Ideal S5000x64 .f32) (acc : Vec Ideal S1x64 .f32) (q : Fin 64) :
    k1_pay2 (F := Ideal) v acc (ix2 (0 : Fin 1) q) = acc (ix2 (0 : Fin 1) q) + ∑ p : Fin 5000, v (ix2 p q) * v (ix2 p q) := by
  unfold k1_pay2
  refine (congrArg₂ (· + ·) (congrFun (shapeCast_self acc shapeCasts_S1x64_S1x64) _) (colred_apply (mulf v v) q)).trans ?_
  rfl

/-- The reset stores the zero row. -/
theorem pay3_apply (i : S1x64.Idx) : k1_pay3 (F := Ideal) i = 0 := Ideal.ofBits_zero_f32
theorem pay4_apply (i : S1x64.Idx) : k1_pay4 (F := Ideal) i = 0 := Ideal.ofBits_zero_f32

/-! ## Column sums over all 100000 rows, built up 5000 rows at a time -/

/-- Column q of a 100000 × 64 array as a sequence over all naturals: entry m below 100000, zero beyond. -/
def colSeq (Z : SN.Idx → EReal) (q : Fin 64) (m : ℕ) : EReal :=
  if h : m < 100000 then Z (ix2 (⟨m, h⟩ : Fin 100000) q) else 0

theorem colSeq_lt (Z : SN.Idx → EReal) (q : Fin 64) (m : ℕ) (h : m < 100000) :
    colSeq Z q m = Z (ix2 (⟨m, h⟩ : Fin 100000) q) := dif_pos h

/-- The sum of the first 5000 (n + 1) terms of a sequence is the sum of the first 5000 n terms plus the next block of 5000. -/
theorem sum_range_block {M : Type*} [AddCommMonoid M] (f : ℕ → M) (n : ℕ) :
    ∑ m ∈ Finset.range (5000 * (n + 1)), f m = ∑ m ∈ Finset.range (5000 * n), f m + ∑ p : Fin 5000, f (5000 * n + p.val) := by
  rw [Nat.mul_succ, Finset.sum_range_add, Finset.sum_range (fun x => f (5000 * n + x))]

/-- All twenty blocks together are the column sum. -/
theorem sum_colSeq_all (Z : SN.Idx → EReal) (q : Fin 64) :
    ∑ m ∈ Finset.range (5000 * (19 + 1)), colSeq Z q m = colSum Z q := by
  show ∑ m ∈ Finset.range 100000, colSeq Z q m = ∑ r : Fin 100000, Z (ix2 r q)
  rw [Finset.sum_range]
  exact Finset.sum_congr rfl fun r _ => colSeq_lt Z q r.val r.isLt

section Pieces

variable {F : FTy → Type} [FloatOps F]

theorem hz : (![0, 0] : Fin 2 → Nat) = fun _ => 0 := funext fun a => by fin_cases a <;> rfl

theorem zA (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond1_0 i) (x0 : Vec F S5000x64 .f32) (x1 x2 x3 x4 : Vec F S1x64 .f32) (x5 : Vec F S64x64 .f32) (x6 : Vec F S1x64 .f32) :
    out1_A_7 c i a1 h1 a2 h2 a3 h3 a4 h4 a5 h5 a6 h6 a7 h7 a8 h8 a9 h9 a10 h10 hc x0 x1 x2 x3 x4 x5 x6 = k1_pay5 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem zB (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond1_0 i) (x0 : Vec F S5000x64 .f32) (x1 x2 x3 x4 : Vec F S1x64 .f32) (x5 : Vec F S64x64 .f32) (x6 : Vec F S1x64 .f32) (xo8 xo9 : Vec F S1x64 .f32) :
    out1_B_7 c i a1 h1 a2 h2 a3 h3 a4 h4 a5 h5 a6 h6 a7 h7 a8 h8 a9 h9 a10 h10 hc x0 x1 x2 x3 x4 x5 x6 xo8 xo9 = k1_pay5 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem sA (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond1_0 i) (x0 : Vec F S5000x64 .f32) (x1 x2 x3 x4 : Vec F S1x64 .f32) (x5 : Vec F S64x64 .f32) (x6 : Vec F S1x64 .f32) :
    out1_A_8 c i a1 h1 a2 h2 a3 h3 a4 h4 a5 h5 a6 h6 a7 h7 a8 h8 a9 h9 a10 h10 hc x0 x1 x2 x3 x4 x5 x6 = k1_pay1 (k1_pay5 x0 x1 x2 x3 x4 x5 x6) k1_pay3 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem sB (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond1_0 i) (x0 : Vec F S5000x64 .f32) (x1 x2 x3 x4 : Vec F S1x64 .f32) (x5 : Vec F S64x64 .f32) (x6 : Vec F S1x64 .f32) (xo8 xo9 : Vec F S1x64 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x1 x2 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x64) hz, View.ld_unit_zero (S := S1x64) hz, View.ld_unit_zero (S := S64x64) hz]

theorem ssA (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond1_0 i) (x0 : Vec F S5000x64 .f32) (x1 x2 x3 x4 : Vec F S1x64 .f32) (x5 : Vec F S64x64 .f32) (x6 : Vec F S1x64 .f32) :
    out1_A_9 c i a1 h1 a2 h2 a3 h3 a4 h4 a5 h5 a6 h6 a7 h7 a8 h8 a9 h9 a10 h10 hc x0 x1 x2 x3 x4 x5 x6 = k1_pay2 (k1_pay5 x0 x1 x2 x3 x4 x5 x6) k1_pay4 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem ssB (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond1_0 i) (x0 : Vec F S5000x64 .f32) (x1 x2 x3 x4 : Vec F S1x64 .f32) (x5 : Vec F S64x64 .f32) (x6 : Vec F S1x64 .f32) (xo8 xo9 : Vec F S1x64 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x64) hz, View.ld_unit_zero (S := S1x64) hz, View.ld_unit_zero (S := S64x64) hz]

end Pieces

variable (V : (c : Dev nD) → (b : Ref sig .tc) → Buf (Elt Ideal) ((c : Thread nD τ).loc b)) (c : Dev nD)

theorem lt20 (t : Fin cfg1.N) : t.val < 20 := lt_of_lt_of_eq t.isLt N_1

/-- Row p of the block of 5000 rows numbered n, as a row of the whole array. -/
def rowAt (n : ℕ) (hn : n < 20) (p : Fin 5000) : Fin 100000 := ⟨5000 * n + p.val, by have := p.isLt; omega⟩

/-- The block index of each window at each grid point, decided over the twenty points: the two blocked windows sit at
    block (t, 0), every other window at block (0, 0). -/
theorem idx_facts : ∀ t : Fin cfg1.N,
    (win1_0.index t (0 : Fin 2) = t.val ∧ win1_0.index t (1 : Fin 2) = 0)
    ∧ (win1_7.index t (0 : Fin 2) = t.val ∧ win1_7.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- The input block at point t holds rows 5000 t … 5000 t + 4999 of the input array. -/
theorem blk0_apply (t : Fin cfg1.N) (p : Fin 5000) (q : Fin 64) :
    (iblk1 (F := Ideal) V c 0 t : Vec Ideal S5000x64 .f32) (ix2 p q) = V c main_v26_0 (ix2 (rowAt t.val (lt20 t) p) q) := by
  unfold iblk1
  rw [View.read_apply]
  show V c main_v26_0 _ = V c main_v26_0 _
  refine congrArg (V c main_v26_0) ?_
  funext a; apply Fin.ext
  match a with
  | ⟨0, _⟩ => show win1_0.index t (0 : Fin 2) * 5000 + 1 * p.val = 5000 * t.val + p.val; rw [(idx_facts t).1.1]; omega
  | ⟨1, _⟩ => show win1_0.index t (1 : Fin 2) * 64 + 1 * q.val = q.val; rw [(idx_facts t).1.2]; omega

theorem blk1_apply (t : Fin cfg1.N) (q : Fin 64) :
    (iblk1 (F := Ideal) V c 1 t : Vec Ideal S1x64 .f32) (ix2 (0 : Fin 1) q) = V c main_v28 (ix2 (0 : Fin 1) q) := by
  unfold iblk1
  rw [View.read_apply]
  show V c main_v28 _ = V c main_v28 _
  refine congrArg (V c main_v28) ?_
  funext a; apply Fin.ext
  match a with
  | ⟨0, _⟩ => show win1_1.index t (0 : Fin 2) * 1 + 1 * 0 = 0; rw [(idx_facts t).2.2.1.1]
  | ⟨1, _⟩ => show win1_1.index t (1 : Fin 2) * 64 + 1 * q.val = q.val; rw [(idx_facts t).2.2.1.2]; omega

theorem blk2_apply (t : Fin cfg1.N) (q : Fin 64) :
    (iblk1 (F := Ideal) V c 2 t : Vec Ideal S1x64 .f32) (ix2 (0 : Fin 1) q) = V c main_v32 (ix2 (0 : Fin 1) q) := by
  unfold iblk1
  rw [View.read_apply]
  show V c main_v32 _ = V c main_v32 _
  refine congrArg (V c main_v32) ?_
  funext a; apply Fin.ext
  match a with
  | ⟨0, _⟩ => show win1_2.index t (0 : Fin 2) * 1 + 1 * 0 = 0; rw [(idx_facts t).2.2.2.1.1]
  | ⟨1, _⟩ => show win1_2.index t (1 : Fin 2) * 64 + 1 * q.val = q.val; rw [(idx_facts t).2.2.2.1.2]; omega

theorem blk3_apply (t : Fin cfg1.N) (q : Fin 64) :
    (iblk1 (F := Ideal) V c 3 t : Vec Ideal S1x64 .f32) (ix2 (0 : Fin 1) q) = V c main_v5 (ix2 (0 : Fin 1) q) := by
  unfold iblk1
  rw [View.read_apply]
  show V c main_v5 _ = V c main_v5 _
  refine congrArg (V c main_v5) ?_
  funext a; apply Fin.ext
  match a with
  | ⟨0, _⟩ => show win1_3.index t (0 : Fin 2) * 1 + 1 * 0 = 0; rw [(idx_facts t).2.2.2.2.1.1]
  | ⟨1, _⟩ => show win1_3.index t (1 : Fin 2) * 64 + 1 * q.val = q.val; rw [(idx_facts t).2.2.2.2.1.2]; omega

theorem blk4_apply (t : Fin cfg1.N) (q : Fin 64) :
    (iblk1 (F := Ideal) V c 4 t : Vec Ideal S1x64 .f32) (ix2 (0 : Fin 1) q) = V c main_v6 (ix2 (0 : Fin 1) q) := by
  unfold iblk1
  rw [View.read_apply]
  show V c main_v6 _ = V c main_v6 _
  refine congrArg (V c main_v6) ?_
  funext a; apply Fin.ext
  match a with
  | ⟨0, _⟩ => show win1_4.index t (0 : Fin 2) * 1 + 1 * 0 = 0; rw [(idx_facts t).2.2.2.2.2.1.1]
  | ⟨1, _⟩ => show win1_4.index t (1 : Fin 2) * 64 + 1 * q.val = q.val; rw [(idx_facts t).2.2.2.2.2.1.2]; omega

theorem blk6_apply (t : Fin cfg1.N) (q : Fin 64) :
    (iblk1 (F := Ideal) V c 6 t : Vec Ideal S1x64 .f32) (ix2 (0 : Fin 1) q) = V c main_v7 (ix2 (0 : Fin 1) q) := by
  unfold iblk1
  rw [View.read_apply]
  show V c main_v7 _ = V c main_v7 _
  refine congrArg (V c main_v7) ?_
  funext a; apply Fin.ext
  match a with
  | ⟨0, _⟩ => show win1_6.index t (0 : Fin 2) * 1 + 1 * 0 = 0; rw [(idx_facts t).2.2.2.2.2.2.2.1.1]
  | ⟨1, _⟩ => show win1_6.index t (1 : Fin 2) * 64 + 1 * q.val = q.val; rw [(idx_facts t).2.2.2.2.2.2.2.1.2]; omega

theorem blk5_apply (t : Fin cfg1.N) (k q : Fin 64) :
    (iblk1 (F := Ideal) V c 5 t : Vec Ideal S64x64 .f32) (ix2 k q) = V c main_arg6 (ix2 k q) := by
  unfold iblk1
  rw [View.read_apply]
  show V c main_arg6 _ = V c main_arg6 _
  refine congrArg (V c main_arg6) ?_
  funext a; apply Fin.ext
  match a with
  | ⟨0, _⟩ => show win1_5.index t (0 : Fin 2) * 64 + 1 * k.val = k.val; rw [(idx_facts t).2.2.2.2.2.2.1.1]; omega
  | ⟨1, _⟩ => show win1_5.index t (1 : Fin 2) * 64 + 1 * q.val = q.val; rw [(idx_facts t).2.2.2.2.2.2.1.2]; omega

/-- The block the body stores at a point, as the network's second affine map of the clamped, normalised input. -/
abbrev Z1 : SN.Idx → EReal :=
  lin (relu (bn (V c main_v26_0) (ofRow (V c main_v28)) (ofRow (V c main_v32)) (ofRow (V c main_v5)) (ofRow (V c main_v6)))) (V c main_arg6) (ofRow (V c main_v7))

/-- An entry of the stored block, computed from the windows' blocks at point t, is the entry of the whole-array
    function at row 5000 t + p. -/
theorem zEntry_blk (t : Fin cfg1.N) (p : Fin 5000) (q : Fin 64) :
    zEntry (iblk1 (F := Ideal) V c 0 t) (iblk1 V c 1 t) (iblk1 V c 2 t) (iblk1 V c 3 t) (iblk1 V c 4 t) (iblk1 V c 5 t) (iblk1 V c 6 t) p q
      = Z1 V c (ix2 (rowAt t.val (lt20 t) p) q) := by
  unfold zEntry
  simp only [blk0_apply, blk1_apply, blk2_apply, blk3_apply, blk4_apply, blk5_apply, blk6_apply]
  rfl

theorem pay5_blk (t : Fin cfg1.N) (p : Fin 5000) (q : Fin 64) :
    k1_pay5 (F := Ideal) (iblk1 V c 0 t) (iblk1 V c 1 t) (iblk1 V c 2 t) (iblk1 V c 3 t) (iblk1 V c 4 t) (iblk1 V c 5 t) (iblk1 V c 6 t) (ix2 p q) = Z1 V c (ix2 (rowAt t.val (lt20 t) p) q) :=
  (pay5_apply (iblk1 V c 0 t) (iblk1 V c 1 t) (iblk1 V c 2 t) (iblk1 V c 3 t) (iblk1 V c 4 t) (iblk1 V c 5 t) (iblk1 V c 6 t) p q).trans (zEntry_blk V c t p q)

theorem pay5_blk_seq (t : Fin cfg1.N) (p : Fin 5000) (q : Fin 64) :
    k1_pay5 (F := Ideal) (iblk1 V c 0 t) (iblk1 V c 1 t) (iblk1 V c 2 t) (iblk1 V c 3 t) (iblk1 V c 4 t) (iblk1 V c 5 t) (iblk1 V c 6 t) (ix2 p q) = colSeq (Z1 V c) q (5000 * t.val + p.val) :=
  (pay5_blk V c t p q).trans (colSeq_lt (Z1 V c) q _ (rowAt t.val (lt20 t) p).isLt).symm

/-- The stored block at any point: both control cases store the same payload. -/
theorem outs_z (t : Fin cfg1.N) :
    (outsAt1 (F := Ideal) V c t.val t.isLt).1 = k1_pay5 (iblk1 V c 0 t) (iblk1 V c 1 t) (iblk1 V c 2 t) (iblk1 V c 3 t) (iblk1 V c 4 t) (iblk1 V c 5 t) (iblk1 V c 6 t) := by
  by_cases h0 : t.val % 20 = 0
  · rw [outsAt1_A V c t h0]
    dsimp only
    exact zA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    exact zB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- One accumulation step at point t: the old row plus the sums of the 5000 rows of block t. -/
theorem s_step (t : Fin cfg1.N) (acc : Vec Ideal S1x64 .f32) (q : Fin 64) :
    k1_pay1 (F := Ideal) (k1_pay5 (iblk1 V c 0 t) (iblk1 V c 1 t) (iblk1 V c 2 t) (iblk1 V c 3 t) (iblk1 V c 4 t) (iblk1 V c 5 t) (iblk1 V c 6 t)) acc (ix2 (0 : Fin 1) q)
      = acc (ix2 (0 : Fin 1) q) + ∑ p : Fin 5000, colSeq (Z1 V c) q (5000 * t.val + p.val) :=
  (pay1_apply _ acc q).trans (congrArg (acc (ix2 (0 : Fin 1) q) + ·) (Finset.sum_congr rfl fun p _ => pay5_blk_seq V c t p q))

theorem ss_step (t : Fin cfg1.N) (acc : Vec Ideal S1x64 .f32) (q : Fin 64) :
    k1_pay2 (F := Ideal) (k1_pay5 (iblk1 V c 0 t) (iblk1 V c 1 t) (iblk1 V c 2 t) (iblk1 V c 3 t) (iblk1 V c 4 t) (iblk1 V c 5 t) (iblk1 V c 6 t)) acc (ix2 (0 : Fin 1) q)
      = acc (ix2 (0 : Fin 1) q) + ∑ p : Fin 5000, colSeq (fun i => Z1 V c i * Z1 V c i) q (5000 * t.val + p.val) :=
  (pay2_apply _ acc q).trans (congrArg (acc (ix2 (0 : Fin 1) q) + ·) (Finset.sum_congr rfl fun p _ => by
    rw [pay5_blk V c t p q]
    exact (colSeq_lt (fun i => Z1 V c i * Z1 V c i) q _ (rowAt t.val (lt20 t) p).isLt).symm))

/-- After point n the sum accumulator holds, in column q, the sum of the first 5000 (n + 1) rows of column q. -/
theorem outs_s : ∀ (n : ℕ) (hn : n < cfg1.N) (q : Fin 64),
    (outsAt1 (F := Ideal) V c n hn).2.1 (ix2 (0 : Fin 1) q) = ∑ m ∈ Finset.range (5000 * (n + 1)), colSeq (Z1 V c) q m
  | 0, hn, q => by
    rw [outsAt1_A V c ⟨0, hn⟩ rfl]
    dsimp only
    rw [sA (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)]
    rw [s_step V c ⟨0, hn⟩ (k1_pay3 (F := Ideal)) q, pay3_apply, sum_range_block, Nat.mul_zero, Finset.range_zero, Finset.sum_empty]
  | n + 1, hn, q => by
    have hB : ¬(⟨n + 1, hn⟩ : Fin cfg1.N).val % 20 = 0 := by have := lt_of_lt_of_eq hn N_1; dsimp only; omega
    rw [outsAt1_B V c ⟨n + 1, hn⟩ hB]
    dsimp only
    rw [sB (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2]
    rw [s_step V c ⟨n + 1, hn⟩ _ q, sum_range_block]
    exact congrArg (· + _) (outs_s n _ q)

/-- The same for the accumulator of squares. -/
theorem outs_ss : ∀ (n : ℕ) (hn : n < cfg1.N) (q : Fin 64),
    (outsAt1 (F := Ideal) V c n hn).2.2 (ix2 (0 : Fin 1) q) = ∑ m ∈ Finset.range (5000 * (n + 1)), colSeq (fun i => Z1 V c i * Z1 V c i) q m
  | 0, hn, q => by
    rw [outsAt1_A V c ⟨0, hn⟩ rfl]
    dsimp only
    rw [ssA (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)]
    rw [ss_step V c ⟨0, hn⟩ (k1_pay4 (F := Ideal)) q, pay4_apply, sum_range_block, Nat.mul_zero, Finset.range_zero, Finset.sum_empty]
  | n + 1, hn, q => by
    have hB : ¬(⟨n + 1, hn⟩ : Fin cfg1.N).val % 20 = 0 := by have := lt_of_lt_of_eq hn N_1; dsimp only; omega
    rw [outsAt1_B V c ⟨n + 1, hn⟩ hB]
    dsimp only
    rw [ssB (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2]
    rw [ss_step V c ⟨n + 1, hn⟩ _ q, sum_range_block]
    exact congrArg (· + _) (outs_ss n _ q)

/-! ## From the per-point blocks to the arrays -/

/-- What point t writes back of output 7 is block t of the whole-array function. -/
theorem flushed7 (t : Fin cfg1.N) :
    (dat1 (F := Ideal) V c).flushed 7 t = ((cfg1.win 7).blk t).view.read (Elt Ideal) (Z1 V c) := by
  show (cfg1.win 7).cut (grid1.coords t) ((dat1 (F := Ideal) V c).after 7 t) = _
  rw [after1_7, outs_z]
  funext j
  obtain ⟨p, q, rfl⟩ : ∃ (p : Fin 5000) (q : Fin 64), j = ix2 p q := ⟨j 0, j 1, eq_ix2 j⟩
  rw [View.read_apply]
  refine (pay5_blk V c t p q).trans ?_
  show Z1 V c _ = Z1 V c _
  refine congrArg (Z1 V c) ?_
  funext a; apply Fin.ext
  match a with
  | ⟨0, _⟩ => show 5000 * t.val + p.val = win1_7.index t (0 : Fin 2) * 5000 + 1 * p.val; rw [(idx_facts t).2.1.1]; omega
  | ⟨1, _⟩ => show q.val = win1_7.index t (1 : Fin 2) * 64 + 1 * q.val; rw [(idx_facts t).2.1.2]; omega

/-- An index of the output array lies in point t's block iff each coordinate lies in the block's range. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v33_0).slice (win1_7.rect t)).set ↔ _
  rw [View.set_slice_whole, Rect.mem_set_unit]
  exact Iff.rfl

/-- Row r lies in block r / 5000. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_blk7]
  intro a
  match a with
  | ⟨0, _⟩ =>
    show win1_7.index _ (0 : Fin 2) * 5000 ≤ (i 0).val ∧ (i 0).val < win1_7.index _ (0 : Fin 2) * 5000 + 5000
    rw [(idx_facts _).2.1.1]
    show (i 0).val / 5000 * 5000 ≤ (i 0).val ∧ (i 0).val < (i 0).val / 5000 * 5000 + 5000
    omega
  | ⟨1, _⟩ =>
    show win1_7.index _ (1 : Fin 2) * 64 ≤ (i 1).val ∧ (i 1).val < win1_7.index _ (1 : Fin 2) * 64 + 64
    rw [(idx_facts _).2.1.2]
    omega

/-- The first output array ends holding the whole-array function. -/
theorem z_final : ((dat1 (F := Ideal) V c).arrAt 7 cfg1.N : SN.Idx → EReal) = Z1 V c :=
  (dat1 (F := Ideal) V c).arrAt_eq_of_cover 7 (Z1 V c) (fun t _ => flushed7 V c t) cover7

/-- The last grid point. -/
abbrev tLast : Fin cfg1.N := ⟨19, by decide⟩

/-- After the last point the sum accumulator is the row of column sums over all 100000 rows. -/
theorem outs_s_last : (outsAt1 (F := Ideal) V c (tLast).val (tLast).isLt).2.1 = fun i : S1x64.Idx => colSum (Z1 V c) ⟨(i 1).val, idx2_lt1 i⟩ := by
  funext i
  obtain ⟨u, q, rfl⟩ : ∃ (u : Fin 1) (q : Fin 64), i = ix2 u q := ⟨i 0, i 1, eq_ix2 i⟩
  obtain rfl : u = 0 := Subsingleton.elim _ _
  exact (outs_s V c 19 _ q).trans (sum_colSeq_all (Z1 V c) q)

theorem sum_colSeq_sq_all (Z : SN.Idx → EReal) (q : Fin 64) :
    ∑ m ∈ Finset.range (5000 * (19 + 1)), colSeq (fun i => Z i * Z i) q m = colSumSq Z q :=
  sum_colSeq_all (fun i => Z i * Z i) q

theorem outs_ss_last : (outsAt1 (F := Ideal) V c (tLast).val (tLast).isLt).2.2 = fun i : S1x64.Idx => colSumSq (Z1 V c) ⟨(i 1).val, idx2_lt1 i⟩ := by
  funext i
  obtain ⟨u, q, rfl⟩ : ∃ (u : Fin 1) (q : Fin 64), i = ix2 u q := ⟨i 0, i 1, eq_ix2 i⟩
  obtain rfl : u = 0 := Subsingleton.elim _ _
  exact (outs_ss V c 19 _ q).trans (sum_colSeq_sq_all (Z1 V c) q)

/-- Only the last point writes output 8 back, and its block is the whole 1 × 64 array. -/
theorem flushed8 (t : Fin cfg1.N) (hf : (cfg1.win 8).flush t = true) :
    (dat1 (F := Ideal) V c).flushed 8 t = ((cfg1.win 8).blk t).view.read (Elt Ideal) (fun i : S1x64.Idx => colSum (Z1 V c) ⟨(i 1).val, idx2_lt1 i⟩) := by
  have h19 : t.val = 19 := by have := (flush1_8 t).mp hf; have := lt20 t; omega
  obtain rfl : t = tLast := Fin.ext h19
  show (cfg1.win 8).cut (grid1.coords tLast) ((dat1 (F := Ideal) V c).after 8 tLast) = _
  rw [after1_8, outs_s_last]
  have hz' : (fun a => win1_8.index tLast a * main_v33_1.ty.shape.size a) = fun _ => 0 := funext fun a => by fin_cases a <;> decide
  exact (Memref.read_access_unit_zero (Elt Ideal) main_v33_1 hz' (fun a => by rw [congrFun hz' a]; simp) _).symm

theorem flushed9 (t : Fin cfg1.N) (hf : (cfg1.win 9).flush t = true) :
    (dat1 (F := Ideal) V c).flushed 9 t = ((cfg1.win 9).blk t).view.read (Elt Ideal) (fun i : S1x64.Idx => colSumSq (Z1 V c) ⟨(i 1).val, idx2_lt1 i⟩) := by
  have h19 : t.val = 19 := by have := (flush1_9 t).mp hf; have := lt20 t; omega
  obtain rfl : t = tLast := Fin.ext h19
  show (cfg1.win 9).cut (grid1.coords tLast) ((dat1 (F := Ideal) V c).after 9 tLast) = _
  rw [after1_9, outs_ss_last]
  have hz' : (fun a => win1_9.index tLast a * main_v33_2.ty.shape.size a) = fun _ => 0 := funext fun a => by fin_cases a <;> decide
  exact (Memref.read_access_unit_zero (Elt Ideal) main_v33_2 hz' (fun a => by rw [congrFun hz' a]; simp) _).symm

/-- The last point's block of output 8 covers the whole 1 × 64 array. -/
theorem cover8 (i : S1x64.Idx) : ∃ t : Fin cfg1.N, (cfg1.win 8).flush t = true ∧ i ∈ ((cfg1.win 8).blk t).view.set :=
  ⟨tLast, (flush1_8 tLast).mpr rfl, by
    show i ∈ ((View.whole main_v33_1).slice (win1_8.rect tLast)).set
    rw [View.set_slice_whole, Rect.mem_set_unit]
    intro a
    have h0 : (i 0 : Nat) < 1 := (i 0).isLt
    have h1 : (i 1 : Nat) < 64 := (i 1).isLt
    match a with
    | ⟨0, _⟩ => show win1_8.index tLast 0 * win1_8.size 0 ≤ (i 0 : Nat) ∧ (i 0 : Nat) < win1_8.index tLast 0 * win1_8.size 0 + win1_8.xsize (grid1.coords tLast) 0
                rw [show win1_8.index tLast 0 * win1_8.size 0 = 0 from by decide +kernel, show win1_8.xsize (grid1.coords tLast) 0 = 1 from by decide +kernel]; omega
    | ⟨1, _⟩ => show win1_8.index tLast 1 * win1_8.size 1 ≤ (i 1 : Nat) ∧ (i 1 : Nat) < win1_8.index tLast 1 * win1_8.size 1 + win1_8.xsize (grid1.coords tLast) 1
                rw [show win1_8.index tLast 1 * win1_8.size 1 = 0 from by decide +kernel, show win1_8.xsize (grid1.coords tLast) 1 = 64 from by decide +kernel]; omega⟩

theorem cover9 (i : S1x64.Idx) : ∃ t : Fin cfg1.N, (cfg1.win 9).flush t = true ∧ i ∈ ((cfg1.win 9).blk t).view.set :=
  ⟨tLast, (flush1_9 tLast).mpr rfl, by
    show i ∈ ((View.whole main_v33_2).slice (win1_9.rect tLast)).set
    rw [View.set_slice_whole, Rect.mem_set_unit]
    intro a
    have h0 : (i 0 : Nat) < 1 := (i 0).isLt
    have h1 : (i 1 : Nat) < 64 := (i 1).isLt
    match a with
    | ⟨0, _⟩ => show win1_9.index tLast 0 * win1_9.size 0 ≤ (i 0 : Nat) ∧ (i 0 : Nat) < win1_9.index tLast 0 * win1_9.size 0 + win1_9.xsize (grid1.coords tLast) 0
                rw [show win1_9.index tLast 0 * win1_9.size 0 = 0 from by decide +kernel, show win1_9.xsize (grid1.coords tLast) 0 = 1 from by decide +kernel]; omega
    | ⟨1, _⟩ => show win1_9.index tLast 1 * win1_9.size 1 ≤ (i 1 : Nat) ∧ (i 1 : Nat) < win1_9.index tLast 1 * win1_9.size 1 + win1_9.xsize (grid1.coords tLast) 1
                rw [show win1_9.index tLast 1 * win1_9.size 1 = 0 from by decide +kernel, show win1_9.xsize (grid1.coords tLast) 1 = 64 from by decide +kernel]; omega⟩

/-- The second output array ends holding the column sums of the first. -/
theorem s_final : ((dat1 (F := Ideal) V c).arrAt 8 cfg1.N : SR.Idx → EReal) = fun i => colSum (Z1 V c) ⟨(i 1).val, idx2_lt1 i⟩ :=
  (dat1 (F := Ideal) V c).arrAt_eq_of_cover 8 _ (flushed8 V c) cover8

/-- The third output array ends holding the column sums of squares of the first. -/
theorem ss_final : ((dat1 (F := Ideal) V c).arrAt 9 cfg1.N : SR.Idx → EReal) = fun i => colSumSq (Z1 V c) ⟨(i 1).val, idx2_lt1 i⟩ :=
  (dat1 (F := Ideal) V c).arrAt_eq_of_cover 9 _ (flushed9 V c) cover9

end Cert.KernelIdeal.R1
-- ==== Proof.R2.lean ====
/-
  Normalise, scale, shift and clamp: the array the third kernel region leaves.

  The region walks the 100000 × 64 array z in twenty blocks of 5000 rows. At each block it reads the whole rows μ, v, g, β
  (each 1 × 64) and stores, at row p and column q of the block,
      max ( (z(p, q) − μ(q)) · rsqrt(v(q) + ε) · g(q) + β(q) , 0 ).
  Every entry depends only on its own entry of z and on its column's four statistics, so the block written at step t is the
  restriction to rows 5000·t … 5000·t + 4999 of ONE function of the arrays: the specification's relu ∘ bn. Row r lies in
  block r / 5000, the twenty blocks fill the array, and so the array ends holding that function everywhere. The float words
  ε and 0 are the same words on both sides and are never evaluated.
-/
import proofs.«129487_j15015205667099_1_alg».proof.Proof.Gen.KernelIdeal.Frame
import proofs.«129487_j15015205667099_1_alg».proof.Proof.GinSpec
import Idealize.ShloMosaic.Lib.ValueLayout
import Idealize.ShloMosaic.Lib.Pipeline.Value

set_option maxRecDepth 16384

noncomputable section

namespace Cert.KernelIdeal.R2

open Idealize.ShloMosaic Idealize.ShloMosaic.TcCoe Idealize.ShloMosaic.ValueIdx Idealize.SL.Sem
open Idealize.ShloMosaic.Pipeline (Dat)
open Cert.KernelIdeal Cert.KernelIdeal.Gen Cert.GinSpec

/-! ## One entry of the stored block -/

/-- A row [1, 64] repeated down 5000 rows reads, at (p, q), the row's entry q. -/
theorem row_bcast {α : Type} (v : (⟨2, ![1, 64]⟩ : Shape).Idx → α) (h : (⟨2, ![1, 64]⟩ : Shape).Broadcasts ⟨2, ![5000, 64]⟩)
    (p : Fin 5000) (q : Fin 64) : broadcastTo ⟨2, ![5000, 64]⟩ v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The stored value at row p, column q of a block: the block's own entry less the mean row's entry q, times the
    reciprocal square root of the variance row's entry q plus ε, times the scale row's entry q, plus the shift row's
    entry q, clamped below at zero. -/
theorem pay_apply (x0 : Vec Ideal S5000x64 .f32) (x1 x2 x3 x4 : Vec Ideal S1x64 .f32) (p : Fin 5000) (q : Fin 64) :
    (k2_pay1 (F := Ideal) x0 x1 x2 x3 x4 (ix2 p q) : EReal)
      = max (((x0 (ix2 p q) : EReal) - x1 (ix2 (0 : Fin 1) q)) * Ideal.rsqrt (x2 (ix2 (0 : Fin 1) q) + EPS) * x3 (ix2 (0 : Fin 1) q)
          + x4 (ix2 (0 : Fin 1) q)) ZW := by
  unfold k2_pay1
  simp only [shapeCast_self]
  simp only [maximumf_apply, addf_apply, mulf_apply, subf_apply, broadcast_apply, row_bcast]
  rfl

/-! ## Where the blocks sit -/

theorem hz : (![0, 0] : Fin 2 → Nat) = fun _ => 0 := funext fun a => by fin_cases a <;> rfl

/-- At step t the block of z and the block written are both block t along the rows and block 0 along the columns; the four
    statistics rows are always block (0, 0): the index maps evaluated at each of the twenty steps. -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b)) (c : Dev nD)

/-- What the array is to hold: the specification's normalisation and clamp of the arrays as the region finds them. -/
def out : SN.Idx → EReal :=
  relu (bn (V c main_v33_0) (ofRow (V c main_v35)) (ofRow (V c main_v39)) (ofRow (V c main_v8)) (ofRow (V c main_v9)))

/-- What step t writes back is block t of `out`: entry (p, q) of the stored block is the formula above on the blocks
    the step reads; the block of z sits where the written block sits, so its entry (p, q) is z at the written entry's
    position; each statistics row is whole, so its entry q is the row's entry at the written entry's column. -/
theorem flushed_eq (t : Fin cfg2.N) :
    (dat2 (F := Ideal) V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  obtain ⟨e50, e51, e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) (iblk2 V c 2 t) (iblk2 V c 3 t) (iblk2 V c 4 t) p q).trans ?_
  rw [View.read_apply]
  have hZ : (iblk2 V c 0 t (ix2 p q) : EReal) = V c main_v33_0 (((cfg2.win 5).blk t).view.emb (ix2 p q)) := by
    show V c main_v33_0 (((cfg2.win 0).blk t).view.emb (ix2 p q)) = _
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * q.val = win2_5.index t (1 : Fin 2) * 64 + 1 * q.val; omega
  have h1 : (iblk2 V c 1 t (ix2 (0 : Fin 1) q) : EReal)
      = ofRow (V c main_v35) (colOf (((cfg2.win 5).blk t).view.emb (ix2 p q))) := by
    show V c main_v35 (((cfg2.win 1).blk t).view.emb (ix2 (0 : Fin 1) q)) = V c main_v35 (ix2 (0 : Fin 1) (colOf _))
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  have h2 : (iblk2 V c 2 t (ix2 (0 : Fin 1) q) : EReal)
      = ofRow (V c main_v39) (colOf (((cfg2.win 5).blk t).view.emb (ix2 p q))) := by
    show V c main_v39 (((cfg2.win 2).blk t).view.emb (ix2 (0 : Fin 1) q)) = V c main_v39 (ix2 (0 : Fin 1) (colOf _))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  have h3 : (iblk2 V c 3 t (ix2 (0 : Fin 1) q) : EReal)
      = ofRow (V c main_v8) (colOf (((cfg2.win 5).blk t).view.emb (ix2 p q))) := by
    show V c main_v8 (((cfg2.win 3).blk t).view.emb (ix2 (0 : Fin 1) q)) = V c main_v8 (ix2 (0 : Fin 1) (colOf _))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have h4 : (iblk2 V c 4 t (ix2 (0 : Fin 1) q) : EReal)
      = ofRow (V c main_v9) (colOf (((cfg2.win 5).blk t).view.emb (ix2 p q))) := by
    show V c main_v9 (((cfg2.win 4).blk t).view.emb (ix2 (0 : Fin 1) q)) = V c main_v9 (ix2 (0 : Fin 1) (colOf _))
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  rw [hZ, h1, h2, h3, h4]
  rfl

/-! ## The blocks fill the array -/

/-- An index of the array is in step t's block iff each coordinate is in the block's range on its axis. -/
theorem mem_blk (t : Fin cfg2.N) (i : SN.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v40).slice (win2_5.rect t)).set ↔ _
  rw [View.set_slice_whole, Rect.mem_set_unit]
  exact Iff.rfl

/-- Row r is written at step r / 5000. -/
theorem cover (i : SN.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e50, e51, -⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-! ## The array after the region -/

/-- After its twenty steps the region's output array holds the specification's normalisation, clamped at zero, of the five
    arrays it read, as the region found them. -/
theorem out_final : ((dat2 (F := Ideal) V c).arrAt 5 cfg2.N : SN.Idx → EReal)
    = relu (bn (V c main_v33_0) (ofRow (V c main_v35)) (ofRow (V c main_v39)) (ofRow (V c main_v8)) (ofRow (V c main_v9))) :=
  (dat2 (F := Ideal) V c).arrAt_eq_of_cover 5 (out V c) (fun t _ => flushed_eq V c t) cover

end Cert.KernelIdeal.R2

end
-- ==== Proof.R3Pay.lean ====
/-
  The arithmetic of one grid point of the second of the network's two add-the-neighbours-then-affine steps, read entry by entry on the extended reals.

  A point holds a block of 5000 rows of the layer's input h and of its aggregated neighbours, the 64 × 64 weight matrix and the bias row.
  The affine payload at (p, q) is  Σ_k (h(p,k) + agg(p,k)) · w(k,q) + b(q):  the narrowing of the product's operands is
  the identity on the extended reals, and the product is accumulated onto the zero block.  The two statistics payloads
  add to a running row of 64 entries the block's column sums of the affine payload and of its squares.
-/
import proofs.«129487_j15015205667099_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R3

open Cert.KernelIdeal Cert.KernelIdeal.Gen Idealize.ShloMosaic Idealize.ShloMosaic.ValueIdx
open scoped BigOperators

/-- The matrix product of a 5000 × 64 block with a 64 × 64 matrix, accumulated onto zero, at row p and column q:
    the sum over the 64 contraction positions of the products. -/
theorem mm_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide),
          dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide),
          dif_pos (show (1 : Fin S64x64.rank) ∈ dot_S5000x64_S64x64_S5000x64_1_0_0_1_n_n.rhsNonContracting by decide)]
        rfl)
  rw [el, er]

/-- The sum of a 5000 × 64 block over its rows, at column q. -/
theorem colred_apply (src : FVec Ideal S5000x64 .f32) (hacc : (0x00000000#32 : BitVec 32) = 0x00000000#32) (q : Fin 64) :
    multiReduction .add [0] S64 src 0x00000000#32 reduces_S5000x64_S64 (.inl rfl) hacc (ix1 q) = ∑ p : Fin 5000, src (ix2 p q) := by
  refine (Ideal.multiReduction_add_single src 0x00000000#32 reduces_S5000x64_S64 (.inl rfl) hacc (ix1 q)).trans ?_
  refine Finset.sum_congr rfl fun k _ => congrArg src ?_
  funext a
  apply Fin.ext
  match a with
  | ⟨0, _⟩ => rfl
  | ⟨1, _⟩ => rfl

/-- The affine payload at row p and column q: the block sum x0 + x1, times the matrix, plus the bias row. -/
theorem pay3_apply (x0 x1 : Vec Ideal S5000x64 .f32) (x2 : Vec Ideal S64x64 .f32) (x3 : Vec Ideal S1x64 .f32)
    (p : Fin 5000) (q : Fin 64) :
    k3_pay3 (F := Ideal) x0 x1 x2 x3 (ix2 p q)
      = (∑ k : Fin 64, (x0 (ix2 p k) + x1 (ix2 p k)) * x2 (ix2 k q)) + x3 (ix2 (0 : Fin 1) q) := by
  unfold k3_pay3
  show (matmul (F := Ideal) dot_S5000x64_S64x64_S5000x64_1_0_0_1_n_n none _ _ (constant S5000x64 .f32 0x00000000#32) (ix2 p q) : EReal)
      + (broadcastTo S5000x64 (shapeCast S1x64 x3 shapeCasts_S1x64_S1x64) broadcasts_S1x64_S5000x64 (ix2 p q) : EReal) = _
  rw [mm_apply, broadcastTo_1b_ab_apply, shapeCast_self, shapeCast_self, shapeCast_self]
  rfl

/-- The column-sum payload at column q: the running row plus the block's column sum of the affine payload. -/
theorem pay4_apply (x0 x1 : Vec Ideal S5000x64 .f32) (x2 : Vec Ideal S64x64 .f32) (x3 : Vec Ideal S1x64 .f32)
    (acc : Vec Ideal S1x64 .f32) (u : Fin 1) (q : Fin 64) :
    k3_pay4 (F := Ideal) x0 x1 x2 x3 acc (ix2 u q)
      = acc (ix2 u q) + ∑ p : Fin 5000, k3_pay3 (F := Ideal) x0 x1 x2 x3 (ix2 p q) := by
  unfold k3_pay4
  show (shapeCast S1x64 acc shapeCasts_S1x64_S1x64 (ix2 u q) : EReal)
      + (shapeCast S1x64 (multiReduction .add [0] S64 (k3_pay3 (F := Ideal) x0 x1 x2 x3) 0x00000000#32 reduces_S5000x64_S64 (.inl rfl) rfl)
          shapeCasts_S64_S1x64 (ix2 u q) : EReal) = _
  rw [shapeCast_self, shapeCast_a_1a_apply, colred_apply]

/-- The column-sum-of-squares payload at column q: the running row plus the block's column sum of the squared affine payload. -/
theorem pay5_apply (x0 x1 : Vec Ideal S5000x64 .f32) (x2 : Vec Ideal S64x64 .f32) (x3 : Vec Ideal S1x64 .f32)
    (acc : Vec Ideal S1x64 .f32) (u : Fin 1) (q : Fin 64) :
    k3_pay5 (F := Ideal) x0 x1 x2 x3 acc (ix2 u q)
      = acc (ix2 u q) + ∑ p : Fin 5000, k3_pay3 (F := Ideal) x0 x1 x2 x3 (ix2 p q) * k3_pay3 (F := Ideal) x0 x1 x2 x3 (ix2 p q) := by
  unfold k3_pay5
  show (shapeCast S1x64 acc shapeCasts_S1x64_S1x64 (ix2 u q) : EReal)
      + (shapeCast S1x64 (multiReduction .add [0] S64 (mulf (k3_pay3 (F := Ideal) x0 x1 x2 x3) (k3_pay3 (F := Ideal) x0 x1 x2 x3)) 0x00000000#32 reduces_S5000x64_S64 (.inl rfl) rfl)
          shapeCasts_S64_S1x64 (ix2 u q) : EReal) = _
  rw [shapeCast_self, shapeCast_a_1a_apply, colred_apply]
  rfl

/-- The reset payloads are the zero row. -/
theorem pay1_apply (i : S1x64.Idx) : k3_pay1 (F := Ideal) i = 0 := by
  unfold k3_pay1
  show Ideal.ofBits .f32 0x00000000#32 = 0
  exact Ideal.ofBits_zero_f32
theorem pay2_apply (i : S1x64.Idx) : k3_pay2 (F := Ideal) i = 0 := by
  unfold k3_pay2
  show Ideal.ofBits .f32 0x00000000#32 = 0
  exact Ideal.ofBits_zero_f32

end Cert.KernelIdeal.R3
-- ==== Proof.R3Piece.lean ====
/-
  What one grid point of the second of the network's two add-the-neighbours-then-affine steps leaves in its three output buffers, as payloads of the blocks it read.

  Every store of the body covers its whole buffer, so a buffer ends at the payload of its last store.  At the first point the
  two statistics rows are first reset to the zero row, and the running rows the later stores read are that zero row; at every
  other point they are what the point before left.
-/
import proofs.«129487_j15015205667099_1_alg».proof.Proof.Gen.KernelIdeal.Frame
import Idealize.ShloMosaic.Lib.Pipeline.Value
import Idealize.ShloMosaic.Lib.Tactic

noncomputable section

namespace Cert.KernelIdeal.R3

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The first point: output 4 ends at its one store's payload. -/
theorem out_A_4 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond3_0 i) (x0 x1 : Vec F S5000x64 .f32) (x2 : Vec F S64x64 .f32) (x3 : Vec F S1x64 .f32) :
    out3_A_4 c i a1 h1 a2 h2 a3 h3 a4 h4 a5 h5 a6 h6 a7 h7 hc x0 x1 x2 x3 = k3_pay3 x0 x1 x2 x3 := by
  unfold out3_A_4
  rw [View.read_writes_eq_canon _ _ _ (cover3_A_4 c i a1 h1 a2 h2 a3 h3 a4 h4 a5 h5 a6 h6 a7 h7 hc x0 x1 x2 x3)]
  unfold kernelRun3_A
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- The first point: output 5 is reset to the zero row, read back, and ends at the payload over that zero row. -/
theorem out_A_5 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond3_0 i) (x0 x1 : Vec F S5000x64 .f32) (x2 : Vec F S64x64 .f32) (x3 : Vec F S1x64 .f32) :
    out3_A_5 c i a1 h1 a2 h2 a3 h3 a4 h4 a5 h5 a6 h6 a7 h7 hc x0 x1 x2 x3 = k3_pay4 x0 x1 x2 x3 k3_pay1 := by
  unfold out3_A_5
  rw [View.read_writes_eq_canon _ _ _ (cover3_A_5 c i a1 h1 a2 h2 a3 h3 a4 h4 a5 h5 a6 h6 a7 h7 hc x0 x1 x2 x3)]
  unfold kernelRun3_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- The first point: output 6 is reset to the zero row, read back, and ends at the payload over that zero row. -/
theorem out_A_6 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond3_0 i) (x0 x1 : Vec F S5000x64 .f32) (x2 : Vec F S64x64 .f32) (x3 : Vec F S1x64 .f32) :
    out3_A_6 c i a1 h1 a2 h2 a3 h3 a4 h4 a5 h5 a6 h6 a7 h7 hc x0 x1 x2 x3 = k3_pay5 x0 x1 x2 x3 k3_pay2 := by
  unfold out3_A_6
  rw [View.read_writes_eq_canon _ _ _ (cover3_A_6 c i a1 h1 a2 h2 a3 h3 a4 h4 a5 h5 a6 h6 a7 h7 hc x0 x1 x2 x3)]
  unfold kernelRun3_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 4 ends at its one store's payload. -/
theorem out_B_4 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond3_0 i) (x0 x1 : Vec F S5000x64 .f32) (x2 : Vec F S64x64 .f32) (x3 : Vec F S1x64 .f32) (xo5 xo6 : Vec F S1x64 .f32) :
    out3_B_4 c i a1 h1 a2 h2 a3 h3 a4 h4 a5 h5 a6 h6 a7 h7 hc x0 x1 x2 x3 xo5 xo6 = k3_pay3 x0 x1 x2 x3 := by
  unfold out3_B_4
  rw [View.read_writes_eq_canon _ _ _ (cover3_B_4 c i a1 h1 a2 h2 a3 h3 a4 h4 a5 h5 a6 h6 a7 h7 hc x0 x1 x2 x3 xo5 xo6)]
  unfold kernelRun3_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 5 ends at its one store's payload. -/
theorem out_B_5 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond3_0 i) (x0 x1 : Vec F S5000x64 .f32) (x2 : Vec F S64x64 .f32) (x3 : Vec F S1x64 .f32) (xo5 xo6 : Vec F S1x64 .f32) :
    out3_B_5 c i a1 h1 a2 h2 a3 h3 a4 h4 a5 h5 a6 h6 a7 h7 hc x0 x1 x2 x3 xo5 xo6 = k3_pay4 x0 x1 x2 x3 xo5 := by
  unfold out3_B_5
  rw [View.read_writes_eq_canon _ _ _ (cover3_B_5 c i a1 h1 a2 h2 a3 h3 a4 h4 a5 h5 a6 h6 a7 h7 hc x0 x1 x2 x3 xo5 xo6)]
  unfold kernelRun3_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

/-- A point after the first: output 6 ends at its one store's payload. -/
theorem out_B_6 (c : Dev nD) (i : grid3.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond3_0 i) (x0 x1 : Vec F S5000x64 .f32) (x2 : Vec F S64x64 .f32) (x3 : Vec F S1x64 .f32) (xo5 xo6 : Vec F S1x64 .f32) :
    out3_B_6 c i a1 h1 a2 h2 a3 h3 a4 h4 a5 h5 a6 h6 a7 h7 hc x0 x1 x2 x3 xo5 xo6 = k3_pay5 x0 x1 x2 x3 xo6 := by
  unfold out3_B_6
  rw [View.read_writes_eq_canon _ _ _ (cover3_B_6 c i a1 h1 a2 h2 a3 h3 a4 h4 a5 h5 a6 h6 a7 h7 hc x0 x1 x2 x3 xo5 xo6)]
  unfold kernelRun3_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S64x64) hz, View.ld_unit_zero (S := S1x64) hz]

end Cert.KernelIdeal.R3
-- ==== Proof.R3Inv.lean ====
/-
  The second add-the-neighbours-then-affine step, point by point.

  The grid has 20 points; point t reads rows 5000·t … 5000·t + 4999 of the step's input h and of its aggregated neighbours, the whole weight
  matrix and the whole bias row.  By induction on the point: after point n the block output holds rows 5000·n … of
  Z = (h + agg) · w + b, and the two statistics rows hold the column sums of Z, and of its squares, over the first
  5000·(n + 1) rows (the first point adds its block's sums to the zero row, every later point to what the point before left).
-/
import proofs.«129487_j15015205667099_1_alg».proof.Proof.Gen.KernelIdeal.Frame
import proofs.«129487_j15015205667099_1_alg».proof.Proof.GinSpec
import proofs.«129487_j15015205667099_1_alg».proof.Proof.LibRowSum
import proofs.«129487_j15015205667099_1_alg».proof.Proof.R3Pay
import proofs.«129487_j15015205667099_1_alg».proof.Proof.R3Piece
import Idealize.ShloMosaic.Lib.Pipeline.Value
import Idealize.ShloMosaic.Lib.ValueIdx

noncomputable section

namespace Cert.KernelIdeal.R3

open Cert.KernelIdeal Cert.KernelIdeal.Gen Cert.GinSpec Cert.RowSum Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The step's result: (h + agg) · w + b. -/
abbrev Z3 : SN.Idx → EReal :=
  lin (fun i => HAdd.hAdd (α := EReal) (β := EReal) (γ := EReal) ((V c main_v40 : SN.Idx → EReal) i) ((V c main_v50 : SN.Idx → EReal) i))
    (V c main_arg10) (ofRow (V c main_v10))

/-- The windows' block indices at a point: the two row-blocked inputs and the row-blocked output sit at block (t, 0), the
    whole-array windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem lt_of_point (t : Fin cfg3.N) (p : Fin 5000) : 5000 * t.val + p.val < 100000 := by
  have hN : t.val < 20 := lt_of_lt_of_eq t.isLt (show cfg3.N = 20 from N_3)
  have := p.isLt
  omega

/-- Row p of h's block at point t is row 5000·t + p of h. -/
theorem blk_0 (t : Fin cfg3.N) (p : Fin 5000) (k : Fin 64) :
    (iblk3 V c 0 t : Vec Ideal S5000x64 .f32) (ix2 p k)
      = (V c main_v40 : SN.Idx → EReal) (ix2 ⟨5000 * t.val + p.val, lt_of_point t p⟩ k) := by
  unfold iblk3
  rw [View.read_apply]
  show (V c main_v40 : SN.Idx → EReal) _ = (V c main_v40 : SN.Idx → EReal) _
  refine congrArg (V c main_v40 : SN.Idx → EReal) ?_
  obtain ⟨e0, e1, -⟩ := idx_facts t
  funext a
  apply Fin.ext
  match a with
  | ⟨0, _⟩ => show win3_0.index t (0 : Fin 2) * 5000 + 1 * p.val = 5000 * t.val + p.val; rw [e0]; omega
  | ⟨1, _⟩ => show win3_0.index t (1 : Fin 2) * 64 + 1 * k.val = k.val; rw [e1]; omega

/-- Row p of the aggregated neighbours' block at point t is row 5000·t + p of that array. -/
theorem blk_1 (t : Fin cfg3.N) (p : Fin 5000) (k : Fin 64) :
    (iblk3 V c 1 t : Vec Ideal S5000x64 .f32) (ix2 p k)
      = (V c main_v50 : SN.Idx → EReal) (ix2 ⟨5000 * t.val + p.val, lt_of_point t p⟩ k) := by
  unfold iblk3
  rw [View.read_apply]
  show (V c main_v50 : SN.Idx → EReal) _ = (V c main_v50 : SN.Idx → EReal) _
  refine congrArg (V c main_v50 : SN.Idx → EReal) ?_
  obtain ⟨-, -, e0, e1, -⟩ := idx_facts t
  funext a
  apply Fin.ext
  match a with
  | ⟨0, _⟩ => show win3_1.index t (0 : Fin 2) * 5000 + 1 * p.val = 5000 * t.val + p.val; rw [e0]; omega
  | ⟨1, _⟩ => show win3_1.index t (1 : Fin 2) * 64 + 1 * k.val = k.val; rw [e1]; omega

/-- The weight window's block is the whole matrix at every point. -/
theorem blk_2 (t : Fin cfg3.N) (k q : Fin 64) :
    (iblk3 V c 2 t : Vec Ideal S64x64 .f32) (ix2 k q) = (V c main_arg10 : SW.Idx → EReal) (ix2 k q) := by
  unfold iblk3
  rw [View.read_apply]
  show (V c main_arg10 : SW.Idx → EReal) _ = (V c main_arg10 : SW.Idx → EReal) _
  refine congrArg (V c main_arg10 : SW.Idx → EReal) ?_
  obtain ⟨-, -, -, -, e0, e1, -⟩ := idx_facts t
  funext a
  apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The bias window's block is the whole row at every point. -/
theorem blk_3 (t : Fin cfg3.N) (u : Fin 1) (q : Fin 64) :
    (iblk3 V c 3 t : Vec Ideal S1x64 .f32) (ix2 u q) = (V c main_v10 : SR.Idx → EReal) (ix2 u q) := by
  unfold iblk3
  rw [View.read_apply]
  show (V c main_v10 : SR.Idx → EReal) _ = (V c main_v10 : SR.Idx → EReal) _
  refine congrArg (V c main_v10 : SR.Idx → EReal) ?_
  obtain ⟨-, -, -, -, -, -, e0, e1, -⟩ := idx_facts t
  funext a
  apply Fin.ext
  match a with
  | ⟨0, _⟩ => show win3_3.index t (0 : Fin 2) * 1 + 1 * u.val = u.val; rw [e0]; omega
  | ⟨1, _⟩ => show win3_3.index t (1 : Fin 2) * 64 + 1 * q.val = q.val; rw [e1]; omega

/-- The affine map of a sum of two arrays, at row r and column q. -/
theorem lin_row (X A : SN.Idx → EReal) (W : SW.Idx → EReal) (B : SR.Idx → EReal) (r : Fin 100000) (q : Fin 64) :
    lin (fun i => X i + A i) W (ofRow B) (ix2 r q)
      = (∑ k : Fin 64, (X (ix2 r k) + A (ix2 r k)) * W (ix2 k q)) + B (ix2 (0 : Fin 1) q) := rfl

/-- The affine payload of point t's blocks at (p, q) is the layer's result at row 5000·t + p. -/
theorem pay3_row (t : Fin cfg3.N) (p : Fin 5000) (q : Fin 64) :
    k3_pay3 (F := Ideal) (iblk3 V c 0 t) (iblk3 V c 1 t) (iblk3 V c 2 t) (iblk3 V c 3 t) (ix2 p q) = rowFn (Z3 V c) q (5000 * t.val + p.val) := by
  rw [rowFn_of_lt _ _ _ (lt_of_point t p)]
  refine (pay3_apply (iblk3 V c 0 t) (iblk3 V c 1 t) (iblk3 V c 2 t) (iblk3 V c 3 t) p q).trans ?_
  refine Eq.trans ?_ (lin_row (V c main_v40) (V c main_v50) (V c main_arg10) (V c main_v10) ⟨5000 * t.val + p.val, lt_of_point t p⟩ q).symm
  rw [blk_3 V c t 0 q]
  refine congrArg (· + _) (Finset.sum_congr rfl fun k _ => ?_)
  rw [blk_0 V c t p k, blk_1 V c t p k, blk_2 V c t k q]

/-- The first point leaves the affine payload and the two statistics payloads over the zero row. -/
theorem at_A (t : Fin cfg3.N) (h0 : t.val % 20 = 0) :
    outsAt3 V c t.val t.isLt
      = (k3_pay3 (iblk3 V c 0 t) (iblk3 V c 1 t) (iblk3 V c 2 t) (iblk3 V c 3 t), k3_pay4 (iblk3 V c 0 t) (iblk3 V c 1 t) (iblk3 V c 2 t) (iblk3 V c 3 t) (k3_pay1 (F := Ideal)), k3_pay5 (iblk3 V c 0 t) (iblk3 V c 1 t) (iblk3 V c 2 t) (iblk3 V c 3 t) (k3_pay2 (F := Ideal))) :=
  (outsAt3_A V c t h0).trans
    (congrArg₂ Prod.mk (out_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))
      (congrArg₂ Prod.mk (out_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))
        (out_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))))

/-- Every later point leaves the affine payload and the two statistics payloads over what the point before left. -/
theorem at_B (t : Fin cfg3.N) (h0 : ¬t.val % 20 = 0) :
    outsAt3 V c t.val t.isLt
      = (k3_pay3 (iblk3 V c 0 t) (iblk3 V c 1 t) (iblk3 V c 2 t) (iblk3 V c 3 t), k3_pay4 (iblk3 V c 0 t) (iblk3 V c 1 t) (iblk3 V c 2 t) (iblk3 V c 3 t) (outsAt3 V c (t.val - 1) (Nat.lt_of_le_of_lt (Nat.sub_le _ _) t.isLt)).2.1, k3_pay5 (iblk3 V c 0 t) (iblk3 V c 1 t) (iblk3 V c 2 t) (iblk3 V c 3 t) (outsAt3 V c (t.val - 1) (Nat.lt_of_le_of_lt (Nat.sub_le _ _) t.isLt)).2.2) :=
  (outsAt3_B V c t h0).trans
    (congrArg₂ Prod.mk (out_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2)
      (congrArg₂ Prod.mk (out_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2)
        (out_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2)))

/-- After point n: output 4 holds block n of the layer's result, and outputs 5 and 6 hold the column sums, and the column
    sums of squares, of the result over the first 5000·(n+1) rows. -/
theorem inv : ∀ (n : ℕ) (hn : n < cfg3.N),
    (∀ (p : Fin 5000) (q : Fin 64), (outsAt3 V c n hn).1 (ix2 p q) = rowFn (Z3 V c) q (5000 * n + p.val))
    ∧ (∀ (u : Fin 1) (q : Fin 64), (outsAt3 V c n hn).2.1 (ix2 u q) = ∑ r ∈ Finset.range (5000 * (n + 1)), rowFn (Z3 V c) q r)
    ∧ (∀ (u : Fin 1) (q : Fin 64), (outsAt3 V c n hn).2.2 (ix2 u q)
        = ∑ r ∈ Finset.range (5000 * (n + 1)), rowFn (fun i => Z3 V c i * Z3 V c i) q r)
  | 0, hn => by
    have e : outsAt3 V c 0 hn = _ := at_A V c ⟨0, hn⟩ (Nat.zero_mod _)
    rw [e]
    refine ⟨fun p q => pay3_row V c ⟨0, hn⟩ p q, fun u q => ?_, fun u q => ?_⟩
    · refine (pay4_apply (iblk3 V c 0 ⟨0, hn⟩) (iblk3 V c 1 ⟨0, hn⟩) (iblk3 V c 2 ⟨0, hn⟩) (iblk3 V c 3 ⟨0, hn⟩) (k3_pay1 (F := Ideal)) u q).trans ?_
      exact first_block (rowFn (Z3 V c) q) _ (fun p => k3_pay3 (F := Ideal) (iblk3 V c 0 ⟨0, hn⟩) (iblk3 V c 1 ⟨0, hn⟩) (iblk3 V c 2 ⟨0, hn⟩) (iblk3 V c 3 ⟨0, hn⟩) (ix2 p q)) (pay1_apply _)
        (fun p => pay3_row V c ⟨0, hn⟩ p q)
    · refine (pay5_apply (iblk3 V c 0 ⟨0, hn⟩) (iblk3 V c 1 ⟨0, hn⟩) (iblk3 V c 2 ⟨0, hn⟩) (iblk3 V c 3 ⟨0, hn⟩) (k3_pay2 (F := Ideal)) u q).trans ?_
      exact first_block (rowFn (fun i => Z3 V c i * Z3 V c i) q) _
        (fun p => k3_pay3 (F := Ideal) (iblk3 V c 0 ⟨0, hn⟩) (iblk3 V c 1 ⟨0, hn⟩) (iblk3 V c 2 ⟨0, hn⟩) (iblk3 V c 3 ⟨0, hn⟩) (ix2 p q) * k3_pay3 (F := Ideal) (iblk3 V c 0 ⟨0, hn⟩) (iblk3 V c 1 ⟨0, hn⟩) (iblk3 V c 2 ⟨0, hn⟩) (iblk3 V c 3 ⟨0, hn⟩) (ix2 p q)) (pay2_apply _)
        (fun p => by rw [rowFn_sq, pay3_row V c ⟨0, hn⟩ p q])
  | n + 1, hn => by
    have hN : cfg3.N = 20 := N_3
    have hB : ¬(⟨n + 1, hn⟩ : Fin cfg3.N).val % 20 = 0 := by dsimp only; omega
    have e : outsAt3 V c (n + 1) hn = _ := at_B V c ⟨n + 1, hn⟩ hB
    rw [e]
    obtain ⟨-, ih5, ih6⟩ := inv n (Nat.lt_of_succ_lt hn)
    refine ⟨fun p q => pay3_row V c ⟨n + 1, hn⟩ p q, fun u q => ?_, fun u q => ?_⟩
    · refine (pay4_apply (iblk3 V c 0 ⟨n + 1, hn⟩) (iblk3 V c 1 ⟨n + 1, hn⟩) (iblk3 V c 2 ⟨n + 1, hn⟩) (iblk3 V c 3 ⟨n + 1, hn⟩) _ u q).trans ?_
      exact next_block (rowFn (Z3 V c) q) n _ (fun p => k3_pay3 (F := Ideal) (iblk3 V c 0 ⟨n + 1, hn⟩) (iblk3 V c 1 ⟨n + 1, hn⟩) (iblk3 V c 2 ⟨n + 1, hn⟩) (iblk3 V c 3 ⟨n + 1, hn⟩) (ix2 p q)) (ih5 u q)
        (fun p => pay3_row V c ⟨n + 1, hn⟩ p q)
    · refine (pay5_apply (iblk3 V c 0 ⟨n + 1, hn⟩) (iblk3 V c 1 ⟨n + 1, hn⟩) (iblk3 V c 2 ⟨n + 1, hn⟩) (iblk3 V c 3 ⟨n + 1, hn⟩) _ u q).trans ?_
      exact next_block (rowFn (fun i => Z3 V c i * Z3 V c i) q) n _
        (fun p => k3_pay3 (F := Ideal) (iblk3 V c 0 ⟨n + 1, hn⟩) (iblk3 V c 1 ⟨n + 1, hn⟩) (iblk3 V c 2 ⟨n + 1, hn⟩) (iblk3 V c 3 ⟨n + 1, hn⟩) (ix2 p q) * k3_pay3 (F := Ideal) (iblk3 V c 0 ⟨n + 1, hn⟩) (iblk3 V c 1 ⟨n + 1, hn⟩) (iblk3 V c 2 ⟨n + 1, hn⟩) (iblk3 V c 3 ⟨n + 1, hn⟩) (ix2 p q)) (ih6 u q)
        (fun p => by rw [rowFn_sq, pay3_row V c ⟨n + 1, hn⟩ p q])

end Cert.KernelIdeal.R3
-- ==== Proof.R3.lean ====
/-
  The second add-the-neighbours-then-affine step: what its three result arrays end holding.

  Every point writes its 5000-row block of Z = (h + agg) · w + b back to the result array, and row r lies in the block of
  point r / 5000, so the array ends at Z.  The two statistics rows are written back once, after the last point, when they
  hold the column sums of Z and of its squares over 5000 · 20 = 100000 rows: all of them.
-/
import proofs.«129487_j15015205667099_1_alg».proof.Proof.R3Inv

noncomputable section

namespace Cert.KernelIdeal.R3

open Cert.KernelIdeal Cert.KernelIdeal.Gen Cert.GinSpec Cert.RowSum Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! ## From the blocks to the arrays -/

/-- A staging index of a 5000 × 64 block, by its coordinates. -/
theorem xinj_4 (t : Fin cfg3.N) (j : ((cfg3.win 4).xblock (grid3.coords t)).Idx) (hj0 : (j 0).val < 5000) (hj1 : (j 1).val < 64) :
    (cfg3.win 4).xinj (grid3.coords t) j = ix2 ⟨(j 0).val, hj0⟩ ⟨(j 1).val, hj1⟩ :=
  funext fun a => by match a with | ⟨0, _⟩ => rfl | ⟨1, _⟩ => rfl

/-- What point t writes back to the result array is block t of the layer's result. -/
theorem flushed_4 (t : Fin cfg3.N) :
    (dat3 (F := Ideal) V c).flushed 4 t = ((cfg3.win 4).blk t).view.read (Elt Ideal) (Z3 V c) := by
  show (cfg3.win 4).cut (grid3.coords t) ((dat3 (F := Ideal) V c).after 4 t) = _
  rw [after3_4]
  funext j
  rw [View.read_apply]
  obtain ⟨-, -, -, -, -, -, -, -, e0, e1, -⟩ := idx_facts t
  have hj0 : (j 0).val < 5000 := (j 0).isLt
  have hj1 : (j 1).val < 64 := (j 1).isLt
  show (outsAt3 V c t.val t.isLt).1 ((cfg3.win 4).xinj (grid3.coords t) j) = Z3 V c (((cfg3.win 4).blk t).view.emb j)
  rw [xinj_4 t j hj0 hj1, (inv V c t.val t.isLt).1 ⟨(j 0).val, hj0⟩ ⟨(j 1).val, hj1⟩,
    rowFn_of_lt _ _ _ (lt_of_point t ⟨(j 0).val, hj0⟩)]
  refine congrArg (Z3 V c) ?_
  funext a
  apply Fin.ext
  match a with
  | ⟨0, _⟩ => show 5000 * t.val + (j 0).val = win3_4.index t (0 : Fin 2) * 5000 + 1 * (j 0).val; rw [e0]; omega
  | ⟨1, _⟩ => show (j 1).val = win3_4.index t (1 : Fin 2) * 64 + 1 * (j 1).val; rw [e1]; omega

/-- Row r of the result array lies in the block of point r / 5000. -/
theorem mem_blk_4 (t : Fin cfg3.N) (i : SN.Idx) (h : 5000 * t.val ≤ (i 0).val ∧ (i 0).val < 5000 * t.val + 5000) :
    i ∈ ((cfg3.win 4).blk t).view.set := by
  obtain ⟨-, -, -, -, -, -, -, -, e0, e1, -⟩ := idx_facts t
  have hi1 : (i 1).val < 64 := (i 1).isLt
  show i ∈ ((View.whole main_v51_0).slice (win3_4.rect t)).set
  rw [View.set_slice_whole, Rect.mem_set_unit]
  intro a
  match a with
  | ⟨0, _⟩ =>
    show win3_4.index t (0 : Fin 2) * 5000 ≤ (i 0).val ∧ (i 0).val < win3_4.index t (0 : Fin 2) * 5000 + 5000
    rw [e0]; omega
  | ⟨1, _⟩ =>
    show win3_4.index t (1 : Fin 2) * 64 ≤ (i 1).val ∧ (i 1).val < win3_4.index t (1 : Fin 2) * 64 + 64
    rw [e1]; omega

/-- The result array ends holding the step's result (h + agg) · w + b. -/
theorem z_final : ((dat3 (F := Ideal) V c).arrAt 4 cfg3.N : SN.Idx → EReal) = Z3 V c :=
  (dat3 (F := Ideal) V c).arrAt_eq_of_cover 4 (Z3 V c) (fun t _ => flushed_4 V c t) fun i => by
    have hN : cfg3.N = 20 := N_3
    have hi0 : (i 0).val < 100000 := (i 0).isLt
    exact ⟨⟨(i 0).val / 5000, by rw [hN]; omega⟩, flush3_4 _, mem_blk_4 _ i (by dsimp only; omega)⟩

/-- Column sums depend on the column's number only. -/
theorem colSum_congr (Z : SN.Idx → EReal) (a b : Fin 64) (h : a.val = b.val) : colSum Z a = colSum Z b :=
  congrArg (colSum Z) (Fin.ext h)
theorem colSumSq_congr (Z : SN.Idx → EReal) (a b : Fin 64) (h : a.val = b.val) : colSumSq Z a = colSumSq Z b :=
  congrArg (colSumSq Z) (Fin.ext h)

/-- A staging index of a 1 × 64 row, by its coordinates. -/
theorem xinj_5 (t : Fin cfg3.N) (j : ((cfg3.win 5).xblock (grid3.coords t)).Idx) (hj0 : (j 0).val < 1) (hj1 : (j 1).val < 64) :
    (cfg3.win 5).xinj (grid3.coords t) j = ix2 ⟨(j 0).val, hj0⟩ ⟨(j 1).val, hj1⟩ :=
  funext fun a => by match a with | ⟨0, _⟩ => rfl | ⟨1, _⟩ => rfl
theorem xinj_6 (t : Fin cfg3.N) (j : ((cfg3.win 6).xblock (grid3.coords t)).Idx) (hj0 : (j 0).val < 1) (hj1 : (j 1).val < 64) :
    (cfg3.win 6).xinj (grid3.coords t) j = ix2 ⟨(j 0).val, hj0⟩ ⟨(j 1).val, hj1⟩ :=
  funext fun a => by match a with | ⟨0, _⟩ => rfl | ⟨1, _⟩ => rfl

/-- The one write-back of the column-sum row, after the last point, writes the column sums over all rows. -/
theorem flushed_5 (t : Fin cfg3.N) (hf : (cfg3.win 5).flush t = true) :
    (dat3 (F := Ideal) V c).flushed 5 t
      = ((cfg3.win 5).blk t).view.read (Elt Ideal) (fun i : SR.Idx => colSum (Z3 V c) ⟨(i 1).val, idx2_lt1 i⟩) := by
  have hN : cfg3.N = 20 := N_3
  have h19 : t.val = 19 := by have := (flush3_5 t).mp hf; have := t.isLt; omega
  show (cfg3.win 5).cut (grid3.coords t) ((dat3 (F := Ideal) V c).after 5 t) = _
  rw [after3_5]
  funext j
  rw [View.read_apply]
  beta_reduce
  obtain ⟨-, -, -, -, -, -, -, -, -, -, e0, e1, -⟩ := idx_facts t
  have hj0 : (j 0).val < 1 := (j 0).isLt
  have hj1 : (j 1).val < 64 := (j 1).isLt
  have hl : (outsAt3 V c t.val t.isLt).2.1 ((cfg3.win 5).xinj (grid3.coords t) j) = colSum (Z3 V c) ⟨(j 1).val, hj1⟩ := by
    rw [xinj_5 t j hj0 hj1, (inv V c t.val t.isLt).2.1 ⟨(j 0).val, hj0⟩ ⟨(j 1).val, hj1⟩, h19,
      show 5000 * (19 + 1) = 100000 from rfl, sum_all]
  refine hl.trans ?_
  rw [cast_eq]
  refine colSum_congr (Z3 V c) _ _ ?_
  show (j 1).val = win3_5.index t (1 : Fin 2) * 64 + 1 * (j 1).val
  rw [e1]; omega

/-- The same for the row of column sums of squares. -/
theorem flushed_6 (t : Fin cfg3.N) (hf : (cfg3.win 6).flush t = true) :
    (dat3 (F := Ideal) V c).flushed 6 t
      = ((cfg3.win 6).blk t).view.read (Elt Ideal) (fun i : SR.Idx => colSumSq (Z3 V c) ⟨(i 1).val, idx2_lt1 i⟩) := by
  have hN : cfg3.N = 20 := N_3
  have h19 : t.val = 19 := by have := (flush3_6 t).mp hf; have := t.isLt; omega
  show (cfg3.win 6).cut (grid3.coords t) ((dat3 (F := Ideal) V c).after 6 t) = _
  rw [after3_6]
  funext j
  rw [View.read_apply]
  beta_reduce
  obtain ⟨-, -, -, -, -, -, -, -, -, -, -, -, e0, e1⟩ := idx_facts t
  have hj0 : (j 0).val < 1 := (j 0).isLt
  have hj1 : (j 1).val < 64 := (j 1).isLt
  have hl : (outsAt3 V c t.val t.isLt).2.2 ((cfg3.win 6).xinj (grid3.coords t) j) = colSumSq (Z3 V c) ⟨(j 1).val, hj1⟩ := by
    rw [xinj_6 t j hj0 hj1, (inv V c t.val t.isLt).2.2 ⟨(j 0).val, hj0⟩ ⟨(j 1).val, hj1⟩, h19,
      show 5000 * (19 + 1) = 100000 from rfl, sum_all_sq]
  refine hl.trans ?_
  rw [cast_eq]
  refine colSumSq_congr (Z3 V c) _ _ ?_
  show (j 1).val = win3_6.index t (1 : Fin 2) * 64 + 1 * (j 1).val
  rw [e1]; omega

/-- The last point's block of a statistics row is the whole row. -/
theorem mem_blk_5 (t : Fin cfg3.N) (i : SR.Idx) : i ∈ ((cfg3.win 5).blk t).view.set := by
  obtain ⟨-, -, -, -, -, -, -, -, -, -, e0, e1, -⟩ := idx_facts t
  have hi0 : (i 0).val < 1 := (i 0).isLt
  have hi1 : (i 1).val < 64 := (i 1).isLt
  show i ∈ ((View.whole main_v51_1).slice (win3_5.rect t)).set
  rw [View.set_slice_whole, Rect.mem_set_unit]
  intro a
  match a with
  | ⟨0, _⟩ =>
    show win3_5.index t (0 : Fin 2) * 1 ≤ (i 0).val ∧ (i 0).val < win3_5.index t (0 : Fin 2) * 1 + 1
    rw [e0]; omega
  | ⟨1, _⟩ =>
    show win3_5.index t (1 : Fin 2) * 64 ≤ (i 1).val ∧ (i 1).val < win3_5.index t (1 : Fin 2) * 64 + 64
    rw [e1]; omega
theorem mem_blk_6 (t : Fin cfg3.N) (i : SR.Idx) : i ∈ ((cfg3.win 6).blk t).view.set := by
  obtain ⟨-, -, -, -, -, -, -, -, -, -, -, -, e0, e1⟩ := idx_facts t
  have hi0 : (i 0).val < 1 := (i 0).isLt
  have hi1 : (i 1).val < 64 := (i 1).isLt
  show i ∈ ((View.whole main_v51_2).slice (win3_6.rect t)).set
  rw [View.set_slice_whole, Rect.mem_set_unit]
  intro a
  match a with
  | ⟨0, _⟩ =>
    show win3_6.index t (0 : Fin 2) * 1 ≤ (i 0).val ∧ (i 0).val < win3_6.index t (0 : Fin 2) * 1 + 1
    rw [e0]; omega
  | ⟨1, _⟩ =>
    show win3_6.index t (1 : Fin 2) * 64 ≤ (i 1).val ∧ (i 1).val < win3_6.index t (1 : Fin 2) * 64 + 64
    rw [e1]; omega

/-- The last grid point. -/
theorem last_lt : 19 < cfg3.N := by rw [show cfg3.N = 20 from N_3]; decide

/-- The column-sum row ends holding the column sums of the layer's result over all 100000 rows. -/
theorem s_final : ((dat3 (F := Ideal) V c).arrAt 5 cfg3.N : SR.Idx → EReal)
    = fun i => colSum (Z3 V c) ⟨(i 1).val, idx2_lt1 i⟩ :=
  (dat3 (F := Ideal) V c).arrAt_eq_of_cover 5 (fun i : SR.Idx => colSum (Z3 V c) ⟨(i 1).val, idx2_lt1 i⟩)
    (flushed_5 V c) fun i => ⟨⟨19, last_lt⟩, (flush3_5 _).mpr rfl, mem_blk_5 _ i⟩

/-- The row of column sums of squares ends holding those of the layer's result over all 100000 rows. -/
theorem ss_final : ((dat3 (F := Ideal) V c).arrAt 6 cfg3.N : SR.Idx → EReal)
    = fun i => colSumSq (Z3 V c) ⟨(i 1).val, idx2_lt1 i⟩ :=
  (dat3 (F := Ideal) V c).arrAt_eq_of_cover 6 (fun i : SR.Idx => colSumSq (Z3 V c) ⟨(i 1).val, idx2_lt1 i⟩)
    (flushed_6 V c) fun i => ⟨⟨19, last_lt⟩, (flush3_6 _).mpr rfl, mem_blk_6 _ i⟩

end Cert.KernelIdeal.R3
-- ==== Proof.R4.lean ====
/-
  Region 4 of the two-layer graph network: the kernel that normalises a block of 5000 rows with given column
  statistics, clamps at zero, applies the affine map, and accumulates the column sums and column sums of squares of
  its result over the twenty blocks of the 100000 rows.

  The mathematics, in order: (1) what each control case of the body leaves in each output's buffer is the body's
  arithmetic applied to the blocks it loaded (at the first grid point the two accumulators start from the zero row,
  at the later points from what the point before left); (2) that arithmetic read entry by entry: the stored block's
  entry (p, q) is  Σ_k max((x(p,k) − μ(k)) · rsqrt(v(k) + ε) · g(k) + β(k), 0) · w(k, q) + b(q),  and an accumulator's
  entry q grows by the block's column sum (of squares) at q; (3) the block of an input array at grid point t holds
  rows 5000 t … 5000 t + 4999, the row arrays and the weights are read whole; so the stored block at point t is rows
  5000 t … of the whole-array function Z, and by induction on the point the accumulators hold the partial sums of
  Z's columns over the first 5000 (t + 1) rows; (4) every point writes its block of the first output back and row r
  lies in block r / 5000, so the first output array ends as Z; only the last point writes the accumulators back, their
  block is the whole 1 × 64 array, and twenty blocks of 5000 rows are all 100000 rows.
-/
import proofs.«129487_j15015205667099_1_alg».proof.Proof.Gen.KernelIdeal.Frame
import proofs.«129487_j15015205667099_1_alg».proof.Proof.GinSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen Cert.GinSpec Idealize.ShloMosaic.ValueIdx
open scoped BigOperators

namespace Cert.KernelIdeal.R4

theorem mm_lhs0 (i : S5000x64.Idx) (e : dot_S5000x64_S64x64_S5000x64_1_0_0_1_n_n.contr.Idx) :
    (dot_S5000x64_S64x64_S5000x64_1_0_0_1_n_n.lhsIdx i e 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm_rhs1 (i : S5000x64.Idx) (e : dot_S5000x64_S64x64_S5000x64_1_0_0_1_n_n.contr.Idx) :
    (dot_S5000x64_S64x64_S5000x64_1_0_0_1_n_n.rhsIdx i e 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row p of the left factor against column q of the right one: the product block's entry is the sum over the
    64 shared coordinates (the accumulator is the zero block). -/
theorem mm_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact mm_lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl _ _).trans hk
      | ⟨1, _⟩ => exact mm_rhs1 _ _)
  rw [el, er]

/-- A 1 × 64 row, cast to its own shape and broadcast down 5000 rows, reads at (p, q) the row's entry q. -/
theorem rowb_apply {α : Type} (x : S1x64.Idx → α) (p : Fin 5000) (q : Fin 64) :
    broadcastTo S5000x64 (shapeCast S1x64 x shapeCasts_S1x64_S1x64) broadcasts_S1x64_S5000x64 (ix2 p q) = x (ix2 (0 : Fin 1) q) := by
  rw [shapeCast_self]
  exact broadcastTo_1b_ab_apply x broadcasts_S1x64_S5000x64 p q

/-- One entry of the block the body stores: row p of the input block is normalised column by column, clamped at
    zero, multiplied into column q of the weights, and the bias entry q is added. -/
def zEntry (x0 : S5000x64.Idx → EReal) (x1 x2 x3 x4 : S1x64.Idx → EReal) (x5 : S64x64.Idx → EReal)
    (x6 : S1x64.Idx → EReal) (p : Fin 5000) (q : Fin 64) : EReal :=
  (∑ k : Fin 64, max ((x0 (ix2 p k) - x1 (ix2 (0 : Fin 1) k)) * Ideal.rsqrt (x2 (ix2 (0 : Fin 1) k) + EPS) * x3 (ix2 (0 : Fin 1) k)
      + x4 (ix2 (0 : Fin 1) k)) ZW * x5 (ix2 k q)) + x6 (ix2 (0 : Fin 1) q)

theorem pay5_apply (x0 : Vec Ideal S5000x64 .f32) (x1 x2 x3 x4 : Vec Ideal S1x64 .f32) (x5 : Vec Ideal S64x64 .f32)
    (x6 : Vec Ideal S1x64 .f32) (p : Fin 5000) (q : Fin 64) :
    k4_pay5 (F := Ideal) x0 x1 x2 x3 x4 x5 x6 (ix2 p q) = zEntry x0 x1 x2 x3 x4 x5 x6 p q := by
  unfold k4_pay5 zEntry
  refine (congrArg₂ (· + ·) (mm_apply _ _ p q) (rowb_apply x6 p q)).trans ?_
  refine congrArg (· + x6 (ix2 (0 : Fin 1) q)) (Finset.sum_congr rfl fun k _ => ?_)
  simp only [truncf_apply, maximumf_apply, addf_apply, mulf_apply, subf_apply, broadcast_apply, rowb_apply, shapeCast_self, broadcastTo_1b_ab_apply]
  rfl

/-- Putting row k back over column q of the reduced vector is the index (k, q). -/
theorem lift_col (q : Fin 64) (k : Fin (S5000x64.size 0)) :
    reduces_S5000x64_S64.lift (ix1 q) k = ix2 (⟨k.val, k.isLt⟩ : Fin 5000) q := by
  funext c; apply Fin.ext
  match c with
  | ⟨0, _⟩ => rfl
  | ⟨1, _⟩ => rfl

/-- The sum over the block's 5000 rows, as a 1 × 64 row, reads at column q the sum of the block's column q. -/
theorem colred_apply (v : FVec Ideal S5000x64 .f32) (q : Fin 64) :
    shapeCast S1x64 (multiReduction (F := Ideal) .add [0] S64 v 0x00000000#32 reduces_S5000x64_S64 (.inl rfl) rfl) shapeCasts_S64_S1x64
      (ix2 (0 : Fin 1) q) = ∑ p : Fin 5000, v (ix2 p q) := by
  refine (shapeCast_a_1a_apply _ shapeCasts_S64_S1x64 (0 : Fin 1) q).trans ?_
  refine (Ideal.multiReduction_add_single v 0x00000000#32 reduces_S5000x64_S64 (.inl rfl) rfl (ix1 q)).trans ?_
  exact Finset.sum_congr rfl fun k _ => congrArg v (lift_col q k)

/-- The sum accumulator's update: the old row plus the block's column sums. -/
theorem pay1_apply (v : FVec Ideal S5000x64 .f32) (acc : Vec Ideal S1x64 .f32) (q : Fin 64) :
    k4_pay1 (F := Ideal) v acc (ix2 (0 : Fin 1) q) = acc (ix2 (0 : Fin 1) q) + ∑ p : Fin 5000, v (ix2 p q) := by
  unfold k4_pay1
  refine (congrArg₂ (· + ·) (congrFun (shapeCast_self acc shapeCasts_S1x64_S1x64) _) (colred_apply v q)).trans ?_
  rfl

/-- The sum-of-squares accumulator's update: the old row plus the column sums of the block's squares. -/
theorem pay2_apply (v : FVec Ideal S5000x64 .f32) (acc : Vec Ideal S1x64 .f32) (q : Fin 64) :
    k4_pay2 (F := Ideal) v acc (ix2 (0 : Fin 1) q) = acc (ix2 (0 : Fin 1) q) + ∑ p : Fin 5000, v (ix2 p q) * v (ix2 p q) := by
  unfold k4_pay2
  refine (congrArg₂ (· + ·) (congrFun (shapeCast_self acc shapeCasts_S1x64_S1x64) _) (colred_apply (mulf v v) q)).trans ?_
  rfl

/-- The reset stores the zero row. -/
theorem pay3_apply (i : S1x64.Idx) : k4_pay3 (F := Ideal) i = 0 := Ideal.ofBits_zero_f32
theorem pay4_apply (i : S1x64.Idx) : k4_pay4 (F := Ideal) i = 0 := Ideal.ofBits_zero_f32

/-! ## Column sums over all 100000 rows, built up 5000 rows at a time -/

/-- Column q of a 100000 × 64 array as a sequence over all naturals: entry m below 100000, zero beyond. -/
def colSeq (Z : SN.Idx → EReal) (q : Fin 64) (m : ℕ) : EReal :=
  if h : m < 100000 then Z (ix2 (⟨m, h⟩ : Fin 100000) q) else 0

theorem colSeq_lt (Z : SN.Idx → EReal) (q : Fin 64) (m : ℕ) (h : m < 100000) :
    colSeq Z q m = Z (ix2 (⟨m, h⟩ : Fin 100000) q) := dif_pos h

/-- The sum of the first 5000 (n + 1) terms of a sequence is the sum of the first 5000 n terms plus the next block of 5000. -/
theorem sum_range_block {M : Type*} [AddCommMonoid M] (f : ℕ → M) (n : ℕ) :
    ∑ m ∈ Finset.range (5000 * (n + 1)), f m = ∑ m ∈ Finset.range (5000 * n), f m + ∑ p : Fin 5000, f (5000 * n + p.val) := by
  rw [Nat.mul_succ, Finset.sum_range_add, Finset.sum_range (fun x => f (5000 * n + x))]

/-- All twenty blocks together are the column sum. -/
theorem sum_colSeq_all (Z : SN.Idx → EReal) (q : Fin 64) :
    ∑ m ∈ Finset.range (5000 * (19 + 1)), colSeq Z q m = colSum Z q := by
  show ∑ m ∈ Finset.range 100000, colSeq Z q m = ∑ r : Fin 100000, Z (ix2 r q)
  rw [Finset.sum_range]
  exact Finset.sum_congr rfl fun r _ => colSeq_lt Z q r.val r.isLt

section Pieces

variable {F : FTy → Type} [FloatOps F]

theorem hz : (![0, 0] : Fin 2 → Nat) = fun _ => 0 := funext fun a => by fin_cases a <;> rfl

theorem zA (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond4_0 i) (x0 : Vec F S5000x64 .f32) (x1 x2 x3 x4 : Vec F S1x64 .f32) (x5 : Vec F S64x64 .f32) (x6 : Vec F S1x64 .f32) :
    out4_A_7 c i a1 h1 a2 h2 a3 h3 a4 h4 a5 h5 a6 h6 a7 h7 a8 h8 a9 h9 a10 h10 hc x0 x1 x2 x3 x4 x5 x6 = k4_pay5 x0 x1 x2 x3 x4 x5 x6 := by
  unfold out4_A_7
  rw [View.read_writes_eq_canon _ _ _ (cover4_A_7 c i a1 h1 a2 h2 a3 h3 a4 h4 a5 h5 a6 h6 a7 h7 a8 h8 a9 h9 a10 h10 hc x0 x1 x2 x3 x4 x5 x6)]
  unfold kernelRun4_A
  dsimp only
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem zB (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond4_0 i) (x0 : Vec F S5000x64 .f32) (x1 x2 x3 x4 : Vec F S1x64 .f32) (x5 : Vec F S64x64 .f32) (x6 : Vec F S1x64 .f32) (xo8 xo9 : Vec F S1x64 .f32) :
    out4_B_7 c i a1 h1 a2 h2 a3 h3 a4 h4 a5 h5 a6 h6 a7 h7 a8 h8 a9 h9 a10 h10 hc x0 x1 x2 x3 x4 x5 x6 xo8 xo9 = k4_pay5 x0 x1 x2 x3 x4 x5 x6 := by
  unfold out4_B_7
  rw [View.read_writes_eq_canon _ _ _ (cover4_B_7 c i a1 h1 a2 h2 a3 h3 a4 h4 a5 h5 a6 h6 a7 h7 a8 h8 a9 h9 a10 h10 hc x0 x1 x2 x3 x4 x5 x6 xo8 xo9)]
  unfold kernelRun4_B
  dsimp only
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem sA (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond4_0 i) (x0 : Vec F S5000x64 .f32) (x1 x2 x3 x4 : Vec F S1x64 .f32) (x5 : Vec F S64x64 .f32) (x6 : Vec F S1x64 .f32) :
    out4_A_8 c i a1 h1 a2 h2 a3 h3 a4 h4 a5 h5 a6 h6 a7 h7 a8 h8 a9 h9 a10 h10 hc x0 x1 x2 x3 x4 x5 x6 = k4_pay1 (k4_pay5 x0 x1 x2 x3 x4 x5 x6) k4_pay3 := by
  unfold out4_A_8
  rw [View.read_writes_eq_canon _ _ _ (cover4_A_8 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem sB (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond4_0 i) (x0 : Vec F S5000x64 .f32) (x1 x2 x3 x4 : Vec F S1x64 .f32) (x5 : Vec F S64x64 .f32) (x6 : Vec F S1x64 .f32) (xo8 xo9 : Vec F S1x64 .f32) :
    out4_B_8 c i a1 h1 a2 h2 a3 h3 a4 h4 a5 h5 a6 h6 a7 h7 a8 h8 a9 h9 a10 h10 hc x0 x1 x2 x3 x4 x5 x6 xo8 xo9 = k4_pay1 (k4_pay5 x0 x1 x2 x3 x4 x5 x6) xo8 := by
  unfold out4_B_8
  rw [View.read_writes_eq_canon _ _ _ (cover4_B_8 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x64) hz, View.ld_unit_zero (S := S1x64) hz, View.ld_unit_zero (S := S64x64) hz]

theorem ssA (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : cond4_0 i) (x0 : Vec F S5000x64 .f32) (x1 x2 x3 x4 : Vec F S1x64 .f32) (x5 : Vec F S64x64 .f32) (x6 : Vec F S1x64 .f32) :
    out4_A_9 c i a1 h1 a2 h2 a3 h3 a4 h4 a5 h5 a6 h6 a7 h7 a8 h8 a9 h9 a10 h10 hc x0 x1 x2 x3 x4 x5 x6 = k4_pay2 (k4_pay5 x0 x1 x2 x3 x4 x5 x6) k4_pay4 := by
  unfold out4_A_9
  rw [View.read_writes_eq_canon _ _ _ (cover4_A_9 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S5000x64) hz, View.ld_unit_zero (S := S1x64) hz, View.ld_unit_zero (S := S64x64) hz]

theorem ssB (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x64 .f32) (h8 : a8.IsWhole) (a9 : Memref sig .tc .vmem S1x64 .f32) (h9 : a9.IsWhole) (a10 : Memref sig .tc .vmem S1x64 .f32) (h10 : a10.IsWhole) (hc : ¬cond4_0 i) (x0 : Vec F S5000x64 .f32) (x1 x2 x3 x4 : Vec F S1x64 .f32) (x5 : Vec F S64x64 .f32) (x6 : Vec F S1x64 .f32) (xo8 xo9 : Vec F S1x64 .f32) :
    out4_B_9 c i a1 h1 a2 h2 a3 h3 a4 h4 a5 h5 a6 h6 a7 h7 a8 h8 a9 h9 a10 h10 hc x0 x1 x2 x3 x4 x5 x6 xo8 xo9 = k4_pay2 (k4_pay5 x0 x1 x2 x3 x4 x5 x6) xo9 := by
  unfold out4_B_9
  rw [View.read_writes_eq_canon _ _ _ (cover4_B_9 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x64) hz, View.ld_unit_zero (S := S1x64) hz, View.ld_unit_zero (S := S64x64) hz]

end Pieces

variable (V : (c : Dev nD) → (b : Ref sig .tc) → Buf (Elt Ideal) ((c : Thread nD τ).loc b)) (c : Dev nD)

theorem lt20 (t : Fin cfg4.N) : t.val < 20 := lt_of_lt_of_eq t.isLt N_4

/-- Row p of the block of 5000 rows numbered n, as a row of the whole array. -/
def rowAt (n : ℕ) (hn : n < 20) (p : Fin 5000) : Fin 100000 := ⟨5000 * n + p.val, by have := p.isLt; omega⟩

/-- The block index of each window at each grid point, decided over the twenty points: the two blocked windows sit at
    block (t, 0), every other window at block (0, 0). -/
theorem idx_facts : ∀ t : Fin cfg4.N,
    (win4_0.index t (0 : Fin 2) = t.val ∧ win4_0.index t (1 : Fin 2) = 0)
    ∧ (win4_7.index t (0 : Fin 2) = t.val ∧ win4_7.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_8.index t (0 : Fin 2) = 0 ∧ win4_8.index t (1 : Fin 2) = 0)
    ∧ (win4_9.index t (0 : Fin 2) = 0 ∧ win4_9.index t (1 : Fin 2) = 0) :=
  (by decide +kernel : ∀ t : Fin grid4.N, _)

/-- The input block at point t holds rows 5000 t … 5000 t + 4999 of the input array. -/
theorem blk0_apply (t : Fin cfg4.N) (p : Fin 5000) (q : Fin 64) :
    (iblk4 (F := Ideal) V c 0 t : Vec Ideal S5000x64 .f32) (ix2 p q) = V c main_v51_0 (ix2 (rowAt t.val (lt20 t) p) q) := by
  unfold iblk4
  rw [View.read_apply]
  show V c main_v51_0 _ = V c main_v51_0 _
  refine congrArg (V c main_v51_0) ?_
  funext a; apply Fin.ext
  match a with
  | ⟨0, _⟩ => show win4_0.index t (0 : Fin 2) * 5000 + 1 * p.val = 5000 * t.val + p.val; rw [(idx_facts t).1.1]; omega
  | ⟨1, _⟩ => show win4_0.index t (1 : Fin 2) * 64 + 1 * q.val = q.val; rw [(idx_facts t).1.2]; omega

theorem blk1_apply (t : Fin cfg4.N) (q : Fin 64) :
    (iblk4 (F := Ideal) V c 1 t : Vec Ideal S1x64 .f32) (ix2 (0 : Fin 1) q) = V c main_v53 (ix2 (0 : Fin 1) q) := by
  unfold iblk4
  rw [View.read_apply]
  show V c main_v53 _ = V c main_v53 _
  refine congrArg (V c main_v53) ?_
  funext a; apply Fin.ext
  match a with
  | ⟨0, _⟩ => show win4_1.index t (0 : Fin 2) * 1 + 1 * 0 = 0; rw [(idx_facts t).2.2.1.1]
  | ⟨1, _⟩ => show win4_1.index t (1 : Fin 2) * 64 + 1 * q.val = q.val; rw [(idx_facts t).2.2.1.2]; omega

theorem blk2_apply (t : Fin cfg4.N) (q : Fin 64) :
    (iblk4 (F := Ideal) V c 2 t : Vec Ideal S1x64 .f32) (ix2 (0 : Fin 1) q) = V c main_v57 (ix2 (0 : Fin 1) q) := by
  unfold iblk4
  rw [View.read_apply]
  show V c main_v57 _ = V c main_v57 _
  refine congrArg (V c main_v57) ?_
  funext a; apply Fin.ext
  match a with
  | ⟨0, _⟩ => show win4_2.index t (0 : Fin 2) * 1 + 1 * 0 = 0; rw [(idx_facts t).2.2.2.1.1]
  | ⟨1, _⟩ => show win4_2.index t (1 : Fin 2) * 64 + 1 * q.val = q.val; rw [(idx_facts t).2.2.2.1.2]; omega

theorem blk3_apply (t : Fin cfg4.N) (q : Fin 64) :
    (iblk4 (F := Ideal) V c 3 t : Vec Ideal S1x64 .f32) (ix2 (0 : Fin 1) q) = V c main_v11 (ix2 (0 : Fin 1) q) := by
  unfold iblk4
  rw [View.read_apply]
  show V c main_v11 _ = V c main_v11 _
  refine congrArg (V c main_v11) ?_
  funext a; apply Fin.ext
  match a with
  | ⟨0, _⟩ => show win4_3.index t (0 : Fin 2) * 1 + 1 * 0 = 0; rw [(idx_facts t).2.2.2.2.1.1]
  | ⟨1, _⟩ => show win4_3.index t (1 : Fin 2) * 64 + 1 * q.val = q.val; rw [(idx_facts t).2.2.2.2.1.2]; omega

theorem blk4_apply (t : Fin cfg4.N) (q : Fin 64) :
    (iblk4 (F := Ideal) V c 4 t : Vec Ideal S1x64 .f32) (ix2 (0 : Fin 1) q) = V c main_v12 (ix2 (0 : Fin 1) q) := by
  unfold iblk4
  rw [View.read_apply]
  show V c main_v12 _ = V c main_v12 _
  refine congrArg (V c main_v12) ?_
  funext a; apply Fin.ext
  match a with
  | ⟨0, _⟩ => show win4_4.index t (0 : Fin 2) * 1 + 1 * 0 = 0; rw [(idx_facts t).2.2.2.2.2.1.1]
  | ⟨1, _⟩ => show win4_4.index t (1 : Fin 2) * 64 + 1 * q.val = q.val; rw [(idx_facts t).2.2.2.2.2.1.2]; omega

theorem blk6_apply (t : Fin cfg4.N) (q : Fin 64) :
    (iblk4 (F := Ideal) V c 6 t : Vec Ideal S1x64 .f32) (ix2 (0 : Fin 1) q) = V c main_v13 (ix2 (0 : Fin 1) q) := by
  unfold iblk4
  rw [View.read_apply]
  show V c main_v13 _ = V c main_v13 _
  refine congrArg (V c main_v13) ?_
  funext a; apply Fin.ext
  match a with
  | ⟨0, _⟩ => show win4_6.index t (0 : Fin 2) * 1 + 1 * 0 = 0; rw [(idx_facts t).2.2.2.2.2.2.2.1.1]
  | ⟨1, _⟩ => show win4_6.index t (1 : Fin 2) * 64 + 1 * q.val = q.val; rw [(idx_facts t).2.2.2.2.2.2.2.1.2]; omega

theorem blk5_apply (t : Fin cfg4.N) (k q : Fin 64) :
    (iblk4 (F := Ideal) V c 5 t : Vec Ideal S64x64 .f32) (ix2 k q) = V c main_arg14 (ix2 k q) := by
  unfold iblk4
  rw [View.read_apply]
  show V c main_arg14 _ = V c main_arg14 _
  refine congrArg (V c main_arg14) ?_
  funext a; apply Fin.ext
  match a with
  | ⟨0, _⟩ => show win4_5.index t (0 : Fin 2) * 64 + 1 * k.val = k.val; rw [(idx_facts t).2.2.2.2.2.2.1.1]; omega
  | ⟨1, _⟩ => show win4_5.index t (1 : Fin 2) * 64 + 1 * q.val = q.val; rw [(idx_facts t).2.2.2.2.2.2.1.2]; omega

/-- The block the body stores at a point, as the network's second affine map of the clamped, normalised input. -/
abbrev Z4 : SN.Idx → EReal :=
  lin (relu (bn (V c main_v51_0) (ofRow (V c main_v53)) (ofRow (V c main_v57)) (ofRow (V c main_v11)) (ofRow (V c main_v12)))) (V c main_arg14) (ofRow (V c main_v13))

/-- An entry of the stored block, computed from the windows' blocks at point t, is the entry of the whole-array
    function at row 5000 t + p. -/
theorem zEntry_blk (t : Fin cfg4.N) (p : Fin 5000) (q : Fin 64) :
    zEntry (iblk4 (F := Ideal) V c 0 t) (iblk4 V c 1 t) (iblk4 V c 2 t) (iblk4 V c 3 t) (iblk4 V c 4 t) (iblk4 V c 5 t) (iblk4 V c 6 t) p q
      = Z4 V c (ix2 (rowAt t.val (lt20 t) p) q) := by
  unfold zEntry
  simp only [blk0_apply, blk1_apply, blk2_apply, blk3_apply, blk4_apply, blk5_apply, blk6_apply]
  rfl

theorem pay5_blk (t : Fin cfg4.N) (p : Fin 5000) (q : Fin 64) :
    k4_pay5 (F := Ideal) (iblk4 V c 0 t) (iblk4 V c 1 t) (iblk4 V c 2 t) (iblk4 V c 3 t) (iblk4 V c 4 t) (iblk4 V c 5 t) (iblk4 V c 6 t) (ix2 p q) = Z4 V c (ix2 (rowAt t.val (lt20 t) p) q) :=
  (pay5_apply (iblk4 V c 0 t) (iblk4 V c 1 t) (iblk4 V c 2 t) (iblk4 V c 3 t) (iblk4 V c 4 t) (iblk4 V c 5 t) (iblk4 V c 6 t) p q).trans (zEntry_blk V c t p q)

theorem pay5_blk_seq (t : Fin cfg4.N) (p : Fin 5000) (q : Fin 64) :
    k4_pay5 (F := Ideal) (iblk4 V c 0 t) (iblk4 V c 1 t) (iblk4 V c 2 t) (iblk4 V c 3 t) (iblk4 V c 4 t) (iblk4 V c 5 t) (iblk4 V c 6 t) (ix2 p q) = colSeq (Z4 V c) q (5000 * t.val + p.val) :=
  (pay5_blk V c t p q).trans (colSeq_lt (Z4 V c) q _ (rowAt t.val (lt20 t) p).isLt).symm

/-- The stored block at any point: both control cases store the same payload. -/
theorem outs_z (t : Fin cfg4.N) :
    (outsAt4 (F := Ideal) V c t.val t.isLt).1 = k4_pay5 (iblk4 V c 0 t) (iblk4 V c 1 t) (iblk4 V c 2 t) (iblk4 V c 3 t) (iblk4 V c 4 t) (iblk4 V c 5 t) (iblk4 V c 6 t) := by
  by_cases h0 : t.val % 20 = 0
  · rw [outsAt4_A V c t h0]
    dsimp only
    exact zA (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t)
  · rw [outsAt4_B V c t h0]
    dsimp only
    exact zB (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2

/-- One accumulation step at point t: the old row plus the sums of the 5000 rows of block t. -/
theorem s_step (t : Fin cfg4.N) (acc : Vec Ideal S1x64 .f32) (q : Fin 64) :
    k4_pay1 (F := Ideal) (k4_pay5 (iblk4 V c 0 t) (iblk4 V c 1 t) (iblk4 V c 2 t) (iblk4 V c 3 t) (iblk4 V c 4 t) (iblk4 V c 5 t) (iblk4 V c 6 t)) acc (ix2 (0 : Fin 1) q)
      = acc (ix2 (0 : Fin 1) q) + ∑ p : Fin 5000, colSeq (Z4 V c) q (5000 * t.val + p.val) :=
  (pay1_apply _ acc q).trans (congrArg (acc (ix2 (0 : Fin 1) q) + ·) (Finset.sum_congr rfl fun p _ => pay5_blk_seq V c t p q))

theorem ss_step (t : Fin cfg4.N) (acc : Vec Ideal S1x64 .f32) (q : Fin 64) :
    k4_pay2 (F := Ideal) (k4_pay5 (iblk4 V c 0 t) (iblk4 V c 1 t) (iblk4 V c 2 t) (iblk4 V c 3 t) (iblk4 V c 4 t) (iblk4 V c 5 t) (iblk4 V c 6 t)) acc (ix2 (0 : Fin 1) q)
      = acc (ix2 (0 : Fin 1) q) + ∑ p : Fin 5000, colSeq (fun i => Z4 V c i * Z4 V c i) q (5000 * t.val + p.val) :=
  (pay2_apply _ acc q).trans (congrArg (acc (ix2 (0 : Fin 1) q) + ·) (Finset.sum_congr rfl fun p _ => by
    rw [pay5_blk V c t p q]
    exact (colSeq_lt (fun i => Z4 V c i * Z4 V c i) q _ (rowAt t.val (lt20 t) p).isLt).symm))

/-- After point n the sum accumulator holds, in column q, the sum of the first 5000 (n + 1) rows of column q. -/
theorem outs_s : ∀ (n : ℕ) (hn : n < cfg4.N) (q : Fin 64),
    (outsAt4 (F := Ideal) V c n hn).2.1 (ix2 (0 : Fin 1) q) = ∑ m ∈ Finset.range (5000 * (n + 1)), colSeq (Z4 V c) q m
  | 0, hn, q => by
    rw [outsAt4_A V c ⟨0, hn⟩ rfl]
    dsimp only
    rw [sA (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩)]
    rw [s_step V c ⟨0, hn⟩ (k4_pay3 (F := Ideal)) q, pay3_apply, sum_range_block, Nat.mul_zero, Finset.range_zero, Finset.sum_empty]
  | n + 1, hn, q => by
    have hB : ¬(⟨n + 1, hn⟩ : Fin cfg4.N).val % 20 = 0 := by have := lt_of_lt_of_eq hn N_4; dsimp only; omega
    rw [outsAt4_B V c ⟨n + 1, hn⟩ hB]
    dsimp only
    rw [sB (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2]
    rw [s_step V c ⟨n + 1, hn⟩ _ q, sum_range_block]
    exact congrArg (· + _) (outs_s n _ q)

/-- The same for the accumulator of squares. -/
theorem outs_ss : ∀ (n : ℕ) (hn : n < cfg4.N) (q : Fin 64),
    (outsAt4 (F := Ideal) V c n hn).2.2 (ix2 (0 : Fin 1) q) = ∑ m ∈ Finset.range (5000 * (n + 1)), colSeq (fun i => Z4 V c i * Z4 V c i) q m
  | 0, hn, q => by
    rw [outsAt4_A V c ⟨0, hn⟩ rfl]
    dsimp only
    rw [ssA (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩)]
    rw [ss_step V c ⟨0, hn⟩ (k4_pay4 (F := Ideal)) q, pay4_apply, sum_range_block, Nat.mul_zero, Finset.range_zero, Finset.sum_empty]
  | n + 1, hn, q => by
    have hB : ¬(⟨n + 1, hn⟩ : Fin cfg4.N).val % 20 = 0 := by have := lt_of_lt_of_eq hn N_4; dsimp only; omega
    rw [outsAt4_B V c ⟨n + 1, hn⟩ hB]
    dsimp only
    rw [ssB (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2]
    rw [ss_step V c ⟨n + 1, hn⟩ _ q, sum_range_block]
    exact congrArg (· + _) (outs_ss n _ q)

/-! ## From the per-point blocks to the arrays -/

/-- What point t writes back of output 7 is block t of the whole-array function. -/
theorem flushed7 (t : Fin cfg4.N) :
    (dat4 (F := Ideal) V c).flushed 7 t = ((cfg4.win 7).blk t).view.read (Elt Ideal) (Z4 V c) := by
  show (cfg4.win 7).cut (grid4.coords t) ((dat4 (F := Ideal) V c).after 7 t) = _
  rw [after4_7, outs_z]
  funext j
  obtain ⟨p, q, rfl⟩ : ∃ (p : Fin 5000) (q : Fin 64), j = ix2 p q := ⟨j 0, j 1, eq_ix2 j⟩
  rw [View.read_apply]
  refine (pay5_blk V c t p q).trans ?_
  show Z4 V c _ = Z4 V c _
  refine congrArg (Z4 V c) ?_
  funext a; apply Fin.ext
  match a with
  | ⟨0, _⟩ => show 5000 * t.val + p.val = win4_7.index t (0 : Fin 2) * 5000 + 1 * p.val; rw [(idx_facts t).2.1.1]; omega
  | ⟨1, _⟩ => show q.val = win4_7.index t (1 : Fin 2) * 64 + 1 * q.val; rw [(idx_facts t).2.1.2]; omega

/-- An index of the output array lies in point t's block iff each coordinate lies in the block's range. -/
theorem mem_blk7 (t : Fin cfg4.N) (i : S100000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v58_0).slice (win4_7.rect t)).set ↔ _
  rw [View.set_slice_whole, Rect.mem_set_unit]
  exact Iff.rfl

/-- Row r lies in block r / 5000. -/
theorem cover7 (i : S100000x64.Idx) : ∃ t : Fin cfg4.N, (cfg4.win 7).flush t = true ∧ i ∈ ((cfg4.win 7).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_7 _, ?_⟩
  rw [mem_blk7]
  intro a
  match a with
  | ⟨0, _⟩ =>
    show win4_7.index _ (0 : Fin 2) * 5000 ≤ (i 0).val ∧ (i 0).val < win4_7.index _ (0 : Fin 2) * 5000 + 5000
    rw [(idx_facts _).2.1.1]
    show (i 0).val / 5000 * 5000 ≤ (i 0).val ∧ (i 0).val < (i 0).val / 5000 * 5000 + 5000
    omega
  | ⟨1, _⟩ =>
    show win4_7.index _ (1 : Fin 2) * 64 ≤ (i 1).val ∧ (i 1).val < win4_7.index _ (1 : Fin 2) * 64 + 64
    rw [(idx_facts _).2.1.2]
    omega

/-- The first output array ends holding the whole-array function. -/
theorem z_final : ((dat4 (F := Ideal) V c).arrAt 7 cfg4.N : SN.Idx → EReal) = Z4 V c :=
  (dat4 (F := Ideal) V c).arrAt_eq_of_cover 7 (Z4 V c) (fun t _ => flushed7 V c t) cover7

/-- The last grid point. -/
abbrev tLast : Fin cfg4.N := ⟨19, by decide⟩

/-- After the last point the sum accumulator is the row of column sums over all 100000 rows. -/
theorem outs_s_last : (outsAt4 (F := Ideal) V c (tLast).val (tLast).isLt).2.1 = fun i : S1x64.Idx => colSum (Z4 V c) ⟨(i 1).val, idx2_lt1 i⟩ := by
  funext i
  obtain ⟨u, q, rfl⟩ : ∃ (u : Fin 1) (q : Fin 64), i = ix2 u q := ⟨i 0, i 1, eq_ix2 i⟩
  obtain rfl : u = 0 := Subsingleton.elim _ _
  exact (outs_s V c 19 _ q).trans (sum_colSeq_all (Z4 V c) q)

theorem sum_colSeq_sq_all (Z : SN.Idx → EReal) (q : Fin 64) :
    ∑ m ∈ Finset.range (5000 * (19 + 1)), colSeq (fun i => Z i * Z i) q m = colSumSq Z q :=
  sum_colSeq_all (fun i => Z i * Z i) q

theorem outs_ss_last : (outsAt4 (F := Ideal) V c (tLast).val (tLast).isLt).2.2 = fun i : S1x64.Idx => colSumSq (Z4 V c) ⟨(i 1).val, idx2_lt1 i⟩ := by
  funext i
  obtain ⟨u, q, rfl⟩ : ∃ (u : Fin 1) (q : Fin 64), i = ix2 u q := ⟨i 0, i 1, eq_ix2 i⟩
  obtain rfl : u = 0 := Subsingleton.elim _ _
  exact (outs_ss V c 19 _ q).trans (sum_colSeq_sq_all (Z4 V c) q)

/-- Only the last point writes output 8 back, and its block is the whole 1 × 64 array. -/
theorem flushed8 (t : Fin cfg4.N) (hf : (cfg4.win 8).flush t = true) :
    (dat4 (F := Ideal) V c).flushed 8 t = ((cfg4.win 8).blk t).view.read (Elt Ideal) (fun i : S1x64.Idx => colSum (Z4 V c) ⟨(i 1).val, idx2_lt1 i⟩) := by
  have h19 : t.val = 19 := by have := (flush4_8 t).mp hf; have := lt20 t; omega
  obtain rfl : t = tLast := Fin.ext h19
  show (cfg4.win 8).cut (grid4.coords tLast) ((dat4 (F := Ideal) V c).after 8 tLast) = _
  rw [after4_8, outs_s_last]
  have hz' : (fun a => win4_8.index tLast a * main_v58_1.ty.shape.size a) = fun _ => 0 := funext fun a => by fin_cases a <;> decide
  exact (Memref.read_access_unit_zero (Elt Ideal) main_v58_1 hz' (fun a => by rw [congrFun hz' a]; simp) _).symm

theorem flushed9 (t : Fin cfg4.N) (hf : (cfg4.win 9).flush t = true) :
    (dat4 (F := Ideal) V c).flushed 9 t = ((cfg4.win 9).blk t).view.read (Elt Ideal) (fun i : S1x64.Idx => colSumSq (Z4 V c) ⟨(i 1).val, idx2_lt1 i⟩) := by
  have h19 : t.val = 19 := by have := (flush4_9 t).mp hf; have := lt20 t; omega
  obtain rfl : t = tLast := Fin.ext h19
  show (cfg4.win 9).cut (grid4.coords tLast) ((dat4 (F := Ideal) V c).after 9 tLast) = _
  rw [after4_9, outs_ss_last]
  have hz' : (fun a => win4_9.index tLast a * main_v58_2.ty.shape.size a) = fun _ => 0 := funext fun a => by fin_cases a <;> decide
  exact (Memref.read_access_unit_zero (Elt Ideal) main_v58_2 hz' (fun a => by rw [congrFun hz' a]; simp) _).symm

/-- The last point's block of output 8 covers the whole 1 × 64 array. -/
theorem cover8 (i : S1x64.Idx) : ∃ t : Fin cfg4.N, (cfg4.win 8).flush t = true ∧ i ∈ ((cfg4.win 8).blk t).view.set :=
  ⟨tLast, (flush4_8 tLast).mpr rfl, by
    show i ∈ ((View.whole main_v58_1).slice (win4_8.rect tLast)).set
    rw [View.set_slice_whole, Rect.mem_set_unit]
    intro a
    have h0 : (i 0 : Nat) < 1 := (i 0).isLt
    have h1 : (i 1 : Nat) < 64 := (i 1).isLt
    match a with
    | ⟨0, _⟩ => show win4_8.index tLast 0 * win4_8.size 0 ≤ (i 0 : Nat) ∧ (i 0 : Nat) < win4_8.index tLast 0 * win4_8.size 0 + win4_8.xsize (grid4.coords tLast) 0
                rw [show win4_8.index tLast 0 * win4_8.size 0 = 0 from by decide +kernel, show win4_8.xsize (grid4.coords tLast) 0 = 1 from by decide +kernel]; omega
    | ⟨1, _⟩ => show win4_8.index tLast 1 * win4_8.size 1 ≤ (i 1 : Nat) ∧ (i 1 : Nat) < win4_8.index tLast 1 * win4_8.size 1 + win4_8.xsize (grid4.coords tLast) 1
                rw [show win4_8.index tLast 1 * win4_8.size 1 = 0 from by decide +kernel, show win4_8.xsize (grid4.coords tLast) 1 = 64 from by decide +kernel]; omega⟩

theorem cover9 (i : S1x64.Idx) : ∃ t : Fin cfg4.N, (cfg4.win 9).flush t = true ∧ i ∈ ((cfg4.win 9).blk t).view.set :=
  ⟨tLast, (flush4_9 tLast).mpr rfl, by
    show i ∈ ((View.whole main_v58_2).slice (win4_9.rect tLast)).set
    rw [View.set_slice_whole, Rect.mem_set_unit]
    intro a
    have h0 : (i 0 : Nat) < 1 := (i 0).isLt
    have h1 : (i 1 : Nat) < 64 := (i 1).isLt
    match a with
    | ⟨0, _⟩ => show win4_9.index tLast 0 * win4_9.size 0 ≤ (i 0 : Nat) ∧ (i 0 : Nat) < win4_9.index tLast 0 * win4_9.size 0 + win4_9.xsize (grid4.coords tLast) 0
                rw [show win4_9.index tLast 0 * win4_9.size 0 = 0 from by decide +kernel, show win4_9.xsize (grid4.coords tLast) 0 = 1 from by decide +kernel]; omega
    | ⟨1, _⟩ => show win4_9.index tLast 1 * win4_9.size 1 ≤ (i 1 : Nat) ∧ (i 1 : Nat) < win4_9.index tLast 1 * win4_9.size 1 + win4_9.xsize (grid4.coords tLast) 1
                rw [show win4_9.index tLast 1 * win4_9.size 1 = 0 from by decide +kernel, show win4_9.xsize (grid4.coords tLast) 1 = 64 from by decide +kernel]; omega⟩

/-- The second output array ends holding the column sums of the first. -/
theorem s_final : ((dat4 (F := Ideal) V c).arrAt 8 cfg4.N : SR.Idx → EReal) = fun i => colSum (Z4 V c) ⟨(i 1).val, idx2_lt1 i⟩ :=
  (dat4 (F := Ideal) V c).arrAt_eq_of_cover 8 _ (flushed8 V c) cover8

/-- The third output array ends holding the column sums of squares of the first. -/
theorem ss_final : ((dat4 (F := Ideal) V c).arrAt 9 cfg4.N : SR.Idx → EReal) = fun i => colSumSq (Z4 V c) ⟨(i 1).val, idx2_lt1 i⟩ :=
  (dat4 (F := Ideal) V c).arrAt_eq_of_cover 9 _ (flushed9 V c) cover9

end Cert.KernelIdeal.R4
-- ==== Proof.R5.lean ====
/-
  Normalise, scale and shift: the array the sixth kernel region leaves.

  The region walks the 100000 × 64 array z in twenty blocks of 5000 rows. At each block it reads the whole rows μ, v, g, β
  (each 1 × 64) and stores, at row p and column q of the block,
      (z(p, q) − μ(q)) · rsqrt(v(q) + ε) · g(q) + β(q),
  with no clamp. Every entry depends only on its own entry of z and on its column's four statistics, so the block written
  at step t is the restriction to rows 5000·t … 5000·t + 4999 of ONE function of the arrays: the specification's bn. Row r
  lies in block r / 5000, the twenty blocks fill the array, and so the array ends holding that function everywhere. The
  float word ε is the same word on both sides and is never evaluated.
-/
import proofs.«129487_j15015205667099_1_alg».proof.Proof.Gen.KernelIdeal.Frame
import proofs.«129487_j15015205667099_1_alg».proof.Proof.GinSpec
import Idealize.ShloMosaic.Lib.ValueLayout
import Idealize.ShloMosaic.Lib.Pipeline.Value

set_option maxRecDepth 16384

noncomputable section

namespace Cert.KernelIdeal.R5

open Idealize.ShloMosaic Idealize.ShloMosaic.TcCoe Idealize.ShloMosaic.ValueIdx Idealize.SL.Sem
open Idealize.ShloMosaic.Pipeline (Dat)
open Cert.KernelIdeal Cert.KernelIdeal.Gen Cert.GinSpec

/-! ## One entry of the stored block -/

/-- A row [1, 64] repeated down 5000 rows reads, at (p, q), the row's entry q. -/
theorem row_bcast {α : Type} (v : (⟨2, ![1, 64]⟩ : Shape).Idx → α) (h : (⟨2, ![1, 64]⟩ : Shape).Broadcasts ⟨2, ![5000, 64]⟩)
    (p : Fin 5000) (q : Fin 64) : broadcastTo ⟨2, ![5000, 64]⟩ v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The stored value at row p, column q of a block: the block's own entry less the mean row's entry q, times the
    reciprocal square root of the variance row's entry q plus ε, times the scale row's entry q, plus the shift row's
    entry q. -/
theorem pay_apply (x0 : Vec Ideal S5000x64 .f32) (x1 x2 x3 x4 : Vec Ideal S1x64 .f32) (p : Fin 5000) (q : Fin 64) :
    (k5_pay1 (F := Ideal) x0 x1 x2 x3 x4 (ix2 p q) : EReal)
      = ((x0 (ix2 p q) : EReal) - x1 (ix2 (0 : Fin 1) q)) * Ideal.rsqrt (x2 (ix2 (0 : Fin 1) q) + EPS) * x3 (ix2 (0 : Fin 1) q)
          + x4 (ix2 (0 : Fin 1) q) := by
  unfold k5_pay1
  simp only [shapeCast_self]
  simp only [addf_apply, mulf_apply, subf_apply, broadcast_apply, row_bcast]
  rfl

/-! ## Where the blocks sit -/

theorem hz : (![0, 0] : Fin 2 → Nat) = fun _ => 0 := funext fun a => by fin_cases a <;> rfl

/-- At step t the block of z and the block written are both block t along the rows and block 0 along the columns; the four
    statistics rows are always block (0, 0): the index maps evaluated at each of the twenty steps. -/
theorem idx_facts : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b)) (c : Dev nD)

/-- What the array is to hold: the specification's normalisation of the arrays as the region finds them. -/
def out : SN.Idx → EReal :=
  bn (V c main_v58_0) (ofRow (V c main_v60)) (ofRow (V c main_v64)) (ofRow (V c main_v14)) (ofRow (V c main_v15))

/-- What step t writes back is block t of `out`: entry (p, q) of the stored block is the formula above on the blocks
    the step reads; the block of z sits where the written block sits, so its entry (p, q) is z at the written entry's
    position; each statistics row is whole, so its entry q is the row's entry at the written entry's column. -/
theorem flushed_eq (t : Fin cfg5.N) :
    (dat5 (F := Ideal) V c).flushed 5 t = ((cfg5.win 5).blk t).view.read (Elt Ideal) (out V c) := by
  show (cfg5.win 5).cut (grid5.coords t) ((dat5 V c).after 5 t) = _
  rw [after5_5]
  unfold out5_5
  rw [View.canon_unit_zero hz]
  simp only [View.ld_unit_zero (S := S5000x64) hz, View.ld_unit_zero (S := S1x64) hz]
  obtain ⟨e50, e51, e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay_apply (iblk5 V c 0 t) (iblk5 V c 1 t) (iblk5 V c 2 t) (iblk5 V c 3 t) (iblk5 V c 4 t) p q).trans ?_
  rw [View.read_apply]
  have hZ : (iblk5 V c 0 t (ix2 p q) : EReal) = V c main_v58_0 (((cfg5.win 5).blk t).view.emb (ix2 p q)) := by
    show V c main_v58_0 (((cfg5.win 0).blk t).view.emb (ix2 p q)) = _
    refine congrArg _ (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 64 + 1 * q.val = win5_5.index t (1 : Fin 2) * 64 + 1 * q.val; omega
  have h1 : (iblk5 V c 1 t (ix2 (0 : Fin 1) q) : EReal)
      = ofRow (V c main_v60) (colOf (((cfg5.win 5).blk t).view.emb (ix2 p q))) := by
    show V c main_v60 (((cfg5.win 1).blk t).view.emb (ix2 (0 : Fin 1) q)) = V c main_v60 (ix2 (0 : Fin 1) (colOf _))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = win5_5.index t (1 : Fin 2) * 64 + 1 * q.val; omega
  have h2 : (iblk5 V c 2 t (ix2 (0 : Fin 1) q) : EReal)
      = ofRow (V c main_v64) (colOf (((cfg5.win 5).blk t).view.emb (ix2 p q))) := by
    show V c main_v64 (((cfg5.win 2).blk t).view.emb (ix2 (0 : Fin 1) q)) = V c main_v64 (ix2 (0 : Fin 1) (colOf _))
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = win5_5.index t (1 : Fin 2) * 64 + 1 * q.val; omega
  have h3 : (iblk5 V c 3 t (ix2 (0 : Fin 1) q) : EReal)
      = ofRow (V c main_v14) (colOf (((cfg5.win 5).blk t).view.emb (ix2 p q))) := by
    show V c main_v14 (((cfg5.win 3).blk t).view.emb (ix2 (0 : Fin 1) q)) = V c main_v14 (ix2 (0 : Fin 1) (colOf _))
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = win5_5.index t (1 : Fin 2) * 64 + 1 * q.val; omega
  have h4 : (iblk5 V c 4 t (ix2 (0 : Fin 1) q) : EReal)
      = ofRow (V c main_v15) (colOf (((cfg5.win 5).blk t).view.emb (ix2 p q))) := by
    show V c main_v15 (((cfg5.win 4).blk t).view.emb (ix2 (0 : Fin 1) q)) = V c main_v15 (ix2 (0 : Fin 1) (colOf _))
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = win5_5.index t (1 : Fin 2) * 64 + 1 * q.val; omega
  rw [hZ, h1, h2, h3, h4]
  rfl

/-! ## The blocks fill the array -/

/-- An index of the array is in step t's block iff each coordinate is in the block's range on its axis. -/
theorem mem_blk (t : Fin cfg5.N) (i : SN.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v65).slice (win5_5.rect t)).set ↔ _
  rw [View.set_slice_whole, Rect.mem_set_unit]
  exact Iff.rfl

/-- Row r is written at step r / 5000. -/
theorem cover (i : SN.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e50, e51, -⟩ := idx_facts t
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 64 ≤ (i 1).val ∧ (i 1).val < win5_5.index t (1 : Fin 2) * 64 + 64
    omega

/-! ## The array after the region -/

/-- After its twenty steps the region's output array holds the specification's normalisation of the five
    arrays it read, as the region found them. -/
theorem out_final : ((dat5 (F := Ideal) V c).arrAt 5 cfg5.N : SN.Idx → EReal)
    = bn (V c main_v58_0) (ofRow (V c main_v60)) (ofRow (V c main_v64)) (ofRow (V c main_v14)) (ofRow (V c main_v15)) :=
  (dat5 (F := Ideal) V c).arrAt_eq_of_cover 5 (out V c) (fun t _ => flushed_eq V c t) cover

end Cert.KernelIdeal.R5

end
-- ==== Proof.Chain.lean ====
/-
  The kernel program's result, read through its six launches and the host lines between them. Each launch's result arrays are
  functions of the buffers it finds at its entry; each host line turns the column sums a launch leaves into the mean and
  variance rows the next launch reads, or builds the neighbour aggregation; a buffer nothing writes in between is carried
  unchanged. Composed, the last launch's result is the two-layer network of the argument arrays with the one-pass variance.
-/
import proofs.«129487_j15015205667099_1_alg».proof.Proof.Gen.KernelIdeal.Frame
import proofs.«129487_j15015205667099_1_alg».proof.Proof.HostAgg
import proofs.«129487_j15015205667099_1_alg».proof.Proof.HostStats
import proofs.«129487_j15015205667099_1_alg».proof.Proof.R0
import proofs.«129487_j15015205667099_1_alg».proof.Proof.R1
import proofs.«129487_j15015205667099_1_alg».proof.Proof.R2
import proofs.«129487_j15015205667099_1_alg».proof.Proof.R3
import proofs.«129487_j15015205667099_1_alg».proof.Proof.R4
import proofs.«129487_j15015205667099_1_alg».proof.Proof.R5

noncomputable section

namespace Cert.KernelIdeal.Chain

open Cert.KernelIdeal Cert.KernelIdeal.Gen Idealize.ShloMosaic Idealize.ShloMosaic.TcCoe Idealize.ShloMosaic.StableHlo Idealize.SL.Sem
open Cert.GinSpec Cert.Proof.Agg Idealize.ShloMosaic.ValueIdx

variable (m : (ℓ : Loc nD τ sig) → Buf (Elt Ideal) ℓ) (ρ : Dev nD → PrngReg) (c : Dev nD)

/-! ## Carrying a buffer across a host line -/

theorem k0 (b : Ref sig .tc) (h : b ∉ HostAgg.Ws0) : W1 m ρ c (Proc.devRef .tc b) = W0 m ρ c (Proc.devRef .tc b) := HostAgg.keep0 (W0 m ρ c) b h
theorem k1 (b : Ref sig .tc) (h : b ∉ HostStats.Ws1) : W3 m ρ c (Proc.devRef .tc b) = W2 m ρ c (Proc.devRef .tc b) := HostStats.keep1 (W2 m ρ c) b h
theorem k2 (b : Ref sig .tc) (h : b ∉ HostStats.Ws2) : W5 m ρ c (Proc.devRef .tc b) = W4 m ρ c (Proc.devRef .tc b) := HostStats.keep2 (W4 m ρ c) b h
theorem k3 (b : Ref sig .tc) (h : b ∉ HostAgg.Ws3) : W7 m ρ c (Proc.devRef .tc b) = W6 m ρ c (Proc.devRef .tc b) := HostAgg.keep3 (W6 m ρ c) b h
theorem k4 (b : Ref sig .tc) (h : b ∉ HostStats.Ws4) : W9 m ρ c (Proc.devRef .tc b) = W8 m ρ c (Proc.devRef .tc b) := HostStats.keep4 (W8 m ρ c) b h
theorem k5 (b : Ref sig .tc) (h : b ∉ HostStats.Ws5) : W11 m ρ c (Proc.devRef .tc b) = W10 m ρ c (Proc.devRef .tc b) := HostStats.keep5 (W10 m ρ c) b h

/-! ## After the first line -/

theorem s1_v1 : W1 m ρ c (Proc.devRef .tc main_v1) = HostAgg.srcWords (m ((c.tc : Thread nD τ).loc main_arg1)) := HostAgg.v1_eq (W0 m ρ c)
theorem s1_v3 : W1 m ρ c (Proc.devRef .tc main_v3) = HostAgg.dstWords (m ((c.tc : Thread nD τ).loc main_arg1)) := HostAgg.v3_eq (W0 m ρ c)

theorem s1_main_arg0 : W1 m ρ c (Proc.devRef .tc main_arg0) = (m ((c.tc : Thread nD τ).loc main_arg0)) := by
  rw [k0 m ρ c main_arg0 (by decide)]

/-- After the first line the aggregation buffer holds the aggregation of the node features. -/
theorem s1_agg : W1 m ρ c (Proc.devRef .tc main_v25) = aggR (m ((c.tc : Thread nD τ).loc main_arg1)) (m ((c.tc : Thread nD τ).loc main_arg0)) := by
  refine (HostAgg.v25_eq (W0 m ρ c)).trans ?_
  rw [HostAgg.v1_eq, HostAgg.v3_eq]
  exact HostAgg.aggK_eq _ _

/-! ## Layer 1 -/

/-- The first affine map of layer 1: the features plus their aggregation, times the weights, plus the bias. -/
def Z1a : SN.Idx → EReal := lin (addAgg (aggR (m ((c.tc : Thread nD τ).loc main_arg1))) ((m ((c.tc : Thread nD τ).loc main_arg0)))) (m ((c.tc : Thread nD τ).loc main_arg2)) (ofVec (m ((c.tc : Thread nD τ).loc main_arg3)))

/-- The second affine map of layer 1, of the clamped normalisation of the first. -/
def Z1b : SN.Idx → EReal := lin (relu (bnSelf var1 (Z1a m c) (ofVec (m ((c.tc : Thread nD τ).loc main_arg4))) (ofVec (m ((c.tc : Thread nD τ).loc main_arg5))))) (m ((c.tc : Thread nD τ).loc main_arg6)) (ofVec (m ((c.tc : Thread nD τ).loc main_arg7)))

/-- The output of layer 1: the normalisation of the second affine map, clamped. -/
def O1 : SN.Idx → EReal := relu (bnSelf var1 (Z1b m c) (ofVec (m ((c.tc : Thread nD τ).loc main_arg8))) (ofVec (m ((c.tc : Thread nD τ).loc main_arg9))))

theorem s1_main_arg2 : W1 m ρ c (Proc.devRef .tc main_arg2) = (m ((c.tc : Thread nD τ).loc main_arg2)) := by
  rw [k0 m ρ c main_arg2 (by decide)]

theorem s1_main_v4 : ofRow (W1 m ρ c (Proc.devRef .tc main_v4)) = ofVec (m ((c.tc : Thread nD τ).loc main_arg3)) := by
  rw []
  exact HostAgg.main_v4_row (W0 m ρ c)

/-- At the exit of launch 0 its first result is the first affine map. -/
theorem s2_z : W2 m ρ c (Proc.devRef .tc main_v26_0) = Z1a m c := by
  refine ((W2_arr m ρ c 4).trans (R0.z_final (V1 m ρ) c)).trans ?_
  show lin (fun i => (fun (a b : EReal) => a + b) (W1 m ρ c (Proc.devRef .tc main_arg0) i) (W1 m ρ c (Proc.devRef .tc main_v25) i)) (W1 m ρ c (Proc.devRef .tc main_arg2)) (ofRow (W1 m ρ c (Proc.devRef .tc main_v4))) = _
  rw [s1_main_arg0, s1_agg, s1_main_arg2, s1_main_v4]
  rfl

theorem s2_s : W2 m ρ c (Proc.devRef .tc main_v26_1) = fun i => colSum (Z1a m c) ⟨(i 1).val, idx2_lt1 i⟩ := by
  refine ((W2_arr m ρ c 5).trans (R0.s_final (V1 m ρ) c)).trans ?_
  show (fun i => colSum (lin (fun i => (fun (a b : EReal) => a + b) (W1 m ρ c (Proc.devRef .tc main_arg0) i) (W1 m ρ c (Proc.devRef .tc main_v25) i)) (W1 m ρ c (Proc.devRef .tc main_arg2)) (ofRow (W1 m ρ c (Proc.devRef .tc main_v4)))) ⟨(i 1).val, idx2_lt1 i⟩) = _
  rw [s1_main_arg0, s1_agg, s1_main_arg2, s1_main_v4]
  rfl

theorem s2_ss : W2 m ρ c (Proc.devRef .tc main_v26_2) = fun i => colSumSq (Z1a m c) ⟨(i 1).val, idx2_lt1 i⟩ := by
  refine ((W2_arr m ρ c 6).trans (R0.ss_final (V1 m ρ) c)).trans ?_
  show (fun i => colSumSq (lin (fun i => (fun (a b : EReal) => a + b) (W1 m ρ c (Proc.devRef .tc main_arg0) i) (W1 m ρ c (Proc.devRef .tc main_v25) i)) (W1 m ρ c (Proc.devRef .tc main_arg2)) (ofRow (W1 m ρ c (Proc.devRef .tc main_v4)))) ⟨(i 1).val, idx2_lt1 i⟩) = _
  rw [s1_main_arg0, s1_agg, s1_main_arg2, s1_main_v4]
  rfl

/-- The mean row the next launch reads is the column mean of the first affine map. -/
theorem s3_mean : ofRow (W3 m ρ c (Proc.devRef .tc main_v28)) = mean (Z1a m c) :=
  (HostStats.main_v28_row (W2 m ρ c)).trans (by rw [s2_s]; rfl)

/-- The variance row the next launch reads is its one-pass column variance. -/
theorem s3_var : ofRow (W3 m ρ c (Proc.devRef .tc main_v32)) = var1 (Z1a m c) :=
  (HostStats.main_v32_row (W2 m ρ c)).trans (by rw [s2_s, s2_ss]; rfl)

theorem s3_z : W3 m ρ c (Proc.devRef .tc main_v26_0) = Z1a m c := by
  rw [k1 m ρ c main_v26_0 (by decide)]
  exact s2_z m ρ c

theorem s3_main_v5 : ofRow (W3 m ρ c (Proc.devRef .tc main_v5)) = ofVec (m ((c.tc : Thread nD τ).loc main_arg4)) := by
  rw [k1 m ρ c main_v5 (by decide), W2_of_ne m ρ c main_v5 (by decide)]
  exact HostAgg.main_v5_row (W0 m ρ c)

theorem s3_main_v6 : ofRow (W3 m ρ c (Proc.devRef .tc main_v6)) = ofVec (m ((c.tc : Thread nD τ).loc main_arg5)) := by
  rw [k1 m ρ c main_v6 (by decide), W2_of_ne m ρ c main_v6 (by decide)]
  exact HostAgg.main_v6_row (W0 m ρ c)

theorem s3_main_arg6 : W3 m ρ c (Proc.devRef .tc main_arg6) = (m ((c.tc : Thread nD τ).loc main_arg6)) := by
  rw [k1 m ρ c main_arg6 (by decide), W2_of_ne m ρ c main_arg6 (by decide), k0 m ρ c main_arg6 (by decide)]

theorem s3_main_v7 : ofRow (W3 m ρ c (Proc.devRef .tc main_v7)) = ofVec (m ((c.tc : Thread nD τ).loc main_arg7)) := by
  rw [k1 m ρ c main_v7 (by decide), W2_of_ne m ρ c main_v7 (by decide)]
  exact HostAgg.main_v7_row (W0 m ρ c)

/-- At the exit of launch 1 its first result is the second affine map. -/
theorem s4_z : W4 m ρ c (Proc.devRef .tc main_v33_0) = Z1b m c := by
  refine ((W4_arr m ρ c 7).trans (R1.z_final (V3 m ρ) c)).trans ?_
  show lin (relu (bn (W3 m ρ c (Proc.devRef .tc main_v26_0)) (ofRow (W3 m ρ c (Proc.devRef .tc main_v28))) (ofRow (W3 m ρ c (Proc.devRef .tc main_v32))) (ofRow (W3 m ρ c (Proc.devRef .tc main_v5))) (ofRow (W3 m ρ c (Proc.devRef .tc main_v6))))) (W3 m ρ c (Proc.devRef .tc main_arg6)) (ofRow (W3 m ρ c (Proc.devRef .tc main_v7))) = _
  rw [s3_z, s3_mean, s3_var, s3_main_v5, s3_main_v6, s3_main_arg6, s3_main_v7]
  rfl

theorem s4_s : W4 m ρ c (Proc.devRef .tc main_v33_1) = fun i => colSum (Z1b m c) ⟨(i 1).val, idx2_lt1 i⟩ := by
  refine ((W4_arr m ρ c 8).trans (R1.s_final (V3 m ρ) c)).trans ?_
  show (fun i => colSum (lin (relu (bn (W3 m ρ c (Proc.devRef .tc main_v26_0)) (ofRow (W3 m ρ c (Proc.devRef .tc main_v28))) (ofRow (W3 m ρ c (Proc.devRef .tc main_v32))) (ofRow (W3 m ρ c (Proc.devRef .tc main_v5))) (ofRow (W3 m ρ c (Proc.devRef .tc main_v6))))) (W3 m ρ c (Proc.devRef .tc main_arg6)) (ofRow (W3 m ρ c (Proc.devRef .tc main_v7)))) ⟨(i 1).val, idx2_lt1 i⟩) = _
  rw [s3_z, s3_mean, s3_var, s3_main_v5, s3_main_v6, s3_main_arg6, s3_main_v7]
  rfl

theorem s4_ss : W4 m ρ c (Proc.devRef .tc main_v33_2) = fun i => colSumSq (Z1b m c) ⟨(i 1).val, idx2_lt1 i⟩ := by
  refine ((W4_arr m ρ c 9).trans (R1.ss_final (V3 m ρ) c)).trans ?_
  show (fun i => colSumSq (lin (relu (bn (W3 m ρ c (Proc.devRef .tc main_v26_0)) (ofRow (W3 m ρ c (Proc.devRef .tc main_v28))) (ofRow (W3 m ρ c (Proc.devRef .tc main_v32))) (ofRow (W3 m ρ c (Proc.devRef .tc main_v5))) (ofRow (W3 m ρ c (Proc.devRef .tc main_v6))))) (W3 m ρ c (Proc.devRef .tc main_arg6)) (ofRow (W3 m ρ c (Proc.devRef .tc main_v7)))) ⟨(i 1).val, idx2_lt1 i⟩) = _
  rw [s3_z, s3_mean, s3_var, s3_main_v5, s3_main_v6, s3_main_arg6, s3_main_v7]
  rfl

theorem s5_mean : ofRow (W5 m ρ c (Proc.devRef .tc main_v35)) = mean (Z1b m c) :=
  (HostStats.main_v35_row (W4 m ρ c)).trans (by rw [s4_s]; rfl)

theorem s5_var : ofRow (W5 m ρ c (Proc.devRef .tc main_v39)) = var1 (Z1b m c) :=
  (HostStats.main_v39_row (W4 m ρ c)).trans (by rw [s4_s, s4_ss]; rfl)

theorem s5_z : W5 m ρ c (Proc.devRef .tc main_v33_0) = Z1b m c := by
  rw [k2 m ρ c main_v33_0 (by decide)]
  exact s4_z m ρ c

theorem s5_main_v8 : ofRow (W5 m ρ c (Proc.devRef .tc main_v8)) = ofVec (m ((c.tc : Thread nD τ).loc main_arg8)) := by
  rw [k2 m ρ c main_v8 (by decide), W4_of_ne m ρ c main_v8 (by decide), k1 m ρ c main_v8 (by decide), W2_of_ne m ρ c main_v8 (by decide)]
  exact HostAgg.main_v8_row (W0 m ρ c)

theorem s5_main_v9 : ofRow (W5 m ρ c (Proc.devRef .tc main_v9)) = ofVec (m ((c.tc : Thread nD τ).loc main_arg9)) := by
  rw [k2 m ρ c main_v9 (by decide), W4_of_ne m ρ c main_v9 (by decide), k1 m ρ c main_v9 (by decide), W2_of_ne m ρ c main_v9 (by decide)]
  exact HostAgg.main_v9_row (W0 m ρ c)

/-- At the exit of launch 2 its result is the layer's output. -/
theorem s6_out : W6 m ρ c (Proc.devRef .tc main_v40) = O1 m c := by
  refine ((W6_arr m ρ c 5).trans (R2.out_final (V5 m ρ) c)).trans ?_
  show relu (bn (W5 m ρ c (Proc.devRef .tc main_v33_0)) (ofRow (W5 m ρ c (Proc.devRef .tc main_v35))) (ofRow (W5 m ρ c (Proc.devRef .tc main_v39))) (ofRow (W5 m ρ c (Proc.devRef .tc main_v8))) (ofRow (W5 m ρ c (Proc.devRef .tc main_v9)))) = _
  rw [s5_z, s5_mean, s5_var, s5_main_v8, s5_main_v9]
  rfl

/-! ## Between the layers -/

theorem s7_x : W7 m ρ c (Proc.devRef .tc main_v40) = O1 m c := by
  rw [k3 m ρ c main_v40 (by decide)]
  exact s6_out m ρ c

/-- Before the fourth launch the second aggregation buffer holds the aggregation of the first layer's output. -/
theorem s7_agg : W7 m ρ c (Proc.devRef .tc main_v50) = aggR (m ((c.tc : Thread nD τ).loc main_arg1)) (O1 m c) := by
  refine (HostAgg.v50_eq (W6 m ρ c)).trans ?_
  rw [W6_of_ne m ρ c main_v1 (by decide), k2 m ρ c main_v1 (by decide), W4_of_ne m ρ c main_v1 (by decide), k1 m ρ c main_v1 (by decide), W2_of_ne m ρ c main_v1 (by decide), W6_of_ne m ρ c main_v3 (by decide), k2 m ρ c main_v3 (by decide), W4_of_ne m ρ c main_v3 (by decide), k1 m ρ c main_v3 (by decide), W2_of_ne m ρ c main_v3 (by decide), s1_v1, s1_v3, s6_out]
  exact HostAgg.aggK_eq _ _

/-! ## Layer 2 -/

/-- The first affine map of layer 2: the features plus their aggregation, times the weights, plus the bias. -/
def Z2a : SN.Idx → EReal := lin (addAgg (aggR (m ((c.tc : Thread nD τ).loc main_arg1))) (O1 m c)) (m ((c.tc : Thread nD τ).loc main_arg10)) (ofVec (m ((c.tc : Thread nD τ).loc main_arg11)))

/-- The second affine map of layer 2, of the clamped normalisation of the first. -/
def Z2b : SN.Idx → EReal := lin (relu (bnSelf var1 (Z2a m c) (ofVec (m ((c.tc : Thread nD τ).loc main_arg12))) (ofVec (m ((c.tc : Thread nD τ).loc main_arg13))))) (m ((c.tc : Thread nD τ).loc main_arg14)) (ofVec (m ((c.tc : Thread nD τ).loc main_arg15)))

/-- The output of layer 2: the normalisation of the second affine map. -/
def O2 : SN.Idx → EReal := bnSelf var1 (Z2b m c) (ofVec (m ((c.tc : Thread nD τ).loc main_arg16))) (ofVec (m ((c.tc : Thread nD τ).loc main_arg17)))

theorem s7_main_arg10 : W7 m ρ c (Proc.devRef .tc main_arg10) = (m ((c.tc : Thread nD τ).loc main_arg10)) := by
  rw [k3 m ρ c main_arg10 (by decide), W6_of_ne m ρ c main_arg10 (by decide), k2 m ρ c main_arg10 (by decide), W4_of_ne m ρ c main_arg10 (by decide), k1 m ρ c main_arg10 (by decide), W2_of_ne m ρ c main_arg10 (by decide), k0 m ρ c main_arg10 (by decide)]

theorem s7_main_v10 : ofRow (W7 m ρ c (Proc.devRef .tc main_v10)) = ofVec (m ((c.tc : Thread nD τ).loc main_arg11)) := by
  rw [k3 m ρ c main_v10 (by decide), W6_of_ne m ρ c main_v10 (by decide), k2 m ρ c main_v10 (by decide), W4_of_ne m ρ c main_v10 (by decide), k1 m ρ c main_v10 (by decide), W2_of_ne m ρ c main_v10 (by decide)]
  exact HostAgg.main_v10_row (W0 m ρ c)

/-- At the exit of launch 3 its first result is the first affine map. -/
theorem s8_z : W8 m ρ c (Proc.devRef .tc main_v51_0) = Z2a m c := by
  refine ((W8_arr m ρ c 4).trans (R3.z_final (V7 m ρ) c)).trans ?_
  show lin (fun i => (fun (a b : EReal) => a + b) (W7 m ρ c (Proc.devRef .tc main_v40) i) (W7 m ρ c (Proc.devRef .tc main_v50) i)) (W7 m ρ c (Proc.devRef .tc main_arg10)) (ofRow (W7 m ρ c (Proc.devRef .tc main_v10))) = _
  rw [s7_x, s7_agg, s7_main_arg10, s7_main_v10]
  rfl

theorem s8_s : W8 m ρ c (Proc.devRef .tc main_v51_1) = fun i => colSum (Z2a m c) ⟨(i 1).val, idx2_lt1 i⟩ := by
  refine ((W8_arr m ρ c 5).trans (R3.s_final (V7 m ρ) c)).trans ?_
  show (fun i => colSum (lin (fun i => (fun (a b : EReal) => a + b) (W7 m ρ c (Proc.devRef .tc main_v40) i) (W7 m ρ c (Proc.devRef .tc main_v50) i)) (W7 m ρ c (Proc.devRef .tc main_arg10)) (ofRow (W7 m ρ c (Proc.devRef .tc main_v10)))) ⟨(i 1).val, idx2_lt1 i⟩) = _
  rw [s7_x, s7_agg, s7_main_arg10, s7_main_v10]
  rfl

theorem s8_ss : W8 m ρ c (Proc.devRef .tc main_v51_2) = fun i => colSumSq (Z2a m c) ⟨(i 1).val, idx2_lt1 i⟩ := by
  refine ((W8_arr m ρ c 6).trans (R3.ss_final (V7 m ρ) c)).trans ?_
  show (fun i => colSumSq (lin (fun i => (fun (a b : EReal) => a + b) (W7 m ρ c (Proc.devRef .tc main_v40) i) (W7 m ρ c (Proc.devRef .tc main_v50) i)) (W7 m ρ c (Proc.devRef .tc main_arg10)) (ofRow (W7 m ρ c (Proc.devRef .tc main_v10)))) ⟨(i 1).val, idx2_lt1 i⟩) = _
  rw [s7_x, s7_agg, s7_main_arg10, s7_main_v10]
  rfl

/-- The mean row the next launch reads is the column mean of the first affine map. -/
theorem s9_mean : ofRow (W9 m ρ c (Proc.devRef .tc main_v53)) = mean (Z2a m c) :=
  (HostStats.main_v53_row (W8 m ρ c)).trans (by rw [s8_s]; rfl)

/-- The variance row the next launch reads is its one-pass column variance. -/
theorem s9_var : ofRow (W9 m ρ c (Proc.devRef .tc main_v57)) = var1 (Z2a m c) :=
  (HostStats.main_v57_row (W8 m ρ c)).trans (by rw [s8_s, s8_ss]; rfl)

theorem s9_z : W9 m ρ c (Proc.devRef .tc main_v51_0) = Z2a m c := by
  rw [k4 m ρ c main_v51_0 (by decide)]
  exact s8_z m ρ c

theorem s9_main_v11 : ofRow (W9 m ρ c (Proc.devRef .tc main_v11)) = ofVec (m ((c.tc : Thread nD τ).loc main_arg12)) := by
  rw [k4 m ρ c main_v11 (by decide), W8_of_ne m ρ c main_v11 (by decide), k3 m ρ c main_v11 (by decide), W6_of_ne m ρ c main_v11 (by decide), k2 m ρ c main_v11 (by decide), W4_of_ne m ρ c main_v11 (by decide), k1 m ρ c main_v11 (by decide), W2_of_ne m ρ c main_v11 (by decide)]
  exact HostAgg.main_v11_row (W0 m ρ c)

theorem s9_main_v12 : ofRow (W9 m ρ c (Proc.devRef .tc main_v12)) = ofVec (m ((c.tc : Thread nD τ).loc main_arg13)) := by
  rw [k4 m ρ c main_v12 (by decide), W8_of_ne m ρ c main_v12 (by decide), k3 m ρ c main_v12 (by decide), W6_of_ne m ρ c main_v12 (by decide), k2 m ρ c main_v12 (by decide), W4_of_ne m ρ c main_v12 (by decide), k1 m ρ c main_v12 (by decide), W2_of_ne m ρ c main_v12 (by decide)]
  exact HostAgg.main_v12_row (W0 m ρ c)

theorem s9_main_arg14 : W9 m ρ c (Proc.devRef .tc main_arg14) = (m ((c.tc : Thread nD τ).loc main_arg14)) := by
  rw [k4 m ρ c main_arg14 (by decide), W8_of_ne m ρ c main_arg14 (by decide), k3 m ρ c main_arg14 (by decide), W6_of_ne m ρ c main_arg14 (by decide), k2 m ρ c main_arg14 (by decide), W4_of_ne m ρ c main_arg14 (by decide), k1 m ρ c main_arg14 (by decide), W2_of_ne m ρ c main_arg14 (by decide), k0 m ρ c main_arg14 (by decide)]

theorem s9_main_v13 : ofRow (W9 m ρ c (Proc.devRef .tc main_v13)) = ofVec (m ((c.tc : Thread nD τ).loc main_arg15)) := by
  rw [k4 m ρ c main_v13 (by decide), W8_of_ne m ρ c main_v13 (by decide), k3 m ρ c main_v13 (by decide), W6_of_ne m ρ c main_v13 (by decide), k2 m ρ c main_v13 (by decide), W4_of_ne m ρ c main_v13 (by decide), k1 m ρ c main_v13 (by decide), W2_of_ne m ρ c main_v13 (by decide)]
  exact HostAgg.main_v13_row (W0 m ρ c)

/-- At the exit of launch 4 its first result is the second affine map. -/
theorem s10_z : W10 m ρ c (Proc.devRef .tc main_v58_0) = Z2b m c := by
  refine ((W10_arr m ρ c 7).trans (R4.z_final (V9 m ρ) c)).trans ?_
  show lin (relu (bn (W9 m ρ c (Proc.devRef .tc main_v51_0)) (ofRow (W9 m ρ c (Proc.devRef .tc main_v53))) (ofRow (W9 m ρ c (Proc.devRef .tc main_v57))) (ofRow (W9 m ρ c (Proc.devRef .tc main_v11))) (ofRow (W9 m ρ c (Proc.devRef .tc main_v12))))) (W9 m ρ c (Proc.devRef .tc main_arg14)) (ofRow (W9 m ρ c (Proc.devRef .tc main_v13))) = _
  rw [s9_z, s9_mean, s9_var, s9_main_v11, s9_main_v12, s9_main_arg14, s9_main_v13]
  rfl

theorem s10_s : W10 m ρ c (Proc.devRef .tc main_v58_1) = fun i => colSum (Z2b m c) ⟨(i 1).val, idx2_lt1 i⟩ := by
  refine ((W10_arr m ρ c 8).trans (R4.s_final (V9 m ρ) c)).trans ?_
  show (fun i => colSum (lin (relu (bn (W9 m ρ c (Proc.devRef .tc main_v51_0)) (ofRow (W9 m ρ c (Proc.devRef .tc main_v53))) (ofRow (W9 m ρ c (Proc.devRef .tc main_v57))) (ofRow (W9 m ρ c (Proc.devRef .tc main_v11))) (ofRow (W9 m ρ c (Proc.devRef .tc main_v12))))) (W9 m ρ c (Proc.devRef .tc main_arg14)) (ofRow (W9 m ρ c (Proc.devRef .tc main_v13)))) ⟨(i 1).val, idx2_lt1 i⟩) = _
  rw [s9_z, s9_mean, s9_var, s9_main_v11, s9_main_v12, s9_main_arg14, s9_main_v13]
  rfl

theorem s10_ss : W10 m ρ c (Proc.devRef .tc main_v58_2) = fun i => colSumSq (Z2b m c) ⟨(i 1).val, idx2_lt1 i⟩ := by
  refine ((W10_arr m ρ c 9).trans (R4.ss_final (V9 m ρ) c)).trans ?_
  show (fun i => colSumSq (lin (relu (bn (W9 m ρ c (Proc.devRef .tc main_v51_0)) (ofRow (W9 m ρ c (Proc.devRef .tc main_v53))) (ofRow (W9 m ρ c (Proc.devRef .tc main_v57))) (ofRow (W9 m ρ c (Proc.devRef .tc main_v11))) (ofRow (W9 m ρ c (Proc.devRef .tc main_v12))))) (W9 m ρ c (Proc.devRef .tc main_arg14)) (ofRow (W9 m ρ c (Proc.devRef .tc main_v13)))) ⟨(i 1).val, idx2_lt1 i⟩) = _
  rw [s9_z, s9_mean, s9_var, s9_main_v11, s9_main_v12, s9_main_arg14, s9_main_v13]
  rfl

theorem s11_mean : ofRow (W11 m ρ c (Proc.devRef .tc main_v60)) = mean (Z2b m c) :=
  (HostStats.main_v60_row (W10 m ρ c)).trans (by rw [s10_s]; rfl)

theorem s11_var : ofRow (W11 m ρ c (Proc.devRef .tc main_v64)) = var1 (Z2b m c) :=
  (HostStats.main_v64_row (W10 m ρ c)).trans (by rw [s10_s, s10_ss]; rfl)

theorem s11_z : W11 m ρ c (Proc.devRef .tc main_v58_0) = Z2b m c := by
  rw [k5 m ρ c main_v58_0 (by decide)]
  exact s10_z m ρ c

theorem s11_main_v14 : ofRow (W11 m ρ c (Proc.devRef .tc main_v14)) = ofVec (m ((c.tc : Thread nD τ).loc main_arg16)) := by
  rw [k5 m ρ c main_v14 (by decide), W10_of_ne m ρ c main_v14 (by decide), k4 m ρ c main_v14 (by decide), W8_of_ne m ρ c main_v14 (by decide), k3 m ρ c main_v14 (by decide), W6_of_ne m ρ c main_v14 (by decide), k2 m ρ c main_v14 (by decide), W4_of_ne m ρ c main_v14 (by decide), k1 m ρ c main_v14 (by decide), W2_of_ne m ρ c main_v14 (by decide)]
  exact HostAgg.main_v14_row (W0 m ρ c)

theorem s11_main_v15 : ofRow (W11 m ρ c (Proc.devRef .tc main_v15)) = ofVec (m ((c.tc : Thread nD τ).loc main_arg17)) := by
  rw [k5 m ρ c main_v15 (by decide), W10_of_ne m ρ c main_v15 (by decide), k4 m ρ c main_v15 (by decide), W8_of_ne m ρ c main_v15 (by decide), k3 m ρ c main_v15 (by decide), W6_of_ne m ρ c main_v15 (by decide), k2 m ρ c main_v15 (by decide), W4_of_ne m ρ c main_v15 (by decide), k1 m ρ c main_v15 (by decide), W2_of_ne m ρ c main_v15 (by decide)]
  exact HostAgg.main_v15_row (W0 m ρ c)

/-- At the exit of launch 5 its result is the layer's output. -/
theorem s12_out : W12 m ρ c (Proc.devRef .tc main_v65) = O2 m c := by
  refine ((W12_arr m ρ c 5).trans (R5.out_final (V11 m ρ) c)).trans ?_
  show bn (W11 m ρ c (Proc.devRef .tc main_v58_0)) (ofRow (W11 m ρ c (Proc.devRef .tc main_v60))) (ofRow (W11 m ρ c (Proc.devRef .tc main_v64))) (ofRow (W11 m ρ c (Proc.devRef .tc main_v14))) (ofRow (W11 m ρ c (Proc.devRef .tc main_v15))) = _
  rw [s11_z, s11_mean, s11_var, s11_main_v14, s11_main_v15]
  rfl

/-! ## The result -/

/-- The kernel program's result buffer at its return: the network with the one-pass variance, of the argument arrays. -/
theorem W12_v65 : W12 m ρ c (Proc.devRef .tc main_v65)
    = net var1 (aggR (m ((c.tc : Thread nD τ).loc main_arg1))) (m ((c.tc : Thread nD τ).loc main_arg0)) (m ((c.tc : Thread nD τ).loc main_arg2)) (ofVec (m ((c.tc : Thread nD τ).loc main_arg3))) (ofVec (m ((c.tc : Thread nD τ).loc main_arg4))) (ofVec (m ((c.tc : Thread nD τ).loc main_arg5)))
        (m ((c.tc : Thread nD τ).loc main_arg6)) (ofVec (m ((c.tc : Thread nD τ).loc main_arg7))) (ofVec (m ((c.tc : Thread nD τ).loc main_arg8))) (ofVec (m ((c.tc : Thread nD τ).loc main_arg9)))
        (m ((c.tc : Thread nD τ).loc main_arg10)) (ofVec (m ((c.tc : Thread nD τ).loc main_arg11))) (ofVec (m ((c.tc : Thread nD τ).loc main_arg12))) (ofVec (m ((c.tc : Thread nD τ).loc main_arg13)))
        (m ((c.tc : Thread nD τ).loc main_arg14)) (ofVec (m ((c.tc : Thread nD τ).loc main_arg15))) (ofVec (m ((c.tc : Thread nD τ).loc main_arg16))) (ofVec (m ((c.tc : Thread nD τ).loc main_arg17))) :=
  (s12_out m ρ c).trans rfl

end Cert.KernelIdeal.Chain

end
-- ==== Proof.RefRunStages.lean ====
/-
  The reference program read one operation at a time. Its @main is a straight line of host operations in
  single-assignment form: operation k writes one buffer, which no later operation writes, from buffers written before
  it (or arguments, which no operation writes). So after the whole line each buffer holds its operation's function of
  what the operand buffers hold after the whole line, and by induction along the line each buffer holds the
  corresponding value function of the arguments. The table below is that induction written out, one case per
  operation, each case unfolding one value function only.
-/
import proofs.«129487_j15015205667099_1_alg».proof.Proof.RefRunP
import proofs.«129487_j15015205667099_1_alg».proof.Proof.RefReadP
import proofs.«129487_j15015205667099_1_alg».proof.Proof.LibAfter
import proofs.«129487_j15015205667099_1_alg».proof.Proof.LibAfterRead

set_option maxRecDepth 8192

noncomputable section

namespace Cert.Proof.RefRun

open Cert.ReferenceIdeal Cert.ReferenceIdeal.Gen Cert.ReferenceIdeal.Value Cert.ReferenceIdeal.Read Cert.LibAfter
open Idealize.ShloMosaic Idealize.ShloMosaic.TcCoe Idealize.SL.Sem Idealize.ShloMosaic.StableHlo

variable {F : FTy → Type} [FloatOps F]

/-- The buffers the line writes, in program order: operation k writes the k-th. -/
def Ws : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_cst_1, main_v19, main_cst_2, main_v20, main_v21, main_v22, main_v23, main_v24, main_v25, main_cst_3, main_v26, main_cst_4, main_v27, main_v28, main_v29, main_v30, main_v31, main_cst_5, main_v32, main_v33, main_v34, main_v35, main_v36, main_v37, main_v38, main_v39, main_v40, main_v41, main_v42, main_v43, main_call0_cst, main_call0_v0, main_v44, main_v45, main_v46, main_v47, main_v48, main_cst_6, main_v49, main_cst_7, main_v50, main_v51, main_v52, main_v53, main_v54, main_v55, main_cst_8, main_v56, main_cst_9, main_v57, main_v58, main_v59, main_v60, main_v61, main_cst_10, main_v62, main_v63, main_v64, main_v65, main_v66, main_v67, main_v68, main_v69, main_v70, main_v71, main_v72, main_v73, main_call1_cst, main_call1_v0, main_v74, main_c_11, main_v75, main_v76, main_c_12, main_v77, main_v78, main_v79, main_v80, main_v81, main_cst_13, main_v82, main_v83, main_v84, main_v85, main_v86, main_v87, main_v88, main_v89, main_cst_14, main_v90, main_cst_15, main_v91, main_v92, main_v93, main_v94, main_v95, main_v96, main_cst_16, main_v97, main_cst_17, main_v98, main_v99, main_v100, main_v101, main_v102, main_cst_18, main_v103, main_v104, main_v105, main_v106, main_v107, main_v108, main_v109, main_v110, main_v111, main_v112, main_v113, main_v114, main_call2_cst, main_call2_v0, main_v115, main_v116, main_v117, main_v118, main_v119, main_cst_19, main_v120, main_cst_20, main_v121, main_v122, main_v123, main_v124, main_v125, main_v126, main_cst_21, main_v127, main_cst_22, main_v128, main_v129, main_v130, main_v131, main_v132, main_cst_23, main_v133, main_v134, main_v135, main_v136, main_v137, main_v138, main_v139, main_v140, main_v141, main_v142, main_v143, main_v144]

/-- Operation k of the line writes exactly the k-th buffer of the list. -/
theorem writes : WritesList (ops (F := F)) Ws :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl writesList_nil))))))))))))))))))))))))))))))))))))))))))))))))))))))))))))))))))))))))))))))))))))))))))))))))))))))))))))))))))))))))))))))))))))))))))))))))))))))))))))))))))))))))))))))))

/-- The line has as many operations as the list has buffers. -/
theorem lt_ops_length {k : ℕ} (h : k < 177) : k < (ops (F := F)).length := h

variable (W : Valuation τ sig (Elt F))

/-! ## The arguments are not written -/

theorem keep_main_arg0 : after (ops (F := F)) W (Proc.devRef .tc main_arg0) = W (Proc.devRef .tc main_arg0) :=
  after_keep ops Ws writes W main_arg0 (by decide)
theorem keep_main_arg1 : after (ops (F := F)) W (Proc.devRef .tc main_arg1) = W (Proc.devRef .tc main_arg1) :=
  after_keep ops Ws writes W main_arg1 (by decide)
theorem keep_main_arg2 : after (ops (F := F)) W (Proc.devRef .tc main_arg2) = W (Proc.devRef .tc main_arg2) :=
  after_keep ops Ws writes W main_arg2 (by decide)
theorem keep_main_arg3 : after (ops (F := F)) W (Proc.devRef .tc main_arg3) = W (Proc.devRef .tc main_arg3) :=
  after_keep ops Ws writes W main_arg3 (by decide)
theorem keep_main_arg4 : after (ops (F := F)) W (Proc.devRef .tc main_arg4) = W (Proc.devRef .tc main_arg4) :=
  after_keep ops Ws writes W main_arg4 (by decide)
theorem keep_main_arg5 : after (ops (F := F)) W (Proc.devRef .tc main_arg5) = W (Proc.devRef .tc main_arg5) :=
  after_keep ops Ws writes W main_arg5 (by decide)
theorem keep_main_arg6 : after (ops (F := F)) W (Proc.devRef .tc main_arg6) = W (Proc.devRef .tc main_arg6) :=
  after_keep ops Ws writes W main_arg6 (by decide)
theorem keep_main_arg7 : after (ops (F := F)) W (Proc.devRef .tc main_arg7) = W (Proc.devRef .tc main_arg7) :=
  after_keep ops Ws writes W main_arg7 (by decide)
theorem keep_main_arg8 : after (ops (F := F)) W (Proc.devRef .tc main_arg8) = W (Proc.devRef .tc main_arg8) :=
  after_keep ops Ws writes W main_arg8 (by decide)
theorem keep_main_arg9 : after (ops (F := F)) W (Proc.devRef .tc main_arg9) = W (Proc.devRef .tc main_arg9) :=
  after_keep ops Ws writes W main_arg9 (by decide)
theorem keep_main_arg10 : after (ops (F := F)) W (Proc.devRef .tc main_arg10) = W (Proc.devRef .tc main_arg10) :=
  after_keep ops Ws writes W main_arg10 (by decide)
theorem keep_main_arg11 : after (ops (F := F)) W (Proc.devRef .tc main_arg11) = W (Proc.devRef .tc main_arg11) :=
  after_keep ops Ws writes W main_arg11 (by decide)
theorem keep_main_arg12 : after (ops (F := F)) W (Proc.devRef .tc main_arg12) = W (Proc.devRef .tc main_arg12) :=
  after_keep ops Ws writes W main_arg12 (by decide)
theorem keep_main_arg13 : after (ops (F := F)) W (Proc.devRef .tc main_arg13) = W (Proc.devRef .tc main_arg13) :=
  after_keep ops Ws writes W main_arg13 (by decide)
theorem keep_main_arg14 : after (ops (F := F)) W (Proc.devRef .tc main_arg14) = W (Proc.devRef .tc main_arg14) :=
  after_keep ops Ws writes W main_arg14 (by decide)
theorem keep_main_arg15 : after (ops (F := F)) W (Proc.devRef .tc main_arg15) = W (Proc.devRef .tc main_arg15) :=
  after_keep ops Ws writes W main_arg15 (by decide)
theorem keep_main_arg16 : after (ops (F := F)) W (Proc.devRef .tc main_arg16) = W (Proc.devRef .tc main_arg16) :=
  after_keep ops Ws writes W main_arg16 (by decide)
theorem keep_main_arg17 : after (ops (F := F)) W (Proc.devRef .tc main_arg17) = W (Proc.devRef .tc main_arg17) :=
  after_keep ops Ws writes W main_arg17 (by decide)

/-! ## One case per operation -/

theorem st_main_v0 : after (ops (F := F)) W (Proc.devRef .tc main_v0) = val_main_v0 (F := F) (W (Proc.devRef .tc main_arg1)) := by
  rw [read_unary ops Ws writes 0 (lt_ops_length (by decide)) W main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)) ⟨by decide, rfl⟩ ⟨by decide, rfl⟩ rfl (by decide) (by decide), keep_main_arg1 W]
  rfl
theorem st_main_v1 : after (ops (F := F)) W (Proc.devRef .tc main_v1) = val_main_v1 (F := F) (W (Proc.devRef .tc main_arg1)) := by
  rw [read_reshape ops Ws writes 1 (lt_ops_length (by decide)) W main_v0 main_v1 rfl shapeCasts_S1x1250000_S1250000 ⟨by decide, rfl⟩ ⟨by decide, rfl⟩ rfl (by decide) (by decide), st_main_v0 W]
  rfl
theorem st_main_v2 : after (ops (F := F)) W (Proc.devRef .tc main_v2) = val_main_v2 (F := F) (W (Proc.devRef .tc main_arg1)) := by
  rw [read_unary ops Ws writes 2 (lt_ops_length (by decide)) W main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)) ⟨by decide, rfl⟩ ⟨by decide, rfl⟩ rfl (by decide) (by decide), keep_main_arg1 W]
  rfl
theorem st_main_v3 : after (ops (F := F)) W (Proc.devRef .tc main_v3) = val_main_v3 (F := F) (W (Proc.devRef .tc main_arg1)) := by
  rw [read_reshape ops Ws writes 3 (lt_ops_length (by decide)) W main_v2 main_v3 rfl shapeCasts_S1x1250000_S1250000 ⟨by decide, rfl⟩ ⟨by decide, rfl⟩ rfl (by decide) (by decide), st_main_v2 W]
  rfl
theorem st_main_c : after (ops (F := F)) W (Proc.devRef .tc main_c) = val_main_c (F := F) := by
  rw [read_nullary ops Ws writes 4 (lt_ops_length (by decide)) W main_c _ ⟨by decide, rfl⟩ rfl (by decide)]
  rfl
theorem st_main_v4 : after (ops (F := F)) W (Proc.devRef .tc main_v4) = val_main_v4 (F := F) := by
  rw [read_unary ops Ws writes 5 (lt_ops_length (by decide)) W main_c main_v4 (broadcastInDim S1250000 ![] bcast_S_S1250000 : (⟨S_, .i32⟩ : BufTy).Contents (Elt F) → (⟨S1250000, .i32⟩ : BufTy).Contents (Elt F)) ⟨by decide, rfl⟩ ⟨by decide, rfl⟩ rfl (by decide) (by decide), st_main_c W]
  rfl
theorem st_main_v5 : after (ops (F := F)) W (Proc.devRef .tc main_v5) = val_main_v5 (F := F) (W (Proc.devRef .tc main_arg1)) := by
  rw [read_binary ops Ws writes 6 (lt_ops_length (by decide)) W main_v1 main_v4 main_v5 (cmpi .slt : (⟨S1250000, .i32⟩ : BufTy).Contents (Elt F) → (⟨S1250000, .i32⟩ : BufTy).Contents (Elt F) → (⟨S1250000, .i1⟩ : BufTy).Contents (Elt F)) ⟨by decide, rfl⟩ ⟨by decide, rfl⟩ ⟨by decide, rfl⟩ rfl (by decide) (by decide) (by decide), st_main_v1 W, st_main_v4 W]
  rfl
theorem st_main_c_0 : after (ops (F := F)) W (Proc.devRef .tc main_c_0) = val_main_c_0 (F := F) := by
  rw [read_nullary ops Ws writes 7 (lt_ops_length (by decide)) W main_c_0 _ ⟨by decide, rfl⟩ rfl (by decide)]
  rfl
theorem st_main_v6 : after (ops (F := F)) W (Proc.devRef .tc main_v6) = val_main_v6 (F := F) := by
  rw [read_unary ops Ws writes 8 (lt_ops_length (by decide)) W main_c_0 main_v6 (broadcastInDim S1250000 ![] bcast_S_S1250000 : (⟨S_, .i32⟩ : BufTy).Contents (Elt F) → (⟨S1250000, .i32⟩ : BufTy).Contents (Elt F)) ⟨by decide, rfl⟩ ⟨by decide, rfl⟩ rfl (by decide) (by decide), st_main_c_0 W]
  rfl
theorem st_main_v7 : after (ops (F := F)) W (Proc.devRef .tc main_v7) = val_main_v7 (F := F) (W (Proc.devRef .tc main_arg1)) := by
  rw [read_binary ops Ws writes 9 (lt_ops_length (by decide)) W main_v1 main_v6 main_v7 (addi : (⟨S1250000, .i32⟩ : BufTy).Contents (Elt F) → (⟨S1250000, .i32⟩ : BufTy).Contents (Elt F) → (⟨S1250000, .i32⟩ : BufTy).Contents (Elt F)) ⟨by decide, rfl⟩ ⟨by decide, rfl⟩ ⟨by decide, rfl⟩ rfl (by decide) (by decide) (by decide), st_main_v1 W, st_main_v6 W]
  rfl
theorem st_main_v8 : after (ops (F := F)) W (Proc.devRef .tc main_v8) = val_main_v8 (F := F) (W (Proc.devRef .tc main_arg1)) := by
  rw [read_ternary ops Ws writes 10 (lt_ops_length (by decide)) W main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) ⟨by decide, rfl⟩ ⟨by decide, rfl⟩ ⟨by decide, rfl⟩ ⟨by decide, rfl⟩ rfl (by decide) (by decide) (by decide) (by decide), st_main_v5 W, st_main_v7 W, st_main_v1 W]
  rfl
theorem st_main_v9 : after (ops (F := F)) W (Proc.devRef .tc main_v9) = val_main_v9 (F := F) (W (Proc.devRef .tc main_arg1)) := by
  rw [read_unary ops Ws writes 11 (lt_ops_length (by decide)) W main_v8 main_v9 (broadcastInDim S1250000x1 ![0] bcast_S1250000_S1250000x1_0 : (⟨S1250000, .i32⟩ : BufTy).Contents (Elt F) → (⟨S1250000x1, .i32⟩ : BufTy).Contents (Elt F)) ⟨by decide, rfl⟩ ⟨by decide, rfl⟩ rfl (by decide) (by decide), st_main_v8 W]
  rfl
theorem st_main_v10 : after (ops (F := F)) W (Proc.devRef .tc main_v10) = val_main_v10 (F := F) (W (Proc.devRef .tc main_arg0)) (W (Proc.devRef .tc main_arg1)) := by
  rw [read_binary ops Ws writes 12 (lt_ops_length (by decide)) W main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ⟨by decide, rfl⟩ ⟨by decide, rfl⟩ ⟨by decide, rfl⟩ rfl (by decide) (by decide) (by decide), keep_main_arg0 W, st_main_v9 W]
  rfl
theorem st_main_cst : after (ops (F := F)) W (Proc.devRef .tc main_cst) = val_main_cst (F := F) := by
  rw [read_nullary ops Ws writes 13 (lt_ops_length (by decide)) W main_cst _ ⟨by decide, rfl⟩ rfl (by decide)]
  rfl
theorem st_main_v11 : after (ops (F := F)) W (Proc.devRef .tc main_v11) = val_main_v11 (F := F) := by
  rw [read_unary ops Ws writes 14 (lt_ops_length (by decide)) W main_cst main_v11 (broadcastInDim S100000x64 ![] bcast_S_S100000x64 : (⟨S_, .f32⟩ : BufTy).Contents (Elt F) → (⟨S100000x64, .f32⟩ : BufTy).Contents (Elt F)) ⟨by decide, rfl⟩ ⟨by decide, rfl⟩ rfl (by decide) (by decide), st_main_cst W]
  rfl
theorem st_main_v12 : after (ops (F := F)) W (Proc.devRef .tc main_v12) = val_main_v12 (F := F) (W (Proc.devRef .tc main_arg1)) := by
  rw [read_unary ops Ws writes 15 (lt_ops_length (by decide)) W main_v3 main_v12 (broadcastInDim S1250000x1 ![0] bcast_S1250000_S1250000x1_0 : (⟨S1250000, .i32⟩ : BufTy).Contents (Elt F) → (⟨S1250000x1, .i32⟩ : BufTy).Contents (Elt F)) ⟨by decide, rfl⟩ ⟨by decide, rfl⟩ rfl (by decide) (by decide), st_main_v3 W]
  rfl
theorem st_main_v13 : after (ops (F := F)) W (Proc.devRef .tc main_v13) = val_main_v13 (F := F) (W (Proc.devRef .tc main_arg0)) (W (Proc.devRef .tc main_arg1)) := by
  rw [read_ternary ops Ws writes 16 (lt_ops_length (by decide)) W main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ⟨by decide, rfl⟩ ⟨by decide, rfl⟩ ⟨by decide, rfl⟩ ⟨by decide, rfl⟩ rfl (by decide) (by decide) (by decide) (by decide), st_main_v11 W, st_main_v12 W, st_main_v10 W]
  rfl
theorem st_main_v14 : after (ops (F := F)) W (Proc.devRef .tc main_v14) = val_main_v14 (F := F) (W (Proc.devRef .tc main_arg0)) (W (Proc.devRef .tc main_arg1)) := by
  rw [read_binary ops Ws writes 17 (lt_ops_length (by decide)) W main_arg0 main_v13 main_v14 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), keep_main_arg0 W, st_main_v13 W]
  rfl
theorem st_main_v15 : after (ops (F := F)) W (Proc.devRef .tc main_v15) = val_main_v15 (F := F) (W (Proc.devRef .tc main_arg0)) (W (Proc.devRef .tc main_arg1)) (W (Proc.devRef .tc main_arg2)) := by
  rw [read_binary ops Ws writes 18 (lt_ops_length (by decide)) W main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v14 W, keep_main_arg2 W]
  rfl
theorem st_main_v16 : after (ops (F := F)) W (Proc.devRef .tc main_v16) = val_main_v16 (F := F) (W (Proc.devRef .tc main_arg3)) := by
  rw [read_unary ops Ws writes 19 (lt_ops_length (by decide)) W main_arg3 main_v16 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg3 W]
  rfl
theorem st_main_v17 : after (ops (F := F)) W (Proc.devRef .tc main_v17) = val_main_v17 (F := F) (W (Proc.devRef .tc main_arg3)) := by
  rw [read_unary ops Ws writes 20 (lt_ops_length (by decide)) W main_v16 main_v17 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v16 W]
  rfl
theorem st_main_v18 : after (ops (F := F)) W (Proc.devRef .tc main_v18) = val_main_v18 (F := F) (W (Proc.devRef .tc main_arg0)) (W (Proc.devRef .tc main_arg1)) (W (Proc.devRef .tc main_arg2)) (W (Proc.devRef .tc main_arg3)) := by
  rw [read_binary ops Ws writes 21 (lt_ops_length (by decide)) W main_v15 main_v17 main_v18 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v15 W, st_main_v17 W]
  rfl
theorem st_main_cst_1 : after (ops (F := F)) W (Proc.devRef .tc main_cst_1) = val_main_cst_1 (F := F) := by
  rw [read_nullary ops Ws writes 22 (lt_ops_length (by decide)) W main_cst_1 _ ⟨by decide, rfl⟩ rfl (by decide)]
  rfl
theorem st_main_v19 : after (ops (F := F)) W (Proc.devRef .tc main_v19) = val_main_v19 (F := F) (W (Proc.devRef .tc main_arg0)) (W (Proc.devRef .tc main_arg1)) (W (Proc.devRef .tc main_arg2)) (W (Proc.devRef .tc main_arg3)) := by
  rw [read_binary ops Ws writes 23 (lt_ops_length (by decide)) W main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v18 W, st_main_cst_1 W]
  rfl
theorem st_main_cst_2 : after (ops (F := F)) W (Proc.devRef .tc main_cst_2) = val_main_cst_2 (F := F) := by
  rw [read_nullary ops Ws writes 24 (lt_ops_length (by decide)) W main_cst_2 _ ⟨by decide, rfl⟩ rfl (by decide)]
  rfl
theorem st_main_v20 : after (ops (F := F)) W (Proc.devRef .tc main_v20) = val_main_v20 (F := F) := by
  rw [read_unary ops Ws writes 25 (lt_ops_length (by decide)) W main_cst_2 main_v20 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_2 W]
  rfl
theorem st_main_v21 : after (ops (F := F)) W (Proc.devRef .tc main_v21) = val_main_v21 (F := F) (W (Proc.devRef .tc main_arg0)) (W (Proc.devRef .tc main_arg1)) (W (Proc.devRef .tc main_arg2)) (W (Proc.devRef .tc main_arg3)) := by
  rw [read_binary ops Ws writes 26 (lt_ops_length (by decide)) W main_v19 main_v20 main_v21 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v19 W, st_main_v20 W]
  rfl
theorem st_main_v22 : after (ops (F := F)) W (Proc.devRef .tc main_v22) = val_main_v22 (F := F) (W (Proc.devRef .tc main_arg0)) (W (Proc.devRef .tc main_arg1)) (W (Proc.devRef .tc main_arg2)) (W (Proc.devRef .tc main_arg3)) := by
  rw [read_unary ops Ws writes 27 (lt_ops_length (by decide)) W main_v21 main_v22 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v21 W]
  rfl
theorem st_main_v23 : after (ops (F := F)) W (Proc.devRef .tc main_v23) = val_main_v23 (F := F) (W (Proc.devRef .tc main_arg0)) (W (Proc.devRef .tc main_arg1)) (W (Proc.devRef .tc main_arg2)) (W (Proc.devRef .tc main_arg3)) := by
  rw [read_unary ops Ws writes 28 (lt_ops_length (by decide)) W main_v22 main_v23 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v22 W]
  rfl
theorem st_main_v24 : after (ops (F := F)) W (Proc.devRef .tc main_v24) = val_main_v24 (F := F) (W (Proc.devRef .tc main_arg0)) (W (Proc.devRef .tc main_arg1)) (W (Proc.devRef .tc main_arg2)) (W (Proc.devRef .tc main_arg3)) := by
  rw [read_binary ops Ws writes 29 (lt_ops_length (by decide)) W main_v18 main_v23 main_v24 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v18 W, st_main_v23 W]
  rfl
theorem st_main_v25 : after (ops (F := F)) W (Proc.devRef .tc main_v25) = val_main_v25 (F := F) (W (Proc.devRef .tc main_arg0)) (W (Proc.devRef .tc main_arg1)) (W (Proc.devRef .tc main_arg2)) (W (Proc.devRef .tc main_arg3)) := by
  rw [read_binary ops Ws writes 30 (lt_ops_length (by decide)) W main_v24 main_v24 main_v25 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v24 W]
  rfl
theorem st_main_cst_3 : after (ops (F := F)) W (Proc.devRef .tc main_cst_3) = val_main_cst_3 (F := F) := by
  rw [read_nullary ops Ws writes 31 (lt_ops_length (by decide)) W main_cst_3 _ ⟨by decide, rfl⟩ rfl (by decide)]
  rfl
theorem st_main_v26 : after (ops (F := F)) W (Proc.devRef .tc main_v26) = val_main_v26 (F := F) (W (Proc.devRef .tc main_arg0)) (W (Proc.devRef .tc main_arg1)) (W (Proc.devRef .tc main_arg2)) (W (Proc.devRef .tc main_arg3)) := by
  rw [read_binary ops Ws writes 32 (lt_ops_length (by decide)) W main_v25 main_cst_3 main_v26 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v25 W, st_main_cst_3 W]
  rfl
theorem st_main_cst_4 : after (ops (F := F)) W (Proc.devRef .tc main_cst_4) = val_main_cst_4 (F := F) := by
  rw [read_nullary ops Ws writes 33 (lt_ops_length (by decide)) W main_cst_4 _ ⟨by decide, rfl⟩ rfl (by decide)]
  rfl
theorem st_main_v27 : after (ops (F := F)) W (Proc.devRef .tc main_v27) = val_main_v27 (F := F) := by
  rw [read_unary ops Ws writes 34 (lt_ops_length (by decide)) W main_cst_4 main_v27 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_4 W]
  rfl
theorem st_main_v28 : after (ops (F := F)) W (Proc.devRef .tc main_v28) = val_main_v28 (F := F) (W (Proc.devRef .tc main_arg0)) (W (Proc.devRef .tc main_arg1)) (W (Proc.devRef .tc main_arg2)) (W (Proc.devRef .tc main_arg3)) := by
  rw [read_binary ops Ws writes 35 (lt_ops_length (by decide)) W main_v26 main_v27 main_v28 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v26 W, st_main_v27 W]
  rfl
theorem st_main_v29 : after (ops (F := F)) W (Proc.devRef .tc main_v29) = val_main_v29 (F := F) (W (Proc.devRef .tc main_arg0)) (W (Proc.devRef .tc main_arg1)) (W (Proc.devRef .tc main_arg2)) (W (Proc.devRef .tc main_arg3)) := by
  rw [read_unary ops Ws writes 36 (lt_ops_length (by decide)) W main_v21 main_v29 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v21 W]
  rfl
theorem st_main_v30 : after (ops (F := F)) W (Proc.devRef .tc main_v30) = val_main_v30 (F := F) (W (Proc.devRef .tc main_arg0)) (W (Proc.devRef .tc main_arg1)) (W (Proc.devRef .tc main_arg2)) (W (Proc.devRef .tc main_arg3)) := by
  rw [read_unary ops Ws writes 37 (lt_ops_length (by decide)) W main_v29 main_v30 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v29 W]
  rfl
theorem st_main_v31 : after (ops (F := F)) W (Proc.devRef .tc main_v31) = val_main_v31 (F := F) (W (Proc.devRef .tc main_arg0)) (W (Proc.devRef .tc main_arg1)) (W (Proc.devRef .tc main_arg2)) (W (Proc.devRef .tc main_arg3)) := by
  rw [read_binary ops Ws writes 38 (lt_ops_length (by decide)) W main_v18 main_v30 main_v31 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v18 W, st_main_v30 W]
  rfl
theorem st_main_cst_5 : after (ops (F := F)) W (Proc.devRef .tc main_cst_5) = val_main_cst_5 (F := F) := by
  rw [read_nullary ops Ws writes 39 (lt_ops_length (by decide)) W main_cst_5 _ ⟨by decide, rfl⟩ rfl (by decide)]
  rfl
theorem st_main_v32 : after (ops (F := F)) W (Proc.devRef .tc main_v32) = val_main_v32 (F := F) := by
  rw [read_unary ops Ws writes 40 (lt_ops_length (by decide)) W main_cst_5 main_v32 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_5 W]
  rfl
theorem st_main_v33 : after (ops (F := F)) W (Proc.devRef .tc main_v33) = val_main_v33 (F := F) (W (Proc.devRef .tc main_arg0)) (W (Proc.devRef .tc main_arg1)) (W (Proc.devRef .tc main_arg2)) (W (Proc.devRef .tc main_arg3)) := by
  rw [read_binary ops Ws writes 41 (lt_ops_length (by decide)) W main_v28 main_v32 main_v33 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v28 W, st_main_v32 W]
  rfl
theorem st_main_v34 : after (ops (F := F)) W (Proc.devRef .tc main_v34) = val_main_v34 (F := F) (W (Proc.devRef .tc main_arg0)) (W (Proc.devRef .tc main_arg1)) (W (Proc.devRef .tc main_arg2)) (W (Proc.devRef .tc main_arg3)) := by
  rw [read_unary ops Ws writes 42 (lt_ops_length (by decide)) W main_v33 main_v34 (Host.rsqrt : (⟨S64, .f32⟩ : BufTy).Contents (Elt F) → (⟨S64, .f32⟩ : BufTy).Contents (Elt F)) ⟨by decide, rfl⟩ ⟨by decide, rfl⟩ rfl (by decide) (by decide), st_main_v33 W]
  rfl
theorem st_main_v35 : after (ops (F := F)) W (Proc.devRef .tc main_v35) = val_main_v35 (F := F) (W (Proc.devRef .tc main_arg0)) (W (Proc.devRef .tc main_arg1)) (W (Proc.devRef .tc main_arg2)) (W (Proc.devRef .tc main_arg3)) := by
  rw [read_unary ops Ws writes 43 (lt_ops_length (by decide)) W main_v34 main_v35 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v34 W]
  rfl
theorem st_main_v36 : after (ops (F := F)) W (Proc.devRef .tc main_v36) = val_main_v36 (F := F) (W (Proc.devRef .tc main_arg0)) (W (Proc.devRef .tc main_arg1)) (W (Proc.devRef .tc main_arg2)) (W (Proc.devRef .tc main_arg3)) := by
  rw [read_unary ops Ws writes 44 (lt_ops_length (by decide)) W main_v35 main_v36 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v35 W]
  rfl
theorem st_main_v37 : after (ops (F := F)) W (Proc.devRef .tc main_v37) = val_main_v37 (F := F) (W (Proc.devRef .tc main_arg0)) (W (Proc.devRef .tc main_arg1)) (W (Proc.devRef .tc main_arg2)) (W (Proc.devRef .tc main_arg3)) := by
  rw [read_binary ops Ws writes 45 (lt_ops_length (by decide)) W main_v31 main_v36 main_v37 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v31 W, st_main_v36 W]
  rfl
theorem st_main_v38 : after (ops (F := F)) W (Proc.devRef .tc main_v38) = val_main_v38 (F := F) (W (Proc.devRef .tc main_arg4)) := by
  rw [read_unary ops Ws writes 46 (lt_ops_length (by decide)) W main_arg4 main_v38 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg4 W]
  rfl
theorem st_main_v39 : after (ops (F := F)) W (Proc.devRef .tc main_v39) = val_main_v39 (F := F) (W (Proc.devRef .tc main_arg4)) := by
  rw [read_unary ops Ws writes 47 (lt_ops_length (by decide)) W main_v38 main_v39 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v38 W]
  rfl
theorem st_main_v40 : after (ops (F := F)) W (Proc.devRef .tc main_v40) = val_main_v40 (F := F) (W (Proc.devRef .tc main_arg0)) (W (Proc.devRef .tc main_arg1)) (W (Proc.devRef .tc main_arg2)) (W (Proc.devRef .tc main_arg3)) (W (Proc.devRef .tc main_arg4)) := by
  rw [read_binary ops Ws writes 48 (lt_ops_length (by decide)) W main_v37 main_v39 main_v40 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v37 W, st_main_v39 W]
  rfl
theorem st_main_v41 : after (ops (F := F)) W (Proc.devRef .tc main_v41) = val_main_v41 (F := F) (W (Proc.devRef .tc main_arg5)) := by
  rw [read_unary ops Ws writes 49 (lt_ops_length (by decide)) W main_arg5 main_v41 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg5 W]
  rfl
theorem st_main_v42 : after (ops (F := F)) W (Proc.devRef .tc main_v42) = val_main_v42 (F := F) (W (Proc.devRef .tc main_arg5)) := by
  rw [read_unary ops Ws writes 50 (lt_ops_length (by decide)) W main_v41 main_v42 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v41 W]
  rfl
theorem st_main_v43 : after (ops (F := F)) W (Proc.devRef .tc main_v43) = val_main_v43 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [read_binary ops Ws writes 51 (lt_ops_length (by decide)) W main_v40 main_v42 main_v43 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v40 W, st_main_v42 W]
  rfl
theorem st_main_call0_cst : after (ops (F := F)) W (Proc.devRef .tc main_call0_cst) = val_main_call0_cst (F := F) := by
  rw [read_nullary ops Ws writes 52 (lt_ops_length (by decide)) W main_call0_cst _ ⟨by decide, rfl⟩ rfl (by decide)]
  rfl
theorem st_main_call0_v0 : after (ops (F := F)) W (Proc.devRef .tc main_call0_v0) = val_main_call0_v0 (F := F) := by
  rw [read_unary ops Ws writes 53 (lt_ops_length (by decide)) W main_call0_cst main_call0_v0 ((broadcastInDim S100000x64 ![] bcast_S_S100000x64) : (⟨S_, .f32⟩ : BufTy).Contents (Elt F) → (⟨S100000x64, .f32⟩ : BufTy).Contents (Elt F)) ⟨by decide, rfl⟩ ⟨by decide, rfl⟩ rfl (by decide) (by decide), st_main_call0_cst W]
  rfl
theorem st_main_v44 : after (ops (F := F)) W (Proc.devRef .tc main_v44) = val_main_v44 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [read_binary ops Ws writes 54 (lt_ops_length (by decide)) W main_v43 main_call0_v0 main_v44 (maximumf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v43 W, st_main_call0_v0 W]
  rfl
theorem st_main_v45 : after (ops (F := F)) W (Proc.devRef .tc main_v45) = val_main_v45 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [read_binary ops Ws writes 55 (lt_ops_length (by decide)) W main_v44 main_arg6 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v44 W, keep_main_arg6 W]
  rfl
theorem st_main_v46 : after (ops (F := F)) W (Proc.devRef .tc main_v46) = val_main_v46 (F := F) (W (Proc.devRef .tc main_arg7)) := by
  rw [read_unary ops Ws writes 56 (lt_ops_length (by decide)) W main_arg7 main_v46 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg7 W]
  rfl
theorem st_main_v47 : after (ops (F := F)) W (Proc.devRef .tc main_v47) = val_main_v47 (F := F) (W (Proc.devRef .tc main_arg7)) := by
  rw [read_unary ops Ws writes 57 (lt_ops_length (by decide)) W main_v46 main_v47 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v46 W]
  rfl
theorem st_main_v48 : after (ops (F := F)) W (Proc.devRef .tc main_v48) = val_main_v48 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 58 (lt_ops_length (by decide)) W main_v45 main_v47 main_v48 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v45 W, st_main_v47 W]
  rfl
theorem st_main_cst_6 : after (ops (F := F)) W (Proc.devRef .tc main_cst_6) = val_main_cst_6 (F := F) := by
  rw [read_nullary ops Ws writes 59 (lt_ops_length (by decide)) W main_cst_6 _ ⟨by decide, rfl⟩ rfl (by decide)]
  rfl
theorem st_main_v49 : after (ops (F := F)) W (Proc.devRef .tc main_v49) = val_main_v49 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 60 (lt_ops_length (by decide)) W main_v48 main_cst_6 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v48 W, st_main_cst_6 W]
  rfl
theorem st_main_cst_7 : after (ops (F := F)) W (Proc.devRef .tc main_cst_7) = val_main_cst_7 (F := F) := by
  rw [read_nullary ops Ws writes 61 (lt_ops_length (by decide)) W main_cst_7 _ ⟨by decide, rfl⟩ rfl (by decide)]
  rfl
theorem st_main_v50 : after (ops (F := F)) W (Proc.devRef .tc main_v50) = val_main_v50 (F := F) := by
  rw [read_unary ops Ws writes 62 (lt_ops_length (by decide)) W main_cst_7 main_v50 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_7 W]
  rfl
theorem st_main_v51 : after (ops (F := F)) W (Proc.devRef .tc main_v51) = val_main_v51 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 63 (lt_ops_length (by decide)) W main_v49 main_v50 main_v51 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v49 W, st_main_v50 W]
  rfl
theorem st_main_v52 : after (ops (F := F)) W (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 64 (lt_ops_length (by decide)) W main_v51 main_v52 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v51 W]
  rfl
theorem st_main_v53 : after (ops (F := F)) W (Proc.devRef .tc main_v53) = val_main_v53 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 65 (lt_ops_length (by decide)) W main_v52 main_v53 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v52 W]
  rfl
theorem st_main_v54 : after (ops (F := F)) W (Proc.devRef .tc main_v54) = val_main_v54 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 66 (lt_ops_length (by decide)) W main_v48 main_v53 main_v54 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v48 W, st_main_v53 W]
  rfl
theorem st_main_v55 : after (ops (F := F)) W (Proc.devRef .tc main_v55) = val_main_v55 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 67 (lt_ops_length (by decide)) W main_v54 main_v54 main_v55 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v54 W]
  rfl
theorem st_main_cst_8 : after (ops (F := F)) W (Proc.devRef .tc main_cst_8) = val_main_cst_8 (F := F) := by
  rw [read_nullary ops Ws writes 68 (lt_ops_length (by decide)) W main_cst_8 _ ⟨by decide, rfl⟩ rfl (by decide)]
  rfl
theorem st_main_v56 : after (ops (F := F)) W (Proc.devRef .tc main_v56) = val_main_v56 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 69 (lt_ops_length (by decide)) W main_v55 main_cst_8 main_v56 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v55 W, st_main_cst_8 W]
  rfl
theorem st_main_cst_9 : after (ops (F := F)) W (Proc.devRef .tc main_cst_9) = val_main_cst_9 (F := F) := by
  rw [read_nullary ops Ws writes 70 (lt_ops_length (by decide)) W main_cst_9 _ ⟨by decide, rfl⟩ rfl (by decide)]
  rfl
theorem st_main_v57 : after (ops (F := F)) W (Proc.devRef .tc main_v57) = val_main_v57 (F := F) := by
  rw [read_unary ops Ws writes 71 (lt_ops_length (by decide)) W main_cst_9 main_v57 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_9 W]
  rfl
theorem st_main_v58 : after (ops (F := F)) W (Proc.devRef .tc main_v58) = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 72 (lt_ops_length (by decide)) W main_v56 main_v57 main_v58 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v56 W, st_main_v57 W]
  rfl
theorem st_main_v59 : after (ops (F := F)) W (Proc.devRef .tc main_v59) = val_main_v59 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 73 (lt_ops_length (by decide)) W main_v51 main_v59 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v51 W]
  rfl
theorem st_main_v60 : after (ops (F := F)) W (Proc.devRef .tc main_v60) = val_main_v60 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 74 (lt_ops_length (by decide)) W main_v59 main_v60 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v59 W]
  rfl
theorem st_main_v61 : after (ops (F := F)) W (Proc.devRef .tc main_v61) = val_main_v61 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 75 (lt_ops_length (by decide)) W main_v48 main_v60 main_v61 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v48 W, st_main_v60 W]
  rfl
theorem st_main_cst_10 : after (ops (F := F)) W (Proc.devRef .tc main_cst_10) = val_main_cst_10 (F := F) := by
  rw [read_nullary ops Ws writes 76 (lt_ops_length (by decide)) W main_cst_10 _ ⟨by decide, rfl⟩ rfl (by decide)]
  rfl
theorem st_main_v62 : after (ops (F := F)) W (Proc.devRef .tc main_v62) = val_main_v62 (F := F) := by
  rw [read_unary ops Ws writes 77 (lt_ops_length (by decide)) W main_cst_10 main_v62 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_10 W]
  rfl
theorem st_main_v63 : after (ops (F := F)) W (Proc.devRef .tc main_v63) = val_main_v63 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 78 (lt_ops_length (by decide)) W main_v58 main_v62 main_v63 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v58 W, st_main_v62 W]
  rfl
theorem st_main_v64 : after (ops (F := F)) W (Proc.devRef .tc main_v64) = val_main_v64 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 79 (lt_ops_length (by decide)) W main_v63 main_v64 (Host.rsqrt : (⟨S64, .f32⟩ : BufTy).Contents (Elt F) → (⟨S64, .f32⟩ : BufTy).Contents (Elt F)) ⟨by decide, rfl⟩ ⟨by decide, rfl⟩ rfl (by decide) (by decide), st_main_v63 W]
  rfl
theorem st_main_v65 : after (ops (F := F)) W (Proc.devRef .tc main_v65) = val_main_v65 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 80 (lt_ops_length (by decide)) W main_v64 main_v65 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v64 W]
  rfl
theorem st_main_v66 : after (ops (F := F)) W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_unary ops Ws writes 81 (lt_ops_length (by decide)) W main_v65 main_v66 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v65 W]
  rfl
theorem st_main_v67 : after (ops (F := F)) W (Proc.devRef .tc main_v67) = val_main_v67 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [read_binary ops Ws writes 82 (lt_ops_length (by decide)) W main_v61 main_v66 main_v67 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v61 W, st_main_v66 W]
  rfl
theorem st_main_v68 : after (ops (F := F)) W (Proc.devRef .tc main_v68) = val_main_v68 (F := F) (W (Proc.devRef .tc main_arg8)) := by
  rw [read_unary ops Ws writes 83 (lt_ops_length (by decide)) W main_arg8 main_v68 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg8 W]
  rfl
theorem st_main_v69 : after (ops (F := F)) W (Proc.devRef .tc main_v69) = val_main_v69 (F := F) (W (Proc.devRef .tc main_arg8)) := by
  rw [read_unary ops Ws writes 84 (lt_ops_length (by decide)) W main_v68 main_v69 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v68 W]
  rfl
theorem st_main_v70 : after (ops (F := F)) W (Proc.devRef .tc main_v70) = val_main_v70 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [read_binary ops Ws writes 85 (lt_ops_length (by decide)) W main_v67 main_v69 main_v70 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v67 W, st_main_v69 W]
  rfl
theorem st_main_v71 : after (ops (F := F)) W (Proc.devRef .tc main_v71) = val_main_v71 (F := F) (W (Proc.devRef .tc main_arg9)) := by
  rw [read_unary ops Ws writes 86 (lt_ops_length (by decide)) W main_arg9 main_v71 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg9 W]
  rfl
theorem st_main_v72 : after (ops (F := F)) W (Proc.devRef .tc main_v72) = val_main_v72 (F := F) (W (Proc.devRef .tc main_arg9)) := by
  rw [read_unary ops Ws writes 87 (lt_ops_length (by decide)) W main_v71 main_v72 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v71 W]
  rfl
theorem st_main_v73 : after (ops (F := F)) W (Proc.devRef .tc main_v73) = val_main_v73 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [read_binary ops Ws writes 88 (lt_ops_length (by decide)) W main_v70 main_v72 main_v73 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v70 W, st_main_v72 W]
  rfl
theorem st_main_call1_cst : after (ops (F := F)) W (Proc.devRef .tc main_call1_cst) = val_main_call1_cst (F := F) := by
  rw [read_nullary ops Ws writes 89 (lt_ops_length (by decide)) W main_call1_cst _ ⟨by decide, rfl⟩ rfl (by decide)]
  rfl
theorem st_main_call1_v0 : after (ops (F := F)) W (Proc.devRef .tc main_call1_v0) = val_main_call1_v0 (F := F) := by
  rw [read_unary ops Ws writes 90 (lt_ops_length (by decide)) W main_call1_cst main_call1_v0 ((broadcastInDim S100000x64 ![] bcast_S_S100000x64) : (⟨S_, .f32⟩ : BufTy).Contents (Elt F) → (⟨S100000x64, .f32⟩ : BufTy).Contents (Elt F)) ⟨by decide, rfl⟩ ⟨by decide, rfl⟩ rfl (by decide) (by decide), st_main_call1_cst W]
  rfl
theorem st_main_v74 : after (ops (F := F)) W (Proc.devRef .tc main_v74) = val_main_v74 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [read_binary ops Ws writes 91 (lt_ops_length (by decide)) W main_v73 main_call1_v0 main_v74 (maximumf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v73 W, st_main_call1_v0 W]
  rfl
theorem st_main_c_11 : after (ops (F := F)) W (Proc.devRef .tc main_c_11) = val_main_c_11 (F := F) := by
  rw [read_nullary ops Ws writes 92 (lt_ops_length (by decide)) W main_c_11 _ ⟨by decide, rfl⟩ rfl (by decide)]
  rfl
theorem st_main_v75 : after (ops (F := F)) W (Proc.devRef .tc main_v75) = val_main_v75 (F := F) := by
  rw [read_unary ops Ws writes 93 (lt_ops_length (by decide)) W main_c_11 main_v75 (broadcastInDim S1250000 ![] bcast_S_S1250000 : (⟨S_, .i32⟩ : BufTy).Contents (Elt F) → (⟨S1250000, .i32⟩ : BufTy).Contents (Elt F)) ⟨by decide, rfl⟩ ⟨by decide, rfl⟩ rfl (by decide) (by decide), st_main_c_11 W]
  rfl
theorem st_main_v76 : after (ops (F := F)) W (Proc.devRef .tc main_v76) = val_main_v76 (F := F) (W (Proc.devRef .tc main_arg1)) := by
  rw [read_binary ops Ws writes 94 (lt_ops_length (by decide)) W main_v1 main_v75 main_v76 (cmpi .slt : (⟨S1250000, .i32⟩ : BufTy).Contents (Elt F) → (⟨S1250000, .i32⟩ : BufTy).Contents (Elt F) → (⟨S1250000, .i1⟩ : BufTy).Contents (Elt F)) ⟨by decide, rfl⟩ ⟨by decide, rfl⟩ ⟨by decide, rfl⟩ rfl (by decide) (by decide) (by decide), st_main_v1 W, st_main_v75 W]
  rfl
theorem st_main_c_12 : after (ops (F := F)) W (Proc.devRef .tc main_c_12) = val_main_c_12 (F := F) := by
  rw [read_nullary ops Ws writes 95 (lt_ops_length (by decide)) W main_c_12 _ ⟨by decide, rfl⟩ rfl (by decide)]
  rfl
theorem st_main_v77 : after (ops (F := F)) W (Proc.devRef .tc main_v77) = val_main_v77 (F := F) := by
  rw [read_unary ops Ws writes 96 (lt_ops_length (by decide)) W main_c_12 main_v77 (broadcastInDim S1250000 ![] bcast_S_S1250000 : (⟨S_, .i32⟩ : BufTy).Contents (Elt F) → (⟨S1250000, .i32⟩ : BufTy).Contents (Elt F)) ⟨by decide, rfl⟩ ⟨by decide, rfl⟩ rfl (by decide) (by decide), st_main_c_12 W]
  rfl
theorem st_main_v78 : after (ops (F := F)) W (Proc.devRef .tc main_v78) = val_main_v78 (F := F) (W (Proc.devRef .tc main_arg1)) := by
  rw [read_binary ops Ws writes 97 (lt_ops_length (by decide)) W main_v1 main_v77 main_v78 (addi : (⟨S1250000, .i32⟩ : BufTy).Contents (Elt F) → (⟨S1250000, .i32⟩ : BufTy).Contents (Elt F) → (⟨S1250000, .i32⟩ : BufTy).Contents (Elt F)) ⟨by decide, rfl⟩ ⟨by decide, rfl⟩ ⟨by decide, rfl⟩ rfl (by decide) (by decide) (by decide), st_main_v1 W, st_main_v77 W]
  rfl
theorem st_main_v79 : after (ops (F := F)) W (Proc.devRef .tc main_v79) = val_main_v79 (F := F) (W (Proc.devRef .tc main_arg1)) := by
  rw [read_ternary ops Ws writes 98 (lt_ops_length (by decide)) W main_v76 main_v78 main_v1 main_v79 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) ⟨by decide, rfl⟩ ⟨by decide, rfl⟩ ⟨by decide, rfl⟩ ⟨by decide, rfl⟩ rfl (by decide) (by decide) (by decide) (by decide), st_main_v76 W, st_main_v78 W, st_main_v1 W]
  rfl
theorem st_main_v80 : after (ops (F := F)) W (Proc.devRef .tc main_v80) = val_main_v80 (F := F) (W (Proc.devRef .tc main_arg1)) := by
  rw [read_unary ops Ws writes 99 (lt_ops_length (by decide)) W main_v79 main_v80 (broadcastInDim S1250000x1 ![0] bcast_S1250000_S1250000x1_0 : (⟨S1250000, .i32⟩ : BufTy).Contents (Elt F) → (⟨S1250000x1, .i32⟩ : BufTy).Contents (Elt F)) ⟨by decide, rfl⟩ ⟨by decide, rfl⟩ rfl (by decide) (by decide), st_main_v79 W]
  rfl
theorem st_main_v81 : after (ops (F := F)) W (Proc.devRef .tc main_v81) = val_main_v81 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [read_binary ops Ws writes 100 (lt_ops_length (by decide)) W main_v74 main_v80 main_v81 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ⟨by decide, rfl⟩ ⟨by decide, rfl⟩ ⟨by decide, rfl⟩ rfl (by decide) (by decide) (by decide), st_main_v74 W, st_main_v80 W]
  rfl
theorem st_main_cst_13 : after (ops (F := F)) W (Proc.devRef .tc main_cst_13) = val_main_cst_13 (F := F) := by
  rw [read_nullary ops Ws writes 101 (lt_ops_length (by decide)) W main_cst_13 _ ⟨by decide, rfl⟩ rfl (by decide)]
  rfl
theorem st_main_v82 : after (ops (F := F)) W (Proc.devRef .tc main_v82) = val_main_v82 (F := F) := by
  rw [read_unary ops Ws writes 102 (lt_ops_length (by decide)) W main_cst_13 main_v82 (broadcastInDim S100000x64 ![] bcast_S_S100000x64 : (⟨S_, .f32⟩ : BufTy).Contents (Elt F) → (⟨S100000x64, .f32⟩ : BufTy).Contents (Elt F)) ⟨by decide, rfl⟩ ⟨by decide, rfl⟩ rfl (by decide) (by decide), st_main_cst_13 W]
  rfl
theorem st_main_v83 : after (ops (F := F)) W (Proc.devRef .tc main_v83) = val_main_v83 (F := F) (W (Proc.devRef .tc main_arg1)) := by
  rw [read_unary ops Ws writes 103 (lt_ops_length (by decide)) W main_v3 main_v83 (broadcastInDim S1250000x1 ![0] bcast_S1250000_S1250000x1_0 : (⟨S1250000, .i32⟩ : BufTy).Contents (Elt F) → (⟨S1250000x1, .i32⟩ : BufTy).Contents (Elt F)) ⟨by decide, rfl⟩ ⟨by decide, rfl⟩ rfl (by decide) (by decide), st_main_v3 W]
  rfl
theorem st_main_v84 : after (ops (F := F)) W (Proc.devRef .tc main_v84) = val_main_v84 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [read_ternary ops Ws writes 104 (lt_ops_length (by decide)) W main_v82 main_v83 main_v81 main_v84 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ⟨by decide, rfl⟩ ⟨by decide, rfl⟩ ⟨by decide, rfl⟩ ⟨by decide, rfl⟩ rfl (by decide) (by decide) (by decide) (by decide), st_main_v82 W, st_main_v83 W, st_main_v81 W]
  rfl
theorem st_main_v85 : after (ops (F := F)) W (Proc.devRef .tc main_v85) = val_main_v85 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [read_binary ops Ws writes 105 (lt_ops_length (by decide)) W main_v74 main_v84 main_v85 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v74 W, st_main_v84 W]
  rfl
theorem st_main_v86 : after (ops (F := F)) W (Proc.devRef .tc main_v86) = val_main_v86 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [read_binary ops Ws writes 106 (lt_ops_length (by decide)) W main_v85 main_arg10 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v85 W, keep_main_arg10 W]
  rfl
theorem st_main_v87 : after (ops (F := F)) W (Proc.devRef .tc main_v87) = val_main_v87 (F := F) (W (Proc.devRef .tc main_arg11)) := by
  rw [read_unary ops Ws writes 107 (lt_ops_length (by decide)) W main_arg11 main_v87 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg11 W]
  rfl
theorem st_main_v88 : after (ops (F := F)) W (Proc.devRef .tc main_v88) = val_main_v88 (F := F) (W (Proc.devRef .tc main_arg11)) := by
  rw [read_unary ops Ws writes 108 (lt_ops_length (by decide)) W main_v87 main_v88 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v87 W]
  rfl
theorem st_main_v89 : after (ops (F := F)) W (Proc.devRef .tc main_v89) = val_main_v89 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 109 (lt_ops_length (by decide)) W main_v86 main_v88 main_v89 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v86 W, st_main_v88 W]
  rfl
theorem st_main_cst_14 : after (ops (F := F)) W (Proc.devRef .tc main_cst_14) = val_main_cst_14 (F := F) := by
  rw [read_nullary ops Ws writes 110 (lt_ops_length (by decide)) W main_cst_14 _ ⟨by decide, rfl⟩ rfl (by decide)]
  rfl
theorem st_main_v90 : after (ops (F := F)) W (Proc.devRef .tc main_v90) = val_main_v90 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 111 (lt_ops_length (by decide)) W main_v89 main_cst_14 main_v90 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v89 W, st_main_cst_14 W]
  rfl
theorem st_main_cst_15 : after (ops (F := F)) W (Proc.devRef .tc main_cst_15) = val_main_cst_15 (F := F) := by
  rw [read_nullary ops Ws writes 112 (lt_ops_length (by decide)) W main_cst_15 _ ⟨by decide, rfl⟩ rfl (by decide)]
  rfl
theorem st_main_v91 : after (ops (F := F)) W (Proc.devRef .tc main_v91) = val_main_v91 (F := F) := by
  rw [read_unary ops Ws writes 113 (lt_ops_length (by decide)) W main_cst_15 main_v91 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_15 W]
  rfl
theorem st_main_v92 : after (ops (F := F)) W (Proc.devRef .tc main_v92) = val_main_v92 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 114 (lt_ops_length (by decide)) W main_v90 main_v91 main_v92 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v90 W, st_main_v91 W]
  rfl
theorem st_main_v93 : after (ops (F := F)) W (Proc.devRef .tc main_v93) = val_main_v93 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 115 (lt_ops_length (by decide)) W main_v92 main_v93 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v92 W]
  rfl
theorem st_main_v94 : after (ops (F := F)) W (Proc.devRef .tc main_v94) = val_main_v94 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 116 (lt_ops_length (by decide)) W main_v93 main_v94 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v93 W]
  rfl
theorem st_main_v95 : after (ops (F := F)) W (Proc.devRef .tc main_v95) = val_main_v95 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 117 (lt_ops_length (by decide)) W main_v89 main_v94 main_v95 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v89 W, st_main_v94 W]
  rfl
theorem st_main_v96 : after (ops (F := F)) W (Proc.devRef .tc main_v96) = val_main_v96 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 118 (lt_ops_length (by decide)) W main_v95 main_v95 main_v96 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v95 W]
  rfl
theorem st_main_cst_16 : after (ops (F := F)) W (Proc.devRef .tc main_cst_16) = val_main_cst_16 (F := F) := by
  rw [read_nullary ops Ws writes 119 (lt_ops_length (by decide)) W main_cst_16 _ ⟨by decide, rfl⟩ rfl (by decide)]
  rfl
theorem st_main_v97 : after (ops (F := F)) W (Proc.devRef .tc main_v97) = val_main_v97 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 120 (lt_ops_length (by decide)) W main_v96 main_cst_16 main_v97 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v96 W, st_main_cst_16 W]
  rfl
theorem st_main_cst_17 : after (ops (F := F)) W (Proc.devRef .tc main_cst_17) = val_main_cst_17 (F := F) := by
  rw [read_nullary ops Ws writes 121 (lt_ops_length (by decide)) W main_cst_17 _ ⟨by decide, rfl⟩ rfl (by decide)]
  rfl
theorem st_main_v98 : after (ops (F := F)) W (Proc.devRef .tc main_v98) = val_main_v98 (F := F) := by
  rw [read_unary ops Ws writes 122 (lt_ops_length (by decide)) W main_cst_17 main_v98 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_17 W]
  rfl
theorem st_main_v99 : after (ops (F := F)) W (Proc.devRef .tc main_v99) = val_main_v99 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 123 (lt_ops_length (by decide)) W main_v97 main_v98 main_v99 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v97 W, st_main_v98 W]
  rfl
theorem st_main_v100 : after (ops (F := F)) W (Proc.devRef .tc main_v100) = val_main_v100 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 124 (lt_ops_length (by decide)) W main_v92 main_v100 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v92 W]
  rfl
theorem st_main_v101 : after (ops (F := F)) W (Proc.devRef .tc main_v101) = val_main_v101 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 125 (lt_ops_length (by decide)) W main_v100 main_v101 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v100 W]
  rfl
theorem st_main_v102 : after (ops (F := F)) W (Proc.devRef .tc main_v102) = val_main_v102 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 126 (lt_ops_length (by decide)) W main_v89 main_v101 main_v102 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v89 W, st_main_v101 W]
  rfl
theorem st_main_cst_18 : after (ops (F := F)) W (Proc.devRef .tc main_cst_18) = val_main_cst_18 (F := F) := by
  rw [read_nullary ops Ws writes 127 (lt_ops_length (by decide)) W main_cst_18 _ ⟨by decide, rfl⟩ rfl (by decide)]
  rfl
theorem st_main_v103 : after (ops (F := F)) W (Proc.devRef .tc main_v103) = val_main_v103 (F := F) := by
  rw [read_unary ops Ws writes 128 (lt_ops_length (by decide)) W main_cst_18 main_v103 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_18 W]
  rfl
theorem st_main_v104 : after (ops (F := F)) W (Proc.devRef .tc main_v104) = val_main_v104 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 129 (lt_ops_length (by decide)) W main_v99 main_v103 main_v104 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v99 W, st_main_v103 W]
  rfl
theorem st_main_v105 : after (ops (F := F)) W (Proc.devRef .tc main_v105) = val_main_v105 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 130 (lt_ops_length (by decide)) W main_v104 main_v105 (Host.rsqrt : (⟨S64, .f32⟩ : BufTy).Contents (Elt F) → (⟨S64, .f32⟩ : BufTy).Contents (Elt F)) ⟨by decide, rfl⟩ ⟨by decide, rfl⟩ rfl (by decide) (by decide), st_main_v104 W]
  rfl
theorem st_main_v106 : after (ops (F := F)) W (Proc.devRef .tc main_v106) = val_main_v106 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 131 (lt_ops_length (by decide)) W main_v105 main_v106 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v105 W]
  rfl
theorem st_main_v107 : after (ops (F := F)) W (Proc.devRef .tc main_v107) = val_main_v107 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_unary ops Ws writes 132 (lt_ops_length (by decide)) W main_v106 main_v107 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v106 W]
  rfl
theorem st_main_v108 : after (ops (F := F)) W (Proc.devRef .tc main_v108) = val_main_v108 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [read_binary ops Ws writes 133 (lt_ops_length (by decide)) W main_v102 main_v107 main_v108 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v102 W, st_main_v107 W]
  rfl
theorem st_main_v109 : after (ops (F := F)) W (Proc.devRef .tc main_v109) = val_main_v109 (F := F) (W (Proc.devRef .tc main_arg12)) := by
  rw [read_unary ops Ws writes 134 (lt_ops_length (by decide)) W main_arg12 main_v109 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg12 W]
  rfl
theorem st_main_v110 : after (ops (F := F)) W (Proc.devRef .tc main_v110) = val_main_v110 (F := F) (W (Proc.devRef .tc main_arg12)) := by
  rw [read_unary ops Ws writes 135 (lt_ops_length (by decide)) W main_v109 main_v110 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v109 W]
  rfl
theorem st_main_v111 : after (ops (F := F)) W (Proc.devRef .tc main_v111) = val_main_v111 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [read_binary ops Ws writes 136 (lt_ops_length (by decide)) W main_v108 main_v110 main_v111 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v108 W, st_main_v110 W]
  rfl
theorem st_main_v112 : after (ops (F := F)) W (Proc.devRef .tc main_v112) = val_main_v112 (F := F) (W (Proc.devRef .tc main_arg13)) := by
  rw [read_unary ops Ws writes 137 (lt_ops_length (by decide)) W main_arg13 main_v112 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg13 W]
  rfl
theorem st_main_v113 : after (ops (F := F)) W (Proc.devRef .tc main_v113) = val_main_v113 (F := F) (W (Proc.devRef .tc main_arg13)) := by
  rw [read_unary ops Ws writes 138 (lt_ops_length (by decide)) W main_v112 main_v113 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v112 W]
  rfl
theorem st_main_v114 : after (ops (F := F)) W (Proc.devRef .tc main_v114) = val_main_v114 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  rw [read_binary ops Ws writes 139 (lt_ops_length (by decide)) W main_v111 main_v113 main_v114 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v111 W, st_main_v113 W]
  rfl
theorem st_main_call2_cst : after (ops (F := F)) W (Proc.devRef .tc main_call2_cst) = val_main_call2_cst (F := F) := by
  rw [read_nullary ops Ws writes 140 (lt_ops_length (by decide)) W main_call2_cst _ ⟨by decide, rfl⟩ rfl (by decide)]
  rfl
theorem st_main_call2_v0 : after (ops (F := F)) W (Proc.devRef .tc main_call2_v0) = val_main_call2_v0 (F := F) := by
  rw [read_unary ops Ws writes 141 (lt_ops_length (by decide)) W main_call2_cst main_call2_v0 ((broadcastInDim S100000x64 ![] bcast_S_S100000x64) : (⟨S_, .f32⟩ : BufTy).Contents (Elt F) → (⟨S100000x64, .f32⟩ : BufTy).Contents (Elt F)) ⟨by decide, rfl⟩ ⟨by decide, rfl⟩ rfl (by decide) (by decide), st_main_call2_cst W]
  rfl
theorem st_main_v115 : after (ops (F := F)) W (Proc.devRef .tc main_v115) = val_main_v115 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  rw [read_binary ops Ws writes 142 (lt_ops_length (by decide)) W main_v114 main_call2_v0 main_v115 (maximumf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v114 W, st_main_call2_v0 W]
  rfl
theorem st_main_v116 : after (ops (F := F)) W (Proc.devRef .tc main_v116) = val_main_v116 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [read_binary ops Ws writes 143 (lt_ops_length (by decide)) W main_v115 main_arg14 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v115 W, keep_main_arg14 W]
  rfl
theorem st_main_v117 : after (ops (F := F)) W (Proc.devRef .tc main_v117) = val_main_v117 (F := F) (W (Proc.devRef .tc main_arg15)) := by
  rw [read_unary ops Ws writes 144 (lt_ops_length (by decide)) W main_arg15 main_v117 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg15 W]
  rfl
theorem st_main_v118 : after (ops (F := F)) W (Proc.devRef .tc main_v118) = val_main_v118 (F := F) (W (Proc.devRef .tc main_arg15)) := by
  rw [read_unary ops Ws writes 145 (lt_ops_length (by decide)) W main_v117 main_v118 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v117 W]
  rfl
theorem st_main_v119 : after (ops (F := F)) W (Proc.devRef .tc main_v119) = val_main_v119 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 146 (lt_ops_length (by decide)) W main_v116 main_v118 main_v119 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v116 W, st_main_v118 W]
  rfl
theorem st_main_cst_19 : after (ops (F := F)) W (Proc.devRef .tc main_cst_19) = val_main_cst_19 (F := F) := by
  rw [read_nullary ops Ws writes 147 (lt_ops_length (by decide)) W main_cst_19 _ ⟨by decide, rfl⟩ rfl (by decide)]
  rfl
theorem st_main_v120 : after (ops (F := F)) W (Proc.devRef .tc main_v120) = val_main_v120 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 148 (lt_ops_length (by decide)) W main_v119 main_cst_19 main_v120 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v119 W, st_main_cst_19 W]
  rfl
theorem st_main_cst_20 : after (ops (F := F)) W (Proc.devRef .tc main_cst_20) = val_main_cst_20 (F := F) := by
  rw [read_nullary ops Ws writes 149 (lt_ops_length (by decide)) W main_cst_20 _ ⟨by decide, rfl⟩ rfl (by decide)]
  rfl
theorem st_main_v121 : after (ops (F := F)) W (Proc.devRef .tc main_v121) = val_main_v121 (F := F) := by
  rw [read_unary ops Ws writes 150 (lt_ops_length (by decide)) W main_cst_20 main_v121 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_20 W]
  rfl
theorem st_main_v122 : after (ops (F := F)) W (Proc.devRef .tc main_v122) = val_main_v122 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 151 (lt_ops_length (by decide)) W main_v120 main_v121 main_v122 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v120 W, st_main_v121 W]
  rfl
theorem st_main_v123 : after (ops (F := F)) W (Proc.devRef .tc main_v123) = val_main_v123 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 152 (lt_ops_length (by decide)) W main_v122 main_v123 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v122 W]
  rfl
theorem st_main_v124 : after (ops (F := F)) W (Proc.devRef .tc main_v124) = val_main_v124 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 153 (lt_ops_length (by decide)) W main_v123 main_v124 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v123 W]
  rfl
theorem st_main_v125 : after (ops (F := F)) W (Proc.devRef .tc main_v125) = val_main_v125 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 154 (lt_ops_length (by decide)) W main_v119 main_v124 main_v125 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v119 W, st_main_v124 W]
  rfl
theorem st_main_v126 : after (ops (F := F)) W (Proc.devRef .tc main_v126) = val_main_v126 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 155 (lt_ops_length (by decide)) W main_v125 main_v125 main_v126 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v125 W]
  rfl
theorem st_main_cst_21 : after (ops (F := F)) W (Proc.devRef .tc main_cst_21) = val_main_cst_21 (F := F) := by
  rw [read_nullary ops Ws writes 156 (lt_ops_length (by decide)) W main_cst_21 _ ⟨by decide, rfl⟩ rfl (by decide)]
  rfl
theorem st_main_v127 : after (ops (F := F)) W (Proc.devRef .tc main_v127) = val_main_v127 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 157 (lt_ops_length (by decide)) W main_v126 main_cst_21 main_v127 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ rfl (by decide) (by decide) (by decide), st_main_v126 W, st_main_cst_21 W]
  rfl
theorem st_main_cst_22 : after (ops (F := F)) W (Proc.devRef .tc main_cst_22) = val_main_cst_22 (F := F) := by
  rw [read_nullary ops Ws writes 158 (lt_ops_length (by decide)) W main_cst_22 _ ⟨by decide, rfl⟩ rfl (by decide)]
  rfl
theorem st_main_v128 : after (ops (F := F)) W (Proc.devRef .tc main_v128) = val_main_v128 (F := F) := by
  rw [read_unary ops Ws writes 159 (lt_ops_length (by decide)) W main_cst_22 main_v128 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_22 W]
  rfl
theorem st_main_v129 : after (ops (F := F)) W (Proc.devRef .tc main_v129) = val_main_v129 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 160 (lt_ops_length (by decide)) W main_v127 main_v128 main_v129 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v127 W, st_main_v128 W]
  rfl
theorem st_main_v130 : after (ops (F := F)) W (Proc.devRef .tc main_v130) = val_main_v130 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 161 (lt_ops_length (by decide)) W main_v122 main_v130 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v122 W]
  rfl
theorem st_main_v131 : after (ops (F := F)) W (Proc.devRef .tc main_v131) = val_main_v131 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 162 (lt_ops_length (by decide)) W main_v130 main_v131 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v130 W]
  rfl
theorem st_main_v132 : after (ops (F := F)) W (Proc.devRef .tc main_v132) = val_main_v132 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 163 (lt_ops_length (by decide)) W main_v119 main_v131 main_v132 (subf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v119 W, st_main_v131 W]
  rfl
theorem st_main_cst_23 : after (ops (F := F)) W (Proc.devRef .tc main_cst_23) = val_main_cst_23 (F := F) := by
  rw [read_nullary ops Ws writes 164 (lt_ops_length (by decide)) W main_cst_23 _ ⟨by decide, rfl⟩ rfl (by decide)]
  rfl
theorem st_main_v133 : after (ops (F := F)) W (Proc.devRef .tc main_v133) = val_main_v133 (F := F) := by
  rw [read_unary ops Ws writes 165 (lt_ops_length (by decide)) W main_cst_23 main_v133 (broadcastInDim S64 ![] bcast_S_S64 : (⟨S_, .f32⟩ : BufTy).Contents (Elt F) → (⟨S64, .f32⟩ : BufTy).Contents (Elt F)) ⟨by decide, rfl⟩ ⟨by decide, rfl⟩ rfl (by decide) (by decide), st_main_cst_23 W]
  rfl
theorem st_main_v134 : after (ops (F := F)) W (Proc.devRef .tc main_v134) = val_main_v134 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 166 (lt_ops_length (by decide)) W main_v129 main_v133 main_v134 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ rfl (by decide) (by decide) (by decide), st_main_v129 W, st_main_v133 W]
  rfl
theorem st_main_v135 : after (ops (F := F)) W (Proc.devRef .tc main_v135) = val_main_v135 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 167 (lt_ops_length (by decide)) W main_v134 main_v135 (Host.rsqrt : (⟨S64, .f32⟩ : BufTy).Contents (Elt F) → (⟨S64, .f32⟩ : BufTy).Contents (Elt F)) ⟨by decide, rfl⟩ ⟨by decide, rfl⟩ rfl (by decide) (by decide), st_main_v134 W]
  rfl
theorem st_main_v136 : after (ops (F := F)) W (Proc.devRef .tc main_v136) = val_main_v136 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 168 (lt_ops_length (by decide)) W main_v135 main_v136 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), st_main_v135 W]
  rfl
theorem st_main_v137 : after (ops (F := F)) W (Proc.devRef .tc main_v137) = val_main_v137 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_unary ops Ws writes 169 (lt_ops_length (by decide)) W main_v136 main_v137 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v136 W]
  rfl
theorem st_main_v138 : after (ops (F := F)) W (Proc.devRef .tc main_v138) = val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [read_binary ops Ws writes 170 (lt_ops_length (by decide)) W main_v132 main_v137 main_v138 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v132 W, st_main_v137 W]
  rfl
theorem st_main_v139 : after (ops (F := F)) W (Proc.devRef .tc main_v139) = val_main_v139 (F := F) (W (Proc.devRef .tc main_arg16)) := by
  rw [read_unary ops Ws writes 171 (lt_ops_length (by decide)) W main_arg16 main_v139 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg16 W]
  rfl
theorem st_main_v140 : after (ops (F := F)) W (Proc.devRef .tc main_v140) = val_main_v140 (F := F) (W (Proc.devRef .tc main_arg16)) := by
  rw [read_unary ops Ws writes 172 (lt_ops_length (by decide)) W main_v139 main_v140 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v139 W]
  rfl
theorem st_main_v141 : after (ops (F := F)) W (Proc.devRef .tc main_v141) = val_main_v141 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [read_binary ops Ws writes 173 (lt_ops_length (by decide)) W main_v138 main_v140 main_v141 (mulf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v138 W, st_main_v140 W]
  rfl
theorem st_main_v142 : after (ops (F := F)) W (Proc.devRef .tc main_v142) = val_main_v142 (F := F) (W (Proc.devRef .tc main_arg17)) := by
  rw [read_unary ops Ws writes 174 (lt_ops_length (by decide)) W main_arg17 main_v142 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ rfl (by decide) (by decide), keep_main_arg17 W]
  rfl
theorem st_main_v143 : after (ops (F := F)) W (Proc.devRef .tc main_v143) = val_main_v143 (F := F) (W (Proc.devRef .tc main_arg17)) := by
  rw [read_unary ops Ws writes 175 (lt_ops_length (by decide)) W main_v142 main_v143 (broadcastInDim S100000x64 ![0, 1] bcast_S1x64_S100000x64_0_1 : (⟨S1x64, .f32⟩ : BufTy).Contents (Elt F) → (⟨S100000x64, .f32⟩ : BufTy).Contents (Elt F)) ⟨by decide, rfl⟩ ⟨by decide, rfl⟩ rfl (by decide) (by decide), st_main_v142 W]
  rfl
theorem st_main_v144 : after (ops (F := F)) W (Proc.devRef .tc main_v144) = val_main_v144 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  rw [read_binary ops Ws writes 176 (lt_ops_length (by decide)) W main_v141 main_v143 main_v144 (addf : (⟨S100000x64, .f32⟩ : BufTy).Contents (Elt F) → (⟨S100000x64, .f32⟩ : BufTy).Contents (Elt F) → (⟨S100000x64, .f32⟩ : BufTy).Contents (Elt F)) ⟨by decide, rfl⟩ ⟨by decide, rfl⟩ ⟨by decide, rfl⟩ rfl (by decide) (by decide) (by decide), st_main_v141 W, st_main_v143 W]
  rfl

end Cert.Proof.RefRun

end
-- ==== Proof.RefRunHand.lean ====
/-
  The reference program's run, assembled from its operations read one at a time.

  The reference's @main is a straight line of host operations, so every weakly fair execution of it terminates and leaves
  in each buffer the fold of the operations over the launch contents. The stage lemmas read that fold at the result
  buffer as the value function of the arguments (each operation's function of its operands' value functions, the
  sharing kept), and at each argument as the argument itself, no operation writing an argument.
-/
import proofs.«129487_j15015205667099_1_alg».proof.Proof.RefRunStages

noncomputable section

namespace Cert.Proof.RefRun

open Cert.ReferenceIdeal Cert.ReferenceIdeal.Gen Cert.ReferenceIdeal.Value Cert.ReferenceIdeal.Read Cert.LibAfter
open Idealize.ShloMosaic Idealize.ShloMosaic.TcCoe Idealize.SL.Sem Idealize.ShloMosaic.StableHlo

/-- On every device, from any memory with zero counters: every weakly fair execution of the reference's @main terminates
    with the result buffer at the value function of the arguments and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v144)
        = Cert.ReferenceIdeal.Read.val_main_v144 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15))
          (m ((c.tc : Thread Cert.ReferenceIdeal.nD Cert.ReferenceIdeal.τ).loc Cert.ReferenceIdeal.main_arg16))
          (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run (Cert.ReferenceIdeal.defs (F := Ideal)) _ _).mono (fun _ h c => ⟨
      (h c Cert.ReferenceIdeal.main_v144).trans (st_main_v144 (launchContents m c)),
      (h c Cert.ReferenceIdeal.main_arg0).trans (keep_main_arg0 (launchContents m c)),
      (h c Cert.ReferenceIdeal.main_arg1).trans (keep_main_arg1 (launchContents m c)),
      (h c Cert.ReferenceIdeal.main_arg2).trans (keep_main_arg2 (launchContents m c)),
      (h c Cert.ReferenceIdeal.main_arg3).trans (keep_main_arg3 (launchContents m c)),
      (h c Cert.ReferenceIdeal.main_arg4).trans (keep_main_arg4 (launchContents m c)),
      (h c Cert.ReferenceIdeal.main_arg5).trans (keep_main_arg5 (launchContents m c)),
      (h c Cert.ReferenceIdeal.main_arg6).trans (keep_main_arg6 (launchContents m c)),
      (h c Cert.ReferenceIdeal.main_arg7).trans (keep_main_arg7 (launchContents m c)),
      (h c Cert.ReferenceIdeal.main_arg8).trans (keep_main_arg8 (launchContents m c)),
      (h c Cert.ReferenceIdeal.main_arg9).trans (keep_main_arg9 (launchContents m c)),
      (h c Cert.ReferenceIdeal.main_arg10).trans (keep_main_arg10 (launchContents m c)),
      (h c Cert.ReferenceIdeal.main_arg11).trans (keep_main_arg11 (launchContents m c)),
      (h c Cert.ReferenceIdeal.main_arg12).trans (keep_main_arg12 (launchContents m c)),
      (h c Cert.ReferenceIdeal.main_arg13).trans (keep_main_arg13 (launchContents m c)),
      (h c Cert.ReferenceIdeal.main_arg14).trans (keep_main_arg14 (launchContents m c)),
      (h c Cert.ReferenceIdeal.main_arg15).trans (keep_main_arg15 (launchContents m c)),
      (h c Cert.ReferenceIdeal.main_arg16).trans (keep_main_arg16 (launchContents m c)),
      (h c Cert.ReferenceIdeal.main_arg17).trans (keep_main_arg17 (launchContents m c))⟩)
    (run_seq scopedRefs_eq scopedSems_eq defs main (fun _ => ops) main_eq (fun _ => ops_sub) m ρ)

end Cert.Proof.RefRun

end
-- ==== Proof.AggFinite.lean ====
/-
  The neighbour aggregation of finite features is finite.

  The aggregation is an accumulating row scatter into an array of zeros: each entry of the result is the zero word plus the
  sum of the update entries that land on it. Every update entry is an entry of a row lookup of the features, hence one of
  the features' own entries. A finite value plus a finite sum of finite values is finite.
-/
import proofs.«129487_j15015205667099_1_alg».proof.Proof.Agg
import proofs.«129487_j15015205667099_1_alg».proof.Proof.LibBatchNorm

noncomputable section

namespace Cert.Proof.Agg

open Idealize.ShloMosaic Cert.ReferenceIdeal.Read Cert.GinSpec Cert.LibBatchNorm

/-- On the extended reals the host's accumulating scatter is the exact one: the entry there plus the sum of the updates that
    land there. Stated over arbitrary shapes. -/
theorem hostScatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

/-- The array scattered into holds the zero word everywhere. -/
theorem isReal_zeros (a : Cert.ReferenceIdeal.S100000x64.Idx) : IsReal (val_main_v11 (F := Ideal) a) := by
  rw [val_main_v11_apply, val_main_cst_apply]
  exact isReal_ofBits_f32_zero

/-- An entry of the row lookup of finite features is one of the features' entries, hence finite. -/
theorem isReal_lookup (e : (⟨Cert.ReferenceIdeal.S2x1250000, .i32⟩ : BufTy).Contents (Elt Ideal)) (X : SN.Idx → EReal)
    (hX : ∀ i, IsReal (X i)) (b : Cert.ReferenceIdeal.S1250000x64.Idx) : IsReal (val_main_v10 (F := Ideal) X e b) := hX _

/-- The aggregation at an index: the zero word there plus the sum of the looked-up entries that the scatter lands there. -/
theorem aggR_apply (e : (⟨Cert.ReferenceIdeal.S2x1250000, .i32⟩ : BufTy).Contents (Elt Ideal)) (X : SN.Idx → EReal) (i : SN.Idx) :
    aggR e X i = Ideal.hostScatterAdd Cert.ReferenceIdeal.scatter_S100000x64_S1250000x1_S1250000x64_1_0_0_1
      (val_main_v11 (F := Ideal)) (val_main_v12 (F := Ideal) e) (val_main_v10 (F := Ideal) X e) i := by
  delta aggR val_main_v13
  rw [hostScatterAdd_ideal]

/-- Every entry of the aggregated neighbours of finite features is finite. -/
theorem isReal_aggR (e : (⟨Cert.ReferenceIdeal.S2x1250000, .i32⟩ : BufTy).Contents (Elt Ideal)) (X : SN.Idx → EReal)
    (hX : ∀ i, IsReal (X i)) : ∀ i, IsReal (aggR e X i) := by
  intro i
  rw [aggR_apply]
  exact isReal_hostScatterAdd _ _ _ _ isReal_zeros (isReal_lookup e X hX) i

end Cert.Proof.Agg

end
-- ==== Proof.lean ====
/-
  A two-layer graph isomorphism network on 100000 nodes with 64 features, as a pipeline of six kernel regions joined by
  host operations, against its plain array-program reference.

  What is claimed, and why it holds:
    * each of the three programs (the kernel program on float words, the same program read at exact arithmetic on the
      extended reals, and the reference read at exact arithmetic) runs to the end without a fault and leaves its
      eighteen argument arrays as they were;
    * reading the kernel program at exact arithmetic rewrote no operation, so nothing is owed for that reading;
    * at exact arithmetic, from memories that agree on the arguments and whose float arguments are all finite, the kernel
      program and the reference end with the same 100000 × 64 array. One layer adds to every node the sum of its
      in-neighbours' features, applies an affine map, normalises every column over all nodes, clamps at zero, applies a
      second affine map and normalises again; the network is a layer, a clamp, a layer. The reference normalises with
      the two-pass column variance; the kernel regions accumulate column sums and sums of squares in one sweep and
      normalise with the one-pass variance. On finite values the two variances are equal, and finiteness is carried
      through every stage from the inputs, so the two networks are the same function of the arguments.
-/
import proofs.«129487_j15015205667099_1_alg».proof.Defs
import proofs.«129487_j15015205667099_1_alg».proof.Proof.Gen.Kernel
import proofs.«129487_j15015205667099_1_alg».proof.Proof.Gen.Kernel.Skeleton
import proofs.«129487_j15015205667099_1_alg».proof.Proof.Gen.Kernel.Launch
import proofs.«129487_j15015205667099_1_alg».proof.Proof.Gen.Kernel.Points
import proofs.«129487_j15015205667099_1_alg».proof.Proof.Gen.Kernel.Frame
import proofs.«129487_j15015205667099_1_alg».proof.Proof.Gen.KernelIdeal
import proofs.«129487_j15015205667099_1_alg».proof.Proof.Gen.KernelIdeal.Skeleton
import proofs.«129487_j15015205667099_1_alg».proof.Proof.Gen.KernelIdeal.Launch
import proofs.«129487_j15015205667099_1_alg».proof.Proof.Gen.KernelIdeal.Points
import proofs.«129487_j15015205667099_1_alg».proof.Proof.Gen.KernelIdeal.Frame
import proofs.«129487_j15015205667099_1_alg».proof.Proof.Gen.ReferenceIdeal
import proofs.«129487_j15015205667099_1_alg».proof.Proof.Gen.Pre_finite_inputs
import Idealize.ShloMosaic.Adequacy
import Idealize.ShloMosaic.Init
import proofs.«129487_j15015205667099_1_alg».proof.Proof.Algebraic
import proofs.«129487_j15015205667099_1_alg».proof.Proof.Chain
import proofs.«129487_j15015205667099_1_alg».proof.Proof.RefRunHand
import proofs.«129487_j15015205667099_1_alg».proof.Proof.AggFinite

noncomputable section

namespace Cert.Proof

open Idealize.ShloMosaic Idealize.SL.Sem

/-- The kernel program on float words runs and keeps its arguments. -/
theorem frame_kernel : Cert.frame_Kernel := fun m ρ _ => Cert.Kernel.Gen.frame m ρ

/-- The kernel program at exact arithmetic runs and keeps its arguments. -/
theorem frame_kernelIdeal : Cert.frame_KernelIdeal := fun m ρ _ => Cert.KernelIdeal.Gen.frame m ρ

/-- At its last segment boundary the kernel program's result array holds the network on the one-pass variance. -/
theorem kernelValue : Claims.KernelValue := fun m ρ c => Cert.KernelIdeal.Chain.W12_v65 m ρ c

/-- The reference runs, its result the composite of its operations, its arguments kept. -/
theorem referenceRun : Claims.ReferenceRun := fun m ρ => Cert.Proof.RefRun.run m ρ

/-- The neighbour aggregation of finite features is finite. -/
theorem aggKeepsFinite : Claims.AggKeepsFinite := fun e X hX => Cert.Proof.Agg.isReal_aggR e X hX

theorem claim : Cert.Claim := ⟨Cert.Kernel.Gen.facts, Cert.KernelIdeal.Gen.facts, Cert.ReferenceIdeal.Gen.facts, Cert.Pre_finite_inputs.Gen.facts,
  frame_kernel, frame_kernelIdeal, Claims.frame_ref referenceRun, trivial, Claims.algebraic kernelValue referenceRun aggKeepsFinite⟩

end Cert.Proof

end
